-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x64 : Shape := ⟨2, ![1024, 64]⟩
abbrev S1x1024x64 : Shape := ⟨3, ![1, 1024, 64]⟩
abbrev S131072x1024 : Shape := ⟨2, ![131072, 1024]⟩
abbrev S64 : Shape := ⟨1, ![64]⟩
abbrev S1024x1024 : Shape := ⟨2, ![1024, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1x1024x64 : S_.BroadcastsInDim S1x1024x64 (![] : Fin 0 → Fin S1x1024x64.rank)
  reducesTo_S1x1024x64_S_d0_1_2 : S1x1024x64.ReducesTo [0, 1, 2] S_
  bcast_S_S131072x1024 : S_.BroadcastsInDim S131072x1024 (![] : Fin 0 → Fin S131072x1024.rank)
  reducesTo_S131072x1024_S_d0_1 : S131072x1024.ReducesTo [0, 1] S_
  bcast_S_S64 : S_.BroadcastsInDim S64 (![] : Fin 0 → Fin S64.rank)
  reducesTo_S64_S_d0 : S64.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_arg9 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S131072x1024 .f32) (main_arg5 : FVec F S64 .f32) (main_arg6 : FVec F S64 .f32) (main_arg7 : FVec F S1024x1024 .f32) (main_arg8 : FVec F S1024 .f32) (main_arg9 : FVec F S1024 .f32) (main_v13 : IVec S_ 1) (main_v16 : IVec S1x1024x64 1) : IVec S_ 1 :=
  let main_c_5 : IVec S_ 1 := constantI S_ 1 1#1
  let main_v17 : IVec S_ 1 := (fun x v => Host.reduce IntOp.andi x v reducesTo_S1x1024x64_S_d0_1_2 h_S_) main_v16 main_c_5
  let main_v18 : IVec S_ 1 := andi main_v13 main_v17
  let main_v19 : FVec F S131072x1024 .f32 := Host.absf main_arg4
  let main_cst_6 : FVec F S_ .f32 := constant S_ .f32 0x7F800000#32
  let main_v20 : FVec F S131072x1024 .f32 := broadcastInDim S131072x1024 ![] bcast_S_S131072x1024 main_cst_6
  let main_v21 : IVec S131072x1024 1 := cmpf .olt main_v19 main_v20
  let main_c_7 : IVec S_ 1 := constantI S_ 1 1#1
  let main_v22 : IVec S_ 1 := (fun x v => Host.reduce IntOp.andi x v reducesTo_S131072x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S32x512x1024 .f32) (main_arg1 : FVec F S1024x64 .f32) (main_arg2 : FVec F S1024x64 .f32) (main_arg3 : FVec F S1x1024x64 .f32) (main_arg4 : FVec F S131072x1024 .f32) (main_arg5 : FVec F S64 .f32) (main_arg6 : FVec F S64 .f32) (main_arg7 : FVec F S1024x1024 .f32) (main_arg8 : FVec F S1024 .f32) (main_arg9 : FVec F S1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1x1024x64 .f32 := Host.absf main_arg3
  let main_cst_4 : FVec F S_ .f32 := constant S_ .f32 0x7F800000#32
  let main_v15 : FVec F S1x1024x64 .f32 := broadcastInDim S1x1024x64 ![] bcast_S_S1x1024x64 main_cst_4
  let main_v16 : IVec S1x1024x64 1 := cmpf .olt main_v14 main_v15
  fn_part1 (F := F) main_arg4 main_arg5 main_arg6 main_arg7 main_arg8 main_arg9 main_v13 main_v16
-- ==== Kernel.lean ====
abbrev S32x512x1024 : Shape := ⟨3, ![32, 512, 1024]⟩
abbrev S1024x64 : Shape := ⟨2, ![1024, 64]⟩
abbrev S1x1024x64 : Shape := ⟨3, ![1, 1024, 64]⟩
abbrev S131072x1024 : Shape := ⟨2, ![131072, 1024]⟩
abbrev S64 : Shape := ⟨1, ![64]⟩
abbrev S1024x1024 : Shape := ⟨2, ![1024, 1024]⟩
abbrev S1024 : Shape := ⟨1, ![1024]⟩
abbrev S16384x1024 : Shape := ⟨2, ![16384, 1024]⟩
abbrev S16384x64 : Shape := ⟨2, ![16384, 64]⟩
abbrev S2048x1024 : Shape := ⟨2, ![2048, 1024]⟩
abbrev S2048x64 : Shape := ⟨2, ![2048, 64]⟩
abbrev S_ : Shape := ⟨0, ![]⟩
abbrev S1x64 : Shape := ⟨2, ![1, 64]⟩
abbrev S16384 : Shape := ⟨1, ![16384]⟩
abbrev S16384x1 : Shape := ⟨2, ![16384, 1]⟩
abbrev S32x512x64 : Shape := ⟨3, ![32, 512, 64]⟩
abbrev S32x1024x64 : Shape := ⟨3, ![32, 1024, 64]⟩
abbrev S1x512x1024 : Shape := ⟨3, ![1, 512, 1024]⟩
abbrev S1x512x64 : Shape := ⟨3, ![1, 512, 64]⟩
abbrev S512x1024 : Shape := ⟨2, ![512, 1024]⟩
abbrev S512x64 : Shape := ⟨2, ![512, 64]⟩
abbrev S1 : Shape := ⟨1, ![1]⟩
abbrev S1x1 : Shape := ⟨2, ![1, 1]⟩
abbrev S32x65536 : Shape := ⟨2, ![32, 65536]⟩
abbrev S32x131072 : Shape := ⟨2, ![32, 131072]⟩
abbrev S32x1024 : Shape := ⟨2, ![32, 1024]⟩
abbrev S32x2048 : Shape := ⟨2, ![32, 2048]⟩
abbrev S2048x512 : Shape := ⟨2, ![2048, 512]⟩
abbrev S32x512 : Shape := ⟨2, ![32, 512]⟩
abbrev S1x1024 : Shape := ⟨2, ![1, 1024]⟩

abbrev nBuf : Space → Nat
  | .hbm => 136
  | .vmem => 22
  | .smem => 0
  | _ => 0

abbrev hbmTy0_0 (i : Nat) : BufTy := match i % 128 with
  | 0 => ⟨S32x512x1024, .f32⟩
  | 1 => ⟨S1024x64, .f32⟩
  | 2 => ⟨S1024x64, .f32⟩
  | 3 => ⟨S1x1024x64, .f32⟩
  | 4 => ⟨S131072x1024, .f32⟩
  | 5 => ⟨S64, .f32⟩
  | 6 => ⟨S64, .f32⟩
  | 7 => ⟨S1024x1024, .f32⟩
  | 8 => ⟨S1024, .f32⟩
  | 9 => ⟨S1024, .f32⟩
  | 10 => ⟨S16384x1024, .f32⟩
  | 11 => ⟨S16384x64, .f32⟩
  | 12 => ⟨S_, .f32⟩
  | 13 => ⟨S64, .f32⟩
  | 14 => ⟨S_, .f32⟩
  | 15 => ⟨S64, .f32⟩
  | 16 => ⟨S64, .f32⟩
  | 17 => ⟨S_, .i32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S16384x64, .f32⟩
  | 25 => ⟨S16384x64, .f32⟩
  | 26 => ⟨S16384x64, .f32⟩
  | 27 => ⟨S_, .f32⟩
  | 28 => ⟨S_, .f32⟩
  | 29 => ⟨S_, .f32⟩
  | 30 => ⟨S_, .f32⟩
  | 31 => ⟨S64, .f32⟩
  | 32 => ⟨S64, .f32⟩
  | 33 => ⟨S64, .f32⟩
  | 34 => ⟨S_, .f32⟩
  | 35 => ⟨S_, .i1⟩
  | 36 => ⟨S_, .f32⟩
  | 37 => ⟨S_, .f32⟩
  | 38 => ⟨S64, .f32⟩
  | 39 => ⟨S64, .f32⟩
  | 40 => ⟨S1x64, .f32⟩
  | 41 => ⟨S16384x64, .f32⟩
  | 42 => ⟨S16384x64, .f32⟩
  | 43 => ⟨S_, .f32⟩
  | 44 => ⟨S64, .f32⟩
  | 45 => ⟨S64, .f32⟩
  | 46 => ⟨S64, .f32⟩
  | 47 => ⟨S1x64, .f32⟩
  | 48 => ⟨S16384x64, .f32⟩
  | 49 => ⟨S16384x64, .f32⟩
  | 50 => ⟨S1x64, .f32⟩
  | 51 => ⟨S16384x64, .f32⟩
  | 52 => ⟨S16384x64, .f32⟩
  | 53 => ⟨S1x64, .f32⟩
  | 54 => ⟨S16384x64, .f32⟩
  | 55 => ⟨S16384x64, .f32⟩
  | 56 => ⟨S_, .f32⟩
  | 57 => ⟨S16384, .f32⟩
  | 58 => ⟨S_, .f32⟩
  | 59 => ⟨S16384, .f32⟩
  | 60 => ⟨S16384, .f32⟩
  | 61 => ⟨S16384x1, .f32⟩
  | 62 => ⟨S16384x64, .f32⟩
  | 63 => ⟨S16384x64, .f32⟩
  | 64 => ⟨S16384x64, .f32⟩
  | 65 => ⟨S_, .f32⟩
  | 66 => ⟨S16384, .f32⟩
  | 67 => ⟨S16384x1, .f32⟩
  | 68 => ⟨S16384x64, .f32⟩
  | 69 => ⟨S16384x64, .f32⟩
  | 70 => ⟨S32x512x64, .f32⟩
  | 71 => ⟨S1024x64, .f32⟩
  | 72 => ⟨S_, .f32⟩
  | 73 => ⟨S1024x64, .f32⟩
  | 74 => ⟨S1024x64, .f32⟩
  | 75 => ⟨S1024x64, .f32⟩
  | 76 => ⟨S32x1024x64, .f32⟩
  | 77 => ⟨S32x1024x64, .f32⟩
  | 78 => ⟨S32x65536, .f32⟩
  | 79 => ⟨S32x65536, .f32⟩
  | 80 => ⟨S32x131072, .f32⟩
  | 81 => ⟨S32x1024, .f32⟩
  | 82 => ⟨S32x1024, .f32⟩
  | 83 => ⟨S_, .f32⟩
  | 84 => ⟨S1024, .f32⟩
  | 85 => ⟨S_, .f32⟩
  | 86 => ⟨S1024, .f32⟩
  | 87 => ⟨S1024, .f32⟩
  | 88 => ⟨S_, .i32⟩
  | 89 => ⟨S_, .f32⟩
  | 90 => ⟨S1024, .f32⟩
  | 91 => ⟨S1x1024, .f32⟩
  | 92 => ⟨S_, .f32⟩
  | 93 => ⟨S1x1024, .f32⟩
  | 94 => ⟨S1x1024, .f32⟩
  | 95 => ⟨S32x1024, .f32⟩
  | 96 => ⟨S32x1024, .f32⟩
  | 97 => ⟨S32x1024, .f32⟩
  | 98 => ⟨S_, .f32⟩
  | 99 => ⟨S_, .f32⟩
  | 100 => ⟨S_, .f32⟩
  | 101 => ⟨S_, .f32⟩
  | 102 => ⟨S1024, .f32⟩
  | 103 => ⟨S1024, .f32⟩
  | 104 => ⟨S1024, .f32⟩
  | 105 => ⟨S_, .f32⟩
  | 106 => ⟨S_, .i1⟩
  | 107 => ⟨S_, .f32⟩
  | 108 => ⟨S_, .f32⟩
  | 109 => ⟨S1024, .f32⟩
  | 110 => ⟨S1024, .f32⟩
  | 111 => ⟨S1x1024, .f32⟩
  | 112 => ⟨S32x1024, .f32⟩
  | 113 => ⟨S32x1024, .f32⟩
  | 114 => ⟨S_, .f32⟩
  | 115 => ⟨S1024, .f32⟩
  | 116 => ⟨S1024, .f32⟩
  | 117 => ⟨S1024, .f32⟩
  | 118 => ⟨S1x1024, .f32⟩
  | 119 => ⟨S32x1024, .f32⟩
  | 120 => ⟨S32x1024, .f32⟩
  | 121 => ⟨S1x1024, .f32⟩
  | 122 => ⟨S32x1024, .f32⟩
  | 123 => ⟨S32x1024, .f32⟩
  | 124 => ⟨S1x1024, .f32⟩
  | 125 => ⟨S32x1024, .f32⟩
  | 126 => ⟨S32x1024, .f32⟩
  | 127 => ⟨S32x1024, .f32⟩
  | _ => ⟨S32x512x1024, .f32⟩

abbrev hbmTy0_1 (i : Nat) : BufTy := match i % 128 with
  | 0 => ⟨S32x1024, .f32⟩
  | 1 => ⟨S_, .f32⟩
  | 2 => ⟨S32x1024, .f32⟩
  | 3 => ⟨S32x1024, .f32⟩
  | 4 => ⟨S_, .f32⟩
  | 5 => ⟨S32x1024, .f32⟩
  | 6 => ⟨S32x1024, .f32⟩
  | 7 => ⟨S32x1024, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S2048x64, .f32⟩
  | .local _ .vmem, ⟨4, _⟩ => ⟨S2048x64, .f32⟩
  | .local _ .vmem, ⟨5, _⟩ => ⟨S1x512x1024, .f32⟩
  | .local _ .vmem, ⟨6, _⟩ => ⟨S1x512x1024, .f32⟩
  | .local _ .vmem, ⟨7, _⟩ => ⟨S1x512x64, .f32⟩
  | .local _ .vmem, ⟨8, _⟩ => ⟨S1x512x64, .f32⟩
  | .local _ .vmem, ⟨9, _⟩ => ⟨S1024x64, .f32⟩
  | .local _ .vmem, ⟨10, _⟩ => ⟨S1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | .local _ .vmem, ⟨14, _⟩ => ⟨S1x1024x64, .f32⟩
  | .local _ .vmem, ⟨15, _⟩ => ⟨S32x2048, .f32⟩
  | .local _ .vmem, ⟨16, _⟩ => ⟨S32x2048, .f32⟩
  | .local _ .vmem, ⟨17, _⟩ => ⟨S2048x512, .f32⟩
  | .local _ .vmem, ⟨18, _⟩ => ⟨S2048x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_2 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37_0 : Ref sig .tc := ⟨.hbm, 76, rfl⟩
abbrev main_v37_1 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_6 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_v45 : Ref sig .tc := ⟨.hbm, 87, rfl⟩
abbrev main_c_8 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_cst_3 : Ref sig .tc := ⟨.hbm, 105, rfl⟩
abbrev main_call1_v12 : Ref sig .tc := ⟨.hbm, 106, rfl⟩
abbrev main_call1_cst_4 : Ref sig .tc := ⟨.hbm, 107, rfl⟩
abbrev main_call1_call0_v0 : Ref sig .tc := ⟨.hbm, 108, rfl⟩
abbrev main_call1_call0_v1 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_9 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst_10 : Ref sig .tc := ⟨.hbm, 129, rfl⟩
abbrev main_v64 : Ref sig .tc := ⟨.hbm, 130, rfl⟩
abbrev main_v65 : Ref sig .tc := ⟨.hbm, 131, rfl⟩
abbrev main_cst_11 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 64], ![false, false]⟩

def k2_cond2 (i : grid2.Coords) : BitVec 1 :=
  let arg1 : BitVec 32 := BitVec.ofNat 32 (i 1).val
  let c63_i32 : BitVec 32 := 63#32
  let v14 : BitVec 1 := Scalar.cmpi .eq arg1 c63_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S32x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S32x512x1024_S16384x1024 : S32x512x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S16384x64_0_1 : S1x64.BroadcastsInDim S16384x64 (![0, 1] : Fin 2 → Fin S16384x64.rank)
  reducesTo_S16384x64_S16384_d1 : S16384x64.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  shapeCasts_S16384x64_S32x512x64 : S16384x64.ShapeCasts S32x512x64
  bcast_S_S1024x64 : S_.BroadcastsInDim S1024x64 (![] : Fin 0 → Fin S1024x64.rank)
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S1024x64_S1024x64 : S1024x64.ShapeCasts S1024x64
  reduces_S512x64_S64 : S512x64.Reduces [0] S64
  shapeCasts_S64_S1x64 : S64.ShapeCasts S1x64
  broadcasts_S1x64_S1024x64 : S1x64.Broadcasts S1024x64
  reduces_S1024x64_S64 : S1024x64.Reduces [0] S64
  reduces_S1x64_S1 : S1x64.Reduces [1] S1
  shapeCasts_S1_S1x1 : S1.ShapeCasts S1x1
  broadcasts_S1x1_S1024x64 : S1x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1024x64_S1x1024x64 : S1024x64.ShapeCasts S1x1024x64
  shapeCasts_S32x1024x64_S32x65536 : S32x1024x64.ShapeCasts S32x65536
  concatenates_S32x65536_S32x65536_S32x131072_d1 : Shape.Concatenates [S32x65536, S32x65536] S32x131072 1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S2048x512_S2048x512_0_0 : ∀ a, (![0, 0] : Fin 2 → Nat) a + S2048x512.size a ≤ S2048x512.size a
  h_S2048x512 : 0 < S2048x512.numel
  reducesTo_S32x1024_S1024_d0 : S32x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  dot_S2048x1024_S1024x64_S2048x64_1_0_0_1_n_n_wf : DotDims.WF S2048x1024 S1024x64 S2048x64 [1] [0] [0] [1] [] []
  dot_S512x1024_S512x64_S1024x64_0_0_1_1_n_n_wf : DotDims.WF S512x1024 S512x64 S1024x64 [0] [0] [1] [1] [] []
  dot_S32x2048_S2048x512_S32x512_1_0_0_1_n_n_wf : DotDims.WF S32x2048 S2048x512 S32x512 [1] [0] [0] [1] [] []
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x512x1024.size a
  hwx1_0 : ∀ i : grid1.Coords, EltTy.bits .f32 = 32 ∨ (Rect.block (s := S32x512x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x512x64.size a
  hwx1_1 : ∀ i : grid1.Coords, EltTy.bits .f32 = 32 ∨ (Rect.block (s := S32x512x64) S1x512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .f32 = 32 ∨ (Rect.block (s := S1024x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S32x1024x64.size a
  hwx1_4 : ∀ i : grid1.Coords, EltTy.bits .f32 = 32 ∨ (Rect.block (s := S32x1024x64) S1x1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x64.size a ≤ S32x1024x64.size a
  hwx1_5 : ∀ i : grid1.Coords, EltTy.bits .f32 = 32 ∨ (Rect.block (s := S32x1024x64) S1x1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x2048.size a ≤ S32x131072.size a
  hwx2_0 : ∀ i : grid2.Coords, EltTy.bits .f32 = 32 ∨ (Rect.block (s := S32x131072) S32x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S131072x1024.size a
  hwx2_1 : ∀ i : grid2.Coords, EltTy.bits .f32 = 32 ∨ (Rect.block (s := S131072x1024) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x512.size a ≤ S32x1024.size a
  hwx2_2 : ∀ i : grid2.Coords, EltTy.bits .f32 = 32 ∨ (Rect.block (s := S32x1024) S32x512.size (cc2_transform_2 i) (hinb2_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x1024_S512x64_S1024x64_0_0_1_1_n_n : DotDims S512x1024 S512x64 S1024x64 where
  lhsContracting := [0]
  rhsContracting := [0]
  lhsNonContracting := [1]
  rhsNonContracting := [1]
  lhsBatch := []
  rhsBatch := []
  wf := dot_S512x1024_S512x64_S1024x64_0_0_1_1_n_n_wf
def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37_0) S1x1024x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_1) S1x1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S32x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S32x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S32x512x1024 : Shape := ⟨3, ![32, 512, 1024]⟩
abbrev S1024x64 : Shape := ⟨2, ![1024, 64]⟩
abbrev S1x1024x64 : Shape := ⟨3, ![1, 1024, 64]⟩
abbrev S131072x1024 : Shape := ⟨2, ![131072, 1024]⟩
abbrev S64 : Shape := ⟨1, ![64]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩
abbrev S32x512x64 : Shape := ⟨3, ![32, 512, 64]⟩
abbrev S32x64 : Shape := ⟨2, ![32, 64]⟩
abbrev S32x1x64 : Shape := ⟨3, ![32, 1, 64]⟩
abbrev S32x1024x64 : Shape := ⟨3, ![32, 1024, 64]⟩
abbrev S32x65536 : Shape := ⟨2, ![32, 65536]⟩
abbrev S32 : Shape := ⟨1, ![32]⟩
abbrev S32x1 : Shape := ⟨2, ![32, 1]⟩
abbrev S32x131072 : Shape := ⟨2, ![32, 131072]⟩
abbrev S32x1024 : Shape := ⟨2, ![32, 1024]⟩
abbrev S1x1024 : Shape := ⟨2, ![1, 1024]⟩

abbrev nBuf : Space → Nat
  | .hbm => 203
  | .vmem => 0
  | .smem => 0
  | _ => 0

abbrev hbmTy0_0 (i : Nat) : BufTy := match i % 128 with
  | 0 => ⟨S32x512x1024, .f32⟩
  | 1 => ⟨S1024x64, .f32⟩
  | 2 => ⟨S1024x64, .f32⟩
  | 3 => ⟨S1x1024x64, .f32⟩
  | 4 => ⟨S131072x1024, .f32⟩
  | 5 => ⟨S64, .f32⟩
  | 6 => ⟨S64, .f32⟩
  | 7 => ⟨S1024x1024, .f32⟩
  | 8 => ⟨S1024, .f32⟩
  | 9 => ⟨S1024, .f32⟩
  | 10 => ⟨S16384x1024, .f32⟩
  | 11 => ⟨S1024x64, .f32⟩
  | 12 => ⟨S_, .f32⟩
  | 13 => ⟨S1024x64, .f32⟩
  | 14 => ⟨S1024x64, .f32⟩
  | 15 => ⟨S16384x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S16384x64, .f32⟩
  | 29 => ⟨S16384x64, .f32⟩
  | 30 => ⟨S16384x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S16384x64, .f32⟩
  | 46 => ⟨S16384x64, .f32⟩
  | 47 => ⟨S_, .f32⟩
  | 48 => ⟨S64, .f32⟩
  | 49 => ⟨S64, .f32⟩
  | 50 => ⟨S64, .f32⟩
  | 51 => ⟨S1x64, .f32⟩
  | 52 => ⟨S16384x64, .f32⟩
  | 53 => ⟨S16384x64, .f32⟩
  | 54 => ⟨S1x64, .f32⟩
  | 55 => ⟨S16384x64, .f32⟩
  | 56 => ⟨S16384x64, .f32⟩
  | 57 => ⟨S1x64, .f32⟩
  | 58 => ⟨S16384x64, .f32⟩
  | 59 => ⟨S16384x64, .f32⟩
  | 60 => ⟨S_, .f32⟩
  | 61 => ⟨S16384, .f32⟩
  | 62 => ⟨S_, .f32⟩
  | 63 => ⟨S16384, .f32⟩
  | 64 => ⟨S16384, .f32⟩
  | 65 => ⟨S16384x1, .f32⟩
  | 66 => ⟨S16384x64, .f32⟩
  | 67 => ⟨S16384x64, .f32⟩
  | 68 => ⟨S16384x64, .f32⟩
  | 69 => ⟨S_, .f32⟩
  | 70 => ⟨S16384, .f32⟩
  | 71 => ⟨S16384x1, .f32⟩
  | 72 => ⟨S16384x64, .f32⟩
  | 73 => ⟨S16384x64, .f32⟩
  | 74 => ⟨S32x512x64, .f32⟩
  | 75 => ⟨S_, .f32⟩
  | 76 => ⟨S32x64, .f32⟩
  | 77 => ⟨S32x1x64, .f32⟩
  | 78 => ⟨S32x1024x64, .f32⟩
  | 79 => ⟨S32x1024x64, .f32⟩
  | 80 => ⟨S32x1024x64, .f32⟩
  | 81 => ⟨S32x1024x64, .f32⟩
  | 82 => ⟨S1x1024x64, .f32⟩
  | 83 => ⟨S32x1024x64, .f32⟩
  | 84 => ⟨S32x1024x64, .f32⟩
  | 85 => ⟨S32x1024x64, .f32⟩
  | 86 => ⟨S32x1024x64, .f32⟩
  | 87 => ⟨S32x1024x64, .f32⟩
  | 88 => ⟨S32x512x1024, .f32⟩
  | 89 => ⟨S32x1024x64, .f32⟩
  | 90 => ⟨S32x1024x64, .f32⟩
  | 91 => ⟨S_, .f32⟩
  | 92 => ⟨S32x1024x64, .f32⟩
  | 93 => ⟨S32x1024x64, .f32⟩
  | 94 => ⟨S32x1024x64, .f32⟩
  | 95 => ⟨S1024x64, .f32⟩
  | 96 => ⟨S1x1024x64, .f32⟩
  | 97 => ⟨S32x1024x64, .f32⟩
  | 98 => ⟨S32x1024x64, .f32⟩
  | 99 => ⟨S32x1024x64, .f32⟩
  | 100 => ⟨S32x1024x64, .f32⟩
  | 101 => ⟨S32x65536, .f32⟩
  | 102 => ⟨S32x65536, .f32⟩
  | 103 => ⟨S_, .f32⟩
  | 104 => ⟨S32, .f32⟩
  | 105 => ⟨S32x1, .f32⟩
  | 106 => ⟨S32x1, .f32⟩
  | 107 => ⟨S_, .f32⟩
  | 108 => ⟨S32x1, .f32⟩
  | 109 => ⟨S32x1, .f32⟩
  | 110 => ⟨S32x65536, .f32⟩
  | 111 => ⟨S32x65536, .f32⟩
  | 112 => ⟨S32x65536, .f32⟩
  | 113 => ⟨S_, .f32⟩
  | 114 => ⟨S32, .f32⟩
  | 115 => ⟨S32x1, .f32⟩
  | 116 => ⟨S32x1, .f32⟩
  | 117 => ⟨S_, .f32⟩
  | 118 => ⟨S32x1, .f32⟩
  | 119 => ⟨S32x1, .f32⟩
  | 120 => ⟨S32x65536, .f32⟩
  | 121 => ⟨S32x65536, .f32⟩
  | 122 => ⟨S32x1024x64, .f32⟩
  | 123 => ⟨S1x1024x64, .f32⟩
  | 124 => ⟨S32x1024x64, .f32⟩
  | 125 => ⟨S32x1024x64, .f32⟩
  | 126 => ⟨S32x1024x64, .f32⟩
  | 127 => ⟨S_, .f32⟩
  | _ => ⟨S32x512x1024, .f32⟩

abbrev hbmTy0_1 (i : Nat) : BufTy := match i % 128 with
  | 0 => ⟨S32x64, .f32⟩
  | 1 => ⟨S32x1x64, .f32⟩
  | 2 => ⟨S32x1x64, .f32⟩
  | 3 => ⟨S_, .f32⟩
  | 4 => ⟨S32x1x64, .f32⟩
  | 5 => ⟨S32x1x64, .f32⟩
  | 6 => ⟨S32x1024x64, .f32⟩
  | 7 => ⟨S32x1024x64, .f32⟩
  | 8 => ⟨S32x65536, .f32⟩
  | 9 => ⟨S32x65536, .f32⟩
  | 10 => ⟨S_, .f32⟩
  | 11 => ⟨S32, .f32⟩
  | 12 => ⟨S32x1, .f32⟩
  | 13 => ⟨S32x1, .f32⟩
  | 14 => ⟨S_, .f32⟩
  | 15 => ⟨S32x1, .f32⟩
  | 16 => ⟨S32x1, .f32⟩
  | 17 => ⟨S32x65536, .f32⟩
  | 18 => ⟨S32x65536, .f32⟩
  | 19 => ⟨S32x131072, .f32⟩
  | 20 => ⟨S32x1024, .f32⟩
  | 21 => ⟨S32x1024, .f32⟩
  | 22 => ⟨S_, .f32⟩
  | 23 => ⟨S1024, .f32⟩
  | 24 => ⟨S_, .f32⟩
  | 25 => ⟨S1024, .f32⟩
  | 26 => ⟨S1024, .f32⟩
  | 27 => ⟨S_, .i32⟩
  | 28 => ⟨S_, .f32⟩
  | 29 => ⟨S1024, .f32⟩
  | 30 => ⟨S1x1024, .f32⟩
  | 31 => ⟨S_, .f32⟩
  | 32 => ⟨S1x1024, .f32⟩
  | 33 => ⟨S1x1024, .f32⟩
  | 34 => ⟨S32x1024, .f32⟩
  | 35 => ⟨S32x1024, .f32⟩
  | 36 => ⟨S32x1024, .f32⟩
  | 37 => ⟨S_, .f32⟩
  | 38 => ⟨S_, .f32⟩
  | 39 => ⟨S_, .f32⟩
  | 40 => ⟨S_, .f32⟩
  | 41 => ⟨S1024, .f32⟩
  | 42 => ⟨S1024, .f32⟩
  | 43 => ⟨S1024, .f32⟩
  | 44 => ⟨S_, .f32⟩
  | 45 => ⟨S_, .i1⟩
  | 46 => ⟨S_, .f32⟩
  | 47 => ⟨S_, .f32⟩
  | 48 => ⟨S1024, .f32⟩
  | 49 => ⟨S1024, .f32⟩
  | 50 => ⟨S1x1024, .f32⟩
  | 51 => ⟨S32x1024, .f32⟩
  | 52 => ⟨S32x1024, .f32⟩
  | 53 => ⟨S_, .f32⟩
  | 54 => ⟨S1024, .f32⟩
  | 55 => ⟨S1024, .f32⟩
  | 56 => ⟨S1024, .f32⟩
  | 57 => ⟨S1x1024, .f32⟩
  | 58 => ⟨S32x1024, .f32⟩
  | 59 => ⟨S32x1024, .f32⟩
  | 60 => ⟨S1x1024, .f32⟩
  | 61 => ⟨S32x1024, .f32⟩
  | 62 => ⟨S32x1024, .f32⟩
  | 63 => ⟨S1x1024, .f32⟩
  | 64 => ⟨S32x1024, .f32⟩
  | 65 => ⟨S32x1024, .f32⟩
  | 66 => ⟨S32x1024, .f32⟩
  | 67 => ⟨S32x1024, .f32⟩
  | 68 => ⟨S_, .f32⟩
  | 69 => ⟨S32x1024, .f32⟩
  | 70 => ⟨S32x1024, .f32⟩
  | 71 => ⟨S_, .f32⟩
  | 72 => ⟨S32x1024, .f32⟩
  | 73 => ⟨S32x1024, .f32⟩
  | 74 => ⟨S32x1024, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_cst_4 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_6 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_8 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_10 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_11 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_12 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_13 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_14 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_15 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_16 : Ref sig .tc := ⟨.hbm, 150, rfl⟩
abbrev main_v101 : Ref sig .tc := ⟨.hbm, 151, rfl⟩
abbrev main_cst_17 : Ref sig .tc := ⟨.hbm, 152, rfl⟩
abbrev main_v102 : Ref sig .tc := ⟨.hbm, 153, rfl⟩
abbrev main_v103 : Ref sig .tc := ⟨.hbm, 154, rfl⟩
abbrev main_c_18 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_cst_0 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_call1_v5 : Ref sig .tc := ⟨.hbm, 163, rfl⟩
abbrev main_call1_v6 : Ref sig .tc := ⟨.hbm, 164, rfl⟩
abbrev main_call1_v7 : Ref sig .tc := ⟨.hbm, 165, rfl⟩
abbrev main_call1_cst_1 : Ref sig .tc := ⟨.hbm, 166, rfl⟩
abbrev main_call1_v8 : Ref sig .tc := ⟨.hbm, 167, rfl⟩
abbrev main_call1_cst_2 : Ref sig .tc := ⟨.hbm, 168, rfl⟩
abbrev main_call1_v9 : Ref sig .tc := ⟨.hbm, 169, rfl⟩
abbrev main_call1_v10 : Ref sig .tc := ⟨.hbm, 170, rfl⟩
abbrev main_call1_v11 : Ref sig .tc := ⟨.hbm, 171, rfl⟩
abbrev main_call1_cst_3 : Ref sig .tc := ⟨.hbm, 172, rfl⟩
abbrev main_call1_v12 : Ref sig .tc := ⟨.hbm, 173, rfl⟩
abbrev main_call1_cst_4 : Ref sig .tc := ⟨.hbm, 174, rfl⟩
abbrev main_call1_call0_v0 : Ref sig .tc := ⟨.hbm, 175, rfl⟩
abbrev main_call1_call0_v1 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_19 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_20 : Ref sig .tc := ⟨.hbm, 196, rfl⟩
abbrev main_v122 : Ref sig .tc := ⟨.hbm, 197, rfl⟩
abbrev main_v123 : Ref sig .tc := ⟨.hbm, 198, rfl⟩
abbrev main_cst_21 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩

abbrev nD : Nat := 1
abbrev τ : Topo := Topo.v7x

variable {F : FTy → Type} [FloatOps F]

class Facts₀ : Prop where
  shapeCasts_S32x512x1024_S16384x1024 : S32x512x1024.ShapeCasts S16384x1024
  bcast_S_S1024x64 : S_.BroadcastsInDim S1024x64 (![] : Fin 0 → Fin S1024x64.rank)
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S16384x64_0_1 : S1x64.BroadcastsInDim S16384x64 (![0, 1] : Fin 2 → Fin S16384x64.rank)
  reducesTo_S16384x64_S16384_d1 : S16384x64.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  shapeCasts_S16384x64_S32x512x64 : S16384x64.ShapeCasts S32x512x64
  reducesTo_S32x512x64_S32x64_d1 : S32x512x64.ReducesTo [1] S32x64
  bcast_S32x64_S32x1x64_0_2 : S32x64.BroadcastsInDim S32x1x64 (![0, 2] : Fin 2 → Fin S32x1x64.rank)
  bcast_S32x1x64_S32x1024x64_0_1_2 : S32x1x64.BroadcastsInDim S32x1024x64 (![0, 1, 2] : Fin 3 → Fin S32x1024x64.rank)
  bcast_S1x1024x64_S32x1024x64_0_1_2 : S1x1024x64.BroadcastsInDim S32x1024x64 (![0, 1, 2] : Fin 3 → Fin S32x1024x64.rank)
  bcast_S_S32x1024x64 : S_.BroadcastsInDim S32x1024x64 (![] : Fin 0 → Fin S32x1024x64.rank)
  bcast_S1024x64_S1x1024x64_1_2 : S1024x64.BroadcastsInDim S1x1024x64 (![1, 2] : Fin 2 → Fin S1x1024x64.rank)
  shapeCasts_S32x1024x64_S32x65536 : S32x1024x64.ShapeCasts S32x65536
  reducesTo_S32x65536_S32_d1 : S32x65536.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x65536_0_1 : S32x1.BroadcastsInDim S32x65536 (![0, 1] : Fin 2 → Fin S32x65536.rank)
  reducesTo_S32x1024x64_S32x64_d1 : S32x1024x64.ReducesTo [1] S32x64
  bcast_S_S32x1x64 : S_.BroadcastsInDim S32x1x64 (![] : Fin 0 → Fin S32x1x64.rank)
  concatenates_S32x65536_S32x65536_S32x131072_d1 : Shape.Concatenates [S32x65536, S32x65536] S32x131072 1
  reducesTo_S32x1024_S1024_d0 : S32x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  dot_S16384x1024_S1024x64_S16384x64_1_0_0_1_n_n_wf : DotDims.WF S16384x1024 S1024x64 S16384x64 [1] [0] [0] [1] [] []
  dot_S32x512x1024_S32x512x64_S32x1024x64_1_1_2_2_0_0_wf : DotDims.WF S32x512x1024 S32x512x64 S32x1024x64 [1] [1] [2] [2] [0] [0]
  dot_S32x131072_S131072x1024_S32x1024_1_0_0_1_n_n_wf : DotDims.WF S32x131072 S131072x1024 S32x1024 [1] [0] [0] [1] [] []
  dot_S32x1024_S1024x1024_S32x1024_1_0_0_1_n_n_wf : DotDims.WF S32x1024 S1024x1024 S32x1024 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S32x512x1024_S32x512x64_S32x1024x64_1_1_2_2_0_0 : DotDims S32x512x1024 S32x512x64 S32x1024x64 where
  lhsContracting := [1]
  rhsContracting := [1]
  lhsNonContracting := [2]
  rhsNonContracting := [2]
  lhsBatch := [0]
  rhsBatch := [0]
  wf := dot_S32x512x1024_S32x512x64_S32x1024x64_1_1_2_2_0_0_wf
def dot_S32x131072_S131072x1024_S32x1024_1_0_0_1_n_n : DotDims S32x131072 S131072x1024 S32x1024 where
  lhsContracting := [1]
  rhsContracting := [0]
  lhsNonContracting := [0]
  rhsNonContracting := [1]
  lhsBatch := []
  rhsBatch := []
  wf := dot_S32x131072_S131072x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.K_RegA.lean ====
/-
  The first kernel region: one block of 2048 rows of the flattened input times the whole cluster matrix.

  At grid point t the kernel reads rows [2048 t, 2048 t + 2048) of the [16384, 1024] input (window 0), the whole
  [1024, 64] matrix (window 1, brought in once and kept), and writes the [2048, 64] block of products (window 2).
  The body loads both blocks whole, multiplies, and overwrites the output block whole; so after the body the
  output block is one function of the two input blocks, whatever the block held before.  Stated for any float
  interpretation.
-/
import proofs.«124837_j25666724561114_2_alg».proof.Proof.Gen.Kernel.Launch
import proofs.«124837_j25666724561114_2_alg».proof.Proof.Gen.Kernel.Skeleton
import proofs.«124837_j25666724561114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at grid point `t`, cut out of the window's array as the region finds it. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the block was brought
    in at that point (a block not brought in again has not moved).  Window 0: -/
theorem inputA0_of {c : Dev nD} (dat : Dat τ (Elt F) Unit ℕ (UR sig nD τ) ℕ cfg0 c)
    (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)
/-- and window 1. -/
theorem inputA1_of {c : Dev nD} (dat : Dat τ (Elt F) Unit ℕ (UR sig nD τ) ℕ cfg0 c)
    (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)

/-- The whole output block as one rectangle. -/
abbrev wholeA : Rect S2048x64 := Rect.unit (s := S2048x64) ![0, 0] S2048x64.size inb_S2048x64_S2048x64_0_0
abbrev wholeA0 : Rect S2048x1024 := Rect.unit (s := S2048x1024) ![0, 0] S2048x1024.size inb_S2048x1024_S2048x1024_0_0
abbrev wholeA1 : Rect S1024x64 := Rect.unit (s := S1024x64) ![0, 0] S1024x64.size inb_S1024x64_S1024x64_0_0

/-- What the body leaves in the output block: the product of the two input blocks, stored over the whole block. -/
def outA (x0 : Vec F S2048x1024 .f32) (x1 : Vec F S1024x64 .f32) : Vec F S2048x64 .f32 :=
  View.canon [⟨wholeA, k0_pay1 (View.ld x0 wholeA0) (View.ld x1 wholeA1)⟩]

/-- The one store covers the output block. -/
theorem coverA (p0 : Vec F S2048x64 .f32) (y : S2048x64.Idx) :
    ∃ pc ∈ ([⟨wholeA, p0⟩] : List (View.Piece (Elt F) S2048x64 .f32)), y ∈ pc.1.set :=
  View.cover_of_tiled [⟨wholeA, p0⟩] S2048x64.size (by rfl) y

set_option maxHeartbeats 1000000 in
/-- The body, run on whole staging buffers holding the two input blocks and anything in the output block, ends with
    the inputs as they were and the output block at `outA` of them. -/
theorem bodyA (c : Dev nD) (E : Set ℕ) (i : grid0.Coords)
    (arg1 : Memref sig .tc .vmem S2048x1024 .f32) (harg1 : arg1.IsWhole)
    (arg2 : Memref sig .tc .vmem S1024x64 .f32) (harg2 : arg2.IsWhole)
    (arg3 : Memref sig .tc .vmem S2048x64 .f32) (harg3 : arg3.IsWhole)
    (x0 : Vec F S2048x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outA x0 x1)) -∗ K ⟨⟩))
      ⊢ wp frame (wpE (defs₀ (F := F)) Variants.none c none) E (cc0__cluster_matmul_kernel i arg1 harg1 arg2 harg2 arg3 harg3) K := by
  simp only [cc0__cluster_matmul_kernel_eq_skeleton]; unfold cc0__cluster_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The proof data of this region on core `c`: the arrays as found; after the body each input buffer at its block
    and the output buffer at `outA` of the two input blocks; nothing kept between points but what the pipeline
    itself keeps; nothing owed. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => outA (blockA V c 0 t) (blockA V c 1 t)
  Φ _ := Pipeline.ΦA spec0 c
  q _ := fullShare
  owed _ := 0

theorem datA_A (c : Dev nD) (w : Fin cfg0.W) : (datA V c).A w = V c (Pipeline.arrRef spec0 w) := by
  dsimp only [datA]
theorem afterA_0 (c : Dev nD) (t : Fin cfg0.N) : (datA V c).after 0 t = blockA V c 0 t := by dsimp only [datA]
theorem afterA_1 (c : Dev nD) (t : Fin cfg0.N) : (datA V c).after 1 t = blockA V c 1 t := by dsimp only [datA]
theorem afterA_2 (c : Dev nD) (t : Fin cfg0.N) :
    (datA V c).after 2 t = outA (blockA V c 0 t) (blockA V c 1 t) := by dsimp only [datA]

theorem beforeA_0 (c : Dev nD) (t : Fin cfg0.N) (d) : (datA V c).before 0 t d = blockA V c 0 t :=
  inputA0_of V (datA V c) (datA_A V c 0) (afterA_0 V c) t d
theorem beforeA_1 (c : Dev nD) (t : Fin cfg0.N) (d) : (datA V c).before 1 t d = blockA V c 1 t :=
  inputA1_of V (datA V c) (datA_A V c 1) (afterA_1 V c) t d

/-- What the body is called with at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t))

theorem pointA (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1]
  rw [show (datA V c).Φ t.succ = (datA V c).Φ t.castSucc from rfl,
    show (datA V c).owesAt () t.succ = (datA V c).owesAt () t.castSucc from rfl,
    afterA_0, afterA_1, afterA_2]
  iintro ⟨HΦ, Ho, ⟨%d0, H0⟩, ⟨%d1, H1⟩, ⟨%d2, H2⟩⟩
  iapply (bodyA c Set.univ _ _ _ _ _ _ _ (blockA V c 0 t) (blockA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem obligationA (c : Dev nD) : BodyObligation (datA (F := F) V c) (defs₀ (F := F)) Variants.none () Set.univ := fun t => by
  rw [bigSep_W0, bigSep_W0]
  exact pointA V c t

end Cert.Kernel.Run

end
-- ==== Proof.K_RegB.lean ====
/-
  The second kernel region: per batch element, both Fisher-vector blocks, normalised.

  At grid point b the kernel reads the [1, 512, 1024] slab of the input (window 0), the [1, 512, 64] slab of soft
  assignments (window 1), and the two [1024, 64] matrices (windows 2 and 3, brought in once and kept); it writes the
  two [1, 1024, 64] output slabs (windows 4 and 5).  The body loads the four input blocks whole, computes, and
  overwrites each output slab whole; so after the body each output slab is one function of the four input blocks,
  whatever it held before.  Stated for any float interpretation.
-/
import proofs.«124837_j25666724561114_2_alg».proof.Proof.Gen.Kernel.Launch
import proofs.«124837_j25666724561114_2_alg».proof.Proof.Gen.Kernel.Skeleton
import proofs.«124837_j25666724561114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at grid point `t`, cut out of the window's array as the region finds it. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, brought in there or not. -/
theorem inputB0_of {c : Dev nD} (dat : Dat τ (Elt F) Unit ℕ (UR sig nD τ) ℕ cfg1 c)
    (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
/-- Input window 1's staging buffer holds the window's block at every point, brought in there or not. -/
theorem inputB1_of {c : Dev nD} (dat : Dat τ (Elt F) Unit ℕ (UR sig nD τ) ℕ cfg1 c)
    (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)
/-- Input window 2's staging buffer holds the window's block at every point, brought in there or not. -/
theorem inputB2_of {c : Dev nD} (dat : Dat τ (Elt F) Unit ℕ (UR sig nD τ) ℕ cfg1 c)
    (hA : dat.A 2 = V c (Pipeline.arrRef spec1 2))
    (hafter : ∀ t, dat.after 2 t = blockB V c 2 t) (t : Fin cfg1.N) (d) : dat.before 2 t d = blockB V c 2 t :=
  (dat.before_in_eq_fetched 2 rfl (fun _ => rfl) (fun _ _ _ => rfl) (fun t => by rw [hafter]; unfold Dat.blockOf blockB; rw [hA]; try rfl) t d).trans
    (by unfold Dat.fetched Dat.blockOf blockB; rw [hA]; try rfl)
/-- Input window 3's staging buffer holds the window's block at every point, brought in there or not. -/
theorem inputB3_of {c : Dev nD} (dat : Dat τ (Elt F) Unit ℕ (UR sig nD τ) ℕ cfg1 c)
    (hA : dat.A 3 = V c (Pipeline.arrRef spec1 3))
    (hafter : ∀ t, dat.after 3 t = blockB V c 3 t) (t : Fin cfg1.N) (d) : dat.before 3 t d = blockB V c 3 t :=
  (dat.before_in_eq_fetched 3 rfl (fun _ => rfl) (fun _ _ _ => rfl) (fun t => by rw [hafter]; unfold Dat.blockOf blockB; rw [hA]; try rfl) t d).trans
    (by unfold Dat.fetched Dat.blockOf blockB; rw [hA]; try rfl)

/-- Each block as one rectangle. -/
abbrev wholeB0 : Rect S1x512x1024 := Rect.unit (s := S1x512x1024) ![0, 0, 0] S1x512x1024.size inb_S1x512x1024_S1x512x1024_0_0_0
abbrev wholeB1 : Rect S1x512x64 := Rect.unit (s := S1x512x64) ![0, 0, 0] S1x512x64.size inb_S1x512x64_S1x512x64_0_0_0
abbrev wholeB2 : Rect S1024x64 := Rect.unit (s := S1024x64) ![0, 0] S1024x64.size inb_S1024x64_S1024x64_0_0
abbrev wholeBo : Rect S1x1024x64 := Rect.unit (s := S1x1024x64) ![0, 0, 0] S1x1024x64.size inb_S1x1024x64_S1x1024x64_0_0_0

/-- What the body leaves in the first output slab: the normalised first-order block. -/
def outB4 (x0 : Vec F S1x512x1024 .f32) (x1 : Vec F S1x512x64 .f32) (x2 x3 : Vec F S1024x64 .f32) : Vec F S1x1024x64 .f32 :=
  View.canon [⟨wholeBo, k1_pay1 (k1_pay11 (View.ld x0 wholeB0) (View.ld x1 wholeB1) (View.ld x2 wholeB2) (View.ld x3 wholeB2))
    (k1_pay12 (View.ld x0 wholeB0) (View.ld x1 wholeB1) (View.ld x2 wholeB2) (View.ld x3 wholeB2))⟩]
/-- What the body leaves in the second output slab: the normalised second-order block. -/
def outB5 (x0 : Vec F S1x512x1024 .f32) (x1 : Vec F S1x512x64 .f32) (x2 x3 : Vec F S1024x64 .f32) : Vec F S1x1024x64 .f32 :=
  View.canon [⟨wholeBo, k1_pay2 (k1_pay10 (View.ld x0 wholeB0) (View.ld x1 wholeB1) (View.ld x2 wholeB2) (View.ld x3 wholeB2))⟩]

/-- One whole store covers an output slab. -/
theorem coverB (p0 : Vec F S1x1024x64 .f32) (y : S1x1024x64.Idx) :
    ∃ pc ∈ ([⟨wholeBo, p0⟩] : List (View.Piece (Elt F) S1x1024x64 .f32)), y ∈ pc.1.set :=
  View.cover_of_tiled [⟨wholeBo, p0⟩] S1x1024x64.size (by rfl) y

set_option maxHeartbeats 2000000 in
/-- The body, run on whole staging buffers holding the four input blocks and anything in the two output slabs, ends
    with the inputs as they were and the output slabs at `outB4` and `outB5` of them. -/
theorem bodyB (c : Dev nD) (E : Set ℕ) (i : grid1.Coords)
    (arg1 : Memref sig .tc .vmem S1x512x1024 .f32) (harg1 : arg1.IsWhole)
    (arg2 : Memref sig .tc .vmem S1x512x64 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1024x64 .f32) (harg5 : arg5.IsWhole)
    (arg6 : Memref sig .tc .vmem S1x1024x64 .f32) (harg6 : arg6.IsWhole)
    (x0 : Vec F S1x512x1024 .f32) (x1 : Vec F S1x512x64 .f32) (x2 x3 : Vec F S1024x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outB4 x0 x1 x2 x3)
            ∗ owns (c : Thread nD τ) arg6 fullShare (outB5 x0 x1 x2 x3)) -∗ K ⟨⟩))
      ⊢ wp frame (wpE (defs₀ (F := F)) Variants.none c none) E (cc1__fv_kernel i arg1 harg1 arg2 harg2 arg3 harg3 arg4 harg4 arg5 harg5 arg6 harg6) K := by
  simp only [cc1__fv_kernel_eq_skeleton]; unfold cc1__fv_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  iexists _; isplitr
  swap; · iexact H5
  ipureintro
  exact View.read_writes_eq_canon _ _ _ (coverB _)

/-- The proof data of this region on core `c`: the arrays as found; after the body each input buffer at its block
    and each output slab at its function of the four input blocks; nothing kept between points but what the
    pipeline itself keeps; nothing owed. -/
def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => blockB V c 2 t
    | ⟨3, _⟩ => blockB V c 3 t
    | ⟨4, _⟩ => outB4 (blockB V c 0 t) (blockB V c 1 t) (blockB V c 2 t) (blockB V c 3 t)
    | ⟨5, _⟩ => outB5 (blockB V c 0 t) (blockB V c 1 t) (blockB V c 2 t) (blockB V c 3 t)
  Φ _ := Pipeline.ΦA spec1 c
  q _ := fullShare
  owed _ := 0

theorem datB_A (c : Dev nD) (w : Fin cfg1.W) : (datB V c).A w = V c (Pipeline.arrRef spec1 w) := by
  dsimp only [datB]
theorem afterB_0 (c : Dev nD) (t : Fin cfg1.N) : (datB V c).after 0 t = blockB V c 0 t := by dsimp only [datB]
theorem afterB_1 (c : Dev nD) (t : Fin cfg1.N) : (datB V c).after 1 t = blockB V c 1 t := by dsimp only [datB]
theorem afterB_2 (c : Dev nD) (t : Fin cfg1.N) : (datB V c).after 2 t = blockB V c 2 t := by dsimp only [datB]
theorem afterB_3 (c : Dev nD) (t : Fin cfg1.N) : (datB V c).after 3 t = blockB V c 3 t := by dsimp only [datB]
theorem afterB_4 (c : Dev nD) (t : Fin cfg1.N) :
    (datB V c).after 4 t = outB4 (blockB V c 0 t) (blockB V c 1 t) (blockB V c 2 t) (blockB V c 3 t) := by dsimp only [datB]
theorem afterB_5 (c : Dev nD) (t : Fin cfg1.N) :
    (datB V c).after 5 t = outB5 (blockB V c 0 t) (blockB V c 1 t) (blockB V c 2 t) (blockB V c 3 t) := by dsimp only [datB]

theorem beforeB_0 (c : Dev nD) (t : Fin cfg1.N) (d) : (datB V c).before 0 t d = blockB V c 0 t :=
  inputB0_of V (datB V c) (datB_A V c 0) (afterB_0 V c) t d
theorem beforeB_1 (c : Dev nD) (t : Fin cfg1.N) (d) : (datB V c).before 1 t d = blockB V c 1 t :=
  inputB1_of V (datB V c) (datB_A V c 1) (afterB_1 V c) t d
theorem beforeB_2 (c : Dev nD) (t : Fin cfg1.N) (d) : (datB V c).before 2 t d = blockB V c 2 t :=
  inputB2_of V (datB V c) (datB_A V c 2) (afterB_2 V c) t d
theorem beforeB_3 (c : Dev nD) (t : Fin cfg1.N) (d) : (datB V c).before 3 t d = blockB V c 3 t :=
  inputB3_of V (datB V c) (datB_A V c 3) (afterB_3 V c) t d

/-- What the body is called with at point `t`, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t))

theorem pointB (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3]
  rw [show (datB V c).Φ t.succ = (datB V c).Φ t.castSucc from rfl,
    show (datB V c).owesAt () t.succ = (datB V c).owesAt () t.castSucc from rfl,
    afterB_0, afterB_1, afterB_2, afterB_3, afterB_4, afterB_5]
  iintro ⟨HΦ, Ho, ⟨%d0, H0⟩, ⟨%d1, H1⟩, ⟨%d2, H2⟩, ⟨%d3, H3⟩, ⟨%d4, H4⟩, ⟨%d5, H5⟩⟩
  iapply (bodyB c Set.univ _ _ _ _ _ _ _ _ _ _ _ _ _ (blockB V c 0 t) (blockB V c 1 t) (blockB V c 2 t) (blockB V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this region, at every point. -/
theorem obligationB (c : Dev nD) : BodyObligation (datB (F := F) V c) (defs₀ (F := F)) Variants.none () Set.univ := fun t => by
  rw [bigSep_W1, bigSep_W1]
  exact pointB V c t

end Cert.Kernel.Run

end
-- ==== Proof.K_RegC.lean ====
/-
  The third kernel region: the concatenated Fisher vector times the hidden weights, one column half at a time,
  accumulated over 64 blocks of 2048 rows.

  The grid is 2 x 64; point t = 64 n + k handles column half n and row block k.  Window 0 is the [32, 2048] block
  k of the left operand, window 1 the [2048, 512] block (k, n) of the right operand, window 2 the [32, 512] output
  block n.  A [32, 512] scratch accumulator lives across the points: at k = 0 it is reset to zero, at every k the
  product of the two blocks is added to it, and at k = 63 it is copied into the output block, which is written
  back only there.  So there are three kinds of points — first, middle, last of a sweep — and what the
  accumulator holds after a point is defined by recursion on the point.  Stated for any float interpretation.
-/
import proofs.«124837_j25666724561114_2_alg».proof.Proof.Gen.Kernel.Launch
import proofs.«124837_j25666724561114_2_alg».proof.Proof.Gen.Kernel.Skeleton
import proofs.«124837_j25666724561114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of point -/

/-- The body's first test: is this the first block of a sweep (k = 0)? -/
abbrev firstC (i : grid2.Coords) : Prop := (Scalar.cmpi .ne (Scalar.extui (Scalar.cmpi .eq (BitVec.ofNat 32 (i 1).val) 0#32)) 0#32) = 1#1
theorem firstC_iff : ∀ t : Fin cfg2.N, firstC (grid2.coords t) ↔ t.val % 64 = 0 :=
  (by decide +kernel : ∀ t : Fin grid2.N, firstC (grid2.coords t) ↔ t.val % 64 = 0)
/-- The body's second test: is this the last block of a sweep (k = 63)? -/
abbrev lastC (i : grid2.Coords) : Prop := k2_cond2 i = 1#1
theorem lastC_iff : ∀ t : Fin cfg2.N, lastC (grid2.coords t) ↔ t.val % 64 = 63 :=
  (by decide +kernel : ∀ t : Fin grid2.N, lastC (grid2.coords t) ↔ t.val % 64 = 63)

/-- The inputs are in use at every point; the output block is in use (and written back) at the last point of a
    sweep only. -/
theorem liveC0 : ∀ t : Fin cfg2.N, cfg2.idle 0 (grid2.coords t) = false := by decide +kernel
theorem liveC1 : ∀ t : Fin cfg2.N, cfg2.idle 1 (grid2.coords t) = false := by decide +kernel
theorem idleC2 : ∀ t : Fin cfg2.N, ¬lastC (grid2.coords t) → cfg2.idle 2 (grid2.coords t) = true := by decide +kernel
theorem noFlushC2 : ∀ t : Fin cfg2.N, ¬lastC (grid2.coords t) → (cfg2.win 2).flush t = false := by decide +kernel
theorem liveC2 : ∀ t : Fin cfg2.N, lastC (grid2.coords t) → cfg2.idle 2 (grid2.coords t) = false := by decide +kernel

/-! ## The buffers the body is called with -/

abbrev msC0 (t : Fin cfg2.N) : Memref sig .tc .vmem S32x2048 .f32 := win2_0.stage (cfg2.slots t 0)
abbrev hsC0 (t : Fin cfg2.N) : (msC0 t).IsWhole := hstage2_0 ((cfg2.slots t 0).cast nbuf2_0)
abbrev msC1 (t : Fin cfg2.N) : Memref sig .tc .vmem S2048x512 .f32 := win2_1.stage (cfg2.slots t 1)
abbrev hsC1 (t : Fin cfg2.N) : (msC1 t).IsWhole := hstage2_1 ((cfg2.slots t 1).cast nbuf2_1)
abbrev msC2 (t : Fin cfg2.N) : Memref sig .tc .vmem S32x512 .f32 := win2_2.stage (cfg2.slots t 2)
abbrev hsC2 (t : Fin cfg2.N) : (msC2 t).IsWhole := hstage2_2 ((cfg2.slots t 2).cast nbuf2_2)
/-- The accumulator. -/
abbrev accM : Memref sig .tc .vmem S32x512 .f32 := Memref.whole cc2_scratch0
abbrev accView : View sig .tc .vmem S32x512 .f32 := accM.view
/-- One staging buffer of the output window, through which its contents are stated. -/
abbrev outView : View sig .tc .vmem S32x512 .f32 := (Memref.whole cc2_stg2_0 : Memref sig .tc .vmem S32x512 .f32).view

/-- The scoped buffers of the other two kernels: this kernel never touches them. -/
abbrev othersC : List (Ref sig .tc) :=
  [cc0_stg0_0, cc0_stg0_1, cc0_stg1_0, cc0_stg2_0, cc0_stg2_1, cc1_stg0_0, cc1_stg0_1, cc1_stg1_0, cc1_stg1_1, cc1_stg2_0, cc1_stg3_0,
   cc1_stg4_0, cc1_stg4_1, cc1_stg5_0, cc1_stg5_1]
def keepC (c : Dev nD) : sProp 𝕄 :=
  bigSepL othersC fun b => iprop(∃ f : Buf (Elt F) ((c.tc : Thread nD τ).loc b), ((c.tc : Thread nD τ).loc b) ↦{fullShare} f)

/-- What the pipeline hands the kernel besides its windows: the accumulator at some contents, the other kernels'
    buffers, the generator register. -/
theorem handedC (c : Dev nD) :
    (Pipeline.ΦA spec2 c : sProp 𝕄)
      = iprop(iprop((∃ d, owns (c : Thread nD τ) accM fullShare d) ∗ keepC c) ∗ (∃ r, prngReg c r)) := by
  unfold Pipeline.ΦA keepC
  rw [Pipeline.scopedRest_eq_of_list spec2 c (cc2_scratch0 :: othersC) (by decide) (by decide), bigSepL_cons]
  simp only [accM, owns_whole]; try rfl

/-! ## The body at each kind of point -/

set_option maxHeartbeats 1000000 in
/-- FIRST point of a sweep: the accumulator is zeroed, then the product of the two blocks is added; nothing is
    stored into the output block, which is handed back as found. -/
noncomputable def runFirst (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i)
    (x0 : Vec F S32x2048 .f32) (x1 : Vec F S2048x512 .f32) :
    Σ' (L2 : List (View.Piece (Elt F) S32x512 .f32)), { LS : List (View.Piece (Elt F) S32x512 .f32) //
      ∀ (xi : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨[], ?_, fun xi E K => ?run⟩
  case run =>
    simp only [cc2__hidden1_kernel_eq_skeleton]; unfold cc2__hidden1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE point: the product of the two blocks is added to what the accumulator held. -/
noncomputable def runMid (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i)
    (x0 : Vec F S32x2048 .f32) (x1 : Vec F S2048x512 .f32) (xs : Vec F S32x512 .f32) :
    Σ' (L2 : List (View.Piece (Elt F) S32x512 .f32)), { LS : List (View.Piece (Elt F) S32x512 .f32) //
      ∀ (xi : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨[], ?_, fun xi E K => ?run⟩
  case run =>
    simp only [cc2__hidden1_kernel_eq_skeleton]; unfold cc2__hidden1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST point of a sweep: the product is added, and the accumulator is copied over the whole output block. -/
noncomputable def runLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i)
    (x0 : Vec F S32x2048 .f32) (x1 : Vec F S2048x512 .f32) (xs : Vec F S32x512 .f32) :
    Σ' (L2 : List (View.Piece (Elt F) S32x512 .f32)), { LS : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨?_, ?_, fun E K => ?run⟩
  case run =>
    simp only [cc2__hidden1_kernel_eq_skeleton]; unfold cc2__hidden1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each kind of point leaves -/

/-- The stores into the accumulator tile it, at every kind of point. -/
theorem coverFirstS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i) (x0 : Vec F S32x2048 .f32) (x1 : Vec F S2048x512 .f32) (y : S32x512.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S32x512.size (by sl_kernel_rfl) y
theorem coverMidS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i) (x0 : Vec F S32x2048 .f32) (x1 : Vec F S2048x512 .f32) (xs : Vec F S32x512 .f32) (y : S32x512.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S32x512.size (by sl_kernel_rfl) y
theorem coverLastS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) (y : S32x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S32x512.size (by sl_kernel_rfl) y
/-- The one store into the output block at a last point covers it. -/
theorem coverLastO (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) (y : S32x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S32x512.size (by sl_kernel_rfl) y

/-- The accumulator after a first point, -/
def accFirst (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i) (x0 : Vec F S32x2048 .f32) (x1 : Vec F S2048x512 .f32) : Vec F S32x512 .f32 :=
  accView.read (Elt F) (accView.writes (Elt F) accView.junk (runFirst c i arg2 harg2 arg3 harg3 arg4 harg4 arg5 harg5 hc0 hc1 x0 x1).2.1)
/-- after a middle point, -/
def accMid (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i) (x0 : Vec F S32x2048 .f32) (x1 : Vec F S2048x512 .f32) (xs : Vec F S32x512 .f32) : Vec F S32x512 .f32 :=
  accView.read (Elt F) (accView.writes (Elt F) accView.junk (runMid c i arg2 harg2 arg3 harg3 arg4 harg4 arg5 harg5 hc0 hc1 x0 x1 xs).2.1)
/-- after a last point. -/
def accLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) : Vec F S32x512 .f32 :=
  accView.read (Elt F) (accView.writes (Elt F) accView.junk (runLast c i arg2 harg2 arg3 harg3 arg4 harg4 arg5 harg5 hc0 hc1 x0 x1 xs).2.1)
/-- The output block after a last point. -/
def outLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) : Vec F S32x512 .f32 :=
  outView.read (Elt F) (outView.writes (Elt F) outView.junk (runLast c i arg2 harg2 arg3 harg3 arg4 harg4 arg5 harg5 hc0 hc1 x0 x1 xs).1)
/-- At the other points nothing is stored into the output block and the block is not written back: a placeholder
    that nothing consults. -/
def outIdle : Vec F S32x512 .f32 := outView.read (Elt F) (outView.writes (Elt F) outView.junk [])

/-! ## The accumulation over the grid -/

-- what the TensorCore's buffers hold when the region is entered
variable (V : (c : Dev nD) → (b : Ref sig .tc) → Buf (Elt F) ((c : Thread nD τ).loc b))

/-- The block of window `w` at grid point `t`, cut out of the window's array as the region finds it. -/
def blockC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem inputC0_of {c : Dev nD} (dat : Dat τ (Elt F) Unit ℕ (UR sig nD τ) ℕ cfg2 c)
    (hA : dat.A 0 = V c (Pipeline.arrRef spec2 0))
    (hafter : ∀ t, dat.after 0 t = blockC V c 0 t) (t : Fin cfg2.N) (d) : dat.before 0 t d = blockC V c 0 t :=
  (dat.before_in_eq_fetched 0 rfl (fun _ => rfl) (fun _ _ _ => rfl) (fun t => by rw [hafter]; unfold Dat.blockOf blockC; rw [hA]; try rfl) t d).trans
    (by unfold Dat.fetched Dat.blockOf blockC; rw [hA]; try rfl)
theorem inputC1_of {c : Dev nD} (dat : Dat τ (Elt F) Unit ℕ (UR sig nD τ) ℕ cfg2 c)
    (hA : dat.A 1 = V c (Pipeline.arrRef spec2 1))
    (hafter : ∀ t, dat.after 1 t = blockC V c 1 t) (t : Fin cfg2.N) (d) : dat.before 1 t d = blockC V c 1 t :=
  (dat.before_in_eq_fetched 1 rfl (fun _ => rfl) (fun _ _ _ => rfl) (fun t => by rw [hafter]; unfold Dat.blockOf blockC; rw [hA]; try rfl) t d).trans
    (by unfold Dat.fetched Dat.blockOf blockC; rw [hA]; try rfl)

/-- What the output block and the accumulator hold after the body at position `n`: the kind of point decides, and
    a middle or last point builds on what the point before left in the accumulator. -/
def leftC (c : Dev nD) : (n : ℕ) → n < cfg2.N → Vec F S32x512 .f32 × Vec F S32x512 .f32
  | 0, hn => (outIdle, accFirst c (grid2.coords ⟨0, hn⟩) (msC0 ⟨0, hn⟩) (hsC0 ⟨0, hn⟩) (msC1 ⟨0, hn⟩) (hsC1 ⟨0, hn⟩) (msC2 ⟨0, hn⟩) (hsC2 ⟨0, hn⟩) accM (Memref.isWhole_whole _) ((firstC_iff ⟨0, hn⟩).mpr (Nat.zero_mod _)) (fun h => (fun h => by (try dsimp only at h); omega) ((lastC_iff ⟨0, hn⟩).mp h)) (blockC V c 0 ⟨0, hn⟩) (blockC V c 1 ⟨0, hn⟩))
  | n + 1, hn =>
    if h0 : (n + 1) % 64 = 0 then
      if h1 : (n + 1) % 64 = 63 then
        False.elim (by omega)
      else
        (outIdle, accFirst c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) ((firstC_iff ⟨n + 1, hn⟩).mpr h0) (fun h => h1 ((lastC_iff ⟨n + 1, hn⟩).mp h)) (blockC V c 0 ⟨n + 1, hn⟩) (blockC V c 1 ⟨n + 1, hn⟩))
    else
      if h1 : (n + 1) % 64 = 63 then
        (outLast c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) ((lastC_iff ⟨n + 1, hn⟩).mpr h1) (blockC V c 0 ⟨n + 1, hn⟩) (blockC V c 1 ⟨n + 1, hn⟩) (leftC c n (Nat.lt_of_succ_lt hn)).2,
         accLast c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) ((lastC_iff ⟨n + 1, hn⟩).mpr h1) (blockC V c 0 ⟨n + 1, hn⟩) (blockC V c 1 ⟨n + 1, hn⟩) (leftC c n (Nat.lt_of_succ_lt hn)).2)
      else
        (outIdle, accMid c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) (fun h => h1 ((lastC_iff ⟨n + 1, hn⟩).mp h)) (blockC V c 0 ⟨n + 1, hn⟩) (blockC V c 1 ⟨n + 1, hn⟩) (leftC c n (Nat.lt_of_succ_lt hn)).2)

theorem leftC_first (c : Dev nD) (t : Fin cfg2.N) (h0 : t.val % 64 = 0) (h1 : ¬t.val % 64 = 63) :
    leftC V c t.val t.isLt = (outIdle, accFirst c (grid2.coords t) (msC0 t) (hsC0 t) (msC1 t) (hsC1 t) (msC2 t) (hsC2 t) accM (Memref.isWhole_whole _) ((firstC_iff t).mpr h0) (fun h => h1 ((lastC_iff t).mp h)) (blockC V c 0 t) (blockC V c 1 t)) := by
  obtain ⟨n, hn⟩ := t
  cases n with
  | zero => exact rfl
  | succ n => exact (dif_pos h0).trans ((dif_neg h1).trans rfl)

theorem leftC_mid (c : Dev nD) (t : Fin cfg2.N) (h0 : ¬t.val % 64 = 0) (h1 : ¬t.val % 64 = 63) :
    leftC V c t.val t.isLt = (outIdle, accMid c (grid2.coords t) (msC0 t) (hsC0 t) (msC1 t) (hsC1 t) (msC2 t) (hsC2 t) accM (Memref.isWhole_whole _) (fun h => h0 ((firstC_iff t).mp h)) (fun h => h1 ((lastC_iff t).mp h)) (blockC V c 0 t) (blockC V c 1 t) (leftC V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem leftC_last (c : Dev nD) (t : Fin cfg2.N) (h0 : ¬t.val % 64 = 0) (h1 : t.val % 64 = 63) :
    leftC V c t.val t.isLt = (outLast c (grid2.coords t) (msC0 t) (hsC0 t) (msC1 t) (hsC1 t) (msC2 t) (hsC2 t) accM (Memref.isWhole_whole _) (fun h => h0 ((firstC_iff t).mp h)) ((lastC_iff t).mpr h1) (blockC V c 0 t) (blockC V c 1 t) (leftC V c (t.val - 1) (Nat.lt_of_le_of_lt (Nat.sub_le _ _) t.isLt)).2,
      accLast c (grid2.coords t) (msC0 t) (hsC0 t) (msC1 t) (hsC1 t) (msC2 t) (hsC2 t) accM (Memref.isWhole_whole _) (fun h => h0 ((firstC_iff t).mp h)) ((lastC_iff t).mpr h1) (blockC V c 0 t) (blockC V c 1 t) (leftC V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the kernel keeps between points: before the first point what the pipeline hands it; afterwards the
    accumulator at what the point before left, the other kernels' buffers, the generator register. -/
def keptC (c : Dev nD) : (n : ℕ) → n ≤ cfg2.N → sProp 𝕄
  | 0, _ => Pipeline.ΦA spec2 c
  | n + 1, hn => iprop(iprop(owns (c : Thread nD τ) accM fullShare ((leftC V c n hn).2) ∗ keepC c) ∗ (∃ r, prngReg c r))

theorem keptC_zero (c : Dev nD) (n : ℕ) (h : n ≤ cfg2.N) (hz : n = 0) : keptC V c n h = Pipeline.ΦA spec2 c := by
  subst hz; rfl
theorem keptC_succ (c : Dev nD) (n : ℕ) (hn : n < cfg2.N) :
    keptC V c (n + 1) hn = iprop(iprop(owns (c : Thread nD τ) accM fullShare ((leftC V c n hn).2) ∗ keepC c) ∗ (∃ r, prngReg c r)) := rfl
theorem keptC_pos (c : Dev nD) (n : ℕ) (h : n ≤ cfg2.N) (hz : n ≠ 0) :
    keptC V c n h = iprop(iprop(owns (c : Thread nD τ) accM fullShare ((leftC V c (n - 1) (by omega)).2) ∗ keepC c) ∗ (∃ r, prngReg c r)) := by
  cases n with
  | zero => exact absurd rfl hz
  | succ n => rfl

/-! ## The proof data and the body obligation -/

def datC (c : Dev nD) : Dat τ (Elt F) Unit ℕ (UR sig nD τ) ℕ cfg2 c where
  A w := V c (Pipeline.arrRef spec2 w)
  after w t := match w with
    | ⟨0, _⟩ => blockC V c 0 t
    | ⟨1, _⟩ => blockC V c 1 t
    | ⟨2, _⟩ => (leftC V c t.val t.isLt).1
  Φ t := keptC V c t.val (Nat.le_of_lt_succ t.isLt)
  q _ := fullShare
  owed _ := 0

theorem datC_A (c : Dev nD) (w : Fin cfg2.W) : (datC V c).A w = V c (Pipeline.arrRef spec2 w) := by
  dsimp only [datC]
theorem keptC_castSucc (c : Dev nD) (t : Fin cfg2.N) :
    (datC V c).Φ t.castSucc = keptC V c t.val (Nat.le_of_lt t.isLt) := by
  dsimp only [datC]; simp only [Fin.coe_castSucc]
theorem afterC_0 (c : Dev nD) (t : Fin cfg2.N) : (datC V c).after 0 t = blockC V c 0 t := by dsimp only [datC]
theorem afterC_1 (c : Dev nD) (t : Fin cfg2.N) : (datC V c).after 1 t = blockC V c 1 t := by dsimp only [datC]
theorem afterC_2 (c : Dev nD) (t : Fin cfg2.N) : (datC V c).after 2 t = (leftC V c t.val t.isLt).1 := by dsimp only [datC]
theorem beforeC_0 (c : Dev nD) (t : Fin cfg2.N) (d) : (datC V c).before 0 t d = blockC V c 0 t :=
  inputC0_of V (datC V c) (datC_A V c 0) (afterC_0 V c) t d
theorem beforeC_1 (c : Dev nD) (t : Fin cfg2.N) (d) : (datC V c).before 1 t d = blockC V c 1 t :=
  inputC1_of V (datC V c) (datC_A V c 1) (afterC_1 V c) t d

def preC (c : Dev nD) (t : Fin cfg2.N) : sProp 𝕄 :=
  iprop((datC V c).Φ t.castSucc ∗ (datC V c).owesAt () t.castSucc
    ∗ (∃ d, owns (c : Thread nD τ) (msC0 t) fullShare ((datC V c).before 0 t d))
    ∗ (∃ d, owns (c : Thread nD τ) (msC1 t) fullShare ((datC V c).before 1 t d))
    ∗ (∃ d, owns (c : Thread nD τ) (msC2 t) fullShare ((datC V c).before 2 t d)))

def postC (c : Dev nD) (t : Fin cfg2.N) : sProp 𝕄 :=
  iprop((datC V c).Φ t.succ ∗ (datC V c).owesAt () t.succ
    ∗ (datC V c).leavesExact 0 t
    ∗ (datC V c).leavesExact 1 t
    ∗ (datC V c).leavesExact 2 t)

set_option maxHeartbeats 4800000 in
theorem pointC (c : Dev nD) (t : Fin cfg2.N) :
    preC V c t ⊢ wp frame (wpE (defs₀ (F := F)) Variants.none c none) Set.univ (bodyAt2 t) (fun _ => postC V c t) := by
  unfold preC postC bodyAt2
  simp only [beforeC_0, beforeC_1]
  rw [show (datC V c).owesAt () t.succ = (datC V c).owesAt () t.castSucc from rfl]
  rw [show (datC V c).Φ t.succ = keptC V c (t.val + 1) t.isLt from rfl, keptC_succ]
  have hN : t.val < 128 := lt_of_lt_of_eq t.isLt (show cfg2.N = 128 from N_2)
  rw [show (datC V c).leavesExact 0 t = owns (c : Thread nD τ) (msC0 t) fullShare ((datC V c).after 0 t) from by
    unfold Dat.leavesExact; rw [liveC0 t], afterC_0]
  rw [show (datC V c).leavesExact 1 t = owns (c : Thread nD τ) (msC1 t) fullShare ((datC V c).after 1 t) from by
    unfold Dat.leavesExact; rw [liveC1 t], afterC_1]
  by_cases h0 : t.val % 64 = 0
  · have h1 : ¬t.val % 64 = 63 := by omega
    rw [Dat.leavesExact_idle (datC V c) 2 t (idleC2 t (fun h => h1 ((lastC_iff t).mp h))) (noFlushC2 t (fun h => h1 ((lastC_iff t).mp h)))]
    rw [leftC_first V c t h0 h1]
    unfold accFirst; (try dsimp only)
    by_cases hz : t.val = 0
    · rw [keptC_castSucc V c t, keptC_zero V c _ _ hz, handedC]
      iintro ⟨⟨⟨HS, Hkeep⟩, Hg⟩, Ho, ⟨%d0, H0⟩, ⟨%d1, H1⟩, ⟨%d2, H2⟩⟩
      iapply ((runFirst c (grid2.coords t) _ _ _ _ _ _ _ _ ((firstC_iff t).mpr h0) (fun h => h1 ((lastC_iff t).mp h)) (blockC V c 0 t) (blockC V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverFirstS c _ _ _ _ _ _ _ _ _ _ _ _ _)
          iexact Hkeep
        iexact Hg
      isplitl [Ho]; · iexact Ho
      isplitl [H0]; · iexact H0
      isplitl [H1]; · iexact H1
      iexists _; iexact H2
    · rw [keptC_castSucc V c t, keptC_pos V c _ _ hz]
      iintro ⟨⟨⟨HS, Hkeep⟩, Hg⟩, Ho, ⟨%d0, H0⟩, ⟨%d1, H1⟩, ⟨%d2, H2⟩⟩
      iapply ((runFirst c (grid2.coords t) _ _ _ _ _ _ _ _ ((firstC_iff t).mpr h0) (fun h => h1 ((lastC_iff t).mp h)) (blockC V c 0 t) (blockC V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverFirstS c _ _ _ _ _ _ _ _ _ _ _ _ _)
          iexact Hkeep
        iexact Hg
      isplitl [Ho]; · iexact Ho
      isplitl [H0]; · iexact H0
      isplitl [H1]; · iexact H1
      iexists _; iexact H2
  · have hz : t.val ≠ 0 := fun e => h0 (by rw [e])
    by_cases h1 : t.val % 64 = 63
    · rw [show (datC V c).leavesExact 2 t = owns (c : Thread nD τ) (msC2 t) fullShare ((datC V c).after 2 t) from by
        unfold Dat.leavesExact; rw [liveC2 t ((lastC_iff t).mpr h1)], afterC_2]
      rw [leftC_last V c t h0 h1]
      unfold outLast accLast; (try dsimp only)
      rw [keptC_castSucc V c t, keptC_pos V c _ _ hz]
      iintro ⟨⟨⟨HS, Hkeep⟩, Hg⟩, Ho, ⟨%d0, H0⟩, ⟨%d1, H1⟩, ⟨%d2, H2⟩⟩
      iapply ((runLast c (grid2.coords t) _ _ _ _ _ _ _ _ (fun h => h0 ((firstC_iff t).mp h)) ((lastC_iff t).mpr h1) (blockC V c 0 t) (blockC V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hkeep Hg]
      · isplitl [HS Hkeep]
        · isplitl [HS]
          · unfold owns; iexists _; isplitr
            swap; · iexact HS
            ipureintro; exact View.read_writes_of_cover _ _ _ _ _ (coverLastS c _ _ _ _ _ _ _ _ _ _ _ _ _ _)
          iexact Hkeep
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · rw [Dat.leavesExact_idle (datC V c) 2 t (idleC2 t (fun h => h1 ((lastC_iff t).mp h))) (noFlushC2 t (fun h => h1 ((lastC_iff t).mp h)))]
      rw [leftC_mid V c t h0 h1]
      unfold accMid; (try dsimp only)
      rw [keptC_castSucc V c t, keptC_pos V c _ _ hz]
      iintro ⟨⟨⟨HS, Hkeep⟩, Hg⟩, Ho, ⟨%d0, H0⟩, ⟨%d1, H1⟩, ⟨%d2, H2⟩⟩
      iapply ((runMid c (grid2.coords t) _ _ _ _ _ _ _ _ (fun h => h0 ((firstC_iff t).mp h)) (fun h => h1 ((lastC_iff t).mp h)) (blockC V c 0 t) (blockC V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverMidS c _ _ _ _ _ _ _ _ _ _ _ _ _ _)
          iexact Hkeep
        iexact Hg
      isplitl [Ho]; · iexact Ho
      isplitl [H0]; · iexact H0
      isplitl [H1]; · iexact H1
      iexists _; iexact H2

/-- The body obligation of this region, at every point. -/
theorem obligationC (c : Dev nD) : BodyObligation (datC (F := F) V c) (defs₀ (F := F)) Variants.none () Set.univ := fun t => by
  rw [bigSep_W2, bigSep_W2]
  exact pointC V c t

/-- What the pipeline hands the kernel is what it keeps before the first point, -/
theorem enterC (c : Dev nD) : Pipeline.ΦA spec2 c ⊢ (datC V c).Φ 0 := by
  rw [show (datC V c).Φ 0 = keptC V c 0 (Nat.zero_le _) from rfl, keptC_zero V c 0 _ rfl]
  try exact Idealize.SL.BI.Entails.refl _

/-- and after the last point it gives the same back, the accumulator's contents forgotten. -/
theorem leaveC (c : Dev nD) : (datC V c).Φ (Fin.last cfg2.N) ⊢ Pipeline.ΦA spec2 c := by
  rw [show (datC V c).Φ (Fin.last cfg2.N) = keptC V c (Fin.last cfg2.N).val (Nat.le_of_lt_succ (Fin.last cfg2.N).isLt) from rfl,
    keptC_pos V c _ _ (by rw [Fin.val_last]; have : cfg2.N = 128 := N_2; omega), handedC]
  iintro ⟨⟨HS, Hkeep⟩, Hg⟩
  isplitl [HS Hkeep]
  · isplitl [HS]
    · iexists _; iexact HS
    iexact Hkeep
  iexact Hg

end Cert.Kernel.Run

end
-- ==== Proof.K_Run.lean ====
/-
  The whole run of the program on the TensorCore: host operations, the first kernel region, host operations, the
  second region, host operations, the third region, host operations.

  The contents of every buffer outside the kernels' own are followed from the launch through the eleven stretches:
  a stretch of host operations applies them to what it finds; a kernel region leaves every buffer as found except
  its output arrays, which end at what the region's write-backs leave.  Each region enters from and leaves to the
  state "every such buffer at its current contents, the generator register at some state, nothing owed".  From the
  three regions' records the frame follows: the program ends, nothing faults, and every argument array is as
  launched.  Stated for any float interpretation.
-/
import proofs.«124837_j25666724561114_2_alg».proof.Proof.K_RegA
import proofs.«124837_j25666724561114_2_alg».proof.Proof.K_RegB
import proofs.«124837_j25666724561114_2_alg».proof.Proof.K_RegC
import proofs.«124837_j25666724561114_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Buffer contents read at the TensorCore's references. -/
abbrev rd (W : Dev nD → Valuation τ sig (Elt F)) : (c : Dev nD) → (b : Ref sig .tc) → Buf (Elt F) ((c : Thread nD τ).loc b) :=
  fun c b => W c b

/-! ## The buffers' contents from stretch to stretch -/

/-- Entering the first region: the launch contents after the first host stretch. -/
abbrev VA (c : Dev nD) : Valuation τ sig (Elt F) := Gen.V1 m c
/-- What the first region leaves in its output array. -/
def xA (c : Dev nD) : Buf (Elt F) ((c : Thread nD τ).loc main_v1) := (datA (rd (VA m)) c).arrAt 2 cfg0.N
/-- Leaving the first region. -/
abbrev VA' (c : Dev nD) : Valuation τ sig (Elt F) := Function.update (VA m c) main_v1 (xA m c)
/-- Entering the second region: three host stretches later. -/
abbrev VB (c : Dev nD) : Valuation τ sig (Elt F) :=
  StableHlo.after hostOps1_2 (StableHlo.after hostOps1_1 (StableHlo.after hostOps1 (VA' m c)))
/-- What the second region leaves in its two output arrays. -/
def xB0 (c : Dev nD) : Buf (Elt F) ((c : Thread nD τ).loc main_v37_0) := (datB (rd (VB m)) c).arrAt 4 cfg1.N
def xB1 (c : Dev nD) : Buf (Elt F) ((c : Thread nD τ).loc main_v37_1) := (datB (rd (VB m)) c).arrAt 5 cfg1.N
/-- Leaving the second region. -/
abbrev VB' (c : Dev nD) : Valuation τ sig (Elt F) :=
  Function.update (Function.update (VB m c) main_v37_0 (xB0 m c)) main_v37_1 (xB1 m c)
/-- Entering the third region: one host stretch later. -/
abbrev VC (c : Dev nD) : Valuation τ sig (Elt F) := StableHlo.after hostOps2 (VB' m c)
/-- What the third region leaves in its output array. -/
def xC (c : Dev nD) : Buf (Elt F) ((c : Thread nD τ).loc main_v41) := (datC (rd (VC m)) c).arrAt 2 cfg2.N
/-- Leaving the third region. -/
abbrev VC' (c : Dev nD) : Valuation τ sig (Elt F) := Function.update (VC m c) main_v41 (xC m c)

/-- What the regions leave, as one table indexed by the array. -/
def outs : Gen.Outs (F := F) := fun _ r c =>
  if h : r = main_v1 then h ▸ xA m c
  else if h : r = main_v37_0 then h ▸ xB0 m c
  else if h : r = main_v37_1 then h ▸ xB1 m c
  else if h : r = main_v41 then h ▸ xC m c
  else m ((c : Thread nD τ).loc r)

theorem outs_v1 (J : ℕ) (c : Dev nD) : outs m J main_v1 c = xA m c := by
  unfold outs; rw [dif_pos rfl]
theorem outs_v37_0 (J : ℕ) (c : Dev nD) : outs m J main_v37_0 c = xB0 m c := by
  unfold outs; rw [dif_neg (by decide), dif_pos rfl]
theorem outs_v37_1 (J : ℕ) (c : Dev nD) : outs m J main_v37_1 c = xB1 m c := by
  unfold outs; rw [dif_neg (by decide), dif_neg (by decide), dif_pos rfl]
theorem outs_v41 (J : ℕ) (c : Dev nD) : outs m J main_v41 c = xC m c := by
  unfold outs; rw [dif_neg (by decide), dif_neg (by decide), dif_neg (by decide), dif_pos rfl]

theorem V2_eq (c : Dev nD) : Gen.V2 m (outs m) c = VA' m c := by
  show Function.update (Gen.V1 m c) main_v1 (outs m 2 main_v1 c) = _
  rw [outs_v1]
theorem V5_eq (c : Dev nD) : Gen.V5 m (outs m) c = VB m c := by
  show StableHlo.after hostOps1_2 (StableHlo.after hostOps1_1 (StableHlo.after hostOps1 (Gen.V2 m (outs m) c))) = _
  rw [V2_eq]
theorem V6_eq (c : Dev nD) : Gen.V6 m (outs m) c = VB' m c := by
  show Function.update (Function.update (Gen.V5 m (outs m) c) main_v37_0 (outs m 6 main_v37_0 c)) main_v37_1 (outs m 6 main_v37_1 c) = _
  rw [V5_eq, outs_v37_0, outs_v37_1]
theorem V7_eq (c : Dev nD) : Gen.V7 m (outs m) c = VC m c := by
  show StableHlo.after hostOps2 (Gen.V6 m (outs m) c) = _
  rw [V6_eq]
theorem V8_eq (c : Dev nD) : Gen.V8 m (outs m) c = VC' m c := by
  show Function.update (Gen.V7 m (outs m) c) main_v41 (outs m 8 main_v41 c) = _
  rw [V7_eq, outs_v41]

/-- Changing one buffer's contents leaves the others', -/
theorem upd_ne {β : DevRef τ sig → Type} (W : ∀ b, β b) (r r' : Ref sig .tc) (h : r ≠ r') (v : β (Proc.devRef .tc r')) :
    Function.update W (Proc.devRef .tc r') v (Proc.devRef .tc r) = W (Proc.devRef .tc r) :=
  Function.update_of_ne (StableHlo.devRef_ne_of_ne h) _ _
/-- and sets its own. -/
theorem upd_eq {β : DevRef τ sig → Type} (W : ∀ b, β b) (r' : Ref sig .tc) (v : β (Proc.devRef .tc r')) :
    Function.update W (Proc.devRef .tc r') v (Proc.devRef .tc r') = v :=
  Function.update_self _ _ _

/-! ## Each region's arrays at its exit -/

theorem exitA (c : Dev nD) (w : Fin cfg0.W) : (datA (rd (VA m)) c).arrAt w cfg0.N = rd (VA' m) c (Pipeline.arrRef spec0 w) := by
  match w with
  | ⟨0, _⟩ => exact ((datA (rd (VA m)) c).arrAt_in 0 rfl _).trans ((datA_A (rd (VA m)) c 0).trans (upd_ne (VA m c) main_v0 main_v1 (by decide) (xA m c)).symm)
  | ⟨1, _⟩ => exact ((datA (rd (VA m)) c).arrAt_in 1 rfl _).trans ((datA_A (rd (VA m)) c 1).trans (upd_ne (VA m c) main_arg1 main_v1 (by decide) (xA m c)).symm)
  | ⟨2, _⟩ => exact (upd_eq (VA m c) main_v1 (xA m c)).symm
theorem restA (c : Dev nD) : ∀ b, b ∉ Finset.univ.image (Pipeline.arrRef spec0) → rd (VA' m) c b = rd (VA m) c b :=
  fun b hb => upd_ne (VA m c) b main_v1 (fun e => hb (Finset.mem_image.mpr ⟨2, Finset.mem_univ _, e.symm⟩)) (xA m c)

theorem exitB (c : Dev nD) (w : Fin cfg1.W) : (datB (rd (VB m)) c).arrAt w cfg1.N = rd (VB' m) c (Pipeline.arrRef spec1 w) := by
  match w with
  | ⟨0, _⟩ => exact ((datB (rd (VB m)) c).arrAt_in 0 rfl _).trans ((datB_A (rd (VB m)) c 0).trans (((upd_ne _ main_arg0 main_v37_1 (by decide) (xB1 m c)).trans (upd_ne (VB m c) main_arg0 main_v37_0 (by decide) (xB0 m c))).symm))
  | ⟨1, _⟩ => exact ((datB (rd (VB m)) c).arrAt_in 1 rfl _).trans ((datB_A (rd (VB m)) c 1).trans (((upd_ne _ main_v32 main_v37_1 (by decide) (xB1 m c)).trans (upd_ne (VB m c) main_v32 main_v37_0 (by decide) (xB0 m c))).symm))
  | ⟨2, _⟩ => exact ((datB (rd (VB m)) c).arrAt_in 2 rfl _).trans ((datB_A (rd (VB m)) c 2).trans (((upd_ne _ main_v35 main_v37_1 (by decide) (xB1 m c)).trans (upd_ne (VB m c) main_v35 main_v37_0 (by decide) (xB0 m c))).symm))
  | ⟨3, _⟩ => exact ((datB (rd (VB m)) c).arrAt_in 3 rfl _).trans ((datB_A (rd (VB m)) c 3).trans (((upd_ne _ main_v36 main_v37_1 (by decide) (xB1 m c)).trans (upd_ne (VB m c) main_v36 main_v37_0 (by decide) (xB0 m c))).symm))
  | ⟨4, _⟩ => exact ((upd_ne _ main_v37_0 main_v37_1 (by decide) (xB1 m c)).trans (upd_eq (VB m c) main_v37_0 (xB0 m c))).symm
  | ⟨5, _⟩ => exact (upd_eq (Function.update (VB m c) (Proc.devRef .tc main_v37_0) (xB0 m c)) main_v37_1 (xB1 m c)).symm
theorem restB (c : Dev nD) : ∀ b, b ∉ Finset.univ.image (Pipeline.arrRef spec1) → rd (VB' m) c b = rd (VB m) c b :=
  fun b hb => (upd_ne _ b main_v37_1 (fun e => hb (Finset.mem_image.mpr ⟨5, Finset.mem_univ _, e.symm⟩)) (xB1 m c)).trans
    (upd_ne (VB m c) b main_v37_0 (fun e => hb (Finset.mem_image.mpr ⟨4, Finset.mem_univ _, e.symm⟩)) (xB0 m c))

theorem exitC (c : Dev nD) (w : Fin cfg2.W) : (datC (rd (VC m)) c).arrAt w cfg2.N = rd (VC' m) c (Pipeline.arrRef spec2 w) := by
  match w with
  | ⟨0, _⟩ => exact ((datC (rd (VC m)) c).arrAt_in 0 rfl _).trans ((datC_A (rd (VC m)) c 0).trans (upd_ne (VC m c) main_v40 main_v41 (by decide) (xC m c)).symm)
  | ⟨1, _⟩ => exact ((datC (rd (VC m)) c).arrAt_in 1 rfl _).trans ((datC_A (rd (VC m)) c 1).trans (upd_ne (VC m c) main_arg4 main_v41 (by decide) (xC m c)).symm)
  | ⟨2, _⟩ => exact (upd_eq (VC m c) main_v41 (xC m c)).symm
theorem restC (c : Dev nD) : ∀ b, b ∉ Finset.univ.image (Pipeline.arrRef spec2) → rd (VC' m) c b = rd (VC m) c b :=
  fun b hb => upd_ne (VC m c) b main_v41 (fun e => hb (Finset.mem_image.mpr ⟨2, Finset.mem_univ _, e.symm⟩)) (xC m c)

/-! ## The regions as segments of the run -/

/-- Every region's proof data, each at its region's entry contents. -/
def pdats : (p : Fin 3) → (c : Dev nD) → Dat τ (Elt F) Unit ℕ (UR sig nD τ) ℕ (cfgs p) c
  | ⟨0, _⟩ => fun c => datA (rd (VA m)) c
  | ⟨1, _⟩ => fun c => datB (rd (VB m)) c
  | ⟨2, _⟩ => fun c => datC (rd (VC m)) c

/-- No core owes another anything. -/
abbrev Lz : GSem nD τ sig → Finset Unit := fun _ => ∅
abbrev lvz : GSem nD τ sig → Unit → ℕ := fun _ _ => 0
/-- What rides beside the buffers through every segment: the generator register at some state, nothing owed. -/
abbrev Rz (c : Dev nD) : sProp 𝕄 := iprop((∃ r, prngReg c r) ∗ ∃ W, owes (c : Thread nD τ) (0 : CellTallies nD τ sig Unit) W)

set_option backward.isDefEq.respectTransparency.types false in
def regA : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (obligationA (rd (VA m)) c).loose
  hwaits := Pipeline.hwaits_of_owed_zero _ _ _ _ Lz lvz 0 fun _ _ => rfl
  pre c := iprop(StableHlo.held (c : Thread nD τ) (Pipeline.ucRefs τ sig) (VA m c) ∗ Rz c)
  post c := iprop(StableHlo.held (c : Thread nD τ) (Pipeline.ucRefs τ sig) (VA' m c) ∗ Rz c)
  X c := iprop(∃ r, prngReg c r)
  Y c := iprop(∃ r, prngReg c r)
  Z c := Pipeline.unscopedRest (Ix := Unit) (Name := ℕ) (U := UR sig nD τ) (Lvl := ℕ) spec0 c (rd (VA m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (VA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Entails.of_eq (show Pipeline.ΦA spec0 c = (pdats m 0 c).Φ 0 from rfl))
    unfold Pipeline.ΦA
    iintro ⟨Hp, -, Hr⟩
    isplitl [Hr]; · iexact Hr
    iexact Hp
  hout c := by
    rw [Pipeline.ownSems0_none]
    refine Idealize.SL.BI.BIBase.Entails.trans (Entails.of_eq (show (pdats m 0 c).Φ (Fin.last _) = Pipeline.ΦA spec0 c from rfl)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (VA m) c) (rd (VA' m) c) ((pdats m 0 c).arrAt · cfg0.N) (exitA m c) (restA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (obligationB (rd (VB m)) c).loose
  hwaits := Pipeline.hwaits_of_owed_zero _ _ _ _ Lz lvz 1 fun _ _ => rfl
  pre c := iprop(StableHlo.held (c : Thread nD τ) (Pipeline.ucRefs τ sig) (VB m c) ∗ Rz c)
  post c := iprop(StableHlo.held (c : Thread nD τ) (Pipeline.ucRefs τ sig) (VB' m c) ∗ Rz c)
  X c := iprop(∃ r, prngReg c r)
  Y c := iprop(∃ r, prngReg c r)
  Z c := Pipeline.unscopedRest (Ix := Unit) (Name := ℕ) (U := UR sig nD τ) (Lvl := ℕ) spec1 c (rd (VB m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (VB m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Entails.of_eq (show Pipeline.ΦA spec1 c = (pdats m 1 c).Φ 0 from rfl))
    unfold Pipeline.ΦA
    iintro ⟨Hp, -, Hr⟩
    isplitl [Hr]; · iexact Hr
    iexact Hp
  hout c := by
    rw [Pipeline.ownSems0_none]
    refine Idealize.SL.BI.BIBase.Entails.trans (Entails.of_eq (show (pdats m 1 c).Φ (Fin.last _) = Pipeline.ΦA spec1 c from rfl)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (VB m) c) (rd (VB' m) c) ((pdats m 1 c).arrAt · cfg1.N) (exitB m c) (restB m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regC : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (obligationC (rd (VC m)) c).loose
  hwaits := Pipeline.hwaits_of_owed_zero _ _ _ _ Lz lvz 2 fun _ _ => rfl
  pre c := iprop(StableHlo.held (c : Thread nD τ) (Pipeline.ucRefs τ sig) (VC m c) ∗ Rz c)
  post c := iprop(StableHlo.held (c : Thread nD τ) (Pipeline.ucRefs τ sig) (VC' m c) ∗ Rz c)
  X c := iprop(∃ r, prngReg c r)
  Y c := iprop(∃ r, prngReg c r)
  Z c := Pipeline.unscopedRest (Ix := Unit) (Name := ℕ) (U := UR sig nD τ) (Lvl := ℕ) spec2 c (rd (VC m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (VC m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enterC (rd (VC m)) c)
    unfold Pipeline.ΦA
    iintro ⟨Hp, -, Hr⟩
    isplitl [Hr]; · iexact Hr
    iexact Hp
  hout c := by
    rw [Pipeline.ownSems0_none]
    refine Idealize.SL.BI.BIBase.Entails.trans (leaveC (rd (VC m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (VC m) c) (rd (VC' m) c) ((pdats m 2 c).arrAt · cfg2.N) (exitC m c) (restC m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program on the TensorCores ends, nothing
    faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, H⟩; iexact H)
    (R0 := regA m) (hpre0 := fun c => .rfl) (hpost0 := fun c => by rw [V2_eq]; exact .rfl)
    (R1 := regB m) (hpre1 := fun c => by rw [V5_eq]; exact .rfl) (hpost1 := fun c => by rw [V6_eq]; exact .rfl)
    (R2 := regC m) (hpre2 := fun c => by rw [V7_eq]; exact .rfl) (hpost2 := fun c => by rw [V8_eq]; exact .rfl)

end Cert.Kernel.Run

end
-- ==== Proof.KI_RegA.lean ====
/-
  The first kernel region: one block of 2048 rows of the flattened input times the whole cluster matrix.

  At grid point t the kernel reads rows [2048 t, 2048 t + 2048) of the [16384, 1024] input (window 0), the whole
  [1024, 64] matrix (window 1, brought in once and kept), and writes the [2048, 64] block of products (window 2).
  The body loads both blocks whole, multiplies, and overwrites the output block whole; so after the body the
  output block is one function of the two input blocks, whatever the block held before.  Stated for any float
  interpretation.
-/
import proofs.«124837_j25666724561114_2_alg».proof.Proof.Gen.KernelIdeal.Launch
import proofs.«124837_j25666724561114_2_alg».proof.Proof.Gen.KernelIdeal.Skeleton
import proofs.«124837_j25666724561114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at grid point `t`, cut out of the window's array as the region finds it. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the block was brought
    in at that point (a block not brought in again has not moved).  Window 0: -/
theorem inputA0_of {c : Dev nD} (dat : Dat τ (Elt F) Unit ℕ (UR sig nD τ) ℕ cfg0 c)
    (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)
/-- and window 1. -/
theorem inputA1_of {c : Dev nD} (dat : Dat τ (Elt F) Unit ℕ (UR sig nD τ) ℕ cfg0 c)
    (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)

/-- The whole output block as one rectangle. -/
abbrev wholeA : Rect S2048x64 := Rect.unit (s := S2048x64) ![0, 0] S2048x64.size inb_S2048x64_S2048x64_0_0
abbrev wholeA0 : Rect S2048x1024 := Rect.unit (s := S2048x1024) ![0, 0] S2048x1024.size inb_S2048x1024_S2048x1024_0_0
abbrev wholeA1 : Rect S1024x64 := Rect.unit (s := S1024x64) ![0, 0] S1024x64.size inb_S1024x64_S1024x64_0_0

/-- What the body leaves in the output block: the product of the two input blocks, stored over the whole block. -/
def outA (x0 : Vec F S2048x1024 .f32) (x1 : Vec F S1024x64 .f32) : Vec F S2048x64 .f32 :=
  View.canon [⟨wholeA, k0_pay1 (View.ld x0 wholeA0) (View.ld x1 wholeA1)⟩]

/-- The one store covers the output block. -/
theorem coverA (p0 : Vec F S2048x64 .f32) (y : S2048x64.Idx) :
    ∃ pc ∈ ([⟨wholeA, p0⟩] : List (View.Piece (Elt F) S2048x64 .f32)), y ∈ pc.1.set :=
  View.cover_of_tiled [⟨wholeA, p0⟩] S2048x64.size (by rfl) y

set_option maxHeartbeats 1000000 in
/-- The body, run on whole staging buffers holding the two input blocks and anything in the output block, ends with
    the inputs as they were and the output block at `outA` of them. -/
theorem bodyA (c : Dev nD) (E : Set ℕ) (i : grid0.Coords)
    (arg1 : Memref sig .tc .vmem S2048x1024 .f32) (harg1 : arg1.IsWhole)
    (arg2 : Memref sig .tc .vmem S1024x64 .f32) (harg2 : arg2.IsWhole)
    (arg3 : Memref sig .tc .vmem S2048x64 .f32) (harg3 : arg3.IsWhole)
    (x0 : Vec F S2048x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outA x0 x1)) -∗ K ⟨⟩))
      ⊢ wp frame (wpE (defs₀ (F := F)) Variants.none c none) E (cc0__cluster_matmul_kernel i arg1 harg1 arg2 harg2 arg3 harg3) K := by
  simp only [cc0__cluster_matmul_kernel_eq_skeleton]; unfold cc0__cluster_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The proof data of this region on core `c`: the arrays as found; after the body each input buffer at its block
    and the output buffer at `outA` of the two input blocks; nothing kept between points but what the pipeline
    itself keeps; nothing owed. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => outA (blockA V c 0 t) (blockA V c 1 t)
  Φ _ := Pipeline.ΦA spec0 c
  q _ := fullShare
  owed _ := 0

theorem datA_A (c : Dev nD) (w : Fin cfg0.W) : (datA V c).A w = V c (Pipeline.arrRef spec0 w) := by
  dsimp only [datA]
theorem afterA_0 (c : Dev nD) (t : Fin cfg0.N) : (datA V c).after 0 t = blockA V c 0 t := by dsimp only [datA]
theorem afterA_1 (c : Dev nD) (t : Fin cfg0.N) : (datA V c).after 1 t = blockA V c 1 t := by dsimp only [datA]
theorem afterA_2 (c : Dev nD) (t : Fin cfg0.N) :
    (datA V c).after 2 t = outA (blockA V c 0 t) (blockA V c 1 t) := by dsimp only [datA]

theorem beforeA_0 (c : Dev nD) (t : Fin cfg0.N) (d) : (datA V c).before 0 t d = blockA V c 0 t :=
  inputA0_of V (datA V c) (datA_A V c 0) (afterA_0 V c) t d
theorem beforeA_1 (c : Dev nD) (t : Fin cfg0.N) (d) : (datA V c).before 1 t d = blockA V c 1 t :=
  inputA1_of V (datA V c) (datA_A V c 1) (afterA_1 V c) t d

/-- What the body is called with at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t))

theorem pointA (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1]
  rw [show (datA V c).Φ t.succ = (datA V c).Φ t.castSucc from rfl,
    show (datA V c).owesAt () t.succ = (datA V c).owesAt () t.castSucc from rfl,
    afterA_0, afterA_1, afterA_2]
  iintro ⟨HΦ, Ho, ⟨%d0, H0⟩, ⟨%d1, H1⟩, ⟨%d2, H2⟩⟩
  iapply (bodyA c Set.univ _ _ _ _ _ _ _ (blockA V c 0 t) (blockA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem obligationA (c : Dev nD) : BodyObligation (datA (F := F) V c) (defs₀ (F := F)) Variants.none () Set.univ := fun t => by
  rw [bigSep_W0, bigSep_W0]
  exact pointA V c t

end Cert.KernelIdeal.Run

end
-- ==== Proof.KI_RegB.lean ====
/-
  The second kernel region: per batch element, both Fisher-vector blocks, normalised.

  At grid point b the kernel reads the [1, 512, 1024] slab of the input (window 0), the [1, 512, 64] slab of soft
  assignments (window 1), and the two [1024, 64] matrices (windows 2 and 3, brought in once and kept); it writes the
  two [1, 1024, 64] output slabs (windows 4 and 5).  The body loads the four input blocks whole, computes, and
  overwrites each output slab whole; so after the body each output slab is one function of the four input blocks,
  whatever it held before.  Stated for any float interpretation.
-/
import proofs.«124837_j25666724561114_2_alg».proof.Proof.Gen.KernelIdeal.Launch
import proofs.«124837_j25666724561114_2_alg».proof.Proof.Gen.KernelIdeal.Skeleton
import proofs.«124837_j25666724561114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The block of window `w` at grid point `t`, cut out of the window's array as the region finds it. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, brought in there or not. -/
theorem inputB0_of {c : Dev nD} (dat : Dat τ (Elt F) Unit ℕ (UR sig nD τ) ℕ cfg1 c)
    (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
/-- Input window 1's staging buffer holds the window's block at every point, brought in there or not. -/
theorem inputB1_of {c : Dev nD} (dat : Dat τ (Elt F) Unit ℕ (UR sig nD τ) ℕ cfg1 c)
    (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)
/-- Input window 2's staging buffer holds the window's block at every point, brought in there or not. -/
theorem inputB2_of {c : Dev nD} (dat : Dat τ (Elt F) Unit ℕ (UR sig nD τ) ℕ cfg1 c)
    (hA : dat.A 2 = V c (Pipeline.arrRef spec1 2))
    (hafter : ∀ t, dat.after 2 t = blockB V c 2 t) (t : Fin cfg1.N) (d) : dat.before 2 t d = blockB V c 2 t :=
  (dat.before_in_eq_fetched 2 rfl (fun _ => rfl) (fun _ _ _ => rfl) (fun t => by rw [hafter]; unfold Dat.blockOf blockB; rw [hA]; try rfl) t d).trans
    (by unfold Dat.fetched Dat.blockOf blockB; rw [hA]; try rfl)
/-- Input window 3's staging buffer holds the window's block at every point, brought in there or not. -/
theorem inputB3_of {c : Dev nD} (dat : Dat τ (Elt F) Unit ℕ (UR sig nD τ) ℕ cfg1 c)
    (hA : dat.A 3 = V c (Pipeline.arrRef spec1 3))
    (hafter : ∀ t, dat.after 3 t = blockB V c 3 t) (t : Fin cfg1.N) (d) : dat.before 3 t d = blockB V c 3 t :=
  (dat.before_in_eq_fetched 3 rfl (fun _ => rfl) (fun _ _ _ => rfl) (fun t => by rw [hafter]; unfold Dat.blockOf blockB; rw [hA]; try rfl) t d).trans
    (by unfold Dat.fetched Dat.blockOf blockB; rw [hA]; try rfl)

/-- Each block as one rectangle. -/
abbrev wholeB0 : Rect S1x512x1024 := Rect.unit (s := S1x512x1024) ![0, 0, 0] S1x512x1024.size inb_S1x512x1024_S1x512x1024_0_0_0
abbrev wholeB1 : Rect S1x512x64 := Rect.unit (s := S1x512x64) ![0, 0, 0] S1x512x64.size inb_S1x512x64_S1x512x64_0_0_0
abbrev wholeB2 : Rect S1024x64 := Rect.unit (s := S1024x64) ![0, 0] S1024x64.size inb_S1024x64_S1024x64_0_0
abbrev wholeBo : Rect S1x1024x64 := Rect.unit (s := S1x1024x64) ![0, 0, 0] S1x1024x64.size inb_S1x1024x64_S1x1024x64_0_0_0

/-- What the body leaves in the first output slab: the normalised first-order block. -/
def outB4 (x0 : Vec F S1x512x1024 .f32) (x1 : Vec F S1x512x64 .f32) (x2 x3 : Vec F S1024x64 .f32) : Vec F S1x1024x64 .f32 :=
  View.canon [⟨wholeBo, k1_pay1 (k1_pay11 (View.ld x0 wholeB0) (View.ld x1 wholeB1) (View.ld x2 wholeB2) (View.ld x3 wholeB2))
    (k1_pay12 (View.ld x0 wholeB0) (View.ld x1 wholeB1) (View.ld x2 wholeB2) (View.ld x3 wholeB2))⟩]
/-- What the body leaves in the second output slab: the normalised second-order block. -/
def outB5 (x0 : Vec F S1x512x1024 .f32) (x1 : Vec F S1x512x64 .f32) (x2 x3 : Vec F S1024x64 .f32) : Vec F S1x1024x64 .f32 :=
  View.canon [⟨wholeBo, k1_pay2 (k1_pay10 (View.ld x0 wholeB0) (View.ld x1 wholeB1) (View.ld x2 wholeB2) (View.ld x3 wholeB2))⟩]

/-- One whole store covers an output slab. -/
theorem coverB (p0 : Vec F S1x1024x64 .f32) (y : S1x1024x64.Idx) :
    ∃ pc ∈ ([⟨wholeBo, p0⟩] : List (View.Piece (Elt F) S1x1024x64 .f32)), y ∈ pc.1.set :=
  View.cover_of_tiled [⟨wholeBo, p0⟩] S1x1024x64.size (by rfl) y

set_option maxHeartbeats 2000000 in
/-- The body, run on whole staging buffers holding the four input blocks and anything in the two output slabs, ends
    with the inputs as they were and the output slabs at `outB4` and `outB5` of them. -/
theorem bodyB (c : Dev nD) (E : Set ℕ) (i : grid1.Coords)
    (arg1 : Memref sig .tc .vmem S1x512x1024 .f32) (harg1 : arg1.IsWhole)
    (arg2 : Memref sig .tc .vmem S1x512x64 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x1024x64 .f32) (harg5 : arg5.IsWhole)
    (arg6 : Memref sig .tc .vmem S1x1024x64 .f32) (harg6 : arg6.IsWhole)
    (x0 : Vec F S1x512x1024 .f32) (x1 : Vec F S1x512x64 .f32) (x2 x3 : Vec F S1024x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outB4 x0 x1 x2 x3)
            ∗ owns (c : Thread nD τ) arg6 fullShare (outB5 x0 x1 x2 x3)) -∗ K ⟨⟩))
      ⊢ wp frame (wpE (defs₀ (F := F)) Variants.none c none) E (cc1__fv_kernel i arg1 harg1 arg2 harg2 arg3 harg3 arg4 harg4 arg5 harg5 arg6 harg6) K := by
  simp only [cc1__fv_kernel_eq_skeleton]; unfold cc1__fv_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  iexists _; isplitr
  swap; · iexact H5
  ipureintro
  exact View.read_writes_eq_canon _ _ _ (coverB _)

/-- The proof data of this region on core `c`: the arrays as found; after the body each input buffer at its block
    and each output slab at its function of the four input blocks; nothing kept between points but what the
    pipeline itself keeps; nothing owed. -/
def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => blockB V c 2 t
    | ⟨3, _⟩ => blockB V c 3 t
    | ⟨4, _⟩ => outB4 (blockB V c 0 t) (blockB V c 1 t) (blockB V c 2 t) (blockB V c 3 t)
    | ⟨5, _⟩ => outB5 (blockB V c 0 t) (blockB V c 1 t) (blockB V c 2 t) (blockB V c 3 t)
  Φ _ := Pipeline.ΦA spec1 c
  q _ := fullShare
  owed _ := 0

theorem datB_A (c : Dev nD) (w : Fin cfg1.W) : (datB V c).A w = V c (Pipeline.arrRef spec1 w) := by
  dsimp only [datB]
theorem afterB_0 (c : Dev nD) (t : Fin cfg1.N) : (datB V c).after 0 t = blockB V c 0 t := by dsimp only [datB]
theorem afterB_1 (c : Dev nD) (t : Fin cfg1.N) : (datB V c).after 1 t = blockB V c 1 t := by dsimp only [datB]
theorem afterB_2 (c : Dev nD) (t : Fin cfg1.N) : (datB V c).after 2 t = blockB V c 2 t := by dsimp only [datB]
theorem afterB_3 (c : Dev nD) (t : Fin cfg1.N) : (datB V c).after 3 t = blockB V c 3 t := by dsimp only [datB]
theorem afterB_4 (c : Dev nD) (t : Fin cfg1.N) :
    (datB V c).after 4 t = outB4 (blockB V c 0 t) (blockB V c 1 t) (blockB V c 2 t) (blockB V c 3 t) := by dsimp only [datB]
theorem afterB_5 (c : Dev nD) (t : Fin cfg1.N) :
    (datB V c).after 5 t = outB5 (blockB V c 0 t) (blockB V c 1 t) (blockB V c 2 t) (blockB V c 3 t) := by dsimp only [datB]

theorem beforeB_0 (c : Dev nD) (t : Fin cfg1.N) (d) : (datB V c).before 0 t d = blockB V c 0 t :=
  inputB0_of V (datB V c) (datB_A V c 0) (afterB_0 V c) t d
theorem beforeB_1 (c : Dev nD) (t : Fin cfg1.N) (d) : (datB V c).before 1 t d = blockB V c 1 t :=
  inputB1_of V (datB V c) (datB_A V c 1) (afterB_1 V c) t d
theorem beforeB_2 (c : Dev nD) (t : Fin cfg1.N) (d) : (datB V c).before 2 t d = blockB V c 2 t :=
  inputB2_of V (datB V c) (datB_A V c 2) (afterB_2 V c) t d
theorem beforeB_3 (c : Dev nD) (t : Fin cfg1.N) (d) : (datB V c).before 3 t d = blockB V c 3 t :=
  inputB3_of V (datB V c) (datB_A V c 3) (afterB_3 V c) t d

/-- What the body is called with at point `t`, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t))

theorem pointB (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3]
  rw [show (datB V c).Φ t.succ = (datB V c).Φ t.castSucc from rfl,
    show (datB V c).owesAt () t.succ = (datB V c).owesAt () t.castSucc from rfl,
    afterB_0, afterB_1, afterB_2, afterB_3, afterB_4, afterB_5]
  iintro ⟨HΦ, Ho, ⟨%d0, H0⟩, ⟨%d1, H1⟩, ⟨%d2, H2⟩, ⟨%d3, H3⟩, ⟨%d4, H4⟩, ⟨%d5, H5⟩⟩
  iapply (bodyB c Set.univ _ _ _ _ _ _ _ _ _ _ _ _ _ (blockB V c 0 t) (blockB V c 1 t) (blockB V c 2 t) (blockB V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this region, at every point. -/
theorem obligationB (c : Dev nD) : BodyObligation (datB (F := F) V c) (defs₀ (F := F)) Variants.none () Set.univ := fun t => by
  rw [bigSep_W1, bigSep_W1]
  exact pointB V c t

end Cert.KernelIdeal.Run

end
-- ==== Proof.KI_RegC.lean ====
/-
  The third kernel region: the concatenated Fisher vector times the hidden weights, one column half at a time,
  accumulated over 64 blocks of 2048 rows.

  The grid is 2 x 64; point t = 64 n + k handles column half n and row block k.  Window 0 is the [32, 2048] block
  k of the left operand, window 1 the [2048, 512] block (k, n) of the right operand, window 2 the [32, 512] output
  block n.  A [32, 512] scratch accumulator lives across the points: at k = 0 it is reset to zero, at every k the
  product of the two blocks is added to it, and at k = 63 it is copied into the output block, which is written
  back only there.  So there are three kinds of points — first, middle, last of a sweep — and what the
  accumulator holds after a point is defined by recursion on the point.  Stated for any float interpretation.
-/
import proofs.«124837_j25666724561114_2_alg».proof.Proof.Gen.KernelIdeal.Launch
import proofs.«124837_j25666724561114_2_alg».proof.Proof.Gen.KernelIdeal.Skeleton
import proofs.«124837_j25666724561114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of point -/

/-- The body's first test: is this the first block of a sweep (k = 0)? -/
abbrev firstC (i : grid2.Coords) : Prop := (Scalar.cmpi .ne (Scalar.extui (Scalar.cmpi .eq (BitVec.ofNat 32 (i 1).val) 0#32)) 0#32) = 1#1
theorem firstC_iff : ∀ t : Fin cfg2.N, firstC (grid2.coords t) ↔ t.val % 64 = 0 :=
  (by decide +kernel : ∀ t : Fin grid2.N, firstC (grid2.coords t) ↔ t.val % 64 = 0)
/-- The body's second test: is this the last block of a sweep (k = 63)? -/
abbrev lastC (i : grid2.Coords) : Prop := k2_cond2 i = 1#1
theorem lastC_iff : ∀ t : Fin cfg2.N, lastC (grid2.coords t) ↔ t.val % 64 = 63 :=
  (by decide +kernel : ∀ t : Fin grid2.N, lastC (grid2.coords t) ↔ t.val % 64 = 63)

/-- The inputs are in use at every point; the output block is in use (and written back) at the last point of a
    sweep only. -/
theorem liveC0 : ∀ t : Fin cfg2.N, cfg2.idle 0 (grid2.coords t) = false := by decide +kernel
theorem liveC1 : ∀ t : Fin cfg2.N, cfg2.idle 1 (grid2.coords t) = false := by decide +kernel
theorem idleC2 : ∀ t : Fin cfg2.N, ¬lastC (grid2.coords t) → cfg2.idle 2 (grid2.coords t) = true := by decide +kernel
theorem noFlushC2 : ∀ t : Fin cfg2.N, ¬lastC (grid2.coords t) → (cfg2.win 2).flush t = false := by decide +kernel
theorem liveC2 : ∀ t : Fin cfg2.N, lastC (grid2.coords t) → cfg2.idle 2 (grid2.coords t) = false := by decide +kernel

/-! ## The buffers the body is called with -/

abbrev msC0 (t : Fin cfg2.N) : Memref sig .tc .vmem S32x2048 .f32 := win2_0.stage (cfg2.slots t 0)
abbrev hsC0 (t : Fin cfg2.N) : (msC0 t).IsWhole := hstage2_0 ((cfg2.slots t 0).cast nbuf2_0)
abbrev msC1 (t : Fin cfg2.N) : Memref sig .tc .vmem S2048x512 .f32 := win2_1.stage (cfg2.slots t 1)
abbrev hsC1 (t : Fin cfg2.N) : (msC1 t).IsWhole := hstage2_1 ((cfg2.slots t 1).cast nbuf2_1)
abbrev msC2 (t : Fin cfg2.N) : Memref sig .tc .vmem S32x512 .f32 := win2_2.stage (cfg2.slots t 2)
abbrev hsC2 (t : Fin cfg2.N) : (msC2 t).IsWhole := hstage2_2 ((cfg2.slots t 2).cast nbuf2_2)
/-- The accumulator. -/
abbrev accM : Memref sig .tc .vmem S32x512 .f32 := Memref.whole cc2_scratch0
abbrev accView : View sig .tc .vmem S32x512 .f32 := accM.view
/-- One staging buffer of the output window, through which its contents are stated. -/
abbrev outView : View sig .tc .vmem S32x512 .f32 := (Memref.whole cc2_stg2_0 : Memref sig .tc .vmem S32x512 .f32).view

/-- The scoped buffers of the other two kernels: this kernel never touches them. -/
abbrev othersC : List (Ref sig .tc) :=
  [cc0_stg0_0, cc0_stg0_1, cc0_stg1_0, cc0_stg2_0, cc0_stg2_1, cc1_stg0_0, cc1_stg0_1, cc1_stg1_0, cc1_stg1_1, cc1_stg2_0, cc1_stg3_0,
   cc1_stg4_0, cc1_stg4_1, cc1_stg5_0, cc1_stg5_1]
def keepC (c : Dev nD) : sProp 𝕄 :=
  bigSepL othersC fun b => iprop(∃ f : Buf (Elt F) ((c.tc : Thread nD τ).loc b), ((c.tc : Thread nD τ).loc b) ↦{fullShare} f)

/-- What the pipeline hands the kernel besides its windows: the accumulator at some contents, the other kernels'
    buffers, the generator register. -/
theorem handedC (c : Dev nD) :
    (Pipeline.ΦA spec2 c : sProp 𝕄)
      = iprop(iprop((∃ d, owns (c : Thread nD τ) accM fullShare d) ∗ keepC c) ∗ (∃ r, prngReg c r)) := by
  unfold Pipeline.ΦA keepC
  rw [Pipeline.scopedRest_eq_of_list spec2 c (cc2_scratch0 :: othersC) (by decide) (by decide), bigSepL_cons]
  simp only [accM, owns_whole]; try rfl

/-! ## The body at each kind of point -/

set_option maxHeartbeats 1000000 in
/-- FIRST point of a sweep: the accumulator is zeroed, then the product of the two blocks is added; nothing is
    stored into the output block, which is handed back as found. -/
noncomputable def runFirst (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i)
    (x0 : Vec F S32x2048 .f32) (x1 : Vec F S2048x512 .f32) :
    Σ' (L2 : List (View.Piece (Elt F) S32x512 .f32)), { LS : List (View.Piece (Elt F) S32x512 .f32) //
      ∀ (xi : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨[], ?_, fun xi E K => ?run⟩
  case run =>
    simp only [cc2__hidden1_kernel_eq_skeleton]; unfold cc2__hidden1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE point: the product of the two blocks is added to what the accumulator held. -/
noncomputable def runMid (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i)
    (x0 : Vec F S32x2048 .f32) (x1 : Vec F S2048x512 .f32) (xs : Vec F S32x512 .f32) :
    Σ' (L2 : List (View.Piece (Elt F) S32x512 .f32)), { LS : List (View.Piece (Elt F) S32x512 .f32) //
      ∀ (xi : Vec F S32x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨[], ?_, fun xi E K => ?run⟩
  case run =>
    simp only [cc2__hidden1_kernel_eq_skeleton]; unfold cc2__hidden1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST point of a sweep: the product is added, and the accumulator is copied over the whole output block. -/
noncomputable def runLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i)
    (x0 : Vec F S32x2048 .f32) (x1 : Vec F S2048x512 .f32) (xs : Vec F S32x512 .f32) :
    Σ' (L2 : List (View.Piece (Elt F) S32x512 .f32)), { LS : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__hidden1_kernel i arg2 harg2 arg3 harg3 arg4 harg4 arg5 harg5) K } := by
  refine ⟨?_, ?_, fun E K => ?run⟩
  case run =>
    simp only [cc2__hidden1_kernel_eq_skeleton]; unfold cc2__hidden1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each kind of point leaves -/

/-- The stores into the accumulator tile it, at every kind of point. -/
theorem coverFirstS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i) (x0 : Vec F S32x2048 .f32) (x1 : Vec F S2048x512 .f32) (y : S32x512.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S32x512.size (by sl_kernel_rfl) y
theorem coverMidS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i) (x0 : Vec F S32x2048 .f32) (x1 : Vec F S2048x512 .f32) (xs : Vec F S32x512 .f32) (y : S32x512.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S32x512.size (by sl_kernel_rfl) y
theorem coverLastS (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) (y : S32x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S32x512.size (by sl_kernel_rfl) y
/-- The one store into the output block at a last point covers it. -/
theorem coverLastO (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) (y : S32x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S32x512.size (by sl_kernel_rfl) y

/-- The accumulator after a first point, -/
def accFirst (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i) (x0 : Vec F S32x2048 .f32) (x1 : Vec F S2048x512 .f32) : Vec F S32x512 .f32 :=
  accView.read (Elt F) (accView.writes (Elt F) accView.junk (runFirst c i arg2 harg2 arg3 harg3 arg4 harg4 arg5 harg5 hc0 hc1 x0 x1).2.1)
/-- after a middle point, -/
def accMid (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i) (x0 : Vec F S32x2048 .f32) (x1 : Vec F S2048x512 .f32) (xs : Vec F S32x512 .f32) : Vec F S32x512 .f32 :=
  accView.read (Elt F) (accView.writes (Elt F) accView.junk (runMid c i arg2 harg2 arg3 harg3 arg4 harg4 arg5 harg5 hc0 hc1 x0 x1 xs).2.1)
/-- after a last point. -/
def accLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) : Vec F S32x512 .f32 :=
  accView.read (Elt F) (accView.writes (Elt F) accView.junk (runLast c i arg2 harg2 arg3 harg3 arg4 harg4 arg5 harg5 hc0 hc1 x0 x1 xs).2.1)
/-- The output block after a last point. -/
def outLast (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) : Vec F S32x512 .f32 :=
  outView.read (Elt F) (outView.writes (Elt F) outView.junk (runLast c i arg2 harg2 arg3 harg3 arg4 harg4 arg5 harg5 hc0 hc1 x0 x1 xs).1)
/-- At the other points nothing is stored into the output block and the block is not written back: a placeholder
    that nothing consults. -/
def outIdle : Vec F S32x512 .f32 := outView.read (Elt F) (outView.writes (Elt F) outView.junk [])

/-! ## The accumulation over the grid -/

-- what the TensorCore's buffers hold when the region is entered
variable (V : (c : Dev nD) → (b : Ref sig .tc) → Buf (Elt F) ((c : Thread nD τ).loc b))

/-- The block of window `w` at grid point `t`, cut out of the window's array as the region finds it. -/
def blockC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem inputC0_of {c : Dev nD} (dat : Dat τ (Elt F) Unit ℕ (UR sig nD τ) ℕ cfg2 c)
    (hA : dat.A 0 = V c (Pipeline.arrRef spec2 0))
    (hafter : ∀ t, dat.after 0 t = blockC V c 0 t) (t : Fin cfg2.N) (d) : dat.before 0 t d = blockC V c 0 t :=
  (dat.before_in_eq_fetched 0 rfl (fun _ => rfl) (fun _ _ _ => rfl) (fun t => by rw [hafter]; unfold Dat.blockOf blockC; rw [hA]; try rfl) t d).trans
    (by unfold Dat.fetched Dat.blockOf blockC; rw [hA]; try rfl)
theorem inputC1_of {c : Dev nD} (dat : Dat τ (Elt F) Unit ℕ (UR sig nD τ) ℕ cfg2 c)
    (hA : dat.A 1 = V c (Pipeline.arrRef spec2 1))
    (hafter : ∀ t, dat.after 1 t = blockC V c 1 t) (t : Fin cfg2.N) (d) : dat.before 1 t d = blockC V c 1 t :=
  (dat.before_in_eq_fetched 1 rfl (fun _ => rfl) (fun _ _ _ => rfl) (fun t => by rw [hafter]; unfold Dat.blockOf blockC; rw [hA]; try rfl) t d).trans
    (by unfold Dat.fetched Dat.blockOf blockC; rw [hA]; try rfl)

/-- What the output block and the accumulator hold after the body at position `n`: the kind of point decides, and
    a middle or last point builds on what the point before left in the accumulator. -/
def leftC (c : Dev nD) : (n : ℕ) → n < cfg2.N → Vec F S32x512 .f32 × Vec F S32x512 .f32
  | 0, hn => (outIdle, accFirst c (grid2.coords ⟨0, hn⟩) (msC0 ⟨0, hn⟩) (hsC0 ⟨0, hn⟩) (msC1 ⟨0, hn⟩) (hsC1 ⟨0, hn⟩) (msC2 ⟨0, hn⟩) (hsC2 ⟨0, hn⟩) accM (Memref.isWhole_whole _) ((firstC_iff ⟨0, hn⟩).mpr (Nat.zero_mod _)) (fun h => (fun h => by (try dsimp only at h); omega) ((lastC_iff ⟨0, hn⟩).mp h)) (blockC V c 0 ⟨0, hn⟩) (blockC V c 1 ⟨0, hn⟩))
  | n + 1, hn =>
    if h0 : (n + 1) % 64 = 0 then
      if h1 : (n + 1) % 64 = 63 then
        False.elim (by omega)
      else
        (outIdle, accFirst c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) ((firstC_iff ⟨n + 1, hn⟩).mpr h0) (fun h => h1 ((lastC_iff ⟨n + 1, hn⟩).mp h)) (blockC V c 0 ⟨n + 1, hn⟩) (blockC V c 1 ⟨n + 1, hn⟩))
    else
      if h1 : (n + 1) % 64 = 63 then
        (outLast c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) ((lastC_iff ⟨n + 1, hn⟩).mpr h1) (blockC V c 0 ⟨n + 1, hn⟩) (blockC V c 1 ⟨n + 1, hn⟩) (leftC c n (Nat.lt_of_succ_lt hn)).2,
         accLast c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) ((lastC_iff ⟨n + 1, hn⟩).mpr h1) (blockC V c 0 ⟨n + 1, hn⟩) (blockC V c 1 ⟨n + 1, hn⟩) (leftC c n (Nat.lt_of_succ_lt hn)).2)
      else
        (outIdle, accMid c (grid2.coords ⟨n + 1, hn⟩) (msC0 ⟨n + 1, hn⟩) (hsC0 ⟨n + 1, hn⟩) (msC1 ⟨n + 1, hn⟩) (hsC1 ⟨n + 1, hn⟩) (msC2 ⟨n + 1, hn⟩) (hsC2 ⟨n + 1, hn⟩) accM (Memref.isWhole_whole _) (fun h => h0 ((firstC_iff ⟨n + 1, hn⟩).mp h)) (fun h => h1 ((lastC_iff ⟨n + 1, hn⟩).mp h)) (blockC V c 0 ⟨n + 1, hn⟩) (blockC V c 1 ⟨n + 1, hn⟩) (leftC c n (Nat.lt_of_succ_lt hn)).2)

theorem leftC_first (c : Dev nD) (t : Fin cfg2.N) (h0 : t.val % 64 = 0) (h1 : ¬t.val % 64 = 63) :
    leftC V c t.val t.isLt = (outIdle, accFirst c (grid2.coords t) (msC0 t) (hsC0 t) (msC1 t) (hsC1 t) (msC2 t) (hsC2 t) accM (Memref.isWhole_whole _) ((firstC_iff t).mpr h0) (fun h => h1 ((lastC_iff t).mp h)) (blockC V c 0 t) (blockC V c 1 t)) := by
  obtain ⟨n, hn⟩ := t
  cases n with
  | zero => exact rfl
  | succ n => exact (dif_pos h0).trans ((dif_neg h1).trans rfl)

theorem leftC_mid (c : Dev nD) (t : Fin cfg2.N) (h0 : ¬t.val % 64 = 0) (h1 : ¬t.val % 64 = 63) :
    leftC V c t.val t.isLt = (outIdle, accMid c (grid2.coords t) (msC0 t) (hsC0 t) (msC1 t) (hsC1 t) (msC2 t) (hsC2 t) accM (Memref.isWhole_whole _) (fun h => h0 ((firstC_iff t).mp h)) (fun h => h1 ((lastC_iff t).mp h)) (blockC V c 0 t) (blockC V c 1 t) (leftC V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem leftC_last (c : Dev nD) (t : Fin cfg2.N) (h0 : ¬t.val % 64 = 0) (h1 : t.val % 64 = 63) :
    leftC V c t.val t.isLt = (outLast c (grid2.coords t) (msC0 t) (hsC0 t) (msC1 t) (hsC1 t) (msC2 t) (hsC2 t) accM (Memref.isWhole_whole _) (fun h => h0 ((firstC_iff t).mp h)) ((lastC_iff t).mpr h1) (blockC V c 0 t) (blockC V c 1 t) (leftC V c (t.val - 1) (Nat.lt_of_le_of_lt (Nat.sub_le _ _) t.isLt)).2,
      accLast c (grid2.coords t) (msC0 t) (hsC0 t) (msC1 t) (hsC1 t) (msC2 t) (hsC2 t) accM (Memref.isWhole_whole _) (fun h => h0 ((firstC_iff t).mp h)) ((lastC_iff t).mpr h1) (blockC V c 0 t) (blockC V c 1 t) (leftC V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the kernel keeps between points: before the first point what the pipeline hands it; afterwards the
    accumulator at what the point before left, the other kernels' buffers, the generator register. -/
def keptC (c : Dev nD) : (n : ℕ) → n ≤ cfg2.N → sProp 𝕄
  | 0, _ => Pipeline.ΦA spec2 c
  | n + 1, hn => iprop(iprop(owns (c : Thread nD τ) accM fullShare ((leftC V c n hn).2) ∗ keepC c) ∗ (∃ r, prngReg c r))

theorem keptC_zero (c : Dev nD) (n : ℕ) (h : n ≤ cfg2.N) (hz : n = 0) : keptC V c n h = Pipeline.ΦA spec2 c := by
  subst hz; rfl
theorem keptC_succ (c : Dev nD) (n : ℕ) (hn : n < cfg2.N) :
    keptC V c (n + 1) hn = iprop(iprop(owns (c : Thread nD τ) accM fullShare ((leftC V c n hn).2) ∗ keepC c) ∗ (∃ r, prngReg c r)) := rfl
theorem keptC_pos (c : Dev nD) (n : ℕ) (h : n ≤ cfg2.N) (hz : n ≠ 0) :
    keptC V c n h = iprop(iprop(owns (c : Thread nD τ) accM fullShare ((leftC V c (n - 1) (by omega)).2) ∗ keepC c) ∗ (∃ r, prngReg c r)) := by
  cases n with
  | zero => exact absurd rfl hz
  | succ n => rfl

/-! ## The proof data and the body obligation -/

def datC (c : Dev nD) : Dat τ (Elt F) Unit ℕ (UR sig nD τ) ℕ cfg2 c where
  A w := V c (Pipeline.arrRef spec2 w)
  after w t := match w with
    | ⟨0, _⟩ => blockC V c 0 t
    | ⟨1, _⟩ => blockC V c 1 t
    | ⟨2, _⟩ => (leftC V c t.val t.isLt).1
  Φ t := keptC V c t.val (Nat.le_of_lt_succ t.isLt)
  q _ := fullShare
  owed _ := 0

theorem datC_A (c : Dev nD) (w : Fin cfg2.W) : (datC V c).A w = V c (Pipeline.arrRef spec2 w) := by
  dsimp only [datC]
theorem keptC_castSucc (c : Dev nD) (t : Fin cfg2.N) :
    (datC V c).Φ t.castSucc = keptC V c t.val (Nat.le_of_lt t.isLt) := by
  dsimp only [datC]; simp only [Fin.coe_castSucc]
theorem afterC_0 (c : Dev nD) (t : Fin cfg2.N) : (datC V c).after 0 t = blockC V c 0 t := by dsimp only [datC]
theorem afterC_1 (c : Dev nD) (t : Fin cfg2.N) : (datC V c).after 1 t = blockC V c 1 t := by dsimp only [datC]
theorem afterC_2 (c : Dev nD) (t : Fin cfg2.N) : (datC V c).after 2 t = (leftC V c t.val t.isLt).1 := by dsimp only [datC]
theorem beforeC_0 (c : Dev nD) (t : Fin cfg2.N) (d) : (datC V c).before 0 t d = blockC V c 0 t :=
  inputC0_of V (datC V c) (datC_A V c 0) (afterC_0 V c) t d
theorem beforeC_1 (c : Dev nD) (t : Fin cfg2.N) (d) : (datC V c).before 1 t d = blockC V c 1 t :=
  inputC1_of V (datC V c) (datC_A V c 1) (afterC_1 V c) t d

def preC (c : Dev nD) (t : Fin cfg2.N) : sProp 𝕄 :=
  iprop((datC V c).Φ t.castSucc ∗ (datC V c).owesAt () t.castSucc
    ∗ (∃ d, owns (c : Thread nD τ) (msC0 t) fullShare ((datC V c).before 0 t d))
    ∗ (∃ d, owns (c : Thread nD τ) (msC1 t) fullShare ((datC V c).before 1 t d))
    ∗ (∃ d, owns (c : Thread nD τ) (msC2 t) fullShare ((datC V c).before 2 t d)))

def postC (c : Dev nD) (t : Fin cfg2.N) : sProp 𝕄 :=
  iprop((datC V c).Φ t.succ ∗ (datC V c).owesAt () t.succ
    ∗ (datC V c).leavesExact 0 t
    ∗ (datC V c).leavesExact 1 t
    ∗ (datC V c).leavesExact 2 t)

set_option maxHeartbeats 4800000 in
theorem pointC (c : Dev nD) (t : Fin cfg2.N) :
    preC V c t ⊢ wp frame (wpE (defs₀ (F := F)) Variants.none c none) Set.univ (bodyAt2 t) (fun _ => postC V c t) := by
  unfold preC postC bodyAt2
  simp only [beforeC_0, beforeC_1]
  rw [show (datC V c).owesAt () t.succ = (datC V c).owesAt () t.castSucc from rfl]
  rw [show (datC V c).Φ t.succ = keptC V c (t.val + 1) t.isLt from rfl, keptC_succ]
  have hN : t.val < 128 := lt_of_lt_of_eq t.isLt (show cfg2.N = 128 from N_2)
  rw [show (datC V c).leavesExact 0 t = owns (c : Thread nD τ) (msC0 t) fullShare ((datC V c).after 0 t) from by
    unfold Dat.leavesExact; rw [liveC0 t], afterC_0]
  rw [show (datC V c).leavesExact 1 t = owns (c : Thread nD τ) (msC1 t) fullShare ((datC V c).after 1 t) from by
    unfold Dat.leavesExact; rw [liveC1 t], afterC_1]
  by_cases h0 : t.val % 64 = 0
  · have h1 : ¬t.val % 64 = 63 := by omega
    rw [Dat.leavesExact_idle (datC V c) 2 t (idleC2 t (fun h => h1 ((lastC_iff t).mp h))) (noFlushC2 t (fun h => h1 ((lastC_iff t).mp h)))]
    rw [leftC_first V c t h0 h1]
    unfold accFirst; (try dsimp only)
    by_cases hz : t.val = 0
    · rw [keptC_castSucc V c t, keptC_zero V c _ _ hz, handedC]
      iintro ⟨⟨⟨HS, Hkeep⟩, Hg⟩, Ho, ⟨%d0, H0⟩, ⟨%d1, H1⟩, ⟨%d2, H2⟩⟩
      iapply ((runFirst c (grid2.coords t) _ _ _ _ _ _ _ _ ((firstC_iff t).mpr h0) (fun h => h1 ((lastC_iff t).mp h)) (blockC V c 0 t) (blockC V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverFirstS c _ _ _ _ _ _ _ _ _ _ _ _ _)
          iexact Hkeep
        iexact Hg
      isplitl [Ho]; · iexact Ho
      isplitl [H0]; · iexact H0
      isplitl [H1]; · iexact H1
      iexists _; iexact H2
    · rw [keptC_castSucc V c t, keptC_pos V c _ _ hz]
      iintro ⟨⟨⟨HS, Hkeep⟩, Hg⟩, Ho, ⟨%d0, H0⟩, ⟨%d1, H1⟩, ⟨%d2, H2⟩⟩
      iapply ((runFirst c (grid2.coords t) _ _ _ _ _ _ _ _ ((firstC_iff t).mpr h0) (fun h => h1 ((lastC_iff t).mp h)) (blockC V c 0 t) (blockC V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverFirstS c _ _ _ _ _ _ _ _ _ _ _ _ _)
          iexact Hkeep
        iexact Hg
      isplitl [Ho]; · iexact Ho
      isplitl [H0]; · iexact H0
      isplitl [H1]; · iexact H1
      iexists _; iexact H2
  · have hz : t.val ≠ 0 := fun e => h0 (by rw [e])
    by_cases h1 : t.val % 64 = 63
    · rw [show (datC V c).leavesExact 2 t = owns (c : Thread nD τ) (msC2 t) fullShare ((datC V c).after 2 t) from by
        unfold Dat.leavesExact; rw [liveC2 t ((lastC_iff t).mpr h1)], afterC_2]
      rw [leftC_last V c t h0 h1]
      unfold outLast accLast; (try dsimp only)
      rw [keptC_castSucc V c t, keptC_pos V c _ _ hz]
      iintro ⟨⟨⟨HS, Hkeep⟩, Hg⟩, Ho, ⟨%d0, H0⟩, ⟨%d1, H1⟩, ⟨%d2, H2⟩⟩
      iapply ((runLast c (grid2.coords t) _ _ _ _ _ _ _ _ (fun h => h0 ((firstC_iff t).mp h)) ((lastC_iff t).mpr h1) (blockC V c 0 t) (blockC V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hkeep Hg]
      · isplitl [HS Hkeep]
        · isplitl [HS]
          · unfold owns; iexists _; isplitr
            swap; · iexact HS
            ipureintro; exact View.read_writes_of_cover _ _ _ _ _ (coverLastS c _ _ _ _ _ _ _ _ _ _ _ _ _ _)
          iexact Hkeep
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · rw [Dat.leavesExact_idle (datC V c) 2 t (idleC2 t (fun h => h1 ((lastC_iff t).mp h))) (noFlushC2 t (fun h => h1 ((lastC_iff t).mp h)))]
      rw [leftC_mid V c t h0 h1]
      unfold accMid; (try dsimp only)
      rw [keptC_castSucc V c t, keptC_pos V c _ _ hz]
      iintro ⟨⟨⟨HS, Hkeep⟩, Hg⟩, Ho, ⟨%d0, H0⟩, ⟨%d1, H1⟩, ⟨%d2, H2⟩⟩
      iapply ((runMid c (grid2.coords t) _ _ _ _ _ _ _ _ (fun h => h0 ((firstC_iff t).mp h)) (fun h => h1 ((lastC_iff t).mp h)) (blockC V c 0 t) (blockC V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hkeep Hg]
      · isplitl [HS Hkeep]
        · isplitl [HS]
          · unfold owns; iexists _; isplitr
            swap; · iexact HS
            ipureintro; exact View.read_writes_of_cover _ _ _ _ _ (coverMidS c _ _ _ _ _ _ _ _ _ _ _ _ _ _)
          iexact Hkeep
        iexact Hg
      isplitl [Ho]; · iexact Ho
      isplitl [H0]; · iexact H0
      isplitl [H1]; · iexact H1
      iexists _; iexact H2

/-- The body obligation of this region, at every point. -/
theorem obligationC (c : Dev nD) : BodyObligation (datC (F := F) V c) (defs₀ (F := F)) Variants.none () Set.univ := fun t => by
  rw [bigSep_W2, bigSep_W2]
  exact pointC V c t

/-- What the pipeline hands the kernel is what it keeps before the first point, -/
theorem enterC (c : Dev nD) : Pipeline.ΦA spec2 c ⊢ (datC V c).Φ 0 := by
  rw [show (datC V c).Φ 0 = keptC V c 0 (Nat.zero_le _) from rfl, keptC_zero V c 0 _ rfl]
  try exact Idealize.SL.BI.Entails.refl _

/-- and after the last point it gives the same back, the accumulator's contents forgotten. -/
theorem leaveC (c : Dev nD) : (datC V c).Φ (Fin.last cfg2.N) ⊢ Pipeline.ΦA spec2 c := by
  rw [show (datC V c).Φ (Fin.last cfg2.N) = keptC V c (Fin.last cfg2.N).val (Nat.le_of_lt_succ (Fin.last cfg2.N).isLt) from rfl,
    keptC_pos V c _ _ (by rw [Fin.val_last]; have : cfg2.N = 128 := N_2; omega), handedC]
  iintro ⟨⟨HS, Hkeep⟩, Hg⟩
  isplitl [HS Hkeep]
  · isplitl [HS]
    · iexists _; iexact HS
    iexact Hkeep
  iexact Hg

end Cert.KernelIdeal.Run

end
-- ==== Proof.KI_Run.lean ====
/-
  The whole run of the program on the TensorCore: host operations, the first kernel region, host operations, the
  second region, host operations, the third region, host operations.

  The contents of every buffer outside the kernels' own are followed from the launch through the eleven stretches:
  a stretch of host operations applies them to what it finds; a kernel region leaves every buffer as found except
  its output arrays, which end at what the region's write-backs leave.  Each region enters from and leaves to the
  state "every such buffer at its current contents, the generator register at some state, nothing owed".  From the
  three regions' records the frame follows: the program ends, nothing faults, and every argument array is as
  launched.  Stated for any float interpretation.
-/
import proofs.«124837_j25666724561114_2_alg».proof.Proof.KI_RegA
import proofs.«124837_j25666724561114_2_alg».proof.Proof.KI_RegB
import proofs.«124837_j25666724561114_2_alg».proof.Proof.KI_RegC
import proofs.«124837_j25666724561114_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Buffer contents read at the TensorCore's references. -/
abbrev rd (W : Dev nD → Valuation τ sig (Elt F)) : (c : Dev nD) → (b : Ref sig .tc) → Buf (Elt F) ((c : Thread nD τ).loc b) :=
  fun c b => W c b

/-! ## The buffers' contents from stretch to stretch -/

/-- Entering the first region: the launch contents after the first host stretch. -/
abbrev VA (c : Dev nD) : Valuation τ sig (Elt F) := Gen.V1 m c
/-- What the first region leaves in its output array. -/
def xA (c : Dev nD) : Buf (Elt F) ((c : Thread nD τ).loc main_v1) := (datA (rd (VA m)) c).arrAt 2 cfg0.N
/-- Leaving the first region. -/
abbrev VA' (c : Dev nD) : Valuation τ sig (Elt F) := Function.update (VA m c) main_v1 (xA m c)
/-- Entering the second region: three host stretches later. -/
abbrev VB (c : Dev nD) : Valuation τ sig (Elt F) :=
  StableHlo.after hostOps1_2 (StableHlo.after hostOps1_1 (StableHlo.after hostOps1 (VA' m c)))
/-- What the second region leaves in its two output arrays. -/
def xB0 (c : Dev nD) : Buf (Elt F) ((c : Thread nD τ).loc main_v37_0) := (datB (rd (VB m)) c).arrAt 4 cfg1.N
def xB1 (c : Dev nD) : Buf (Elt F) ((c : Thread nD τ).loc main_v37_1) := (datB (rd (VB m)) c).arrAt 5 cfg1.N
/-- Leaving the second region. -/
abbrev VB' (c : Dev nD) : Valuation τ sig (Elt F) :=
  Function.update (Function.update (VB m c) main_v37_0 (xB0 m c)) main_v37_1 (xB1 m c)
/-- Entering the third region: one host stretch later. -/
abbrev VC (c : Dev nD) : Valuation τ sig (Elt F) := StableHlo.after hostOps2 (VB' m c)
/-- What the third region leaves in its output array. -/
def xC (c : Dev nD) : Buf (Elt F) ((c : Thread nD τ).loc main_v41) := (datC (rd (VC m)) c).arrAt 2 cfg2.N
/-- Leaving the third region. -/
abbrev VC' (c : Dev nD) : Valuation τ sig (Elt F) := Function.update (VC m c) main_v41 (xC m c)

/-- What the regions leave, as one table indexed by the array. -/
def outs : Gen.Outs (F := F) := fun _ r c =>
  if h : r = main_v1 then h ▸ xA m c
  else if h : r = main_v37_0 then h ▸ xB0 m c
  else if h : r = main_v37_1 then h ▸ xB1 m c
  else if h : r = main_v41 then h ▸ xC m c
  else m ((c : Thread nD τ).loc r)

theorem outs_v1 (J : ℕ) (c : Dev nD) : outs m J main_v1 c = xA m c := by
  unfold outs; rw [dif_pos rfl]
theorem outs_v37_0 (J : ℕ) (c : Dev nD) : outs m J main_v37_0 c = xB0 m c := by
  unfold outs; rw [dif_neg (by decide), dif_pos rfl]
theorem outs_v37_1 (J : ℕ) (c : Dev nD) : outs m J main_v37_1 c = xB1 m c := by
  unfold outs; rw [dif_neg (by decide), dif_neg (by decide), dif_pos rfl]
theorem outs_v41 (J : ℕ) (c : Dev nD) : outs m J main_v41 c = xC m c := by
  unfold outs; rw [dif_neg (by decide), dif_neg (by decide), dif_neg (by decide), dif_pos rfl]

theorem V2_eq (c : Dev nD) : Gen.V2 m (outs m) c = VA' m c := by
  show Function.update (Gen.V1 m c) main_v1 (outs m 2 main_v1 c) = _
  rw [outs_v1]
theorem V5_eq (c : Dev nD) : Gen.V5 m (outs m) c = VB m c := by
  show StableHlo.after hostOps1_2 (StableHlo.after hostOps1_1 (StableHlo.after hostOps1 (Gen.V2 m (outs m) c))) = _
  rw [V2_eq]
theorem V6_eq (c : Dev nD) : Gen.V6 m (outs m) c = VB' m c := by
  show Function.update (Function.update (Gen.V5 m (outs m) c) main_v37_0 (outs m 6 main_v37_0 c)) main_v37_1 (outs m 6 main_v37_1 c) = _
  rw [V5_eq, outs_v37_0, outs_v37_1]
theorem V7_eq (c : Dev nD) : Gen.V7 m (outs m) c = VC m c := by
  show StableHlo.after hostOps2 (Gen.V6 m (outs m) c) = _
  rw [V6_eq]
theorem V8_eq (c : Dev nD) : Gen.V8 m (outs m) c = VC' m c := by
  show Function.update (Gen.V7 m (outs m) c) main_v41 (outs m 8 main_v41 c) = _
  rw [V7_eq, outs_v41]

/-- Changing one buffer's contents leaves the others', -/
theorem upd_ne {β : DevRef τ sig → Type} (W : ∀ b, β b) (r r' : Ref sig .tc) (h : r ≠ r') (v : β (Proc.devRef .tc r')) :
    Function.update W (Proc.devRef .tc r') v (Proc.devRef .tc r) = W (Proc.devRef .tc r) :=
  Function.update_of_ne (StableHlo.devRef_ne_of_ne h) _ _
/-- and sets its own. -/
theorem upd_eq {β : DevRef τ sig → Type} (W : ∀ b, β b) (r' : Ref sig .tc) (v : β (Proc.devRef .tc r')) :
    Function.update W (Proc.devRef .tc r') v (Proc.devRef .tc r') = v :=
  Function.update_self _ _ _

/-! ## Each region's arrays at its exit -/

theorem exitA (c : Dev nD) (w : Fin cfg0.W) : (datA (rd (VA m)) c).arrAt w cfg0.N = rd (VA' m) c (Pipeline.arrRef spec0 w) := by
  match w with
  | ⟨0, _⟩ => exact ((datA (rd (VA m)) c).arrAt_in 0 rfl _).trans ((datA_A (rd (VA m)) c 0).trans (upd_ne (VA m c) main_v0 main_v1 (by decide) (xA m c)).symm)
  | ⟨1, _⟩ => exact ((datA (rd (VA m)) c).arrAt_in 1 rfl _).trans ((datA_A (rd (VA m)) c 1).trans (upd_ne (VA m c) main_arg1 main_v1 (by decide) (xA m c)).symm)
  | ⟨2, _⟩ => exact (upd_eq (VA m c) main_v1 (xA m c)).symm
theorem restA (c : Dev nD) : ∀ b, b ∉ Finset.univ.image (Pipeline.arrRef spec0) → rd (VA' m) c b = rd (VA m) c b :=
  fun b hb => upd_ne (VA m c) b main_v1 (fun e => hb (Finset.mem_image.mpr ⟨2, Finset.mem_univ _, e.symm⟩)) (xA m c)

theorem exitB (c : Dev nD) (w : Fin cfg1.W) : (datB (rd (VB m)) c).arrAt w cfg1.N = rd (VB' m) c (Pipeline.arrRef spec1 w) := by
  match w with
  | ⟨0, _⟩ => exact ((datB (rd (VB m)) c).arrAt_in 0 rfl _).trans ((datB_A (rd (VB m)) c 0).trans (((upd_ne _ main_arg0 main_v37_1 (by decide) (xB1 m c)).trans (upd_ne (VB m c) main_arg0 main_v37_0 (by decide) (xB0 m c))).symm))
  | ⟨1, _⟩ => exact ((datB (rd (VB m)) c).arrAt_in 1 rfl _).trans ((datB_A (rd (VB m)) c 1).trans (((upd_ne _ main_v32 main_v37_1 (by decide) (xB1 m c)).trans (upd_ne (VB m c) main_v32 main_v37_0 (by decide) (xB0 m c))).symm))
  | ⟨2, _⟩ => exact ((datB (rd (VB m)) c).arrAt_in 2 rfl _).trans ((datB_A (rd (VB m)) c 2).trans (((upd_ne _ main_v35 main_v37_1 (by decide) (xB1 m c)).trans (upd_ne (VB m c) main_v35 main_v37_0 (by decide) (xB0 m c))).symm))
  | ⟨3, _⟩ => exact ((datB (rd (VB m)) c).arrAt_in 3 rfl _).trans ((datB_A (rd (VB m)) c 3).trans (((upd_ne _ main_v36 main_v37_1 (by decide) (xB1 m c)).trans (upd_ne (VB m c) main_v36 main_v37_0 (by decide) (xB0 m c))).symm))
  | ⟨4, _⟩ => exact ((upd_ne _ main_v37_0 main_v37_1 (by decide) (xB1 m c)).trans (upd_eq (VB m c) main_v37_0 (xB0 m c))).symm
  | ⟨5, _⟩ => exact (upd_eq (Function.update (VB m c) (Proc.devRef .tc main_v37_0) (xB0 m c)) main_v37_1 (xB1 m c)).symm
theorem restB (c : Dev nD) : ∀ b, b ∉ Finset.univ.image (Pipeline.arrRef spec1) → rd (VB' m) c b = rd (VB m) c b :=
  fun b hb => (upd_ne _ b main_v37_1 (fun e => hb (Finset.mem_image.mpr ⟨5, Finset.mem_univ _, e.symm⟩)) (xB1 m c)).trans
    (upd_ne (VB m c) b main_v37_0 (fun e => hb (Finset.mem_image.mpr ⟨4, Finset.mem_univ _, e.symm⟩)) (xB0 m c))

theorem exitC (c : Dev nD) (w : Fin cfg2.W) : (datC (rd (VC m)) c).arrAt w cfg2.N = rd (VC' m) c (Pipeline.arrRef spec2 w) := by
  match w with
  | ⟨0, _⟩ => exact ((datC (rd (VC m)) c).arrAt_in 0 rfl _).trans ((datC_A (rd (VC m)) c 0).trans (upd_ne (VC m c) main_v40 main_v41 (by decide) (xC m c)).symm)
  | ⟨1, _⟩ => exact ((datC (rd (VC m)) c).arrAt_in 1 rfl _).trans ((datC_A (rd (VC m)) c 1).trans (upd_ne (VC m c) main_arg4 main_v41 (by decide) (xC m c)).symm)
  | ⟨2, _⟩ => exact (upd_eq (VC m c) main_v41 (xC m c)).symm
theorem restC (c : Dev nD) : ∀ b, b ∉ Finset.univ.image (Pipeline.arrRef spec2) → rd (VC' m) c b = rd (VC m) c b :=
  fun b hb => upd_ne (VC m c) b main_v41 (fun e => hb (Finset.mem_image.mpr ⟨2, Finset.mem_univ _, e.symm⟩)) (xC m c)

/-! ## The regions as segments of the run -/

/-- Every region's proof data, each at its region's entry contents. -/
def pdats : (p : Fin 3) → (c : Dev nD) → Dat τ (Elt F) Unit ℕ (UR sig nD τ) ℕ (cfgs p) c
  | ⟨0, _⟩ => fun c => datA (rd (VA m)) c
  | ⟨1, _⟩ => fun c => datB (rd (VB m)) c
  | ⟨2, _⟩ => fun c => datC (rd (VC m)) c

/-- No core owes another anything. -/
abbrev Lz : GSem nD τ sig → Finset Unit := fun _ => ∅
abbrev lvz : GSem nD τ sig → Unit → ℕ := fun _ _ => 0
/-- What rides beside the buffers through every segment: the generator register at some state, nothing owed. -/
abbrev Rz (c : Dev nD) : sProp 𝕄 := iprop((∃ r, prngReg c r) ∗ ∃ W, owes (c : Thread nD τ) (0 : CellTallies nD τ sig Unit) W)

set_option backward.isDefEq.respectTransparency.types false in
def regA : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (obligationA (rd (VA m)) c).loose
  hwaits := Pipeline.hwaits_of_owed_zero _ _ _ _ Lz lvz 0 fun _ _ => rfl
  pre c := iprop(StableHlo.held (c : Thread nD τ) (Pipeline.ucRefs τ sig) (VA m c) ∗ Rz c)
  post c := iprop(StableHlo.held (c : Thread nD τ) (Pipeline.ucRefs τ sig) (VA' m c) ∗ Rz c)
  X c := iprop(∃ r, prngReg c r)
  Y c := iprop(∃ r, prngReg c r)
  Z c := Pipeline.unscopedRest (Ix := Unit) (Name := ℕ) (U := UR sig nD τ) (Lvl := ℕ) spec0 c (rd (VA m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (VA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Entails.of_eq (show Pipeline.ΦA spec0 c = (pdats m 0 c).Φ 0 from rfl))
    unfold Pipeline.ΦA
    iintro ⟨Hp, -, Hr⟩
    isplitl [Hr]; · iexact Hr
    iexact Hp
  hout c := by
    rw [Pipeline.ownSems0_none]
    refine Idealize.SL.BI.BIBase.Entails.trans (Entails.of_eq (show (pdats m 0 c).Φ (Fin.last _) = Pipeline.ΦA spec0 c from rfl)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (VA m) c) (rd (VA' m) c) ((pdats m 0 c).arrAt · cfg0.N) (exitA m c) (restA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (obligationB (rd (VB m)) c).loose
  hwaits := Pipeline.hwaits_of_owed_zero _ _ _ _ Lz lvz 1 fun _ _ => rfl
  pre c := iprop(StableHlo.held (c : Thread nD τ) (Pipeline.ucRefs τ sig) (VB m c) ∗ Rz c)
  post c := iprop(StableHlo.held (c : Thread nD τ) (Pipeline.ucRefs τ sig) (VB' m c) ∗ Rz c)
  X c := iprop(∃ r, prngReg c r)
  Y c := iprop(∃ r, prngReg c r)
  Z c := Pipeline.unscopedRest (Ix := Unit) (Name := ℕ) (U := UR sig nD τ) (Lvl := ℕ) spec1 c (rd (VB m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (VB m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Entails.of_eq (show Pipeline.ΦA spec1 c = (pdats m 1 c).Φ 0 from rfl))
    unfold Pipeline.ΦA
    iintro ⟨Hp, -, Hr⟩
    isplitl [Hr]; · iexact Hr
    iexact Hp
  hout c := by
    rw [Pipeline.ownSems0_none]
    refine Idealize.SL.BI.BIBase.Entails.trans (Entails.of_eq (show (pdats m 1 c).Φ (Fin.last _) = Pipeline.ΦA spec1 c from rfl)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (VB m) c) (rd (VB' m) c) ((pdats m 1 c).arrAt · cfg1.N) (exitB m c) (restB m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regC : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (obligationC (rd (VC m)) c).loose
  hwaits := Pipeline.hwaits_of_owed_zero _ _ _ _ Lz lvz 2 fun _ _ => rfl
  pre c := iprop(StableHlo.held (c : Thread nD τ) (Pipeline.ucRefs τ sig) (VC m c) ∗ Rz c)
  post c := iprop(StableHlo.held (c : Thread nD τ) (Pipeline.ucRefs τ sig) (VC' m c) ∗ Rz c)
  X c := iprop(∃ r, prngReg c r)
  Y c := iprop(∃ r, prngReg c r)
  Z c := Pipeline.unscopedRest (Ix := Unit) (Name := ℕ) (U := UR sig nD τ) (Lvl := ℕ) spec2 c (rd (VC m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (VC m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enterC (rd (VC m)) c)
    unfold Pipeline.ΦA
    iintro ⟨Hp, -, Hr⟩
    isplitl [Hr]; · iexact Hr
    iexact Hp
  hout c := by
    rw [Pipeline.ownSems0_none]
    refine Idealize.SL.BI.BIBase.Entails.trans (leaveC (rd (VC m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (VC m) c) (rd (VC' m) c) ((pdats m 2 c).arrAt · cfg2.N) (exitC m c) (restC m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program on the TensorCores ends, nothing
    faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, H⟩; iexact H)
    (R0 := regA m) (hpre0 := fun c => .rfl) (hpost0 := fun c => by rw [V2_eq]; exact .rfl)
    (R1 := regB m) (hpre1 := fun c => by rw [V5_eq]; exact .rfl) (hpost1 := fun c => by rw [V6_eq]; exact .rfl)
    (R2 := regC m) (hpre2 := fun c => by rw [V7_eq]; exact .rfl) (hpost2 := fun c => by rw [V8_eq]; exact .rfl)

end Cert.KernelIdeal.Run

end
-- ==== Proof.RefLines.lean ====
/- The reference program's host operations in program order, one list per printed window of its main function, the two
   variance functions and the selections inside them written out at their calls; beside each list, the buffers it
   writes.  A table only: what the lists say about the program is proved in the module that imports this one. -/
import proofs.«124837_j25666724561114_2_alg».proof.Proof.Gen.ReferenceIdeal
import Idealize.ShloMosaic.Lib.StableHlo.Run

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops0 : List (HloOp τ sig (Elt F)) :=
  [ reshape main_arg0 main_v0 rfl shapeCasts_S32x512x1024_S16384x1024,
    binary main_arg2 main_arg2 main_v1 (mulf : (⟨S1024x64, .f32⟩ : BufTy).Contents (Elt F) → (⟨S1024x64, .f32⟩ : BufTy).Contents (Elt F) → (⟨S1024x64, .f32⟩ : BufTy).Contents (Elt F)),
    nullary main_cst (constant S_ .f32 0x358637BD#32),
    unary main_cst main_v2 (broadcastInDim S1024x64 ![] bcast_S_S1024x64 : (⟨S_, .f32⟩ : BufTy).Contents (Elt F) → (⟨S1024x64, .f32⟩ : BufTy).Contents (Elt F)),
    binary main_v1 main_v2 main_v3 (addf : (⟨S1024x64, .f32⟩ : BufTy).Contents (Elt F) → (⟨S1024x64, .f32⟩ : BufTy).Contents (Elt F) → (⟨S1024x64, .f32⟩ : BufTy).Contents (Elt F)),
    binary main_v0 main_arg1 main_v4 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    nullary main_cst_0 (constant S_ .f32 0x00000000#32),
    binary main_v4 main_cst_0 main_v5 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_1 (constant S_ .f32 0x46800000#32),
    unary main_cst_1 main_v6 (broadcastInDim S64 ![] bcast_S_S64 : (⟨S_, .f32⟩ : BufTy).Contents (Elt F) → (⟨S64, .f32⟩ : BufTy).Contents (Elt F)),
    binary main_v5 main_v6 main_v7 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v4) main_call0.cst main_call0.v0 (fun x v => Host.reduceAdd x v reducesTo_S16384x64_S64_d0 h_S_),
    TRef.unary main_call0.v0 main_call0.v1 (broadcastInDim S1x64 ![1] bcast_S64_S1x64_1),
    TRef.nullary main_call0.cst_0 (constant S_ .f32 0x46800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S16384x64 ![0, 1] bcast_S1x64_S16384x64_0_1),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v7 main_v9 (broadcastInDim S1x64 ![1] bcast_S64_S1x64_1 : (⟨S64, .f32⟩ : BufTy).Contents (Elt F) → (⟨S1x64, .f32⟩ : BufTy).Contents (Elt F)),
    unary main_v9 main_v10 (broadcastInDim S16384x64 ![0, 1] bcast_S1x64_S16384x64_0_1 : (⟨S1x64, .f32⟩ : BufTy).Contents (Elt F) → (⟨S16384x64, .f32⟩ : BufTy).Contents (Elt F)),
    binary main_v4 main_v10 main_v11 (subf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x3727C5AC#32),
    unary main_cst_2 main_v12 (broadcastInDim S64 ![] bcast_S_S64 : (⟨S_, .f32⟩ : BufTy).Contents (Elt F) → (⟨S64, .f32⟩ : BufTy).Contents (Elt F)),
    binary main_v8 main_v12 main_v13 (addf : (⟨S64, .f32⟩ : BufTy).Contents (Elt F) → (⟨S64, .f32⟩ : BufTy).Contents (Elt F) → (⟨S64, .f32⟩ : BufTy).Contents (Elt F)),
    unary main_v13 main_v14 (Host.rsqrt : (⟨S64, .f32⟩ : BufTy).Contents (Elt F) → (⟨S64, .f32⟩ : BufTy).Contents (Elt F)),
    unary main_v14 main_v15 (broadcastInDim S1x64 ![1] bcast_S64_S1x64_1 : (⟨S64, .f32⟩ : BufTy).Contents (Elt F) → (⟨S1x64, .f32⟩ : BufTy).Contents (Elt F)),
    unary main_v15 main_v16 (broadcastInDim S16384x64 ![0, 1] bcast_S1x64_S16384x64_0_1 : (⟨S1x64, .f32⟩ : BufTy).Contents (Elt F) → (⟨S16384x64, .f32⟩ : BufTy).Contents (Elt F)),
    binary main_v11 main_v16 main_v17 (mulf : (⟨S16384x64, .f32⟩ : BufTy).Contents (Elt F) → (⟨S16384x64, .f32⟩ : BufTy).Contents (Elt F) → (⟨S16384x64, .f32⟩ : BufTy).Contents (Elt F)),
    unary main_arg5 main_v18 (broadcastInDim S1x64 ![1] bcast_S64_S1x64_1 : (⟨S64, .f32⟩ : BufTy).Contents (Elt F) → (⟨S1x64, .f32⟩ : BufTy).Contents (Elt F)),
    unary main_v18 main_v19 (broadcastInDim S16384x64 ![0, 1] bcast_S1x64_S16384x64_0_1 : (⟨S1x64, .f32⟩ : BufTy).Contents (Elt F) → (⟨S16384x64, .f32⟩ : BufTy).Contents (Elt F)),
    binary main_v17 main_v19 main_v20 (mulf : (⟨S16384x64, .f32⟩ : BufTy).Contents (Elt F) → (⟨S16384x64, .f32⟩ : BufTy).Contents (Elt F) → (⟨S16384x64, .f32⟩ : BufTy).Contents (Elt F)),
    unary main_arg6 main_v21 (broadcastInDim S1x64 ![1] bcast_S64_S1x64_1 : (⟨S64, .f32⟩ : BufTy).Contents (Elt F) → (⟨S1x64, .f32⟩ : BufTy).Contents (Elt F)),
    unary main_v21 main_v22 (broadcastInDim S16384x64 ![0, 1] bcast_S1x64_S16384x64_0_1 : (⟨S1x64, .f32⟩ : BufTy).Contents (Elt F) → (⟨S16384x64, .f32⟩ : BufTy).Contents (Elt F)),
    binary main_v20 main_v22 main_v23 (addf : (⟨S16384x64, .f32⟩ : BufTy).Contents (Elt F) → (⟨S16384x64, .f32⟩ : BufTy).Contents (Elt F) → (⟨S16384x64, .f32⟩ : BufTy).Contents (Elt F)),
    nullary main_cst_3 (constant S_ .f32 0xFF800000#32),
    binary main_v23 main_cst_3 main_v24 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_4 (constant S_ .f32 0xFF800000#32),
    unary main_cst_4 main_v25 (broadcastInDim S16384 ![] bcast_S_S16384 : (⟨S_, .f32⟩ : BufTy).Contents (Elt F) → (⟨S16384, .f32⟩ : BufTy).Contents (Elt F)),
    binary main_v25 main_v24 main_v26 (maximumf : (⟨S16384, .f32⟩ : BufTy).Contents (Elt F) → (⟨S16384, .f32⟩ : BufTy).Contents (Elt F) → (⟨S16384, .f32⟩ : BufTy).Contents (Elt F)),
    unary main_v26 main_v27 (broadcastInDim S16384x1 ![0] bcast_S16384_S16384x1_0 : (⟨S16384, .f32⟩ : BufTy).Contents (Elt F) → (⟨S16384x1, .f32⟩ : BufTy).Contents (Elt F)),
    unary main_v27 main_v28 (broadcastInDim S16384x64 ![0, 1] bcast_S16384x1_S16384x64_0_1 : (⟨S16384x1, .f32⟩ : BufTy).Contents (Elt F) → (⟨S16384x64, .f32⟩ : BufTy).Contents (Elt F)),
    binary main_v23 main_v28 main_v29 (subf : (⟨S16384x64, .f32⟩ : BufTy).Contents (Elt F) → (⟨S16384x64, .f32⟩ : BufTy).Contents (Elt F) → (⟨S16384x64, .f32⟩ : BufTy).Contents (Elt F)),
    unary main_v29 main_v30 (Host.exp : (⟨S16384x64, .f32⟩ : BufTy).Contents (Elt F) → (⟨S16384x64, .f32⟩ : BufTy).Contents (Elt F)),
    nullary main_cst_5 (constant S_ .f32 0x00000000#32),
    binary main_v30 main_cst_5 main_v31 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    unary main_v32 main_v33 (broadcastInDim S16384x64 ![0, 1] bcast_S16384x1_S16384x64_0_1 : (⟨S16384x1, .f32⟩ : BufTy).Contents (Elt F) → (⟨S16384x64, .f32⟩ : BufTy).Contents (Elt F)),
    binary main_v30 main_v33 main_v34 (Host.divf : (⟨S16384x64, .f32⟩ : BufTy).Contents (Elt F) → (⟨S16384x64, .f32⟩ : BufTy).Contents (Elt F) → (⟨S16384x64, .f32⟩ : BufTy).Contents (Elt F)),
    reshape main_v34 main_v35 rfl shapeCasts_S16384x64_S32x512x64,
    nullary main_cst_6 (constant S_ .f32 0x00000000#32),
    binary main_v35 main_cst_6 main_v36 ((fun x v => Host.reduceAdd x v reducesTo_S32x512x64_S32x64_d1 h_S_) : (⟨S32x512x64, .f32⟩ : BufTy).Contents (Elt F) → (⟨S_, .f32⟩ : BufTy).Contents (Elt F) → (⟨S32x64, .f32⟩ : BufTy).Contents (Elt F)),
    unary main_v36 main_v37 (broadcastInDim S32x1x64 ![0, 2] bcast_S32x64_S32x1x64_0_2 : (⟨S32x64, .f32⟩ : BufTy).Contents (Elt F) → (⟨S32x1x64, .f32⟩ : BufTy).Contents (Elt F)),
    unary main_v37 main_v38 (broadcastInDim S32x1024x64 ![0, 1, 2] bcast_S32x1x64_S32x1024x64_0_1_2 : (⟨S32x1x64, .f32⟩ : BufTy).Contents (Elt F) → (⟨S32x1024x64, .f32⟩ : BufTy).Contents (Elt F)),
    unary main_arg3 main_v39 (broadcastInDim S32x1024x64 ![0, 1, 2] bcast_S1x1024x64_S32x1024x64_0_1_2 : (⟨S1x1024x64, .f32⟩ : BufTy).Contents (Elt F) → (⟨S32x1024x64, .f32⟩ : BufTy).Contents (Elt F)),
    binary main_v38 main_v39 main_v40 (mulf : (⟨S32x1024x64, .f32⟩ : BufTy).Contents (Elt F) → (⟨S32x1024x64, .f32⟩ : BufTy).Contents (Elt F) → (⟨S32x1024x64, .f32⟩ : BufTy).Contents (Elt F)),
    binary main_arg0 main_v35 main_v41 ((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F)),
    binary main_arg3 main_arg3 main_v42 (mulf : (⟨S1x1024x64, .f32⟩ : BufTy).Contents (Elt F) → (⟨S1x1024x64, .f32⟩ : BufTy).Contents (Elt F) → (⟨S1x1024x64, .f32⟩ : BufTy).Contents (Elt F)),
    unary main_v37 main_v43 (broadcastInDim S32x1024x64 ![0, 1, 2] bcast_S32x1x64_S32x1024x64_0_1_2 : (⟨S32x1x64, .f32⟩ : BufTy).Contents (Elt F) → (⟨S32x1024x64, .f32⟩ : BufTy).Contents (Elt F)),
    unary main_v42 main_v44 (broadcastInDim S32x1024x64 ![0, 1, 2] bcast_S1x1024x64_S32x1024x64_0_1_2 : (⟨S1x1024x64, .f32⟩ : BufTy).Contents (Elt F) → (⟨S32x1024x64, .f32⟩ : BufTy).Contents (Elt F)),
    binary main_v43 main_v44 main_v45 (mulf : (⟨S32x1024x64, .f32⟩ : BufTy).Contents (Elt F) → (⟨S32x1024x64, .f32⟩ : BufTy).Contents (Elt F) → (⟨S32x1024x64, .f32⟩ : BufTy).Contents (Elt F)),
    unary main_arg3 main_v46 (broadcastInDim S32x1024x64 ![0, 1, 2] bcast_S1x1024x64_S32x1024x64_0_1_2 : (⟨S1x1024x64, .f32⟩ : BufTy).Contents (Elt F) → (⟨S32x1024x64, .f32⟩ : BufTy).Contents (Elt F)),
    binary main_v41 main_v46 main_v47 (mulf : (⟨S32x1024x64, .f32⟩ : BufTy).Contents (Elt F) → (⟨S32x1024x64, .f32⟩ : BufTy).Contents (Elt F) → (⟨S32x1024x64, .f32⟩ : BufTy).Contents (Elt F)),
    binary main_arg0 main_arg0 main_v48 (mulf : (⟨S32x512x1024, .f32⟩ : BufTy).Contents (Elt F) → (⟨S32x512x1024, .f32⟩ : BufTy).Contents (Elt F) → (⟨S32x512x1024, .f32⟩ : BufTy).Contents (Elt F)),
    binary main_v48 main_v35 main_v49 ((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F)),
    binary main_v45 main_v49 main_v50 (addf : (⟨S32x1024x64, .f32⟩ : BufTy).Contents (Elt F) → (⟨S32x1024x64, .f32⟩ : BufTy).Contents (Elt F) → (⟨S32x1024x64, .f32⟩ : BufTy).Contents (Elt F)) ]

/-- The buffers they write. -/
abbrev written0 : List (Ref sig .tc) := [main_v0, main_v1, main_cst, main_v2, main_v3, main_v4, main_cst_0, main_v5, main_cst_1, main_v6, main_v7, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8, main_v9, main_v10, main_v11, main_cst_2, main_v12, main_v13, main_v14, main_v15, main_v16, main_v17, main_v18, main_v19, main_v20, main_v21, main_v22, main_v23, main_cst_3, main_v24, main_cst_4, main_v25, main_v26, main_v27, main_v28, main_v29, main_v30, main_cst_5, main_v31, main_v32, main_v33, main_v34, main_v35, main_cst_6, main_v36, main_v37, main_v38, main_v39, main_v40, main_v41, main_v42, main_v43, main_v44, main_v45, main_v46, main_v47, main_v48, main_v49, main_v50]

set_option maxRecDepth 8192 in
theorem ops0_sub : (ops0 : List (HloOp τ sig (Elt F))).Forall fun op => op.bufs ⊆ tcRefs τ sig :=
  ⟨reshape_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., binary_bufs_sub .., unary_bufs_sub .., unary_bufs_sub .., unary_bufs_sub .., binary_bufs_sub .., binary_bufs_sub .., binary_bufs_sub .., unary_bufs_sub .., unary_bufs_sub .., binary_bufs_sub .., unary_bufs_sub .., binary_bufs_sub .., binary_bufs_sub .., binary_bufs_sub .., binary_bufs_sub ..⟩

set_option maxRecDepth 8192 in
theorem ops0_writes : (ops0 : List (HloOp τ sig (Elt F))).Forall fun op => op.writes ⊆ (written0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of window 1, in order. -/
abbrev ops1 : List (HloOp τ sig (Elt F)) :=
  [ nullary main_cst_7 (constant S_ .f32 0x40000000#32),
    unary main_cst_7 main_v51 (broadcastInDim S32x1024x64 ![] bcast_S_S32x1024x64 : (⟨S_, .f32⟩ : BufTy).Contents (Elt F) → (⟨S32x1024x64, .f32⟩ : BufTy).Contents (Elt F)),
    binary main_v51 main_v47 main_v52 (mulf : (⟨S32x1024x64, .f32⟩ : BufTy).Contents (Elt F) → (⟨S32x1024x64, .f32⟩ : BufTy).Contents (Elt F) → (⟨S32x1024x64, .f32⟩ : BufTy).Contents (Elt F)),
    binary main_v50 main_v52 main_v53 (subf : (⟨S32x1024x64, .f32⟩ : BufTy).Contents (Elt F) → (⟨S32x1024x64, .f32⟩ : BufTy).Contents (Elt F) → (⟨S32x1024x64, .f32⟩ : BufTy).Contents (Elt F)),
    binary main_v3 main_v3 main_v54 (mulf : (⟨S1024x64, .f32⟩ : BufTy).Contents (Elt F) → (⟨S1024x64, .f32⟩ : BufTy).Contents (Elt F) → (⟨S1024x64, .f32⟩ : BufTy).Contents (Elt F)),
    unary main_v54 main_v55 (broadcastInDim S1x1024x64 ![1, 2] bcast_S1024x64_S1x1024x64_1_2 : (⟨S1024x64, .f32⟩ : BufTy).Contents (Elt F) → (⟨S1x1024x64, .f32⟩ : BufTy).Contents (Elt F)),
    unary main_v55 main_v56 (broadcastInDim S32x1024x64 ![0, 1, 2] bcast_S1x1024x64_S32x1024x64_0_1_2 : (⟨S1x1024x64, .f32⟩ : BufTy).Contents (Elt F) → (⟨S32x1024x64, .f32⟩ : BufTy).Contents (Elt F)),
    binary main_v53 main_v56 main_v57 (Host.divf : (⟨S32x1024x64, .f32⟩ : BufTy).Contents (Elt F) → (⟨S32x1024x64, .f32⟩ : BufTy).Contents (Elt F) → (⟨S32x1024x64, .f32⟩ : BufTy).Contents (Elt F)),
    unary main_v37 main_v58 (broadcastInDim S32x1024x64 ![0, 1, 2] bcast_S32x1x64_S32x1024x64_0_1_2 : (⟨S32x1x64, .f32⟩ : BufTy).Contents (Elt F) → (⟨S32x1024x64, .f32⟩ : BufTy).Contents (Elt F)),
    binary main_v57 main_v58 main_v59 (subf : (⟨S32x1024x64, .f32⟩ : BufTy).Contents (Elt F) → (⟨S32x1024x64, .f32⟩ : BufTy).Contents (Elt F) → (⟨S32x1024x64, .f32⟩ : BufTy).Contents (Elt F)),
    reshape main_v59 main_v60 rfl shapeCasts_S32x1024x64_S32x65536,
    binary main_v60 main_v60 main_v61 (mulf : (⟨S32x65536, .f32⟩ : BufTy).Contents (Elt F) → (⟨S32x65536, .f32⟩ : BufTy).Contents (Elt F) → (⟨S32x65536, .f32⟩ : BufTy).Contents (Elt F)),
    nullary main_cst_8 (constant S_ .f32 0x00000000#32),
    binary main_v61 main_cst_8 main_v62 ((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F)),
    unary main_v62 main_v63 (broadcastInDim S32x1 ![0] bcast_S32_S32x1_0 : (⟨S32, .f32⟩ : BufTy).Contents (Elt F) → (⟨S32x1, .f32⟩ : BufTy).Contents (Elt F)),
    unary main_v63 main_v64 (Host.sqrt : (⟨S32x1, .f32⟩ : BufTy).Contents (Elt F) → (⟨S32x1, .f32⟩ : BufTy).Contents (Elt F)),
    nullary main_cst_9 (constant S_ .f32 0x2B8CBCCC#32),
    unary main_cst_9 main_v65 (broadcastInDim S32x1 ![] bcast_S_S32x1 : (⟨S_, .f32⟩ : BufTy).Contents (Elt F) → (⟨S32x1, .f32⟩ : BufTy).Contents (Elt F)),
    binary main_v64 main_v65 main_v66 (maximumf : (⟨S32x1, .f32⟩ : BufTy).Contents (Elt F) → (⟨S32x1, .f32⟩ : BufTy).Contents (Elt F) → (⟨S32x1, .f32⟩ : BufTy).Contents (Elt F)),
    unary main_v66 main_v67 (broadcastInDim S32x65536 ![0, 1] bcast_S32x1_S32x65536_0_1 : (⟨S32x1, .f32⟩ : BufTy).Contents (Elt F) → (⟨S32x65536, .f32⟩ : BufTy).Contents (Elt F)),
    binary main_v60 main_v67 main_v68 (Host.divf : (⟨S32x65536, .f32⟩ : BufTy).Contents (Elt F) → (⟨S32x65536, .f32⟩ : BufTy).Contents (Elt F) → (⟨S32x65536, .f32⟩ : BufTy).Contents (Elt F)),
    binary main_v68 main_v68 main_v69 (mulf : (⟨S32x65536, .f32⟩ : BufTy).Contents (Elt F) → (⟨S32x65536, .f32⟩ : BufTy).Contents (Elt F) → (⟨S32x65536, .f32⟩ : BufTy).Contents (Elt F)),
    nullary main_cst_10 (constant S_ .f32 0x00000000#32),
    binary main_v69 main_cst_10 main_v70 ((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F)),
    unary main_v70 main_v71 (broadcastInDim S32x1 ![0] bcast_S32_S32x1_0 : (⟨S32, .f32⟩ : BufTy).Contents (Elt F) → (⟨S32x1, .f32⟩ : BufTy).Contents (Elt F)),
    unary main_v71 main_v72 (Host.sqrt : (⟨S32x1, .f32⟩ : BufTy).Contents (Elt F) → (⟨S32x1, .f32⟩ : BufTy).Contents (Elt F)),
    nullary main_cst_11 (constant S_ .f32 0x2B8CBCCC#32),
    unary main_cst_11 main_v73 (broadcastInDim S32x1 ![] bcast_S_S32x1 : (⟨S_, .f32⟩ : BufTy).Contents (Elt F) → (⟨S32x1, .f32⟩ : BufTy).Contents (Elt F)),
    binary main_v72 main_v73 main_v74 (maximumf : (⟨S32x1, .f32⟩ : BufTy).Contents (Elt F) → (⟨S32x1, .f32⟩ : BufTy).Contents (Elt F) → (⟨S32x1, .f32⟩ : BufTy).Contents (Elt F)),
    unary main_v74 main_v75 (broadcastInDim S32x65536 ![0, 1] bcast_S32x1_S32x65536_0_1 : (⟨S32x1, .f32⟩ : BufTy).Contents (Elt F) → (⟨S32x65536, .f32⟩ : BufTy).Contents (Elt F)),
    binary main_v68 main_v75 main_v76 (Host.divf : (⟨S32x65536, .f32⟩ : BufTy).Contents (Elt F) → (⟨S32x65536, .f32⟩ : BufTy).Contents (Elt F) → (⟨S32x65536, .f32⟩ : BufTy).Contents (Elt F)),
    binary main_v41 main_v40 main_v77 (subf : (⟨S32x1024x64, .f32⟩ : BufTy).Contents (Elt F) → (⟨S32x1024x64, .f32⟩ : BufTy).Contents (Elt F) → (⟨S32x1024x64, .f32⟩ : BufTy).Contents (Elt F)),
    unary main_v3 main_v78 (broadcastInDim S1x1024x64 ![1, 2] bcast_S1024x64_S1x1024x64_1_2 : (⟨S1024x64, .f32⟩ : BufTy).Contents (Elt F) → (⟨S1x1024x64, .f32⟩ : BufTy).Contents (Elt F)),
    unary main_v78 main_v79 (broadcastInDim S32x1024x64 ![0, 1, 2] bcast_S1x1024x64_S32x1024x64_0_1_2 : (⟨S1x1024x64, .f32⟩ : BufTy).Contents (Elt F) → (⟨S32x1024x64, .f32⟩ : BufTy).Contents (Elt F)),
    binary main_v77 main_v79 main_v80 (Host.divf : (⟨S32x1024x64, .f32⟩ : BufTy).Contents (Elt F) → (⟨S32x1024x64, .f32⟩ : BufTy).Contents (Elt F) → (⟨S32x1024x64, .f32⟩ : BufTy).Contents (Elt F)),
    binary main_v80 main_v80 main_v81 (mulf : (⟨S32x1024x64, .f32⟩ : BufTy).Contents (Elt F) → (⟨S32x1024x64, .f32⟩ : BufTy).Contents (Elt F) → (⟨S32x1024x64, .f32⟩ : BufTy).Contents (Elt F)),
    nullary main_cst_12 (constant S_ .f32 0x00000000#32),
    binary main_v81 main_cst_12 main_v82 ((fun x v => Host.reduceAdd x v reducesTo_S32x1024x64_S32x64_d1 h_S_) : (⟨S32x1024x64, .f32⟩ : BufTy).Contents (Elt F) → (⟨S_, .f32⟩ : BufTy).Contents (Elt F) → (⟨S32x64, .f32⟩ : BufTy).Contents (Elt F)),
    unary main_v82 main_v83 (broadcastInDim S32x1x64 ![0, 2] bcast_S32x64_S32x1x64_0_2 : (⟨S32x64, .f32⟩ : BufTy).Contents (Elt F) → (⟨S32x1x64, .f32⟩ : BufTy).Contents (Elt F)),
    unary main_v83 main_v84 (Host.sqrt : (⟨S32x1x64, .f32⟩ : BufTy).Contents (Elt F) → (⟨S32x1x64, .f32⟩ : BufTy).Contents (Elt F)),
    nullary main_cst_13 (constant S_ .f32 0x2B8CBCCC#32),
    unary main_cst_13 main_v85 (broadcastInDim S32x1x64 ![] bcast_S_S32x1x64 : (⟨S_, .f32⟩ : BufTy).Contents (Elt F) → (⟨S32x1x64, .f32⟩ : BufTy).Contents (Elt F)),
    binary main_v84 main_v85 main_v86 (maximumf : (⟨S32x1x64, .f32⟩ : BufTy).Contents (Elt F) → (⟨S32x1x64, .f32⟩ : BufTy).Contents (Elt F) → (⟨S32x1x64, .f32⟩ : BufTy).Contents (Elt F)),
    unary main_v86 main_v87 (broadcastInDim S32x1024x64 ![0, 1, 2] bcast_S32x1x64_S32x1024x64_0_1_2 : (⟨S32x1x64, .f32⟩ : BufTy).Contents (Elt F) → (⟨S32x1024x64, .f32⟩ : BufTy).Contents (Elt F)),
    binary main_v80 main_v87 main_v88 (Host.divf : (⟨S32x1024x64, .f32⟩ : BufTy).Contents (Elt F) → (⟨S32x1024x64, .f32⟩ : BufTy).Contents (Elt F) → (⟨S32x1024x64, .f32⟩ : BufTy).Contents (Elt F)),
    reshape main_v88 main_v89 rfl shapeCasts_S32x1024x64_S32x65536,
    binary main_v89 main_v89 main_v90 (mulf : (⟨S32x65536, .f32⟩ : BufTy).Contents (Elt F) → (⟨S32x65536, .f32⟩ : BufTy).Contents (Elt F) → (⟨S32x65536, .f32⟩ : BufTy).Contents (Elt F)),
    nullary main_cst_14 (constant S_ .f32 0x00000000#32),
    binary main_v90 main_cst_14 main_v91 ((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F)),
    unary main_v91 main_v92 (broadcastInDim S32x1 ![0] bcast_S32_S32x1_0 : (⟨S32, .f32⟩ : BufTy).Contents (Elt F) → (⟨S32x1, .f32⟩ : BufTy).Contents (Elt F)),
    unary main_v92 main_v93 (Host.sqrt : (⟨S32x1, .f32⟩ : BufTy).Contents (Elt F) → (⟨S32x1, .f32⟩ : BufTy).Contents (Elt F)),
    nullary main_cst_15 (constant S_ .f32 0x2B8CBCCC#32),
    unary main_cst_15 main_v94 (broadcastInDim S32x1 ![] bcast_S_S32x1 : (⟨S_, .f32⟩ : BufTy).Contents (Elt F) → (⟨S32x1, .f32⟩ : BufTy).Contents (Elt F)),
    binary main_v93 main_v94 main_v95 (maximumf : (⟨S32x1, .f32⟩ : BufTy).Contents (Elt F) → (⟨S32x1, .f32⟩ : BufTy).Contents (Elt F) → (⟨S32x1, .f32⟩ : BufTy).Contents (Elt F)),
    unary main_v95 main_v96 (broadcastInDim S32x65536 ![0, 1] bcast_S32x1_S32x65536_0_1 : (⟨S32x1, .f32⟩ : BufTy).Contents (Elt F) → (⟨S32x65536, .f32⟩ : BufTy).Contents (Elt F)),
    binary main_v89 main_v96 main_v97 (Host.divf : (⟨S32x65536, .f32⟩ : BufTy).Contents (Elt F) → (⟨S32x65536, .f32⟩ : BufTy).Contents (Elt F) → (⟨S32x65536, .f32⟩ : BufTy).Contents (Elt F)),
    binary main_v97 main_v76 main_v98 ((fun a b => concatenate S32x131072 1 [⟨S32x65536, a⟩, ⟨S32x65536, b⟩] concatenates_S32x65536_S32x65536_S32x131072_d1) : (⟨S32x65536, .f32⟩ : BufTy).Contents (Elt F) → (⟨S32x65536, .f32⟩ : BufTy).Contents (Elt F) → (⟨S32x131072, .f32⟩ : BufTy).Contents (Elt F)),
    binary main_v98 main_arg4 main_v99 ((fun l r => Host.dotGeneral dot_S32x131072_S131072x1024_S32x1024_1_0_0_1_n_n none l r) : (⟨S32x131072, .f32⟩ : BufTy).Contents (Elt F) → (⟨S131072x1024, .f32⟩ : BufTy).Contents (Elt F) → (⟨S32x1024, .f32⟩ : BufTy).Contents (Elt F)),
    binary main_v99 main_arg7 main_v100 ((fun l r => Host.dotGeneral dot_S32x1024_S1024x1024_S32x1024_1_0_0_1_n_n none l r) : (⟨S32x1024, .f32⟩ : BufTy).Contents (Elt F) → (⟨S1024x1024, .f32⟩ : BufTy).Contents (Elt F) → (⟨S32x1024, .f32⟩ : BufTy).Contents (Elt F)),
    nullary main_cst_16 (constant S_ .f32 0x00000000#32) ]

/-- The buffers they write. -/
abbrev written1 : List (Ref sig .tc) := [main_cst_7, main_v51, main_v52, main_v53, main_v54, main_v55, main_v56, main_v57, main_v58, main_v59, main_v60, main_v61, main_cst_8, main_v62, main_v63, main_v64, main_cst_9, main_v65, main_v66, main_v67, main_v68, main_v69, main_cst_10, main_v70, main_v71, main_v72, main_cst_11, main_v73, main_v74, main_v75, main_v76, main_v77, main_v78, main_v79, main_v80, main_v81, main_cst_12, main_v82, main_v83, main_v84, main_cst_13, main_v85, main_v86, main_v87, main_v88, main_v89, main_v90, main_cst_14, main_v91, main_v92, main_v93, main_cst_15, main_v94, main_v95, main_v96, main_v97, main_v98, main_v99, main_v100, main_cst_16]

set_option maxRecDepth 8192 in
theorem ops1_sub : (ops1 : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., binary_bufs_sub .., nullary_bufs_sub ..⟩

set_option maxRecDepth 8192 in
theorem ops1_writes : (ops1 : List (HloOp τ sig (Elt F))).Forall fun op => op.writes ⊆ (written1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of window 2, in order. -/
abbrev ops2 : List (HloOp τ sig (Elt F)) :=
  [ binary main_v100 main_cst_16 main_v101 ((fun x v => Host.reduceAdd x v reducesTo_S32x1024_S1024_d0 h_S_) : (⟨S32x1024, .f32⟩ : BufTy).Contents (Elt F) → (⟨S_, .f32⟩ : BufTy).Contents (Elt F) → (⟨S1024, .f32⟩ : BufTy).Contents (Elt F)),
    nullary main_cst_17 (constant S_ .f32 0x42000000#32),
    unary main_cst_17 main_v102 (broadcastInDim S1024 ![] bcast_S_S1024 : (⟨S_, .f32⟩ : BufTy).Contents (Elt F) → (⟨S1024, .f32⟩ : BufTy).Contents (Elt F)),
    binary main_v101 main_v102 main_v103 (Host.divf : (⟨S1024, .f32⟩ : BufTy).Contents (Elt F) → (⟨S1024, .f32⟩ : BufTy).Contents (Elt F) → (⟨S1024, .f32⟩ : BufTy).Contents (Elt F)),
    nullary main_c_18 (constantI S_ 32 0#32),
    TRef.nullary main_call1.cst (constant S_ .f32 0x00000000#32),
    TRef.binary (.of main_v100) main_call1.cst main_call1.v0 (fun x v => Host.reduceAdd x v reducesTo_S32x1024_S1024_d0 h_S_),
    TRef.unary main_call1.v0 main_call1.v1 (broadcastInDim S1x1024 ![1] bcast_S1024_S1x1024_1),
    TRef.nullary main_call1.cst_0 (constant S_ .f32 0x42000000#32),
    TRef.unary main_call1.cst_0 main_call1.v2 (broadcastInDim S1x1024 ![] bcast_S_S1x1024),
    TRef.binary main_call1.v1 main_call1.v2 main_call1.v3 Host.divf,
    TRef.unary main_call1.v3 main_call1.v4 (broadcastInDim S32x1024 ![0, 1] bcast_S1x1024_S32x1024_0_1),
    TRef.binary (.of main_v100) main_call1.v4 main_call1.v5 subf,
    TRef.binary main_call1.v5 main_call1.v5 main_call1.v6 mulf,
    TRef.unary (.of main_c_18) main_call1.v7 (sitofp .f32),
    TRef.nullary main_call1.cst_1 (constant S_ .f32 0x42000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x1024_S1024_d0 h_S_),
    TRef.unary main_call1.v8 main_call1.v10 (broadcastInDim S1024 ![] bcast_S_S1024),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S1024 ![] bcast_S_S1024),
    TRef.ternary main_call1.v12 main_call1.v11 main_call1.call0.v1 main_call1.call0.v2 (fun p a b => select (broadcastInDim S1024 ![] bcast_S_S1024 p) a b),
    unary main_v103 main_v105 (broadcastInDim S1x1024 ![1] bcast_S1024_S1x1024_1 : (⟨S1024, .f32⟩ : BufTy).Contents (Elt F) → (⟨S1x1024, .f32⟩ : BufTy).Contents (Elt F)),
    unary main_v105 main_v106 (broadcastInDim S32x1024 ![0, 1] bcast_S1x1024_S32x1024_0_1 : (⟨S1x1024, .f32⟩ : BufTy).Contents (Elt F) → (⟨S32x1024, .f32⟩ : BufTy).Contents (Elt F)),
    binary main_v100 main_v106 main_v107 (subf : (⟨S32x1024, .f32⟩ : BufTy).Contents (Elt F) → (⟨S32x1024, .f32⟩ : BufTy).Contents (Elt F) → (⟨S32x1024, .f32⟩ : BufTy).Contents (Elt F)),
    nullary main_cst_19 (constant S_ .f32 0x3727C5AC#32),
    unary main_cst_19 main_v108 (broadcastInDim S1024 ![] bcast_S_S1024 : (⟨S_, .f32⟩ : BufTy).Contents (Elt F) → (⟨S1024, .f32⟩ : BufTy).Contents (Elt F)),
    binary main_v104 main_v108 main_v109 (addf : (⟨S1024, .f32⟩ : BufTy).Contents (Elt F) → (⟨S1024, .f32⟩ : BufTy).Contents (Elt F) → (⟨S1024, .f32⟩ : BufTy).Contents (Elt F)),
    unary main_v109 main_v110 (Host.rsqrt : (⟨S1024, .f32⟩ : BufTy).Contents (Elt F) → (⟨S1024, .f32⟩ : BufTy).Contents (Elt F)),
    unary main_v110 main_v111 (broadcastInDim S1x1024 ![1] bcast_S1024_S1x1024_1 : (⟨S1024, .f32⟩ : BufTy).Contents (Elt F) → (⟨S1x1024, .f32⟩ : BufTy).Contents (Elt F)),
    unary main_v111 main_v112 (broadcastInDim S32x1024 ![0, 1] bcast_S1x1024_S32x1024_0_1 : (⟨S1x1024, .f32⟩ : BufTy).Contents (Elt F) → (⟨S32x1024, .f32⟩ : BufTy).Contents (Elt F)),
    binary main_v107 main_v112 main_v113 (mulf : (⟨S32x1024, .f32⟩ : BufTy).Contents (Elt F) → (⟨S32x1024, .f32⟩ : BufTy).Contents (Elt F) → (⟨S32x1024, .f32⟩ : BufTy).Contents (Elt F)),
    unary main_arg8 main_v114 (broadcastInDim S1x1024 ![1] bcast_S1024_S1x1024_1 : (⟨S1024, .f32⟩ : BufTy).Contents (Elt F) → (⟨S1x1024, .f32⟩ : BufTy).Contents (Elt F)),
    unary main_v114 main_v115 (broadcastInDim S32x1024 ![0, 1] bcast_S1x1024_S32x1024_0_1 : (⟨S1x1024, .f32⟩ : BufTy).Contents (Elt F) → (⟨S32x1024, .f32⟩ : BufTy).Contents (Elt F)),
    binary main_v113 main_v115 main_v116 (mulf : (⟨S32x1024, .f32⟩ : BufTy).Contents (Elt F) → (⟨S32x1024, .f32⟩ : BufTy).Contents (Elt F) → (⟨S32x1024, .f32⟩ : BufTy).Contents (Elt F)),
    unary main_arg9 main_v117 (broadcastInDim S1x1024 ![1] bcast_S1024_S1x1024_1 : (⟨S1024, .f32⟩ : BufTy).Contents (Elt F) → (⟨S1x1024, .f32⟩ : BufTy).Contents (Elt F)),
    unary main_v117 main_v118 (broadcastInDim S32x1024 ![0, 1] bcast_S1x1024_S32x1024_0_1 : (⟨S1x1024, .f32⟩ : BufTy).Contents (Elt F) → (⟨S32x1024, .f32⟩ : BufTy).Contents (Elt F)),
    binary main_v116 main_v118 main_v119 (addf : (⟨S32x1024, .f32⟩ : BufTy).Contents (Elt F) → (⟨S32x1024, .f32⟩ : BufTy).Contents (Elt F) → (⟨S32x1024, .f32⟩ : BufTy).Contents (Elt F)),
    unary main_v119 main_v120 (Host.negf : (⟨S32x1024, .f32⟩ : BufTy).Contents (Elt F) → (⟨S32x1024, .f32⟩ : BufTy).Contents (Elt F)),
    unary main_v120 main_v121 (Host.exp : (⟨S32x1024, .f32⟩ : BufTy).Contents (Elt F) → (⟨S32x1024, .f32⟩ : BufTy).Contents (Elt F)),
    nullary main_cst_20 (constant S_ .f32 0x3F800000#32),
    unary main_cst_20 main_v122 (broadcastInDim S32x1024 ![] bcast_S_S32x1024 : (⟨S_, .f32⟩ : BufTy).Contents (Elt F) → (⟨S32x1024, .f32⟩ : BufTy).Contents (Elt F)),
    binary main_v122 main_v121 main_v123 (addf : (⟨S32x1024, .f32⟩ : BufTy).Contents (Elt F) → (⟨S32x1024, .f32⟩ : BufTy).Contents (Elt F) → (⟨S32x1024, .f32⟩ : BufTy).Contents (Elt F)),
    nullary main_cst_21 (constant S_ .f32 0x3F800000#32),
    unary main_cst_21 main_v124 (broadcastInDim S32x1024 ![] bcast_S_S32x1024 : (⟨S_, .f32⟩ : BufTy).Contents (Elt F) → (⟨S32x1024, .f32⟩ : BufTy).Contents (Elt F)),
    binary main_v124 main_v123 main_v125 (Host.divf : (⟨S32x1024, .f32⟩ : BufTy).Contents (Elt F) → (⟨S32x1024, .f32⟩ : BufTy).Contents (Elt F) → (⟨S32x1024, .f32⟩ : BufTy).Contents (Elt F)),
    binary main_v99 main_v125 main_v126 (mulf : (⟨S32x1024, .f32⟩ : BufTy).Contents (Elt F) → (⟨S32x1024, .f32⟩ : BufTy).Contents (Elt F) → (⟨S32x1024, .f32⟩ : BufTy).Contents (Elt F)) ]

/-- The buffers they write. -/
abbrev written2 : List (Ref sig .tc) := [main_v101, main_cst_17, main_v102, main_v103, main_c_18, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v104, main_v105, main_v106, main_v107, main_cst_19, main_v108, main_v109, main_v110, main_v111, main_v112, main_v113, main_v114, main_v115, main_v116, main_v117, main_v118, main_v119, main_v120, main_v121, main_cst_20, main_v122, main_v123, main_cst_21, main_v124, main_v125, main_v126]

set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

set_option maxRecDepth 8192 in
theorem ops2_writes : (ops2 : List (HloOp τ sig (Elt F))).Forall fun op => op.writes ⊆ (written2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.Lines

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefRun.lean ====
/-
  The reference program runs to the end and leaves its arguments alone.

  The reference is one straight line of host operations (its main function printed in three windows; the batch
  variance and the selection it ends with are separate functions, entered twice).  Each window is the sequence of the
  operations listed for it, so the whole program is the sequence of the three lists in a row; a straight line of
  host operations always ends, and each buffer ends holding the fold of the line over the launch contents.  No
  operation of the line writes an argument's buffer, so every argument ends as launched.
-/
import proofs.«124837_j25666724561114_2_alg».proof.Proof.RefLines
import Idealize.ShloMosaic.Lib.StableHlo.Run
import proofs.«124837_j25666724561114_2_alg».proof.Proof.LibHostLine

set_option Elab.async false

noncomputable section

namespace Cert.ReferenceIdeal.Line

open Cert.ReferenceIdeal Cert.ReferenceIdeal.Gen Cert.ReferenceIdeal.Lines
open Idealize.ShloMosaic Idealize.ShloMosaic.TcCoe Idealize.SL.Sem Idealize.ShloMosaic.StableHlo

variable {F : FTy → Type} [FloatOps F]

/-- The whole program's operations, in order. -/
abbrev ops : List (HloOp τ sig (Elt F)) := ops0 ++ (ops1 ++ ops2)

set_option maxRecDepth 8192 in
theorem part0_eq (c : Dev nD) : main_part0 (F := F) c = seq ops0 := rfl
set_option maxRecDepth 8192 in
theorem part1_eq (c : Dev nD) : main_part1 (F := F) c = seq ops1 := rfl
set_option maxRecDepth 8192 in
theorem part2_eq (c : Dev nD) : main_part2 (F := F) c = seq ops2 := rfl
set_option maxRecDepth 8192 in
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- A buffer none of the three windows writes holds at the end what it held at the start. -/
theorem kept (V : Valuation τ sig (Elt F)) (r : Ref sig .tc) (h0 : r ∉ written0) (h1 : r ∉ written1) (h2 : r ∉ written2) :
    after ops V (Proc.devRef .tc r) = V (Proc.devRef .tc r) := by
  simp only [ops, Cert.LibHostLine.after_append]
  exact (after_of_writes_sub ops2 _ ops2_writes h2).trans
    ((after_of_writes_sub ops1 _ ops1_writes h1).trans (after_of_writes_sub ops0 _ ops0_writes h0))

/-- From any memory with zero counters every weakly fair execution ends, each buffer at the fold of the line. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The program ends, nothing faulting, with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_arg0).trans (kept (launchContents m c) main_arg0 (by decide) (by decide) (by decide)),
    (h c main_arg1).trans (kept (launchContents m c) main_arg1 (by decide) (by decide) (by decide)),
    (h c main_arg2).trans (kept (launchContents m c) main_arg2 (by decide) (by decide) (by decide)),
    (h c main_arg3).trans (kept (launchContents m c) main_arg3 (by decide) (by decide) (by decide)),
    (h c main_arg4).trans (kept (launchContents m c) main_arg4 (by decide) (by decide) (by decide)),
    (h c main_arg5).trans (kept (launchContents m c) main_arg5 (by decide) (by decide) (by decide)),
    (h c main_arg6).trans (kept (launchContents m c) main_arg6 (by decide) (by decide) (by decide)),
    (h c main_arg7).trans (kept (launchContents m c) main_arg7 (by decide) (by decide) (by decide)),
    (h c main_arg8).trans (kept (launchContents m c) main_arg8 (by decide) (by decide) (by decide)),
    (h c main_arg9).trans (kept (launchContents m c) main_arg9 (by decide) (by decide) (by decide))⟩)
    (run_line m ρ)

end Cert.ReferenceIdeal.Line

end
-- ==== Proof.KI_Value.lean ====
/-
  The run of the program with its result named: besides ending with the arguments untouched, the result buffer ends
  holding what the last host stretch leaves in it, computed from the launch contents through the eleven stretches.
-/
import proofs.«124837_j25666724561114_2_alg».proof.Proof.KI_Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers' contents when the program returns. -/
abbrev VEnd (c : Dev nD) : Valuation τ sig (Elt F) :=
  StableHlo.after hostOps3_2 (StableHlo.after hostOps3_1 (StableHlo.after hostOps3 (VC' m c)))

theorem V11_eq (c : Dev nD) : Gen.V11 m (outs m) c = VEnd m c := by
  show StableHlo.after hostOps3_2 (StableHlo.after hostOps3_1 (StableHlo.after hostOps3 (Gen.V8 m (outs m) c))) = _
  rw [V8_eq]

theorem leftA (c : Dev nD) : (regA m).post c ⊢ (iprop(StableHlo.held (c : Thread nD τ) (Pipeline.ucRefs τ sig) (Gen.V2 m (outs m) c) ∗ Rz c) : sProp 𝕄) := by
  rw [V2_eq]; exact .rfl
theorem intoB (c : Dev nD) : (iprop(StableHlo.held (c : Thread nD τ) (Pipeline.ucRefs τ sig) (Gen.V5 m (outs m) c) ∗ Rz c) : sProp 𝕄) ⊢ (regB m).pre c := by
  rw [V5_eq]; exact .rfl
theorem leftB (c : Dev nD) : (regB m).post c ⊢ (iprop(StableHlo.held (c : Thread nD τ) (Pipeline.ucRefs τ sig) (Gen.V6 m (outs m) c) ∗ Rz c) : sProp 𝕄) := by
  rw [V6_eq]; exact .rfl
theorem intoC (c : Dev nD) : (iprop(StableHlo.held (c : Thread nD τ) (Pipeline.ucRefs τ sig) (Gen.V7 m (outs m) c) ∗ Rz c) : sProp 𝕄) ⊢ (regC m).pre c := by
  rw [V7_eq]; exact .rfl
theorem leftC' (c : Dev nD) : (regC m).post c ⊢ (iprop(StableHlo.held (c : Thread nD τ) (Pipeline.ucRefs τ sig) (Gen.V8 m (outs m) c) ∗ Rz c) : sProp 𝕄) := by
  rw [V8_eq]; exact .rfl

set_option backward.isDefEq.respectTransparency.types false in
/-- From any memory with zero counters every weakly fair execution of the program on the TensorCores ends, nothing
    faulting, with the result buffer at the end contents and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v68) = VEnd m c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ Variants.none Lz lvz m ρ main
    (Gen.segs m (outs m) Variants.none Lz lvz (fun _ c => Rz c) () (pdats m) (regA m) (regB m) (regC m))
    (fun c Q => by
      rewrite [main_chain c, Seg.run_eq_chain,
        show (Gen.segs m (outs m) Variants.none Lz lvz (fun _ c => Rz c) () (pdats m) (regA m) (regB m) (regC m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [Gen.segs, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V11 m (outs m) c))
    (hch := fun c => ⟨.rfl, .rfl, leftA m c, .rfl, .rfl, intoB m c, leftB m c, intoC m c, leftC' m c, .rfl, .rfl,
      sep_mono .rfl (show Rz c ⊢ (iprop(∃ W, owes (c : Thread nD τ) (0 : CellTallies nD τ sig Unit) W) : sProp 𝕄) from by iintro ⟨-, H⟩; iexact H)⟩)
    (hinit := ?_)
    (QY := fun c s => s.mem ((c.tc : Thread nD τ).loc main_v68) = VEnd m c main_v68
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V11 m (outs m) c) s') $$ [Hh HSI]
    · isplitl [Hh] <;> iassumption
    icases Hr with ⟨%h, HSI⟩
    imodintro
    isplitr
    · ipureintro
      exact ⟨(h (Proc.devRef .tc main_v68) (Finset.mem_filter.mpr ⟨StableHlo.devRef_mem_tcRefs main_v68, by decide⟩)).trans (congrFun (V11_eq m c) _),
        (h (Proc.devRef .tc main_arg0) (Finset.mem_filter.mpr ⟨StableHlo.devRef_mem_tcRefs main_arg0, by decide⟩)).trans (Gen.V11_main_arg0 m (outs m) c),
        (h (Proc.devRef .tc main_arg1) (Finset.mem_filter.mpr ⟨StableHlo.devRef_mem_tcRefs main_arg1, by decide⟩)).trans (Gen.V11_main_arg1 m (outs m) c),
        (h (Proc.devRef .tc main_arg2) (Finset.mem_filter.mpr ⟨StableHlo.devRef_mem_tcRefs main_arg2, by decide⟩)).trans (Gen.V11_main_arg2 m (outs m) c),
        (h (Proc.devRef .tc main_arg3) (Finset.mem_filter.mpr ⟨StableHlo.devRef_mem_tcRefs main_arg3, by decide⟩)).trans (Gen.V11_main_arg3 m (outs m) c),
        (h (Proc.devRef .tc main_arg4) (Finset.mem_filter.mpr ⟨StableHlo.devRef_mem_tcRefs main_arg4, by decide⟩)).trans (Gen.V11_main_arg4 m (outs m) c),
        (h (Proc.devRef .tc main_arg5) (Finset.mem_filter.mpr ⟨StableHlo.devRef_mem_tcRefs main_arg5, by decide⟩)).trans (Gen.V11_main_arg5 m (outs m) c),
        (h (Proc.devRef .tc main_arg6) (Finset.mem_filter.mpr ⟨StableHlo.devRef_mem_tcRefs main_arg6, by decide⟩)).trans (Gen.V11_main_arg6 m (outs m) c),
        (h (Proc.devRef .tc main_arg7) (Finset.mem_filter.mpr ⟨StableHlo.devRef_mem_tcRefs main_arg7, by decide⟩)).trans (Gen.V11_main_arg7 m (outs m) c),
        (h (Proc.devRef .tc main_arg8) (Finset.mem_filter.mpr ⟨StableHlo.devRef_mem_tcRefs main_arg8, by decide⟩)).trans (Gen.V11_main_arg8 m (outs m) c),
        (h (Proc.devRef .tc main_arg9) (Finset.mem_filter.mpr ⟨StableHlo.devRef_mem_tcRefs main_arg9, by decide⟩)).trans (Gen.V11_main_arg9 m (outs m) c)⟩
    · iexact HSI

end Cert.KernelIdeal.Run

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KI_ValA.lean ====
/-
  The first region's output array, whole, on the extended reals: the flattened input times the cluster matrix.

  Grid point t writes back rows [2048 t, 2048 t + 2048) of the [16384, 64] output; entry (p, q) of its block is the
  sum over k of block entry (p, k) of the input rows times entry (k, q) of the matrix — the change of float format
  before the product is the identity on the extended reals — and that is entry (2048 t + p, q) of the whole
  product.  The eight blocks tile the output.
-/
import proofs.«124837_j25666724561114_2_alg».proof.Proof.KI_RegA
import proofs.«124837_j25666724561114_2_alg».proof.Proof.LibPlainDot
import proofs.«124837_j25666724561114_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The block product's and the whole product's dimension numbers. -/
abbrev DA := dot_S2048x1024_S1024x64_S2048x64_1_0_0_1_n_n
abbrev DW := Cert.ReferenceIdeal.dot_S16384x1024_S1024x64_S16384x64_1_0_0_1_n_n

theorem DA_l0 (j : S2048x64.Idx) (k : DA.contr.Idx) : (DA.lhsIdx j k 0).val = (j 0).val := by
  simp [DotDims.lhsIdx, DA, dot_S2048x1024_S1024x64_S2048x64_1_0_0_1_n_n]; rfl
theorem DA_l1 (j : S2048x64.Idx) (k : DA.contr.Idx) : (DA.lhsIdx j k 1).val = (k ⟨0, by decide⟩).val := by
  simp [DotDims.lhsIdx, DA, dot_S2048x1024_S1024x64_S2048x64_1_0_0_1_n_n]; rfl
theorem DA_r0 (j : S2048x64.Idx) (k : DA.contr.Idx) : (DA.rhsIdx j k 0).val = (k ⟨0, by decide⟩).val := by
  simp [DotDims.rhsIdx, DA, dot_S2048x1024_S1024x64_S2048x64_1_0_0_1_n_n]; rfl
theorem DA_r1 (j : S2048x64.Idx) (k : DA.contr.Idx) : (DA.rhsIdx j k 1).val = (j 1).val := by
  simp [DotDims.rhsIdx, DA, dot_S2048x1024_S1024x64_S2048x64_1_0_0_1_n_n]; rfl
theorem DW_l0 (j : Cert.ReferenceIdeal.S16384x64.Idx) (k : DW.contr.Idx) : (DW.lhsIdx j k 0).val = (j 0).val := by
  simp [DotDims.lhsIdx, DW, Cert.ReferenceIdeal.dot_S16384x1024_S1024x64_S16384x64_1_0_0_1_n_n]; rfl
theorem DW_l1 (j : Cert.ReferenceIdeal.S16384x64.Idx) (k : DW.contr.Idx) : (DW.lhsIdx j k 1).val = (k ⟨0, by decide⟩).val := by
  simp [DotDims.lhsIdx, DW, Cert.ReferenceIdeal.dot_S16384x1024_S1024x64_S16384x64_1_0_0_1_n_n]; rfl
theorem DW_r0 (j : Cert.ReferenceIdeal.S16384x64.Idx) (k : DW.contr.Idx) : (DW.rhsIdx j k 0).val = (k ⟨0, by decide⟩).val := by
  simp [DotDims.rhsIdx, DW, Cert.ReferenceIdeal.dot_S16384x1024_S1024x64_S16384x64_1_0_0_1_n_n]; rfl
theorem DW_r1 (j : Cert.ReferenceIdeal.S16384x64.Idx) (k : DW.contr.Idx) : (DW.rhsIdx j k 1).val = (j 1).val := by
  simp [DotDims.rhsIdx, DW, Cert.ReferenceIdeal.dot_S16384x1024_S1024x64_S16384x64_1_0_0_1_n_n]; rfl

/-- The block product at an entry: a plain sum over the 1024 columns. -/
theorem blockProduct (x0 : Vec Ideal S2048x1024 .f32) (x1 : Vec Ideal S1024x64 .f32) (p : Fin 2048) (q : Fin 64) :
    k0_pay1 (F := Ideal) x0 x1 (ix2 p q) = ∑ k : Fin 1024, (x0 (ix2 p k) : EReal) * (x1 (ix2 k q) : EReal) := by
  unfold k0_pay1
  rw [shapeCast_self]
  exact Cert.PlainDot.matmul_zero_apply DA (by decide) (by decide) DA_l0 DA_l1 DA_r0 DA_r1 none _ _ p q

/-- The whole product, as the host computes it. -/
def wholeProd (l : (⟨S16384x1024, .f32⟩ : BufTy).Contents (Elt Ideal)) (r : (⟨S1024x64, .f32⟩ : BufTy).Contents (Elt Ideal)) :
    (⟨S16384x64, .f32⟩ : BufTy).Contents (Elt Ideal) :=
  ((fun l r => Host.dotGeneral (F := Ideal) (φ₁ := .f32) (φ₂ := .f32) DW none l r) : (⟨S16384x1024, .f32⟩ : BufTy).Contents (Elt Ideal) → (⟨S1024x64, .f32⟩ : BufTy).Contents (Elt Ideal) → (⟨S16384x64, .f32⟩ : BufTy).Contents (Elt Ideal)) l r

/-- The whole product at an entry: the same kind of sum. -/
theorem wholeProduct (l : FVec Ideal S16384x1024 .f32) (r : FVec Ideal S1024x64 .f32) (p : Fin 16384) (q : Fin 64) :
    wholeProd l r (ix2 p q) = ∑ k : Fin 1024, (l (ix2 p k) : EReal) * (r (ix2 k q) : EReal) := by
  unfold wholeProd
  simp only [Host.dotGeneral]
  exact Cert.PlainDot.dotGeneral_apply DW (by decide) (by decide) DW_l0 DW_l1 DW_r0 DW_r1 none _ l r p q

theorem zeroA2 : (![0, 0] : Fin 2 → Nat) = fun _ => 0 := funext fun a => by fin_cases a <;> rfl

/-- The block index maps over the grid: rows move with the point, the matrix stays. -/
theorem indexA : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem blockA0_at (c : Dev nD) (t : Fin cfg0.N) (p : Fin 2048) (k : Fin 1024) :
    blockA V c 0 t (ix2 p k) = V c main_v0 (ix2 (⟨2048 * t.val + p.val, by have := lt_of_lt_of_eq t.isLt N_0; omega⟩ : Fin 16384) k) := by
  obtain ⟨e0, e1, -⟩ := indexA t
  show V c main_v0 (((cfg0.win 0).blk t).view.emb (ix2 p k)) = _
  refine congrArg _ ?_
  funext a; apply Fin.ext
  match a with
  | ⟨0, _⟩ => show win0_0.index t (0 : Fin 2) * 2048 + 1 * p.val = 2048 * t.val + p.val; omega
  | ⟨1, _⟩ => show win0_0.index t (1 : Fin 2) * 1024 + 1 * k.val = k.val; omega

theorem blockA1_at (c : Dev nD) (t : Fin cfg0.N) (k : Fin 1024) (q : Fin 64) :
    blockA V c 1 t (ix2 k q) = V c main_arg1 (ix2 k q) := by
  obtain ⟨-, -, e0, e1, -⟩ := indexA t
  show V c main_arg1 (((cfg0.win 1).blk t).view.emb (ix2 k q)) = _
  refine congrArg _ ?_
  funext a; apply Fin.ext
  match a with
  | ⟨0, _⟩ => show win0_1.index t (0 : Fin 2) * 1024 + 1 * k.val = k.val; omega
  | ⟨1, _⟩ => show win0_1.index t (1 : Fin 2) * 64 + 1 * q.val = q.val; omega

theorem embA2 (t : Fin cfg0.N) (p : Fin 2048) (q : Fin 64) :
    ((cfg0.win 2).blk t).view.emb (ix2 p q) = ix2 (⟨2048 * t.val + p.val, by have := lt_of_lt_of_eq t.isLt N_0; omega⟩ : Fin 16384) q := by
  obtain ⟨-, -, -, -, e0, e1⟩ := indexA t
  funext a; apply Fin.ext
  match a with
  | ⟨0, _⟩ => show win0_2.index t (0 : Fin 2) * 2048 + 1 * p.val = 2048 * t.val + p.val; omega
  | ⟨1, _⟩ => show win0_2.index t (1 : Fin 2) * 64 + 1 * q.val = q.val; omega

/-- What grid point `t` writes back is block `t` of the whole product. -/
theorem flushedA (c : Dev nD) (t : Fin cfg0.N) :
    (datA V c).flushed 2 t = ((cfg0.win 2).blk t).view.read (Elt Ideal) (wholeProd (V c main_v0) (V c main_arg1)) := by
  show (cfg0.win 2).cut (grid0.coords t) ((datA V c).after 2 t) = _
  rw [afterA_2]
  unfold outA
  rw [View.canon_unit_zero zeroA2]
  simp only [View.ld_unit_zero (S := S2048x1024) zeroA2, View.ld_unit_zero (S := S1024x64) zeroA2]
  funext j
  obtain ⟨p, q, rfl⟩ : ∃ (p : Fin 2048) (q : Fin 64), j = ix2 p q := ⟨j 0, j 1, eq_ix2 j⟩
  show k0_pay1 (F := Ideal) (blockA V c 0 t) (blockA V c 1 t) (ix2 p q) = wholeProd (V c main_v0) (V c main_arg1) (((cfg0.win 2).blk t).view.emb (ix2 p q))
  rw [embA2 t p q, blockProduct, wholeProduct]
  exact Finset.sum_congr rfl fun k _ => by rw [blockA0_at, blockA1_at]

theorem memA2 (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v1).slice (win0_2.rect t)).set ↔ _
  rw [View.set_slice_whole, Rect.mem_set_unit]
  exact Iff.rfl

theorem coverA2 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  have ht : (i 0).val / 2048 < cfg0.N := by rw [show cfg0.N = 8 from N_0]; omega
  refine ⟨⟨(i 0).val / 2048, ht⟩, flush0_2 _, ?_⟩
  rw [memA2]
  obtain ⟨-, -, -, -, e0, e1⟩ := indexA ⟨(i 0).val / 2048, ht⟩
  intro a
  match a with
  | ⟨0, _⟩ => show win0_2.index _ (0 : Fin 2) * 2048 ≤ (i 0).val ∧ (i 0).val < win0_2.index _ (0 : Fin 2) * 2048 + 2048; simp only [] at e0; omega
  | ⟨1, _⟩ => show win0_2.index _ (1 : Fin 2) * 64 ≤ (i 1).val ∧ (i 1).val < win0_2.index _ (1 : Fin 2) * 64 + 64; omega

/-- The output array after the region: the flattened input, as the region found it, times the cluster matrix. -/
theorem valueA (c : Dev nD) :
    (datA V c).arrAt 2 cfg0.N = wholeProd (V c main_v0) (V c main_arg1) :=
  (datA V c).arrAt_eq_of_cover 2 _ (fun t _ => flushedA V c t) coverA2

end Cert.KernelIdeal.Run

end
-- ==== Proof.KerFv.lean ====
/-
  The per-batch kernel's two results as functions of whole arrays.

  The second kernel works on one batch element at a time: from the [512, 1024] slab of the input and the [512, 64]
  slab of soft assignments of batch element b, and the two [1024, 64] weight matrices, it computes the [1024, 64]
  first-order and second-order blocks of b, normalised.  Stacking the blocks over b gives two [32, 1024, 64] arrays,
  each entry a function of the slabs of its own batch element.
-/
import proofs.«124837_j25666724561114_2_alg».proof.Proof.Gen.KernelIdeal.Skeleton
import Idealize.ShloMosaic.Lib.ValueIdx

noncomputable section

namespace Cert.Stages

open Cert.KernelIdeal Cert.KernelIdeal.Gen Idealize.ShloMosaic Idealize.ShloMosaic.ValueIdx

variable {F : FTy → Type} [FloatOps F]

/-- The slab of batch element `b` of the input, as the kernel's block [1, 512, 1024]. -/
def slabX (x : Vec F S32x512x1024 .f32) (b : Fin 32) : Vec F S1x512x1024 .f32 := fun j => x (ix3 b (j 1) (j 2))
/-- The slab of batch element `b` of the soft assignments, as the kernel's block [1, 512, 64]. -/
def slabAct (act : Vec F S32x512x64 .f32) (b : Fin 32) : Vec F S1x512x64 .f32 := fun j => act (ix3 b (j 1) (j 2))

/-- The first-order block of every batch element: the kernel's first stored value, slab by slab. -/
def kerFv1 (x : Vec F S32x512x1024 .f32) (act : Vec F S32x512x64 .f32) (cw c2 : Vec F S1024x64 .f32) : Vec F S32x1024x64 .f32 :=
  fun i => k1_pay1 (k1_pay11 (slabX x (i 0)) (slabAct act (i 0)) cw c2) (k1_pay12 (slabX x (i 0)) (slabAct act (i 0)) cw c2) (ix3 0 (i 1) (i 2))
/-- The second-order block of every batch element: the kernel's second stored value, slab by slab. -/
def kerFv2 (x : Vec F S32x512x1024 .f32) (act : Vec F S32x512x64 .f32) (cw c2 : Vec F S1024x64 .f32) : Vec F S32x1024x64 .f32 :=
  fun i => k1_pay2 (k1_pay10 (slabX x (i 0)) (slabAct act (i 0)) cw c2) (ix3 0 (i 1) (i 2))

end Cert.Stages

end
-- ==== Proof.KI_ValB.lean ====
/-
  The second region's two output arrays, whole: stacking over the batch elements what each grid point writes back
  gives, entry by entry, the per-batch kernel's two results of the slabs of that batch element.

  Grid point b brings in slab b of the input and of the soft assignments (blocks [1, 512, ·] at block index (b, 0, 0))
  and the two weight matrices whole, and writes back the [1, 1024, 64] blocks at block index (b, 0, 0) of the two
  outputs.  The 32 blocks tile each output array.
-/
import proofs.«124837_j25666724561114_2_alg».proof.Proof.KI_RegB
import proofs.«124837_j25666724561114_2_alg».proof.Proof.KerFv
import Idealize.ShloMosaic.Lib.Pipeline.Value
import Idealize.ShloMosaic.Lib.ValueIdx

set_option maxRecDepth 16384

noncomputable section

namespace Cert.KernelIdeal.Run

open Cert.KernelIdeal Cert.KernelIdeal.Gen Cert.Stages
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block index maps over the grid: the slabs and the outputs move with the batch element, the weights stay. -/
theorem indexB : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

/-- The batch element a grid point handles. -/
def batchOf (t : Fin cfg1.N) : Fin 32 := ⟨t.val, lt_of_lt_of_eq t.isLt N_1⟩

theorem blockB0_eq (c : Dev nD) (t : Fin cfg1.N) : blockB V c 0 t = slabX (V c main_arg0) (batchOf t) := by
  obtain ⟨e0, e1, e2, -⟩ := indexB t
  funext y
  show V c main_arg0 (((cfg1.win 0).blk t).view.emb y) = V c main_arg0 (ix3 (batchOf t) (y 1) (y 2))
  refine congrArg _ ?_
  funext a; apply Fin.ext
  match a with
  | ⟨0, _⟩ => show win1_0.index t (0 : Fin 3) * 1 + 1 * (y 0).val = t.val; have hy : (y 0).val < 1 := (y 0).isLt; omega
  | ⟨1, _⟩ => show win1_0.index t (1 : Fin 3) * 512 + 1 * (y 1).val = (y 1).val; omega
  | ⟨2, _⟩ => show win1_0.index t (2 : Fin 3) * 1024 + 1 * (y 2).val = (y 2).val; omega

theorem blockB1_eq (c : Dev nD) (t : Fin cfg1.N) : blockB V c 1 t = slabAct (V c main_v32) (batchOf t) := by
  obtain ⟨-, -, -, e0, e1, e2, -⟩ := indexB t
  funext y
  show V c main_v32 (((cfg1.win 1).blk t).view.emb y) = V c main_v32 (ix3 (batchOf t) (y 1) (y 2))
  refine congrArg _ ?_
  funext a; apply Fin.ext
  match a with
  | ⟨0, _⟩ => show win1_1.index t (0 : Fin 3) * 1 + 1 * (y 0).val = t.val; have hy : (y 0).val < 1 := (y 0).isLt; omega
  | ⟨1, _⟩ => show win1_1.index t (1 : Fin 3) * 512 + 1 * (y 1).val = (y 1).val; omega
  | ⟨2, _⟩ => show win1_1.index t (2 : Fin 3) * 64 + 1 * (y 2).val = (y 2).val; omega

theorem blockB2_eq (c : Dev nD) (t : Fin cfg1.N) : blockB V c 2 t = V c main_v35 := by
  obtain ⟨-, -, -, -, -, -, e0, e1, -⟩ := indexB t
  funext y
  show V c main_v35 (((cfg1.win 2).blk t).view.emb y) = V c main_v35 y
  refine congrArg _ ?_
  funext a; apply Fin.ext
  match a with
  | ⟨0, _⟩ => show win1_2.index t (0 : Fin 2) * 1024 + 1 * (y 0).val = (y 0).val; omega
  | ⟨1, _⟩ => show win1_2.index t (1 : Fin 2) * 64 + 1 * (y 1).val = (y 1).val; omega

theorem blockB3_eq (c : Dev nD) (t : Fin cfg1.N) : blockB V c 3 t = V c main_v36 := by
  obtain ⟨-, -, -, -, -, -, -, -, e0, e1, -⟩ := indexB t
  funext y
  show V c main_v36 (((cfg1.win 3).blk t).view.emb y) = V c main_v36 y
  refine congrArg _ ?_
  funext a; apply Fin.ext
  match a with
  | ⟨0, _⟩ => show win1_3.index t (0 : Fin 2) * 1024 + 1 * (y 0).val = (y 0).val; omega
  | ⟨1, _⟩ => show win1_3.index t (1 : Fin 2) * 64 + 1 * (y 1).val = (y 1).val; omega

/-- Where an entry of an output block sits in the output array. -/
theorem embB4 (t : Fin cfg1.N) (j : S1x1024x64.Idx) : ((cfg1.win 4).blk t).view.emb j = ix3 (batchOf t) (j 1) (j 2) := by
  obtain ⟨-, -, -, -, -, -, -, -, -, -, e0, e1, e2, -⟩ := indexB t
  funext a; apply Fin.ext
  match a with
  | ⟨0, _⟩ => show win1_4.index t (0 : Fin 3) * 1 + 1 * (j 0).val = t.val; have hy : (j 0).val < 1 := (j 0).isLt; omega
  | ⟨1, _⟩ => show win1_4.index t (1 : Fin 3) * 1024 + 1 * (j 1).val = (j 1).val; omega
  | ⟨2, _⟩ => show win1_4.index t (2 : Fin 3) * 64 + 1 * (j 2).val = (j 2).val; omega
theorem embB5 (t : Fin cfg1.N) (j : S1x1024x64.Idx) : ((cfg1.win 5).blk t).view.emb j = ix3 (batchOf t) (j 1) (j 2) := by
  obtain ⟨-, -, -, -, -, -, -, -, -, -, -, -, -, e0, e1, e2⟩ := indexB t
  funext a; apply Fin.ext
  match a with
  | ⟨0, _⟩ => show win1_5.index t (0 : Fin 3) * 1 + 1 * (j 0).val = t.val; have hy : (j 0).val < 1 := (j 0).isLt; omega
  | ⟨1, _⟩ => show win1_5.index t (1 : Fin 3) * 1024 + 1 * (j 1).val = (j 1).val; omega
  | ⟨2, _⟩ => show win1_5.index t (2 : Fin 3) * 64 + 1 * (j 2).val = (j 2).val; omega

theorem ix3_zero (j : S1x1024x64.Idx) : j = ix3 (0 : Fin 1) (j 1) (j 2) := by
  funext a; match a with
  | ⟨0, _⟩ => exact Fin.ext (by have h : (j 0).val < 1 := (j 0).isLt; show (j 0).val = 0; omega)
  | ⟨1, _⟩ => rfl
  | ⟨2, _⟩ => rfl

/-- What grid point `t` writes back to the first output is block `t` of the stacked first-order result. -/
theorem flushedB4 (c : Dev nD) (t : Fin cfg1.N) :
    (datB V c).flushed 4 t = ((cfg1.win 4).blk t).view.read (Elt F) (kerFv1 (V c main_arg0) (V c main_v32) (V c main_v35) (V c main_v36)) := by
  show (cfg1.win 4).cut (grid1.coords t) ((datB V c).after 4 t) = _
  rw [afterB_4]
  unfold outB4
  rw [View.canon_unit_zero zero3]
  simp only [View.ld_unit_zero (S := S1x512x1024) zero3, View.ld_unit_zero (S := S1x512x64) zero3, View.ld_unit_zero (S := S1024x64) zero2]
  rw [blockB0_eq, blockB1_eq, blockB2_eq, blockB3_eq]
  funext j
  show k1_pay1 _ _ j = kerFv1 _ _ _ _ (((cfg1.win 4).blk t).view.emb j)
  rw [embB4 t j]
  conv_lhs => rw [ix3_zero j]
  rfl

theorem flushedB5 (c : Dev nD) (t : Fin cfg1.N) :
    (datB V c).flushed 5 t = ((cfg1.win 5).blk t).view.read (Elt F) (kerFv2 (V c main_arg0) (V c main_v32) (V c main_v35) (V c main_v36)) := by
  show (cfg1.win 5).cut (grid1.coords t) ((datB V c).after 5 t) = _
  rw [afterB_5]
  unfold outB5
  rw [View.canon_unit_zero zero3]
  simp only [View.ld_unit_zero (S := S1x512x1024) zero3, View.ld_unit_zero (S := S1x512x64) zero3, View.ld_unit_zero (S := S1024x64) zero2]
  rw [blockB0_eq, blockB1_eq, blockB2_eq, blockB3_eq]
  funext j
  show k1_pay2 _ j = kerFv2 _ _ _ _ (((cfg1.win 5).blk t).view.emb j)
  rw [embB5 t j]
  conv_lhs => rw [ix3_zero j]
  rfl

/-- An entry of the output array lies in grid point `t`'s block iff each coordinate is in the block's range. -/
theorem memB4 (t : Fin cfg1.N) (i : S32x1024x64.Idx) :
    i ∈ ((cfg1.win 4).blk t).view.set ↔ ∀ a : Fin 3, win1_4.index t a * S1x1024x64.size a ≤ (i a).val ∧ (i a).val < win1_4.index t a * S1x1024x64.size a + S1x1024x64.size a := by
  show i ∈ ((View.whole main_v37_0).slice (win1_4.rect t)).set ↔ _
  rw [View.set_slice_whole, Rect.mem_set_unit]
  exact Iff.rfl
theorem memB5 (t : Fin cfg1.N) (i : S32x1024x64.Idx) :
    i ∈ ((cfg1.win 5).blk t).view.set ↔ ∀ a : Fin 3, win1_5.index t a * S1x1024x64.size a ≤ (i a).val ∧ (i a).val < win1_5.index t a * S1x1024x64.size a + S1x1024x64.size a := by
  show i ∈ ((View.whole main_v37_1).slice (win1_5.rect t)).set ↔ _
  rw [View.set_slice_whole, Rect.mem_set_unit]
  exact Iff.rfl

/-- Every entry is in the block of its own batch element. -/
theorem coverB4 (i : S32x1024x64.Idx) : ∃ t : Fin cfg1.N, (cfg1.win 4).flush t = true ∧ i ∈ ((cfg1.win 4).blk t).view.set := by
  have hi0 : (i 0).val < 32 := (i 0).isLt
  have hi1 : (i 1).val < 1024 := (i 1).isLt
  have hi2 : (i 2).val < 64 := (i 2).isLt
  refine ⟨⟨(i 0).val, by rw [show cfg1.N = 32 from N_1]; exact hi0⟩, flush1_4 _, ?_⟩
  rw [memB4]
  obtain ⟨-, -, -, -, -, -, -, -, -, -, e0, e1, e2, -⟩ := indexB ⟨(i 0).val, by rw [show cfg1.N = 32 from N_1]; exact hi0⟩
  intro a
  match a with
  | ⟨0, _⟩ => show win1_4.index _ (0 : Fin 3) * 1 ≤ (i 0).val ∧ (i 0).val < win1_4.index _ (0 : Fin 3) * 1 + 1; simp only [] at e0; omega
  | ⟨1, _⟩ => show win1_4.index _ (1 : Fin 3) * 1024 ≤ (i 1).val ∧ (i 1).val < win1_4.index _ (1 : Fin 3) * 1024 + 1024; omega
  | ⟨2, _⟩ => show win1_4.index _ (2 : Fin 3) * 64 ≤ (i 2).val ∧ (i 2).val < win1_4.index _ (2 : Fin 3) * 64 + 64; omega
theorem coverB5 (i : S32x1024x64.Idx) : ∃ t : Fin cfg1.N, (cfg1.win 5).flush t = true ∧ i ∈ ((cfg1.win 5).blk t).view.set := by
  have hi0 : (i 0).val < 32 := (i 0).isLt
  have hi1 : (i 1).val < 1024 := (i 1).isLt
  have hi2 : (i 2).val < 64 := (i 2).isLt
  refine ⟨⟨(i 0).val, by rw [show cfg1.N = 32 from N_1]; exact hi0⟩, flush1_5 _, ?_⟩
  rw [memB5]
  obtain ⟨-, -, -, -, -, -, -, -, -, -, -, -, -, e0, e1, e2⟩ := indexB ⟨(i 0).val, by rw [show cfg1.N = 32 from N_1]; exact hi0⟩
  intro a
  match a with
  | ⟨0, _⟩ => show win1_5.index _ (0 : Fin 3) * 1 ≤ (i 0).val ∧ (i 0).val < win1_5.index _ (0 : Fin 3) * 1 + 1; simp only [] at e0; omega
  | ⟨1, _⟩ => show win1_5.index _ (1 : Fin 3) * 1024 ≤ (i 1).val ∧ (i 1).val < win1_5.index _ (1 : Fin 3) * 1024 + 1024; omega
  | ⟨2, _⟩ => show win1_5.index _ (2 : Fin 3) * 64 ≤ (i 2).val ∧ (i 2).val < win1_5.index _ (2 : Fin 3) * 64 + 64; omega

/-- The first output array after the region: the stacked first-order result of the arrays the region found. -/
theorem valueB4 (c : Dev nD) :
    (datB V c).arrAt 4 cfg1.N = kerFv1 (V c main_arg0) (V c main_v32) (V c main_v35) (V c main_v36) :=
  (datB V c).arrAt_eq_of_cover 4 _ (fun t _ => flushedB4 V c t) coverB4
/-- The second output array after the region: the stacked second-order result. -/
theorem valueB5 (c : Dev nD) :
    (datB V c).arrAt 5 cfg1.N = kerFv2 (V c main_arg0) (V c main_v32) (V c main_v35) (V c main_v36) :=
  (datB V c).arrAt_eq_of_cover 5 _ (fun t _ => flushedB5 V c t) coverB5

end Cert.KernelIdeal.Run

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.KI_ValC.lean ====
/-
  The third region's output array, whole, on the extended reals: the concatenated Fisher vector times the hidden
  weights.

  Point t = 64 n + k adds to the accumulator the product of block k of the left operand (columns [2048 k, 2048 k + 2048))
  with block (k, n) of the right operand (those rows, columns [512 n, 512 n + 512)); the accumulator starts each sweep
  at zero.  So after point 64 n + k the accumulator's entry (p, q) is the sum over the blocks 0 … k of the blocks' sums,
  and at k = 63 — where it is copied out — that is the sum over all 131072 columns: entry (p, 512 n + q) of the whole
  product.  The two written-back blocks tile the [32, 1024] output.
-/
import proofs.«124837_j25666724561114_2_alg».proof.Proof.KI_RegC
import proofs.«124837_j25666724561114_2_alg».proof.Proof.LibPlainDot
import proofs.«124837_j25666724561114_2_alg».proof.Proof.LibBlockSum
import proofs.«124837_j25666724561114_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open Cert.LibBlockSum

theorem zeroC : (![0, 0] : Fin 2 → Nat) = fun _ => 0 := funext fun a => by fin_cases a <;> rfl

/-! ## What each kind of point leaves, explicitly -/

section Pieces
variable {F : FTy → Type} [FloatOps F]

theorem accFirst_eq (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : firstC i) (hc1 : ¬lastC i) (x0 : Vec F S32x2048 .f32) (x1 : Vec F S2048x512 .f32) :
    accFirst c i arg2 harg2 arg3 harg3 arg4 harg4 arg5 harg5 hc0 hc1 x0 x1 = k2_pay2 x0 x1 k2_pay1 := by
  unfold accFirst
  rw [View.read_writes_eq_canon _ _ _ (coverFirstS c i arg2 harg2 arg3 harg3 arg4 harg4 arg5 harg5 hc0 hc1 x0 x1)]
  unfold runFirst
  dsimp only
  sl_unfold_words
  rw [View.canon_cons_unit_zero zeroC]
  simp only [View.readCov_unit_zero (S := S32x512) arg5.view zeroC, View.readAt_eq_ld, harg2.read_unread, harg3.read_unread,
    View.ld_unit_zero (S := S32x2048) zeroC, View.ld_unit_zero (S := S2048x512) zeroC]

theorem accMid_eq (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : ¬lastC i) (x0 : Vec F S32x2048 .f32) (x1 : Vec F S2048x512 .f32) (xs : Vec F S32x512 .f32) :
    accMid c i arg2 harg2 arg3 harg3 arg4 harg4 arg5 harg5 hc0 hc1 x0 x1 xs = k2_pay2 x0 x1 xs := by
  unfold accMid
  rw [View.read_writes_eq_canon _ _ _ (coverMidS c i arg2 harg2 arg3 harg3 arg4 harg4 arg5 harg5 hc0 hc1 x0 x1 xs)]
  unfold runMid
  dsimp only
  sl_unfold_words
  first | rw [View.canon_unit_zero zeroC] | rw [View.canon_cons_unit_zero zeroC]
  simp only [View.readAt_eq_ld, harg2.read_unread, harg3.read_unread, harg5.read_unread,
    View.ld_unit_zero (S := S32x2048) zeroC, View.ld_unit_zero (S := S2048x512) zeroC, View.ld_unit_zero (S := S32x512) zeroC]

theorem accLast_eq (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) :
    accLast c i arg2 harg2 arg3 harg3 arg4 harg4 arg5 harg5 hc0 hc1 x0 x1 xs = k2_pay2 x0 x1 xs := by
  unfold accLast
  rw [View.read_writes_eq_canon _ _ _ (coverLastS c i arg2 harg2 arg3 harg3 arg4 harg4 arg5 harg5 hc0 hc1 x0 x1 xs)]
  unfold runLast
  dsimp only
  sl_unfold_words
  first | rw [View.canon_unit_zero zeroC] | rw [View.canon_cons_unit_zero zeroC]
  simp only [View.readAt_eq_ld, harg2.read_unread, harg3.read_unread, harg5.read_unread,
    View.ld_unit_zero (S := S32x2048) zeroC, View.ld_unit_zero (S := S2048x512) zeroC, View.ld_unit_zero (S := S32x512) zeroC]

theorem outLast_eq (c : Dev nD) (i : grid2.Coords) (arg2 : Memref sig .tc .vmem S32x2048 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S32x512 .f32) (harg5 : arg5.IsWhole) (hc0 : ¬firstC i) (hc1 : lastC i) (x0 : Vec F S32x2048 .f32) (x1 : Vec F S2048x512 .f32) (xs : Vec F S32x512 .f32) :
    outLast c i arg2 harg2 arg3 harg3 arg4 harg4 arg5 harg5 hc0 hc1 x0 x1 xs = k2_pay2 x0 x1 xs := by
  unfold outLast
  rw [View.read_writes_eq_canon _ _ _ (coverLastO c i arg2 harg2 arg3 harg3 arg4 harg4 arg5 harg5 hc0 hc1 x0 x1 xs)]
  unfold runLast
  dsimp only
  sl_unfold_words
  rw [View.canon_unit_zero zeroC]
  simp only [View.readCov_unit_zero (S := S32x512) arg5.view zeroC, View.readAt_eq_ld, harg2.read_unread, harg3.read_unread, harg5.read_unread,
    View.ld_unit_zero (S := S32x2048) zeroC, View.ld_unit_zero (S := S2048x512) zeroC, View.ld_unit_zero (S := S32x512) zeroC]

end Pieces

/-! ## One step of the accumulation, entry by entry -/

abbrev DC := dot_S32x2048_S2048x512_S32x512_1_0_0_1_n_n
abbrev DH := Cert.ReferenceIdeal.dot_S32x131072_S131072x1024_S32x1024_1_0_0_1_n_n

theorem DC_l0 (j : S32x512.Idx) (k : DC.contr.Idx) : (DC.lhsIdx j k 0).val = (j 0).val := by
  simp [DotDims.lhsIdx, DC, dot_S32x2048_S2048x512_S32x512_1_0_0_1_n_n]; rfl
theorem DC_l1 (j : S32x512.Idx) (k : DC.contr.Idx) : (DC.lhsIdx j k 1).val = (k ⟨0, by decide⟩).val := by
  simp [DotDims.lhsIdx, DC, dot_S32x2048_S2048x512_S32x512_1_0_0_1_n_n]; rfl
theorem DC_r0 (j : S32x512.Idx) (k : DC.contr.Idx) : (DC.rhsIdx j k 0).val = (k ⟨0, by decide⟩).val := by
  simp [DotDims.rhsIdx, DC, dot_S32x2048_S2048x512_S32x512_1_0_0_1_n_n]; rfl
theorem DC_r1 (j : S32x512.Idx) (k : DC.contr.Idx) : (DC.rhsIdx j k 1).val = (j 1).val := by
  simp [DotDims.rhsIdx, DC, dot_S32x2048_S2048x512_S32x512_1_0_0_1_n_n]; rfl
theorem DH_l0 (j : Cert.ReferenceIdeal.S32x1024.Idx) (k : DH.contr.Idx) : (DH.lhsIdx j k 0).val = (j 0).val := by
  simp [DotDims.lhsIdx, DH, Cert.ReferenceIdeal.dot_S32x131072_S131072x1024_S32x1024_1_0_0_1_n_n]; rfl
theorem DH_l1 (j : Cert.ReferenceIdeal.S32x1024.Idx) (k : DH.contr.Idx) : (DH.lhsIdx j k 1).val = (k ⟨0, by decide⟩).val := by
  simp [DotDims.lhsIdx, DH, Cert.ReferenceIdeal.dot_S32x131072_S131072x1024_S32x1024_1_0_0_1_n_n]; rfl
theorem DH_r0 (j : Cert.ReferenceIdeal.S32x1024.Idx) (k : DH.contr.Idx) : (DH.rhsIdx j k 0).val = (k ⟨0, by decide⟩).val := by
  simp [DotDims.rhsIdx, DH, Cert.ReferenceIdeal.dot_S32x131072_S131072x1024_S32x1024_1_0_0_1_n_n]; rfl
theorem DH_r1 (j : Cert.ReferenceIdeal.S32x1024.Idx) (k : DH.contr.Idx) : (DH.rhsIdx j k 1).val = (j 1).val := by
  simp [DotDims.rhsIdx, DH, Cert.ReferenceIdeal.dot_S32x131072_S131072x1024_S32x1024_1_0_0_1_n_n]; rfl

/-- One step: what was there plus the block product. -/
theorem stepAt (x0 : Vec Ideal S32x2048 .f32) (x1 : Vec Ideal S2048x512 .f32) (x8 : Vec Ideal S32x512 .f32) (p : Fin 32) (q : Fin 512) :
    k2_pay2 (F := Ideal) x0 x1 x8 (ix2 p q) = (x8 (ix2 p q) : EReal) + ∑ j : Fin 2048, (x0 (ix2 p j) : EReal) * (x1 (ix2 j q) : EReal) := by
  unfold k2_pay2
  rw [shapeCast_self, shapeCast_self, addf_apply]
  exact congrArg _ (Cert.PlainDot.matmul_zero_apply DC (by decide) (by decide) DC_l0 DC_l1 DC_r0 DC_r1 none _ _ p q)

/-- The accumulator's reset value is zero. -/
theorem resetAt (p : Fin 32) (q : Fin 512) : (k2_pay1 (F := Ideal) (ix2 p q) : EReal) = 0 := by
  unfold k2_pay1
  rw [shapeCast_self]
  exact Ideal.ofBits_zero_f32

/-- The whole product, as the host computes it. -/
def hiddenProd (l : (⟨S32x131072, .f32⟩ : BufTy).Contents (Elt Ideal)) (r : (⟨S131072x1024, .f32⟩ : BufTy).Contents (Elt Ideal)) :
    (⟨S32x1024, .f32⟩ : BufTy).Contents (Elt Ideal) :=
  ((fun l r => Host.dotGeneral (F := Ideal) (φ₁ := .f32) (φ₂ := .f32) DH none l r) : (⟨S32x131072, .f32⟩ : BufTy).Contents (Elt Ideal) → (⟨S131072x1024, .f32⟩ : BufTy).Contents (Elt Ideal) → (⟨S32x1024, .f32⟩ : BufTy).Contents (Elt Ideal)) l r

theorem hiddenProd_at (l : FVec Ideal S32x131072 .f32) (r : FVec Ideal S131072x1024 .f32) (p : Fin 32) (q : Fin 1024) :
    hiddenProd l r (ix2 p q) = ∑ k : Fin 131072, (l (ix2 p k) : EReal) * (r (ix2 k q) : EReal) := by
  unfold hiddenProd
  simp only [Host.dotGeneral]
  exact Cert.PlainDot.dotGeneral_apply DH rfl rfl DH_l0 DH_l1 DH_r0 DH_r1 none _ l r p q

/-! ## The blocks of the two operands -/

variable (V : (c : Dev nD) → (b : Ref sig .tc) → Buf (Elt Ideal) ((c : Thread nD τ).loc b))

/-- The block index maps over the grid: point 64 n + k reads block k of the left operand's columns, block (k, n) of the
    right operand, and belongs to output block n. -/
theorem indexC : ∀ t : Fin cfg2.N,
    win2_0.index t (0 : Fin 2) = 0 ∧ win2_0.index t (1 : Fin 2) = t.val % 64
    ∧ win2_1.index t (0 : Fin 2) = t.val % 64 ∧ win2_1.index t (1 : Fin 2) = t.val / 64
    ∧ win2_2.index t (0 : Fin 2) = 0 ∧ win2_2.index t (1 : Fin 2) = t.val / 64 :=
  (by decide +kernel : ∀ t : Fin grid2.N, _)

/-- The two operands, extended by zero so that offsets need no bounds. -/
abbrev lhsC (c : Dev nD) : ℕ → ℕ → EReal := ext2 (n0 := 32) (n1 := 131072) (V c main_v40)
abbrev rhsC (c : Dev nD) : ℕ → ℕ → EReal := ext2 (n0 := 131072) (n1 := 1024) (V c main_arg4)

theorem blockC0_at (c : Dev nD) (t : Fin cfg2.N) (p : Fin 32) (j : Fin 2048) :
    (blockC V c 0 t (ix2 p j) : EReal) = lhsC V c p.val (2048 * (t.val % 64) + j.val) := by
  obtain ⟨e0, e1, -⟩ := indexC t
  have ht : t.val < 128 := lt_of_lt_of_eq t.isLt N_2
  rw [show lhsC V c p.val (2048 * (t.val % 64) + j.val) = V c main_v40 (ix2 p ⟨2048 * (t.val % 64) + j.val, by omega⟩) from ext2_of_lt _ p.isLt (by omega)]
  show V c main_v40 (((cfg2.win 0).blk t).view.emb (ix2 p j)) = _
  refine congrArg _ ?_
  funext a; apply Fin.ext
  match a with
  | ⟨0, _⟩ => show win2_0.index t (0 : Fin 2) * 32 + 1 * p.val = p.val; omega
  | ⟨1, _⟩ => show win2_0.index t (1 : Fin 2) * 2048 + 1 * j.val = 2048 * (t.val % 64) + j.val; omega

theorem blockC1_at (c : Dev nD) (t : Fin cfg2.N) (j : Fin 2048) (q : Fin 512) :
    (blockC V c 1 t (ix2 j q) : EReal) = rhsC V c (2048 * (t.val % 64) + j.val) (512 * (t.val / 64) + q.val) := by
  obtain ⟨-, -, e0, e1, -⟩ := indexC t
  have ht : t.val < 128 := lt_of_lt_of_eq t.isLt N_2
  rw [show rhsC V c (2048 * (t.val % 64) + j.val) (512 * (t.val / 64) + q.val)
      = V c main_arg4 (ix2 ⟨2048 * (t.val % 64) + j.val, by omega⟩ ⟨512 * (t.val / 64) + q.val, by omega⟩) from ext2_of_lt _ (by omega) (by omega)]
  show V c main_arg4 (((cfg2.win 1).blk t).view.emb (ix2 j q)) = _
  refine congrArg _ ?_
  funext a; apply Fin.ext
  match a with
  | ⟨0, _⟩ => show win2_1.index t (0 : Fin 2) * 2048 + 1 * j.val = 2048 * (t.val % 64) + j.val; omega
  | ⟨1, _⟩ => show win2_1.index t (1 : Fin 2) * 512 + 1 * q.val = 512 * (t.val / 64) + q.val; omega

/-- The sum of block `s` of the contraction for column half `n`. -/
def blockSum (c : Dev nD) (p : Fin 32) (q : Fin 512) (n s : ℕ) : EReal :=
  ∑ j : Fin 2048, lhsC V c p.val (2048 * s + j.val) * rhsC V c (2048 * s + j.val) (512 * n + q.val)

/-! ## The accumulator after every point -/

/-- The sum of the products of a block of the left operand with a block of the right one is that block's sum. -/
theorem sumBlock (c : Dev nD) (p : Fin 32) (q : Fin 512) (t : Fin cfg2.N) (x0 : Vec Ideal S32x2048 .f32) (x1 : Vec Ideal S2048x512 .f32)
    (h0 : ∀ j : Fin 2048, (x0 (ix2 p j) : EReal) = lhsC V c p.val (2048 * (t.val % 64) + j.val))
    (h1 : ∀ j : Fin 2048, (x1 (ix2 j q) : EReal) = rhsC V c (2048 * (t.val % 64) + j.val) (512 * (t.val / 64) + q.val)) :
    ∑ j : Fin 2048, (x0 (ix2 p j) : EReal) * (x1 (ix2 j q) : EReal) = blockSum V c p q (t.val / 64) (t.val % 64) := by
  unfold blockSum
  exact Finset.sum_congr rfl fun j _ => by rw [h0, h1]

/-- One point's step: the accumulator after point `t` from the accumulator after the point before. -/
theorem accStep (c : Dev nD) (p : Fin 32) (q : Fin 512) (t : Fin cfg2.N)
    (prev : t.val ≠ 0 → ((leftC V c (t.val - 1) (Nat.lt_of_le_of_lt (Nat.sub_le _ _) t.isLt)).2 (ix2 p q) : EReal)
      = ∑ s ∈ Finset.range ((t.val - 1) % 64 + 1), blockSum V c p q ((t.val - 1) / 64) s) :
    ((leftC V c t.val t.isLt).2 (ix2 p q) : EReal) = ∑ s ∈ Finset.range (t.val % 64 + 1), blockSum V c p q (t.val / 64) s := by
  have hN : t.val < 128 := lt_of_lt_of_eq t.isLt N_2
  have hblock := sumBlock V c p q t (blockC V c 0 t) (blockC V c 1 t) (fun j => blockC0_at V c t p j) (fun j => blockC1_at V c t j q)
  by_cases h0 : t.val % 64 = 0
  · have h1 : ¬t.val % 64 = 63 := by omega
    rw [leftC_first V c t h0 h1]
    dsimp only
    rw [accFirst_eq, stepAt, resetAt, zero_add, hblock]
    simp only [h0, Nat.zero_add, Finset.sum_range_one]
  · have hz : t.val ≠ 0 := fun e => h0 (by rw [e])
    have hp := prev hz
    have hdiv : (t.val - 1) / 64 = t.val / 64 := by omega
    have hmod : (t.val - 1) % 64 + 1 = t.val % 64 := by omega
    rw [hdiv, hmod] at hp
    by_cases h1 : t.val % 64 = 63
    · rw [leftC_last V c t h0 h1]
      dsimp only
      rw [accLast_eq, stepAt, hp, hblock, Finset.sum_range_succ]
    · rw [leftC_mid V c t h0 h1]
      dsimp only
      rw [accMid_eq, stepAt, hp, hblock, Finset.sum_range_succ]

/-- After point 64 n + k the accumulator holds the sum of the blocks 0 … k of its column half. -/
theorem accAt (c : Dev nD) (p : Fin 32) (q : Fin 512) :
    ∀ (n : ℕ) (hn : n < cfg2.N), ((leftC V c n hn).2 (ix2 p q) : EReal) = ∑ s ∈ Finset.range (n % 64 + 1), blockSum V c p q (n / 64) s
  | 0, hn => accStep V c p q ⟨0, hn⟩ (fun h => absurd rfl h)
  | n + 1, hn => accStep V c p q ⟨n + 1, hn⟩ (fun _ => accAt c p q n (Nat.lt_of_succ_lt hn))

/-- At the last point of a sweep the output block holds what the accumulator holds. -/
theorem outAt (c : Dev nD) (t : Fin cfg2.N) (h1 : t.val % 64 = 63) (p : Fin 32) (q : Fin 512) :
    ((leftC V c t.val t.isLt).1 (ix2 p q) : EReal) = ∑ s ∈ Finset.range 64, blockSum V c p q (t.val / 64) s := by
  have h0 : ¬t.val % 64 = 0 := by omega
  have hacc := accAt V c p q t.val t.isLt
  rw [h1] at hacc
  rw [← hacc, leftC_last V c t h0 h1]
  dsimp only
  rw [outLast_eq, accLast_eq]

/-! ## The output array -/

theorem embC2 (t : Fin cfg2.N) (p : Fin 32) (q : Fin 512) :
    ((cfg2.win 2).blk t).view.emb (ix2 p q) = ix2 p (⟨512 * (t.val / 64) + q.val, by have := lt_of_lt_of_eq t.isLt N_2; omega⟩ : Fin 1024) := by
  obtain ⟨-, -, -, -, e0, e1⟩ := indexC t
  funext a; apply Fin.ext
  match a with
  | ⟨0, _⟩ => show win2_2.index t (0 : Fin 2) * 32 + 1 * p.val = p.val; omega
  | ⟨1, _⟩ => show win2_2.index t (1 : Fin 2) * 512 + 1 * q.val = 512 * (t.val / 64) + q.val; omega

/-- What a writing point writes back is its block of the whole product. -/
theorem flushedC (c : Dev nD) (t : Fin cfg2.N) (hf : (cfg2.win 2).flush t = true) :
    (datC V c).flushed 2 t = ((cfg2.win 2).blk t).view.read (Elt Ideal) (hiddenProd (V c main_v40) (V c main_arg4)) := by
  have h1 : t.val % 64 = 63 := (flush2_2 t).mp hf
  have ht : t.val < 128 := lt_of_lt_of_eq t.isLt N_2
  show (cfg2.win 2).cut (grid2.coords t) ((datC V c).after 2 t) = _
  rw [afterC_2]
  funext j
  obtain ⟨p, q, rfl⟩ : ∃ (p : Fin 32) (q : Fin 512), j = ix2 p q := ⟨j 0, j 1, eq_ix2 j⟩
  show ((leftC V c t.val t.isLt).1 (ix2 p q) : EReal) = hiddenProd (V c main_v40) (V c main_arg4) (((cfg2.win 2).blk t).view.emb (ix2 p q))
  rw [embC2 t p q, outAt V c t h1 p q, hiddenProd_at]
  unfold blockSum
  rw [sum_fin_blocks_eq (fun K => lhsC V c p.val K * rhsC V c K (512 * (t.val / 64) + q.val)) 64 2048 131072 rfl]
  exact Finset.sum_congr rfl fun K _ => congrArg₂ (· * ·) (ext2_of_lt _ p.isLt K.isLt) (ext2_of_lt _ K.isLt (by omega))

theorem memC2 (t : Fin cfg2.N) (i : S32x1024.Idx) :
    i ∈ ((cfg2.win 2).blk t).view.set ↔ ∀ a : Fin 2, win2_2.index t a * S32x512.size a ≤ (i a).val ∧ (i a).val < win2_2.index t a * S32x512.size a + S32x512.size a := by
  show i ∈ ((View.whole main_v41).slice (win2_2.rect t)).set ↔ _
  rw [View.set_slice_whole, Rect.mem_set_unit]
  exact Iff.rfl

theorem coverC2 (i : S32x1024.Idx) : ∃ t : Fin cfg2.N, (cfg2.win 2).flush t = true ∧ i ∈ ((cfg2.win 2).blk t).view.set := by
  have hi0 : (i 0).val < 32 := (i 0).isLt
  have hi1 : (i 1).val < 1024 := (i 1).isLt
  have ht : 64 * ((i 1).val / 512) + 63 < cfg2.N := by rw [show cfg2.N = 128 from N_2]; omega
  refine ⟨⟨64 * ((i 1).val / 512) + 63, ht⟩, (flush2_2 _).mpr (by show (64 * ((i 1).val / 512) + 63) % 64 = 63; omega), ?_⟩
  rw [memC2]
  obtain ⟨-, -, -, -, e0, e1⟩ := indexC ⟨64 * ((i 1).val / 512) + 63, ht⟩
  simp only [] at e0 e1
  intro a
  match a with
  | ⟨0, _⟩ => show win2_2.index _ (0 : Fin 2) * 32 ≤ (i 0).val ∧ (i 0).val < win2_2.index _ (0 : Fin 2) * 32 + 32; omega
  | ⟨1, _⟩ => show win2_2.index _ (1 : Fin 2) * 512 ≤ (i 1).val ∧ (i 1).val < win2_2.index _ (1 : Fin 2) * 512 + 512; omega

/-- The output array after the region: the left operand as the region found it times the hidden weights. -/
theorem valueC (c : Dev nD) :
    (datC V c).arrAt 2 cfg2.N = hiddenProd (V c main_v40) (V c main_arg4) :=
  (datC V c).arrAt_eq_of_cover 2 _ (fun t hf => flushedC V c t hf) coverC2

end Cert.KernelIdeal.Run

end
-- ==== Proof.Stages.lean ====
/- The stages of the computation as functions of whole arrays, each the reference's host operations of that stage in
   program order: the product with the cluster matrix; batch normalisation and softmax; the covariance weights; both
   Fisher-vector blocks with their normalisations; the concatenation; the product with the hidden weights; the gating
   tail.  Definitions only. -/
import proofs.«124837_j25666724561114_2_alg».proof.Proof.Gen.ReferenceIdeal
import Idealize.ShloMosaic.PureOps.Ideal

noncomputable section

namespace Cert.Stages

open Cert.ReferenceIdeal Cert.ReferenceIdeal.Gen Idealize.ShloMosaic

variable {F : FTy → Type} [FloatOps F]

/-- The input flattened to rows, times the cluster matrix. -/
def preact (x : (⟨S32x512x1024, .f32⟩ : BufTy).Contents (Elt F)) (w1 : (⟨S1024x64, .f32⟩ : BufTy).Contents (Elt F)) : (⟨S16384x64, .f32⟩ : BufTy).Contents (Elt F) :=
  have main_v0 : (⟨S16384x1024, .f32⟩ : BufTy).Contents (Elt F) := shapeCast S16384x1024 x shapeCasts_S32x512x1024_S16384x1024
  have main_v4 : (⟨S16384x64, .f32⟩ : BufTy).Contents (Elt F) := (((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F))) main_v0 w1
  main_v4

/-- The covariance weights: the square plus a millionth. -/
def cwOf (covar : (⟨S1024x64, .f32⟩ : BufTy).Contents (Elt F)) : (⟨S1024x64, .f32⟩ : BufTy).Contents (Elt F) :=
  have main_v1 : (⟨S1024x64, .f32⟩ : BufTy).Contents (Elt F) := ((mulf : (⟨S1024x64, .f32⟩ : BufTy).Contents (Elt F) → (⟨S1024x64, .f32⟩ : BufTy).Contents (Elt F) → (⟨S1024x64, .f32⟩ : BufTy).Contents (Elt F))) covar covar
  have main_cst : (⟨S_, .f32⟩ : BufTy).Contents (Elt F) := (constant S_ .f32 0x358637BD#32)
  have main_v2 : (⟨S1024x64, .f32⟩ : BufTy).Contents (Elt F) := ((broadcastInDim S1024x64 ![] bcast_S_S1024x64 : (⟨S_, .f32⟩ : BufTy).Contents (Elt F) → (⟨S1024x64, .f32⟩ : BufTy).Contents (Elt F))) main_cst
  have main_v3 : (⟨S1024x64, .f32⟩ : BufTy).Contents (Elt F) := ((addf : (⟨S1024x64, .f32⟩ : BufTy).Contents (Elt F) → (⟨S1024x64, .f32⟩ : BufTy).Contents (Elt F) → (⟨S1024x64, .f32⟩ : BufTy).Contents (Elt F))) main_v1 main_v2
  main_v3

/-- Batch normalisation over all rows, softmax along each row, and the split of the rows by batch element. -/
def soft (P : (⟨S16384x64, .f32⟩ : BufTy).Contents (Elt F)) (g : (⟨S64, .f32⟩ : BufTy).Contents (Elt F)) (b : (⟨S64, .f32⟩ : BufTy).Contents (Elt F)) : (⟨S32x512x64, .f32⟩ : BufTy).Contents (Elt F) :=
  have main_cst_0 : (⟨S_, .f32⟩ : BufTy).Contents (Elt F) := (constant S_ .f32 0x00000000#32)
  have main_v5 : (⟨S64, .f32⟩ : BufTy).Contents (Elt F) := (((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F))) P main_cst_0
  have main_cst_1 : (⟨S_, .f32⟩ : BufTy).Contents (Elt F) := (constant S_ .f32 0x46800000#32)
  have main_v6 : (⟨S64, .f32⟩ : BufTy).Contents (Elt F) := ((broadcastInDim S64 ![] bcast_S_S64 : (⟨S_, .f32⟩ : BufTy).Contents (Elt F) → (⟨S64, .f32⟩ : BufTy).Contents (Elt F))) main_cst_1
  have main_v7 : (⟨S64, .f32⟩ : BufTy).Contents (Elt F) := ((Host.divf : (⟨S64, .f32⟩ : BufTy).Contents (Elt F) → (⟨S64, .f32⟩ : BufTy).Contents (Elt F) → (⟨S64, .f32⟩ : BufTy).Contents (Elt F))) main_v5 main_v6
  have main_c : (⟨S_, .i32⟩ : BufTy).Contents (Elt F) := (constantI S_ 32 0#32)
  have main_call0_cst : (⟨S_, .f32⟩ : BufTy).Contents (Elt F) := (constant S_ .f32 0x00000000#32)
  have main_call0_v0 : (⟨S64, .f32⟩ : BufTy).Contents (Elt F) := ((fun x v => Host.reduceAdd x v reducesTo_S16384x64_S64_d0 h_S_)) P main_call0_cst
  have main_call0_v1 : (⟨S1x64, .f32⟩ : BufTy).Contents (Elt F) := ((broadcastInDim S1x64 ![1] bcast_S64_S1x64_1)) main_call0_v0
  have main_call0_cst_0 : (⟨S_, .f32⟩ : BufTy).Contents (Elt F) := (constant S_ .f32 0x46800000#32)
  have main_call0_v2 : (⟨S1x64, .f32⟩ : BufTy).Contents (Elt F) := ((broadcastInDim S1x64 ![] bcast_S_S1x64)) main_call0_cst_0
  have main_call0_v3 : (⟨S1x64, .f32⟩ : BufTy).Contents (Elt F) := (Host.divf) main_call0_v1 main_call0_v2
  have main_call0_v4 : (⟨S16384x64, .f32⟩ : BufTy).Contents (Elt F) := ((broadcastInDim S16384x64 ![0, 1] bcast_S1x64_S16384x64_0_1)) main_call0_v3
  have main_call0_v5 : (⟨S16384x64, .f32⟩ : BufTy).Contents (Elt F) := (subf) P main_call0_v4
  have main_call0_v6 : (⟨S16384x64, .f32⟩ : BufTy).Contents (Elt F) := (mulf) main_call0_v5 main_call0_v5
  have main_call0_v7 : (⟨S_, .f32⟩ : BufTy).Contents (Elt F) := ((sitofp .f32)) main_c
  have main_call0_cst_1 : (⟨S_, .f32⟩ : BufTy).Contents (Elt F) := (constant S_ .f32 0x46800000#32)
  have main_call0_v8 : (⟨S_, .f32⟩ : BufTy).Contents (Elt F) := (subf) main_call0_cst_1 main_call0_v7
  have main_call0_cst_2 : (⟨S_, .f32⟩ : BufTy).Contents (Elt F) := (constant S_ .f32 0x00000000#32)
  have main_call0_v9 : (⟨S64, .f32⟩ : BufTy).Contents (Elt F) := ((fun x v => Host.reduceAdd x v reducesTo_S16384x64_S64_d0 h_S_)) main_call0_v6 main_call0_cst_2
  have main_call0_v10 : (⟨S64, .f32⟩ : BufTy).Contents (Elt F) := ((broadcastInDim S64 ![] bcast_S_S64)) main_call0_v8
  have main_call0_v11 : (⟨S64, .f32⟩ : BufTy).Contents (Elt F) := (Host.divf) main_call0_v9 main_call0_v10
  have main_call0_cst_3 : (⟨S_, .f32⟩ : BufTy).Contents (Elt F) := (constant S_ .f32 0x00000000#32)
  have main_call0_v12 : (⟨S_, .i1⟩ : BufTy).Contents (Elt F) := ((cmpf .ogt)) main_call0_v8 main_call0_cst_3
  have main_call0_cst_4 : (⟨S_, .f32⟩ : BufTy).Contents (Elt F) := (constant S_ .f32 0x7FC00000#32)
  have main_call0_call0_v0 : (⟨S_, .f32⟩ : BufTy).Contents (Elt F) := (id) main_call0_cst_4
  have main_call0_call0_v1 : (⟨S64, .f32⟩ : BufTy).Contents (Elt F) := ((broadcastInDim S64 ![] bcast_S_S64)) main_call0_call0_v0
  have main_v8 : (⟨S64, .f32⟩ : BufTy).Contents (Elt F) := ((fun p a b => select (broadcastInDim S64 ![] bcast_S_S64 p) a b)) main_call0_v12 main_call0_v11 main_call0_call0_v1
  have main_v9 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) main_v7
  have main_v10 : (⟨S16384x64, .f32⟩ : BufTy).Contents (Elt F) := ((broadcastInDim S16384x64 ![0, 1] bcast_S1x64_S16384x64_0_1 : (⟨S1x64, .f32⟩ : BufTy).Contents (Elt F) → (⟨S16384x64, .f32⟩ : BufTy).Contents (Elt F))) main_v9
  have main_v11 : (⟨S16384x64, .f32⟩ : BufTy).Contents (Elt F) := ((subf : (⟨S16384x64, .f32⟩ : BufTy).Contents (Elt F) → (⟨S16384x64, .f32⟩ : BufTy).Contents (Elt F) → (⟨S16384x64, .f32⟩ : BufTy).Contents (Elt F))) P main_v10
  have main_cst_2 : (⟨S_, .f32⟩ : BufTy).Contents (Elt F) := (constant S_ .f32 0x3727C5AC#32)
  have main_v12 : (⟨S64, .f32⟩ : BufTy).Contents (Elt F) := ((broadcastInDim S64 ![] bcast_S_S64 : (⟨S_, .f32⟩ : BufTy).Contents (Elt F) → (⟨S64, .f32⟩ : BufTy).Contents (Elt F))) main_cst_2
  have main_v13 : (⟨S64, .f32⟩ : BufTy).Contents (Elt F) := ((addf : (⟨S64, .f32⟩ : BufTy).Contents (Elt F) → (⟨S64, .f32⟩ : BufTy).Contents (Elt F) → (⟨S64, .f32⟩ : BufTy).Contents (Elt F))) main_v8 main_v12
  have main_v14 : (⟨S64, .f32⟩ : BufTy).Contents (Elt F) := ((Host.rsqrt : (⟨S64, .f32⟩ : BufTy).Contents (Elt F) → (⟨S64, .f32⟩ : BufTy).Contents (Elt F))) main_v13
  have main_v15 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) main_v14
  have main_v16 : (⟨S16384x64, .f32⟩ : BufTy).Contents (Elt F) := ((broadcastInDim S16384x64 ![0, 1] bcast_S1x64_S16384x64_0_1 : (⟨S1x64, .f32⟩ : BufTy).Contents (Elt F) → (⟨S16384x64, .f32⟩ : BufTy).Contents (Elt F))) main_v15
  have main_v17 : (⟨S16384x64, .f32⟩ : BufTy).Contents (Elt F) := ((mulf : (⟨S16384x64, .f32⟩ : BufTy).Contents (Elt F) → (⟨S16384x64, .f32⟩ : BufTy).Contents (Elt F) → (⟨S16384x64, .f32⟩ : BufTy).Contents (Elt F))) main_v11 main_v16
  have main_v18 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) g
  have main_v19 : (⟨S16384x64, .f32⟩ : BufTy).Contents (Elt F) := ((broadcastInDim S16384x64 ![0, 1] bcast_S1x64_S16384x64_0_1 : (⟨S1x64, .f32⟩ : BufTy).Contents (Elt F) → (⟨S16384x64, .f32⟩ : BufTy).Contents (Elt F))) main_v18
  have main_v20 : (⟨S16384x64, .f32⟩ : BufTy).Contents (Elt F) := ((mulf : (⟨S16384x64, .f32⟩ : BufTy).Contents (Elt F) → (⟨S16384x64, .f32⟩ : BufTy).Contents (Elt F) → (⟨S16384x64, .f32⟩ : BufTy).Contents (Elt F))) main_v17 main_v19
  have main_v21 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) b
  have main_v22 : (⟨S16384x64, .f32⟩ : BufTy).Contents (Elt F) := ((broadcastInDim S16384x64 ![0, 1] bcast_S1x64_S16384x64_0_1 : (⟨S1x64, .f32⟩ : BufTy).Contents (Elt F) → (⟨S16384x64, .f32⟩ : BufTy).Contents (Elt F))) main_v21
  have main_v23 : (⟨S16384x64, .f32⟩ : BufTy).Contents (Elt F) := ((addf : (⟨S16384x64, .f32⟩ : BufTy).Contents (Elt F) → (⟨S16384x64, .f32⟩ : BufTy).Contents (Elt F) → (⟨S16384x64, .f32⟩ : BufTy).Contents (Elt F))) main_v20 main_v22
  have main_cst_3 : (⟨S_, .f32⟩ : BufTy).Contents (Elt F) := (constant S_ .f32 0xFF800000#32)
  have main_v24 : (⟨S16384, .f32⟩ : BufTy).Contents (Elt F) := (((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F))) main_v23 main_cst_3
  have main_cst_4 : (⟨S_, .f32⟩ : BufTy).Contents (Elt F) := (constant S_ .f32 0xFF800000#32)
  have main_v25 : (⟨S16384, .f32⟩ : BufTy).Contents (Elt F) := ((broadcastInDim S16384 ![] bcast_S_S16384 : (⟨S_, .f32⟩ : BufTy).Contents (Elt F) → (⟨S16384, .f32⟩ : BufTy).Contents (Elt F))) main_cst_4
  have main_v26 : (⟨S16384, .f32⟩ : BufTy).Contents (Elt F) := ((maximumf : (⟨S16384, .f32⟩ : BufTy).Contents (Elt F) → (⟨S16384, .f32⟩ : BufTy).Contents (Elt F) → (⟨S16384, .f32⟩ : BufTy).Contents (Elt F))) main_v25 main_v24
  have main_v27 : (⟨S16384x1, .f32⟩ : BufTy).Contents (Elt F) := ((broadcastInDim S16384x1 ![0] bcast_S16384_S16384x1_0 : (⟨S16384, .f32⟩ : BufTy).Contents (Elt F) → (⟨S16384x1, .f32⟩ : BufTy).Contents (Elt F))) main_v26
  have main_v28 : (⟨S16384x64, .f32⟩ : BufTy).Contents (Elt F) := ((broadcastInDim S16384x64 ![0, 1] bcast_S16384x1_S16384x64_0_1 : (⟨S16384x1, .f32⟩ : BufTy).Contents (Elt F) → (⟨S16384x64, .f32⟩ : BufTy).Contents (Elt F))) main_v27
  have main_v29 : (⟨S16384x64, .f32⟩ : BufTy).Contents (Elt F) := ((subf : (⟨S16384x64, .f32⟩ : BufTy).Contents (Elt F) → (⟨S16384x64, .f32⟩ : BufTy).Contents (Elt F) → (⟨S16384x64, .f32⟩ : BufTy).Contents (Elt F))) main_v23 main_v28
  have main_v30 : (⟨S16384x64, .f32⟩ : BufTy).Contents (Elt F) := ((Host.exp : (⟨S16384x64, .f32⟩ : BufTy).Contents (Elt F) → (⟨S16384x64, .f32⟩ : BufTy).Contents (Elt F))) main_v29
  have main_cst_5 : (⟨S_, .f32⟩ : BufTy).Contents (Elt F) := (constant S_ .f32 0x00000000#32)
  have main_v31 : (⟨S16384, .f32⟩ : BufTy).Contents (Elt F) := (((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F))) main_v30 main_cst_5
  have main_v32 : (⟨S16384x1, .f32⟩ : BufTy).Contents (Elt F) := ((broadcastInDim S16384x1 ![0] bcast_S16384_S16384x1_0 : (⟨S16384, .f32⟩ : BufTy).Contents (Elt F) → (⟨S16384x1, .f32⟩ : BufTy).Contents (Elt F))) main_v31
  have main_v33 : (⟨S16384x64, .f32⟩ : BufTy).Contents (Elt F) := ((broadcastInDim S16384x64 ![0, 1] bcast_S16384x1_S16384x64_0_1 : (⟨S16384x1, .f32⟩ : BufTy).Contents (Elt F) → (⟨S16384x64, .f32⟩ : BufTy).Contents (Elt F))) main_v32
  have main_v34 : (⟨S16384x64, .f32⟩ : BufTy).Contents (Elt F) := ((Host.divf : (⟨S16384x64, .f32⟩ : BufTy).Contents (Elt F) → (⟨S16384x64, .f32⟩ : BufTy).Contents (Elt F) → (⟨S16384x64, .f32⟩ : BufTy).Contents (Elt F))) main_v30 main_v33
  have main_v35 : (⟨S32x512x64, .f32⟩ : BufTy).Contents (Elt F) := shapeCast S32x512x64 main_v34 shapeCasts_S16384x64_S32x512x64
  main_v35

/-- Both Fisher-vector blocks, corrected and normalised, flattened per batch element: first order, second order. -/
def refFv (x : (⟨S32x512x1024, .f32⟩ : BufTy).Contents (Elt F)) (act : (⟨S32x512x64, .f32⟩ : BufTy).Contents (Elt F)) (cw : (⟨S1024x64, .f32⟩ : BufTy).Contents (Elt F)) (a3 : (⟨S1x1024x64, .f32⟩ : BufTy).Contents (Elt F)) : ((⟨S32x65536, .f32⟩ : BufTy).Contents (Elt F)) × ((⟨S32x65536, .f32⟩ : BufTy).Contents (Elt F)) :=
  have main_cst_6 : (⟨S_, .f32⟩ : BufTy).Contents (Elt F) := (constant S_ .f32 0x00000000#32)
  have main_v36 : (⟨S32x64, .f32⟩ : BufTy).Contents (Elt F) := (((fun x v => Host.reduceAdd x v reducesTo_S32x512x64_S32x64_d1 h_S_) : (⟨S32x512x64, .f32⟩ : BufTy).Contents (Elt F) → (⟨S_, .f32⟩ : BufTy).Contents (Elt F) → (⟨S32x64, .f32⟩ : BufTy).Contents (Elt F))) act main_cst_6
  have main_v37 : (⟨S32x1x64, .f32⟩ : BufTy).Contents (Elt F) := ((broadcastInDim S32x1x64 ![0, 2] bcast_S32x64_S32x1x64_0_2 : (⟨S32x64, .f32⟩ : BufTy).Contents (Elt F) → (⟨S32x1x64, .f32⟩ : BufTy).Contents (Elt F))) main_v36
  have main_v38 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v39 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) a3
  have main_v40 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v38 main_v39
  have main_v41 : (⟨S32x1024x64, .f32⟩ : BufTy).Contents (Elt F) := (((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F))) x act
  have main_v42 : (⟨S1x1024x64, .f32⟩ : BufTy).Contents (Elt F) := ((mulf : (⟨S1x1024x64, .f32⟩ : BufTy).Contents (Elt F) → (⟨S1x1024x64, .f32⟩ : BufTy).Contents (Elt F) → (⟨S1x1024x64, .f32⟩ : BufTy).Contents (Elt F))) a3 a3
  have main_v43 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v44 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v42
  have main_v45 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v43 main_v44
  have main_v46 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) a3
  have main_v47 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v41 main_v46
  have main_v48 : (⟨S32x512x1024, .f32⟩ : BufTy).Contents (Elt F) := ((mulf : (⟨S32x512x1024, .f32⟩ : BufTy).Contents (Elt F) → (⟨S32x512x1024, .f32⟩ : BufTy).Contents (Elt F) → (⟨S32x512x1024, .f32⟩ : BufTy).Contents (Elt F))) x x
  have main_v49 : (⟨S32x1024x64, .f32⟩ : BufTy).Contents (Elt F) := (((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F))) main_v48 act
  have main_v50 : (⟨S32x1024x64, .f32⟩ : BufTy).Contents (Elt F) := ((addf : (⟨S32x1024x64, .f32⟩ : BufTy).Contents (Elt F) → (⟨S32x1024x64, .f32⟩ : BufTy).Contents (Elt F) → (⟨S32x1024x64, .f32⟩ : BufTy).Contents (Elt F))) main_v45 main_v49
  have main_cst_7 : (⟨S_, .f32⟩ : BufTy).Contents (Elt F) := (constant S_ .f32 0x40000000#32)
  have main_v51 : (⟨S32x1024x64, .f32⟩ : BufTy).Contents (Elt F) := ((broadcastInDim S32x1024x64 ![] bcast_S_S32x1024x64 : (⟨S_, .f32⟩ : BufTy).Contents (Elt F) → (⟨S32x1024x64, .f32⟩ : BufTy).Contents (Elt F))) main_cst_7
  have main_v52 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v51 main_v47
  have main_v53 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v50 main_v52
  have main_v54 : (⟨S1024x64, .f32⟩ : BufTy).Contents (Elt F) := ((mulf : (⟨S1024x64, .f32⟩ : BufTy).Contents (Elt F) → (⟨S1024x64, .f32⟩ : BufTy).Contents (Elt F) → (⟨S1024x64, .f32⟩ : BufTy).Contents (Elt F))) cw cw
  have main_v55 : (⟨S1x1024x64, .f32⟩ : BufTy).Contents (Elt F) := ((broadcastInDim S1x1024x64 ![1, 2] bcast_S1024x64_S1x1024x64_1_2 : (⟨S1024x64, .f32⟩ : BufTy).Contents (Elt F) → (⟨S1x1024x64, .f32⟩ : BufTy).Contents (Elt F))) main_v54
  have main_v56 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v55
  have main_v57 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v53 main_v56
  have main_v58 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v59 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v57 main_v58
  have main_v60 : (⟨S32x65536, .f32⟩ : BufTy).Contents (Elt F) := shapeCast S32x65536 main_v59 shapeCasts_S32x1024x64_S32x65536
  have main_v61 : (⟨S32x65536, .f32⟩ : BufTy).Contents (Elt F) := ((mulf : (⟨S32x65536, .f32⟩ : BufTy).Contents (Elt F) → (⟨S32x65536, .f32⟩ : BufTy).Contents (Elt F) → (⟨S32x65536, .f32⟩ : BufTy).Contents (Elt F))) main_v60 main_v60
  have main_cst_8 : (⟨S_, .f32⟩ : BufTy).Contents (Elt F) := (constant S_ .f32 0x00000000#32)
  have main_v62 : (⟨S32, .f32⟩ : BufTy).Contents (Elt F) := (((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F))) main_v61 main_cst_8
  have main_v63 : (⟨S32x1, .f32⟩ : BufTy).Contents (Elt F) := ((broadcastInDim S32x1 ![0] bcast_S32_S32x1_0 : (⟨S32, .f32⟩ : BufTy).Contents (Elt F) → (⟨S32x1, .f32⟩ : BufTy).Contents (Elt F))) main_v62
  have main_v64 : (⟨S32x1, .f32⟩ : BufTy).Contents (Elt F) := ((Host.sqrt : (⟨S32x1, .f32⟩ : BufTy).Contents (Elt F) → (⟨S32x1, .f32⟩ : BufTy).Contents (Elt F))) main_v63
  have main_cst_9 : (⟨S_, .f32⟩ : BufTy).Contents (Elt F) := (constant S_ .f32 0x2B8CBCCC#32)
  have main_v65 : (⟨S32x1, .f32⟩ : BufTy).Contents (Elt F) := ((broadcastInDim S32x1 ![] bcast_S_S32x1 : (⟨S_, .f32⟩ : BufTy).Contents (Elt F) → (⟨S32x1, .f32⟩ : BufTy).Contents (Elt F))) main_cst_9
  have main_v66 : (⟨S32x1, .f32⟩ : BufTy).Contents (Elt F) := ((maximumf : (⟨S32x1, .f32⟩ : BufTy).Contents (Elt F) → (⟨S32x1, .f32⟩ : BufTy).Contents (Elt F) → (⟨S32x1, .f32⟩ : BufTy).Contents (Elt F))) main_v64 main_v65
  have main_v67 : (⟨S32x65536, .f32⟩ : BufTy).Contents (Elt F) := ((broadcastInDim S32x65536 ![0, 1] bcast_S32x1_S32x65536_0_1 : (⟨S32x1, .f32⟩ : BufTy).Contents (Elt F) → (⟨S32x65536, .f32⟩ : BufTy).Contents (Elt F))) main_v66
  have main_v68 : (⟨S32x65536, .f32⟩ : BufTy).Contents (Elt F) := ((Host.divf : (⟨S32x65536, .f32⟩ : BufTy).Contents (Elt F) → (⟨S32x65536, .f32⟩ : BufTy).Contents (Elt F) → (⟨S32x65536, .f32⟩ : BufTy).Contents (Elt F))) main_v60 main_v67
  have main_v69 : (⟨S32x65536, .f32⟩ : BufTy).Contents (Elt F) := ((mulf : (⟨S32x65536, .f32⟩ : BufTy).Contents (Elt F) → (⟨S32x65536, .f32⟩ : BufTy).Contents (Elt F) → (⟨S32x65536, .f32⟩ : BufTy).Contents (Elt F))) main_v68 main_v68
  have main_cst_10 : (⟨S_, .f32⟩ : BufTy).Contents (Elt F) := (constant S_ .f32 0x00000000#32)
  have main_v70 : (⟨S32, .f32⟩ : BufTy).Contents (Elt F) := (((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F))) main_v69 main_cst_10
  have main_v71 : (⟨S32x1, .f32⟩ : BufTy).Contents (Elt F) := ((broadcastInDim S32x1 ![0] bcast_S32_S32x1_0 : (⟨S32, .f32⟩ : BufTy).Contents (Elt F) → (⟨S32x1, .f32⟩ : BufTy).Contents (Elt F))) main_v70
  have main_v72 : (⟨S32x1, .f32⟩ : BufTy).Contents (Elt F) := ((Host.sqrt : (⟨S32x1, .f32⟩ : BufTy).Contents (Elt F) → (⟨S32x1, .f32⟩ : BufTy).Contents (Elt F))) main_v71
  have main_cst_11 : (⟨S_, .f32⟩ : BufTy).Contents (Elt F) := (constant S_ .f32 0x2B8CBCCC#32)
  have main_v73 : (⟨S32x1, .f32⟩ : BufTy).Contents (Elt F) := ((broadcastInDim S32x1 ![] bcast_S_S32x1 : (⟨S_, .f32⟩ : BufTy).Contents (Elt F) → (⟨S32x1, .f32⟩ : BufTy).Contents (Elt F))) main_cst_11
  have main_v74 : (⟨S32x1, .f32⟩ : BufTy).Contents (Elt F) := ((maximumf : (⟨S32x1, .f32⟩ : BufTy).Contents (Elt F) → (⟨S32x1, .f32⟩ : BufTy).Contents (Elt F) → (⟨S32x1, .f32⟩ : BufTy).Contents (Elt F))) main_v72 main_v73
  have main_v75 : (⟨S32x65536, .f32⟩ : BufTy).Contents (Elt F) := ((broadcastInDim S32x65536 ![0, 1] bcast_S32x1_S32x65536_0_1 : (⟨S32x1, .f32⟩ : BufTy).Contents (Elt F) → (⟨S32x65536, .f32⟩ : BufTy).Contents (Elt F))) main_v74
  have main_v76 : (⟨S32x65536, .f32⟩ : BufTy).Contents (Elt F) := ((Host.divf : (⟨S32x65536, .f32⟩ : BufTy).Contents (Elt F) → (⟨S32x65536, .f32⟩ : BufTy).Contents (Elt F) → (⟨S32x65536, .f32⟩ : BufTy).Contents (Elt F))) main_v68 main_v75
  have main_v77 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v41 main_v40
  have main_v78 : (⟨S1x1024x64, .f32⟩ : BufTy).Contents (Elt F) := ((broadcastInDim S1x1024x64 ![1, 2] bcast_S1024x64_S1x1024x64_1_2 : (⟨S1024x64, .f32⟩ : BufTy).Contents (Elt F) → (⟨S1x1024x64, .f32⟩ : BufTy).Contents (Elt F))) cw
  have main_v79 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v78
  have main_v80 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v77 main_v79
  have main_v81 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v80 main_v80
  have main_cst_12 : (⟨S_, .f32⟩ : BufTy).Contents (Elt F) := (constant S_ .f32 0x00000000#32)
  have main_v82 : (⟨S32x64, .f32⟩ : BufTy).Contents (Elt F) := (((fun x v => Host.reduceAdd x v reducesTo_S32x1024x64_S32x64_d1 h_S_) : (⟨S32x1024x64, .f32⟩ : BufTy).Contents (Elt F) → (⟨S_, .f32⟩ : BufTy).Contents (Elt F) → (⟨S32x64, .f32⟩ : BufTy).Contents (Elt F))) main_v81 main_cst_12
  have main_v83 : (⟨S32x1x64, .f32⟩ : BufTy).Contents (Elt F) := ((broadcastInDim S32x1x64 ![0, 2] bcast_S32x64_S32x1x64_0_2 : (⟨S32x64, .f32⟩ : BufTy).Contents (Elt F) → (⟨S32x1x64, .f32⟩ : BufTy).Contents (Elt F))) main_v82
  have main_v84 : (⟨S32x1x64, .f32⟩ : BufTy).Contents (Elt F) := ((Host.sqrt : (⟨S32x1x64, .f32⟩ : BufTy).Contents (Elt F) → (⟨S32x1x64, .f32⟩ : BufTy).Contents (Elt F))) main_v83
  have main_cst_13 : (⟨S_, .f32⟩ : BufTy).Contents (Elt F) := (constant S_ .f32 0x2B8CBCCC#32)
  have main_v85 : (⟨S32x1x64, .f32⟩ : BufTy).Contents (Elt F) := ((broadcastInDim S32x1x64 ![] bcast_S_S32x1x64 : (⟨S_, .f32⟩ : BufTy).Contents (Elt F) → (⟨S32x1x64, .f32⟩ : BufTy).Contents (Elt F))) main_cst_13
  have main_v86 : (⟨S32x1x64, .f32⟩ : BufTy).Contents (Elt F) := ((maximumf : (⟨S32x1x64, .f32⟩ : BufTy).Contents (Elt F) → (⟨S32x1x64, .f32⟩ : BufTy).Contents (Elt F) → (⟨S32x1x64, .f32⟩ : BufTy).Contents (Elt F))) main_v84 main_v85
  have main_v87 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v86
  have main_v88 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v80 main_v87
  have main_v89 : (⟨S32x65536, .f32⟩ : BufTy).Contents (Elt F) := shapeCast S32x65536 main_v88 shapeCasts_S32x1024x64_S32x65536
  have main_v90 : (⟨S32x65536, .f32⟩ : BufTy).Contents (Elt F) := ((mulf : (⟨S32x65536, .f32⟩ : BufTy).Contents (Elt F) → (⟨S32x65536, .f32⟩ : BufTy).Contents (Elt F) → (⟨S32x65536, .f32⟩ : BufTy).Contents (Elt F))) main_v89 main_v89
  have main_cst_14 : (⟨S_, .f32⟩ : BufTy).Contents (Elt F) := (constant S_ .f32 0x00000000#32)
  have main_v91 : (⟨S32, .f32⟩ : BufTy).Contents (Elt F) := (((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F))) main_v90 main_cst_14
  have main_v92 : (⟨S32x1, .f32⟩ : BufTy).Contents (Elt F) := ((broadcastInDim S32x1 ![0] bcast_S32_S32x1_0 : (⟨S32, .f32⟩ : BufTy).Contents (Elt F) → (⟨S32x1, .f32⟩ : BufTy).Contents (Elt F))) main_v91
  have main_v93 : (⟨S32x1, .f32⟩ : BufTy).Contents (Elt F) := ((Host.sqrt : (⟨S32x1, .f32⟩ : BufTy).Contents (Elt F) → (⟨S32x1, .f32⟩ : BufTy).Contents (Elt F))) main_v92
  have main_cst_15 : (⟨S_, .f32⟩ : BufTy).Contents (Elt F) := (constant S_ .f32 0x2B8CBCCC#32)
  have main_v94 : (⟨S32x1, .f32⟩ : BufTy).Contents (Elt F) := ((broadcastInDim S32x1 ![] bcast_S_S32x1 : (⟨S_, .f32⟩ : BufTy).Contents (Elt F) → (⟨S32x1, .f32⟩ : BufTy).Contents (Elt F))) main_cst_15
  have main_v95 : (⟨S32x1, .f32⟩ : BufTy).Contents (Elt F) := ((maximumf : (⟨S32x1, .f32⟩ : BufTy).Contents (Elt F) → (⟨S32x1, .f32⟩ : BufTy).Contents (Elt F) → (⟨S32x1, .f32⟩ : BufTy).Contents (Elt F))) main_v93 main_v94
  have main_v96 : (⟨S32x65536, .f32⟩ : BufTy).Contents (Elt F) := ((broadcastInDim S32x65536 ![0, 1] bcast_S32x1_S32x65536_0_1 : (⟨S32x1, .f32⟩ : BufTy).Contents (Elt F) → (⟨S32x65536, .f32⟩ : BufTy).Contents (Elt F))) main_v95
  have main_v97 : (⟨S32x65536, .f32⟩ : BufTy).Contents (Elt F) := ((Host.divf : (⟨S32x65536, .f32⟩ : BufTy).Contents (Elt F) → (⟨S32x65536, .f32⟩ : BufTy).Contents (Elt F) → (⟨S32x65536, .f32⟩ : BufTy).Contents (Elt F))) main_v89 main_v96
  (main_v97, main_v76)

/-- The two flattened blocks side by side. -/
def cat (u : (⟨S32x65536, .f32⟩ : BufTy).Contents (Elt F)) (v : (⟨S32x65536, .f32⟩ : BufTy).Contents (Elt F)) : (⟨S32x131072, .f32⟩ : BufTy).Contents (Elt F) :=
  have main_v98 : (⟨S32x131072, .f32⟩ : BufTy).Contents (Elt F) := (((fun a b => concatenate S32x131072 1 [⟨S32x65536, a⟩, ⟨S32x65536, b⟩] concatenates_S32x65536_S32x65536_S32x131072_d1) : (⟨S32x65536, .f32⟩ : BufTy).Contents (Elt F) → (⟨S32x65536, .f32⟩ : BufTy).Contents (Elt F) → (⟨S32x131072, .f32⟩ : BufTy).Contents (Elt F))) u v
  main_v98

/-- The product with the hidden weights. -/
def hid (fv : (⟨S32x131072, .f32⟩ : BufTy).Contents (Elt F)) (w4 : (⟨S131072x1024, .f32⟩ : BufTy).Contents (Elt F)) : (⟨S32x1024, .f32⟩ : BufTy).Contents (Elt F) :=
  have main_v99 : (⟨S32x1024, .f32⟩ : BufTy).Contents (Elt F) := (((fun l r => Host.dotGeneral dot_S32x131072_S131072x1024_S32x1024_1_0_0_1_n_n none l r) : (⟨S32x131072, .f32⟩ : BufTy).Contents (Elt F) → (⟨S131072x1024, .f32⟩ : BufTy).Contents (Elt F) → (⟨S32x1024, .f32⟩ : BufTy).Contents (Elt F))) fv w4
  main_v99

/-- Context gating: the product with the gating weights, batch normalisation, the logistic function, and the product with the ungated value. -/
def tail (H : (⟨S32x1024, .f32⟩ : BufTy).Contents (Elt F)) (w7 : (⟨S1024x1024, .f32⟩ : BufTy).Contents (Elt F)) (g8 : (⟨S1024, .f32⟩ : BufTy).Contents (Elt F)) (b9 : (⟨S1024, .f32⟩ : BufTy).Contents (Elt F)) : (⟨S32x1024, .f32⟩ : BufTy).Contents (Elt F) :=
  have main_v100 : (⟨S32x1024, .f32⟩ : BufTy).Contents (Elt F) := (((fun l r => Host.dotGeneral dot_S32x1024_S1024x1024_S32x1024_1_0_0_1_n_n none l r) : (⟨S32x1024, .f32⟩ : BufTy).Contents (Elt F) → (⟨S1024x1024, .f32⟩ : BufTy).Contents (Elt F) → (⟨S32x1024, .f32⟩ : BufTy).Contents (Elt F))) H w7
  have main_cst_16 : (⟨S_, .f32⟩ : BufTy).Contents (Elt F) := (constant S_ .f32 0x00000000#32)
  have main_v101 : (⟨S1024, .f32⟩ : BufTy).Contents (Elt F) := (((fun x v => Host.reduceAdd x v reducesTo_S32x1024_S1024_d0 h_S_) : (⟨S32x1024, .f32⟩ : BufTy).Contents (Elt F) → (⟨S_, .f32⟩ : BufTy).Contents (Elt F) → (⟨S1024, .f32⟩ : BufTy).Contents (Elt F))) main_v100 main_cst_16
  have main_cst_17 : (⟨S_, .f32⟩ : BufTy).Contents (Elt F) := (constant S_ .f32 0x42000000#32)
  have main_v102 : (⟨S1024, .f32⟩ : BufTy).Contents (Elt F) := ((broadcastInDim S1024 ![] bcast_S_S1024 : (⟨S_, .f32⟩ : BufTy).Contents (Elt F) → (⟨S1024, .f32⟩ : BufTy).Contents (Elt F))) main_cst_17
  have main_v103 : (⟨S1024, .f32⟩ : BufTy).Contents (Elt F) := ((Host.divf : (⟨S1024, .f32⟩ : BufTy).Contents (Elt F) → (⟨S1024, .f32⟩ : BufTy).Contents (Elt F) → (⟨S1024, .f32⟩ : BufTy).Contents (Elt F))) main_v101 main_v102
  have main_c_18 : (⟨S_, .i32⟩ : BufTy).Contents (Elt F) := (constantI S_ 32 0#32)
  have main_call1_cst : (⟨S_, .f32⟩ : BufTy).Contents (Elt F) := (constant S_ .f32 0x00000000#32)
  have main_call1_v0 : (⟨S1024, .f32⟩ : BufTy).Contents (Elt F) := ((fun x v => Host.reduceAdd x v reducesTo_S32x1024_S1024_d0 h_S_)) main_v100 main_call1_cst
  have main_call1_v1 : (⟨S1x1024, .f32⟩ : BufTy).Contents (Elt F) := ((broadcastInDim S1x1024 ![1] bcast_S1024_S1x1024_1)) main_call1_v0
  have main_call1_cst_0 : (⟨S_, .f32⟩ : BufTy).Contents (Elt F) := (constant S_ .f32 0x42000000#32)
  have main_call1_v2 : (⟨S1x1024, .f32⟩ : BufTy).Contents (Elt F) := ((broadcastInDim S1x1024 ![] bcast_S_S1x1024)) main_call1_cst_0
  have main_call1_v3 : (⟨S1x1024, .f32⟩ : BufTy).Contents (Elt F) := (Host.divf) main_call1_v1 main_call1_v2
  have main_call1_v4 : (⟨S32x1024, .f32⟩ : BufTy).Contents (Elt F) := ((broadcastInDim S32x1024 ![0, 1] bcast_S1x1024_S32x1024_0_1)) main_call1_v3
  have main_call1_v5 : (⟨S32x1024, .f32⟩ : BufTy).Contents (Elt F) := (subf) main_v100 main_call1_v4
  have main_call1_v6 : (⟨S32x1024, .f32⟩ : BufTy).Contents (Elt F) := (mulf) main_call1_v5 main_call1_v5
  have main_call1_v7 : (⟨S_, .f32⟩ : BufTy).Contents (Elt F) := ((sitofp .f32)) main_c_18
  have main_call1_cst_1 : (⟨S_, .f32⟩ : BufTy).Contents (Elt F) := (constant S_ .f32 0x42000000#32)
  have main_call1_v8 : (⟨S_, .f32⟩ : BufTy).Contents (Elt F) := (subf) main_call1_cst_1 main_call1_v7
  have main_call1_cst_2 : (⟨S_, .f32⟩ : BufTy).Contents (Elt F) := (constant S_ .f32 0x00000000#32)
  have main_call1_v9 : (⟨S1024, .f32⟩ : BufTy).Contents (Elt F) := ((fun x v => Host.reduceAdd x v reducesTo_S32x1024_S1024_d0 h_S_)) main_call1_v6 main_call1_cst_2
  have main_call1_v10 : (⟨S1024, .f32⟩ : BufTy).Contents (Elt F) := ((broadcastInDim S1024 ![] bcast_S_S1024)) main_call1_v8
  have main_call1_v11 : (⟨S1024, .f32⟩ : BufTy).Contents (Elt F) := (Host.divf) main_call1_v9 main_call1_v10
  have main_call1_cst_3 : (⟨S_, .f32⟩ : BufTy).Contents (Elt F) := (constant S_ .f32 0x00000000#32)
  have main_call1_v12 : (⟨S_, .i1⟩ : BufTy).Contents (Elt F) := ((cmpf .ogt)) main_call1_v8 main_call1_cst_3
  have main_call1_cst_4 : (⟨S_, .f32⟩ : BufTy).Contents (Elt F) := (constant S_ .f32 0x7FC00000#32)
  have main_call1_call0_v0 : (⟨S_, .f32⟩ : BufTy).Contents (Elt F) := (id) main_call1_cst_4
  have main_call1_call0_v1 : (⟨S1024, .f32⟩ : BufTy).Contents (Elt F) := ((broadcastInDim S1024 ![] bcast_S_S1024)) main_call1_call0_v0
  have main_v104 : (⟨S1024, .f32⟩ : BufTy).Contents (Elt F) := ((fun p a b => select (broadcastInDim S1024 ![] bcast_S_S1024 p) a b)) main_call1_v12 main_call1_v11 main_call1_call0_v1
  have main_v105 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) main_v103
  have main_v106 : (⟨S32x1024, .f32⟩ : BufTy).Contents (Elt F) := ((broadcastInDim S32x1024 ![0, 1] bcast_S1x1024_S32x1024_0_1 : (⟨S1x1024, .f32⟩ : BufTy).Contents (Elt F) → (⟨S32x1024, .f32⟩ : BufTy).Contents (Elt F))) main_v105
  have main_v107 : (⟨S32x1024, .f32⟩ : BufTy).Contents (Elt F) := ((subf : (⟨S32x1024, .f32⟩ : BufTy).Contents (Elt F) → (⟨S32x1024, .f32⟩ : BufTy).Contents (Elt F) → (⟨S32x1024, .f32⟩ : BufTy).Contents (Elt F))) main_v100 main_v106
  have main_cst_19 : (⟨S_, .f32⟩ : BufTy).Contents (Elt F) := (constant S_ .f32 0x3727C5AC#32)
  have main_v108 : (⟨S1024, .f32⟩ : BufTy).Contents (Elt F) := ((broadcastInDim S1024 ![] bcast_S_S1024 : (⟨S_, .f32⟩ : BufTy).Contents (Elt F) → (⟨S1024, .f32⟩ : BufTy).Contents (Elt F))) main_cst_19
  have main_v109 : (⟨S1024, .f32⟩ : BufTy).Contents (Elt F) := ((addf : (⟨S1024, .f32⟩ : BufTy).Contents (Elt F) → (⟨S1024, .f32⟩ : BufTy).Contents (Elt F) → (⟨S1024, .f32⟩ : BufTy).Contents (Elt F))) main_v104 main_v108
  have main_v110 : (⟨S1024, .f32⟩ : BufTy).Contents (Elt F) := ((Host.rsqrt : (⟨S1024, .f32⟩ : BufTy).Contents (Elt F) → (⟨S1024, .f32⟩ : BufTy).Contents (Elt F))) main_v109
  have main_v111 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) main_v110
  have main_v112 : (⟨S32x1024, .f32⟩ : BufTy).Contents (Elt F) := ((broadcastInDim S32x1024 ![0, 1] bcast_S1x1024_S32x1024_0_1 : (⟨S1x1024, .f32⟩ : BufTy).Contents (Elt F) → (⟨S32x1024, .f32⟩ : BufTy).Contents (Elt F))) main_v111
  have main_v113 : (⟨S32x1024, .f32⟩ : BufTy).Contents (Elt F) := ((mulf : (⟨S32x1024, .f32⟩ : BufTy).Contents (Elt F) → (⟨S32x1024, .f32⟩ : BufTy).Contents (Elt F) → (⟨S32x1024, .f32⟩ : BufTy).Contents (Elt F))) main_v107 main_v112
  have main_v114 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) g8
  have main_v115 : (⟨S32x1024, .f32⟩ : BufTy).Contents (Elt F) := ((broadcastInDim S32x1024 ![0, 1] bcast_S1x1024_S32x1024_0_1 : (⟨S1x1024, .f32⟩ : BufTy).Contents (Elt F) → (⟨S32x1024, .f32⟩ : BufTy).Contents (Elt F))) main_v114
  have main_v116 : (⟨S32x1024, .f32⟩ : BufTy).Contents (Elt F) := ((mulf : (⟨S32x1024, .f32⟩ : BufTy).Contents (Elt F) → (⟨S32x1024, .f32⟩ : BufTy).Contents (Elt F) → (⟨S32x1024, .f32⟩ : BufTy).Contents (Elt F))) main_v113 main_v115
  have main_v117 : (⟨S1x1024, .f32⟩ : BufTy).Contents (Elt F) := ((broadcastInDim S1x1024 ![1] bcast_S1024_S1x1024_1 : (⟨S1024, .f32⟩ : BufTy).Contents (Elt F) → (⟨S1x1024, .f32⟩ : BufTy).Contents (Elt F))) b9
  have main_v118 : (⟨S32x1024, .f32⟩ : BufTy).Contents (Elt F) := ((broadcastInDim S32x1024 ![0, 1] bcast_S1x1024_S32x1024_0_1 : (⟨S1x1024, .f32⟩ : BufTy).Contents (Elt F) → (⟨S32x1024, .f32⟩ : BufTy).Contents (Elt F))) main_v117
  have main_v119 : (⟨S32x1024, .f32⟩ : BufTy).Contents (Elt F) := ((addf : (⟨S32x1024, .f32⟩ : BufTy).Contents (Elt F) → (⟨S32x1024, .f32⟩ : BufTy).Contents (Elt F) → (⟨S32x1024, .f32⟩ : BufTy).Contents (Elt F))) main_v116 main_v118
  have main_v120 : (⟨S32x1024, .f32⟩ : BufTy).Contents (Elt F) := ((Host.negf : (⟨S32x1024, .f32⟩ : BufTy).Contents (Elt F) → (⟨S32x1024, .f32⟩ : BufTy).Contents (Elt F))) main_v119
  have main_v121 : (⟨S32x1024, .f32⟩ : BufTy).Contents (Elt F) := ((Host.exp : (⟨S32x1024, .f32⟩ : BufTy).Contents (Elt F) → (⟨S32x1024, .f32⟩ : BufTy).Contents (Elt F))) main_v120
  have main_cst_20 : (⟨S_, .f32⟩ : BufTy).Contents (Elt F) := (constant S_ .f32 0x3F800000#32)
  have main_v122 : (⟨S32x1024, .f32⟩ : BufTy).Contents (Elt F) := ((broadcastInDim S32x1024 ![] bcast_S_S32x1024 : (⟨S_, .f32⟩ : BufTy).Contents (Elt F) → (⟨S32x1024, .f32⟩ : BufTy).Contents (Elt F))) main_cst_20
  have main_v123 : (⟨S32x1024, .f32⟩ : BufTy).Contents (Elt F) := ((addf : (⟨S32x1024, .f32⟩ : BufTy).Contents (Elt F) → (⟨S32x1024, .f32⟩ : BufTy).Contents (Elt F) → (⟨S32x1024, .f32⟩ : BufTy).Contents (Elt F))) main_v122 main_v121
  have main_cst_21 : (⟨S_, .f32⟩ : BufTy).Contents (Elt F) := (constant S_ .f32 0x3F800000#32)
  have main_v124 : (⟨S32x1024, .f32⟩ : BufTy).Contents (Elt F) := ((broadcastInDim S32x1024 ![] bcast_S_S32x1024 : (⟨S_, .f32⟩ : BufTy).Contents (Elt F) → (⟨S32x1024, .f32⟩ : BufTy).Contents (Elt F))) main_cst_21
  have main_v125 : (⟨S32x1024, .f32⟩ : BufTy).Contents (Elt F) := ((Host.divf : (⟨S32x1024, .f32⟩ : BufTy).Contents (Elt F) → (⟨S32x1024, .f32⟩ : BufTy).Contents (Elt F) → (⟨S32x1024, .f32⟩ : BufTy).Contents (Elt F))) main_v124 main_v123
  have main_v126 : (⟨S32x1024, .f32⟩ : BufTy).Contents (Elt F) := ((mulf : (⟨S32x1024, .f32⟩ : BufTy).Contents (Elt F) → (⟨S32x1024, .f32⟩ : BufTy).Contents (Elt F) → (⟨S32x1024, .f32⟩ : BufTy).Contents (Elt F))) H main_v125
  main_v126

/-- The reference's result as the stages in a row. -/
def refOut (x : (⟨S32x512x1024, .f32⟩ : BufTy).Contents (Elt F)) (w1 : (⟨S1024x64, .f32⟩ : BufTy).Contents (Elt F)) (covar : (⟨S1024x64, .f32⟩ : BufTy).Contents (Elt F)) (a3 : (⟨S1x1024x64, .f32⟩ : BufTy).Contents (Elt F)) (w4 : (⟨S131072x1024, .f32⟩ : BufTy).Contents (Elt F)) (g5 : (⟨S64, .f32⟩ : BufTy).Contents (Elt F)) (b6 : (⟨S64, .f32⟩ : BufTy).Contents (Elt F)) (w7 : (⟨S1024x1024, .f32⟩ : BufTy).Contents (Elt F)) (g8 : (⟨S1024, .f32⟩ : BufTy).Contents (Elt F)) (b9 : (⟨S1024, .f32⟩ : BufTy).Contents (Elt F)) : (⟨S32x1024, .f32⟩ : BufTy).Contents (Elt F) :=
  tail (hid (cat (refFv x (soft (preact x w1) g5 b6) (cwOf covar) a3).1 (refFv x (soft (preact x w1) g5 b6) (cwOf covar) a3).2) w4) w7 g8 b9

end Cert.Stages

end
-- ==== Proof.KI_Host.lean ====
/-
  The kernel program's host stretches, read as functions of whole arrays.

  Between its three kernels the program applies straight lines of host operations.  Each line's result buffers are
  read here as the stage functions applied to what the line found in its input buffers: the flattening of the input;
  batch normalisation and softmax of the first kernel's product, the covariance weights and the squeezed cluster
  weights; the concatenation of the two flattened blocks; the gating tail of the last kernel's product.  The lines
  are the same operations, in the same order, as the corresponding stretches of the reference, so each reading closes
  by unfolding the stage function.  A buffer a line does not write keeps its contents.
-/
import proofs.«124837_j25666724561114_2_alg».proof.Proof.Gen.KernelIdeal.Regions
import proofs.«124837_j25666724561114_2_alg».proof.Proof.Stages
import proofs.«124837_j25666724561114_2_alg».proof.Proof.LibHostLine
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.ShloMosaic.StableHlo
open Cert.LibHostLine (ofBuf_toBuf)

variable {F : FTy → Type} [FloatOps F]

/-! ## Before the first kernel -/

/-- The input flattened to rows. -/
theorem first_v0 (W : Valuation τ sig (Elt F)) :
    after hostOps0 W (Proc.devRef .tc main_v0)
      = shapeCast S16384x1024 (W (Proc.devRef .tc main_arg0)) shapeCasts_S32x512x1024_S16384x1024 := by
  simp only [hostOps0]
  after_results_simp
  rfl

/-- The flattening writes nothing else. -/
theorem first_kept (W : Valuation τ sig (Elt F)) (r : Ref sig .tc) (h : r ∉ hostOps0_W) :
    after hostOps0 W (Proc.devRef .tc r) = W (Proc.devRef .tc r) :=
  after_of_writes_sub hostOps0 _ hostOps0_writes h

/-! ## Between the first and the second kernel -/

set_option maxRecDepth 8192 in
set_option maxHeartbeats 2000000 in
/-- Batch normalisation, softmax and the split by batch element of the first kernel's product. -/
theorem soft_v32 (W : Valuation τ sig (Elt F)) :
    after hostOps1_2 (after hostOps1_1 (after hostOps1 W)) (Proc.devRef .tc main_v32)
      = Cert.Stages.soft (W (Proc.devRef .tc main_v1)) (W (Proc.devRef .tc main_arg5)) (W (Proc.devRef .tc main_arg6)) := by
  simp only [hostOps1, hostOps1_1, hostOps1_2]
  after_results_simp
  simp only [ofBuf_toBuf]
  rfl

set_option maxRecDepth 8192 in
set_option maxHeartbeats 2000000 in
/-- The covariance weights. -/
theorem soft_v35 (W : Valuation τ sig (Elt F)) :
    after hostOps1_2 (after hostOps1_1 (after hostOps1 W)) (Proc.devRef .tc main_v35)
      = Cert.Stages.cwOf (W (Proc.devRef .tc main_arg2)) := by
  simp only [hostOps1, hostOps1_1, hostOps1_2]
  after_results_simp
  rfl

set_option maxRecDepth 8192 in
set_option maxHeartbeats 2000000 in
/-- The cluster weights without their leading unit axis. -/
theorem soft_v36 (W : Valuation τ sig (Elt F)) :
    after hostOps1_2 (after hostOps1_1 (after hostOps1 W)) (Proc.devRef .tc main_v36)
      = shapeCast S1024x64 (W (Proc.devRef .tc main_arg3)) shapeCasts_S1x1024x64_S1024x64 := by
  simp only [hostOps1, hostOps1_1, hostOps1_2]
  after_results_simp
  rfl

/-- A buffer the three lines do not write keeps its contents. -/
theorem soft_kept (W : Valuation τ sig (Elt F)) (r : Ref sig .tc)
    (h1 : r ∉ hostOps1_W) (h2 : r ∉ hostOps1_1_W) (h3 : r ∉ hostOps1_2_W) :
    after hostOps1_2 (after hostOps1_1 (after hostOps1 W)) (Proc.devRef .tc r) = W (Proc.devRef .tc r) :=
  (after_of_writes_sub hostOps1_2 _ hostOps1_2_writes h3).trans
    ((after_of_writes_sub hostOps1_1 _ hostOps1_1_writes h2).trans (after_of_writes_sub hostOps1 _ hostOps1_writes h1))

theorem soft_arg0 (W : Valuation τ sig (Elt F)) :
    after hostOps1_2 (after hostOps1_1 (after hostOps1 W)) (Proc.devRef .tc main_arg0) = W (Proc.devRef .tc main_arg0) :=
  soft_kept W main_arg0 (by decide) (by decide) (by decide)

theorem soft_arg4 (W : Valuation τ sig (Elt F)) :
    after hostOps1_2 (after hostOps1_1 (after hostOps1 W)) (Proc.devRef .tc main_arg4) = W (Proc.devRef .tc main_arg4) :=
  soft_kept W main_arg4 (by decide) (by decide) (by decide)

/-! ## Between the second and the third kernel -/

set_option maxRecDepth 8192 in
/-- The two blocks flattened per batch element, side by side. -/
theorem cat_v40 (W : Valuation τ sig (Elt F)) :
    after hostOps2 W (Proc.devRef .tc main_v40)
      = Cert.Stages.cat (shapeCast S32x65536 (W (Proc.devRef .tc main_v37_0)) shapeCasts_S32x1024x64_S32x65536)
          (shapeCast S32x65536 (W (Proc.devRef .tc main_v37_1)) shapeCasts_S32x1024x64_S32x65536) := by
  simp only [hostOps2]
  after_results_simp
  rfl

/-- A buffer the line does not write keeps its contents. -/
theorem cat_kept (W : Valuation τ sig (Elt F)) (r : Ref sig .tc) (h : r ∉ hostOps2_W) :
    after hostOps2 W (Proc.devRef .tc r) = W (Proc.devRef .tc r) :=
  after_of_writes_sub hostOps2 _ hostOps2_writes h

theorem cat_arg4 (W : Valuation τ sig (Elt F)) :
    after hostOps2 W (Proc.devRef .tc main_arg4) = W (Proc.devRef .tc main_arg4) :=
  cat_kept W main_arg4 (by decide)

/-! ## After the third kernel -/

set_option maxRecDepth 8192 in
set_option maxHeartbeats 2000000 in
/-- The gating tail of the third kernel's product. -/
theorem tail_v68 (W : Valuation τ sig (Elt F)) :
    after hostOps3_2 (after hostOps3_1 (after hostOps3 W)) (Proc.devRef .tc main_v68)
      = Cert.Stages.tail (W (Proc.devRef .tc main_v41)) (W (Proc.devRef .tc main_arg7)) (W (Proc.devRef .tc main_arg8)) (W (Proc.devRef .tc main_arg9)) := by
  simp only [hostOps3, hostOps3_1, hostOps3_2]
  after_results_simp
  simp only [ofBuf_toBuf]
  rfl

/-- A buffer the three lines do not write keeps its contents. -/
theorem tail_kept (W : Valuation τ sig (Elt F)) (r : Ref sig .tc)
    (h1 : r ∉ hostOps3_W) (h2 : r ∉ hostOps3_1_W) (h3 : r ∉ hostOps3_2_W) :
    after hostOps3_2 (after hostOps3_1 (after hostOps3 W)) (Proc.devRef .tc r) = W (Proc.devRef .tc r) :=
  (after_of_writes_sub hostOps3_2 _ hostOps3_2_writes h3).trans
    ((after_of_writes_sub hostOps3_1 _ hostOps3_1_writes h2).trans (after_of_writes_sub hostOps3 _ hostOps3_writes h1))

end Cert.KernelIdeal.Host

end
-- ==== Proof.RefValue.lean ====
/-
  What the reference's line of host operations leaves in its result buffer.

  The line is cut at the boundaries of the stages of the computation rather than at the boundaries of its printed
  windows: the first 65 operations (the product with the cluster matrix, batch normalisation and softmax, and the
  covariance weights), the next 72 (both Fisher-vector blocks with their normalisations), and the last 56 (the
  concatenation, the product with the hidden weights, the gating tail).  Each piece is read from arbitrary buffer
  contents, so the value it leaves is the stage function applied to what it found in its input buffers, and the
  pieces compose to the stages in a row.  Buffers a piece does not write keep their contents.
-/
import proofs.«124837_j25666724561114_2_alg».proof.Proof.RefRun
import proofs.«124837_j25666724561114_2_alg».proof.Proof.Stages
import proofs.«124837_j25666724561114_2_alg».proof.Proof.LibHostLine
import Idealize.ShloMosaic.Lib.StableHlo.Run

set_option Elab.async false

noncomputable section

namespace Cert.ReferenceIdeal.Line

open Cert.ReferenceIdeal Cert.ReferenceIdeal.Gen Cert.ReferenceIdeal.Lines Idealize.ShloMosaic Idealize.ShloMosaic.TcCoe Idealize.ShloMosaic.StableHlo
open Cert.LibHostLine (ofBuf_toBuf after_append)

variable {F : FTy → Type} [FloatOps F]

/-! ## Cutting a line -/

/-- A line run from `V` is its first `k` operations run from `V`, then the rest run from where those end. -/
theorem after_split (l : List (HloOp τ sig (Elt F))) (k : Nat) (V : Valuation τ sig (Elt F)) :
    after l V = after (l.drop k) (after (l.take k) V) := by
  rw [← after_append, List.take_append_drop]

theorem forall_take {α : Type} {P : α → Prop} {l : List α} (h : l.Forall P) (k : Nat) : (l.take k).Forall P :=
  List.forall_iff_forall_mem.mpr fun x hx => List.forall_iff_forall_mem.mp h x (List.mem_of_mem_take hx)

theorem forall_drop {α : Type} {P : α → Prop} {l : List α} (h : l.Forall P) (k : Nat) : (l.drop k).Forall P :=
  List.forall_iff_forall_mem.mpr fun x hx => List.forall_iff_forall_mem.mp h x (List.mem_of_mem_drop hx)

/-! ## First stage: the product with the cluster matrix, batch normalisation and softmax; the covariance weights

The first 65 operations of window 0. -/

set_option maxRecDepth 8192 in
set_option maxHeartbeats 2000000 in
theorem stage1_v35 (V : Valuation τ sig (Elt F)) :
    after (ops0.take 65) V (Proc.devRef .tc main_v35)
      = Cert.Stages.soft (Cert.Stages.preact (V (Proc.devRef .tc main_arg0)) (V (Proc.devRef .tc main_arg1)))
          (V (Proc.devRef .tc main_arg5)) (V (Proc.devRef .tc main_arg6)) := by
  simp only [ops0, List.take_succ_cons, List.take_zero]
  after_results_simp
  simp only [ofBuf_toBuf]
  rfl

set_option maxRecDepth 8192 in
set_option maxHeartbeats 2000000 in
theorem stage1_v3 (V : Valuation τ sig (Elt F)) :
    after (ops0.take 65) V (Proc.devRef .tc main_v3) = Cert.Stages.cwOf (V (Proc.devRef .tc main_arg2)) := by
  simp only [ops0, List.take_succ_cons, List.take_zero]
  after_results_simp
  rfl

/-- The first stage writes no buffer outside window 0's. -/
theorem stage1_kept (V : Valuation τ sig (Elt F)) (r : Ref sig .tc) (h : r ∉ written0) :
    after (ops0.take 65) V (Proc.devRef .tc r) = V (Proc.devRef .tc r) :=
  after_of_writes_sub _ _ (forall_take ops0_writes 65) h

/-! ## Second stage: both Fisher-vector blocks

The rest of window 0 and the first 56 operations of window 1. -/

set_option maxRecDepth 8192 in
set_option maxHeartbeats 2000000 in
theorem stage2_v97 (W : Valuation τ sig (Elt F)) :
    after (ops1.take 56) (after (ops0.drop 65) W) (Proc.devRef .tc main_v97)
      = (Cert.Stages.refFv (W (Proc.devRef .tc main_arg0)) (W (Proc.devRef .tc main_v35)) (W (Proc.devRef .tc main_v3))
          (W (Proc.devRef .tc main_arg3))).1 := by
  simp only [ops0, ops1, List.take_succ_cons, List.take_zero, List.drop_succ_cons, List.drop_zero]
  after_results_simp
  rfl

set_option maxRecDepth 8192 in
set_option maxHeartbeats 2000000 in
theorem stage2_v76 (W : Valuation τ sig (Elt F)) :
    after (ops1.take 56) (after (ops0.drop 65) W) (Proc.devRef .tc main_v76)
      = (Cert.Stages.refFv (W (Proc.devRef .tc main_arg0)) (W (Proc.devRef .tc main_v35)) (W (Proc.devRef .tc main_v3))
          (W (Proc.devRef .tc main_arg3))).2 := by
  simp only [ops0, ops1, List.take_succ_cons, List.take_zero, List.drop_succ_cons, List.drop_zero]
  after_results_simp
  rfl

/-- The second stage writes no buffer outside the two windows'. -/
theorem stage2_kept (W : Valuation τ sig (Elt F)) (r : Ref sig .tc) (h0 : r ∉ written0) (h1 : r ∉ written1) :
    after (ops1.take 56) (after (ops0.drop 65) W) (Proc.devRef .tc r) = W (Proc.devRef .tc r) :=
  (after_of_writes_sub _ _ (forall_take ops1_writes 56) h1).trans (after_of_writes_sub _ _ (forall_drop ops0_writes 65) h0)

/-! ## Third stage: concatenation, the product with the hidden weights, the gating tail

The rest of window 1 and window 2. -/

set_option maxRecDepth 8192 in
set_option maxHeartbeats 2000000 in
theorem stage3_v126 (W : Valuation τ sig (Elt F)) :
    after ops2 (after (ops1.drop 56) W) (Proc.devRef .tc main_v126)
      = Cert.Stages.tail (Cert.Stages.hid (Cert.Stages.cat (W (Proc.devRef .tc main_v97)) (W (Proc.devRef .tc main_v76))) (W (Proc.devRef .tc main_arg4)))
          (W (Proc.devRef .tc main_arg7)) (W (Proc.devRef .tc main_arg8)) (W (Proc.devRef .tc main_arg9)) := by
  simp only [ops1, ops2, List.drop_succ_cons, List.drop_zero]
  after_results_simp
  simp only [ofBuf_toBuf]
  rfl

/-! ## The whole line -/

/-- The reference's result buffer after the whole line holds the stages in a row applied to the arguments as launched. -/
theorem out_eq (V : Valuation τ sig (Elt F)) :
    after ops V (Proc.devRef .tc main_v126)
      = Cert.Stages.refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9)) := by
  have hcut : after ops V = after ops2 (after (ops1.drop 56) (after (ops1.take 56) (after (ops0.drop 65) (after (ops0.take 65) V)))) := by
    simp only [ops, after_append]
    rw [after_split ops0 65 V, after_split ops1 56]
  rw [hcut, stage3_v126, stage2_v97, stage2_v76,
    stage2_kept _ main_arg4 (by decide) (by decide), stage2_kept _ main_arg7 (by decide) (by decide),
    stage2_kept _ main_arg8 (by decide) (by decide), stage2_kept _ main_arg9 (by decide) (by decide),
    stage1_v35, stage1_v3,
    stage1_kept _ main_arg0 (by decide), stage1_kept _ main_arg3 (by decide), stage1_kept _ main_arg4 (by decide),
    stage1_kept _ main_arg7 (by decide), stage1_kept _ main_arg8 (by decide), stage1_kept _ main_arg9 (by decide)]
  rfl

end Cert.ReferenceIdeal.Line

end
-- ==== Proof.FvMathSpec.lean ====
/-
  The Fisher-vector block of one batch element, as formulas over the extended reals.

  For one batch element let X (n, d) be its 512 samples of 1024 features, A (n, k) its soft assignments to 64
  clusters, W (d, k) the covariance weights and C (d, k) the cluster centres.  With
    aSum k = sum_n A (n, k),   m1 (d, k) = sum_n X (n, d) * A (n, k),   m2 (d, k) = sum_n X (n, d)^2 * A (n, k),
  the first-order block is (m1 - aSum * C) / W, normalised along d for each cluster and then over the whole block, and
  the second-order block is (aSum * C^2 + m2 - 2 * (m1 * C)) / W^2 - aSum, normalised over the whole block twice.
  A normalisation divides by max (sqrt (sum of squares), 1e-12).
-/
import Idealize.ShloMosaic.PureOps.Ideal
import Mathlib.Algebra.BigOperators.Fin

noncomputable section

open scoped BigOperators

namespace Cert.FvMath

open Idealize.ShloMosaic

/-- The floor 1e-12 under every norm, as the single-precision word both programs print. -/
def tiny : EReal := Ideal.ofBits .f32 0x2B8CBCCC#32
/-- The factor 2 of the cross term, as the single-precision word both programs print. -/
def two : EReal := Ideal.ofBits .f32 0x40000000#32

/-- The total soft assignment of cluster k. -/
def aSum (A : Fin 512 → Fin 64 → EReal) (k : Fin 64) : EReal := ∑ n : Fin 512, A n k
/-- The assignment-weighted sum of the samples. -/
def m1 (X : Fin 512 → Fin 1024 → EReal) (A : Fin 512 → Fin 64 → EReal) (d : Fin 1024) (k : Fin 64) : EReal :=
  ∑ n : Fin 512, X n d * A n k
/-- The assignment-weighted sum of the squared samples. -/
def m2 (X : Fin 512 → Fin 1024 → EReal) (A : Fin 512 → Fin 64 → EReal) (d : Fin 1024) (k : Fin 64) : EReal :=
  ∑ n : Fin 512, (X n d * X n d) * A n k

/-- The first-order block before normalisation. -/
def first (X : Fin 512 → Fin 1024 → EReal) (A : Fin 512 → Fin 64 → EReal) (W C : Fin 1024 → Fin 64 → EReal)
    (d : Fin 1024) (k : Fin 64) : EReal :=
  Ideal.div (m1 X A d k - aSum A k * C d k) (W d k)
/-- The second-order block before normalisation. -/
def second (X : Fin 512 → Fin 1024 → EReal) (A : Fin 512 → Fin 64 → EReal) (W C : Fin 1024 → Fin 64 → EReal)
    (d : Fin 1024) (k : Fin 64) : EReal :=
  Ideal.div ((aSum A k * (C d k * C d k) + m2 X A d k) - two * (m1 X A d k * C d k)) (W d k * W d k) - aSum A k

/-- Normalisation of each column (cluster) along the features. -/
def colNorm (g : Fin 1024 → Fin 64 → EReal) (d : Fin 1024) (k : Fin 64) : EReal :=
  Ideal.div (g d k) (max (Ideal.sqrt (∑ d' : Fin 1024, g d' k * g d' k)) tiny)
/-- Normalisation over the whole block, its squares summed column by column. -/
def flatNorm (g : Fin 1024 → Fin 64 → EReal) (d : Fin 1024) (k : Fin 64) : EReal :=
  Ideal.div (g d k) (max (Ideal.sqrt (∑ k' : Fin 64, ∑ d' : Fin 1024, g d' k' * g d' k')) tiny)

/-- The first-order block, normalised. -/
def out1 (X : Fin 512 → Fin 1024 → EReal) (A : Fin 512 → Fin 64 → EReal) (W C : Fin 1024 → Fin 64 → EReal) :
    Fin 1024 → Fin 64 → EReal := flatNorm (colNorm (first X A W C))
/-- The second-order block, normalised. -/
def out2 (X : Fin 512 → Fin 1024 → EReal) (A : Fin 512 → Fin 64 → EReal) (W C : Fin 1024 → Fin 64 → EReal) :
    Fin 1024 → Fin 64 → EReal := flatNorm (flatNorm (second X A W C))

end Cert.FvMath

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPointOps.lean ====
/-
  Host operations on a stack of point clouds `B × N × K` read at an index — general in the extents.

  * a product contracting the channel axis against the rows of an `M × K` matrix reads, at `(p, n, o)`,
    `∑ₖ lhs (p, n, k) · rhs (o, k)`;
  * the maximum over the points reads, at `(p, k)`, the fold of `max` from the initial value over `n` of `x (p, n, k)`:
    `max` is commutative and associative, so the order of the fold does not matter;
  * two arrays joined along the channel axis read the first array below its extent and the second past it;
  * a `B × K` array given a middle unit axis, and a `B × 1 × K` array spread over the points.
-/
import Idealize.ShloMosaic.Lib.ValueIdx
import Idealize.ShloMosaic.Lib.Pipeline.Value
import Idealize.ShloMosaic.PureOps.Ideal.Laws

noncomputable section

open scoped BigOperators

namespace Cert.LibPointOps

open Idealize.ShloMosaic Idealize.ShloMosaic.ValueIdx

variable {B N K M : ℕ} {α : Type}

/-- The host's product over the channel axis, at `(p, n, o)`: `∑ₖ lhs (p, n, k) · rhs (o, k)`. -/
theorem dotLast_apply {φ₁ φ₂ : FTy}
    (D : DotDims (⟨3, ![B, N, K]⟩ : Shape) (⟨2, ![M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 2).val)
    (r1 : ∀ (i : (⟨3, ![B, N, M]⟩ : Shape).Idx) (q : D.contr.Idx), (D.rhsIdx i q 1).val = (q ⟨0, by omega⟩).val)
    (prec : Option ContractPrecision)
    (lhs : FVec Ideal (⟨3, ![B, N, K]⟩ : Shape) φ₁) (rhs : FVec Ideal (⟨2, ![M, K]⟩ : Shape) φ₂)
    (p : Fin B) (n : Fin N) (o : Fin M) :
    Host.dotGeneral D prec lhs rhs (ix3 p n o) = ∑ k : Fin K, (lhs (ix3 p n k) : EReal) * (rhs (ix2 o k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 p n o) ((contrEquiv1 D K hr hs).symm k) = ix3 p n k := funext fun a => Fin.ext (by
    match a with
    | ⟨0, _⟩ => exact l0 _ _
    | ⟨1, _⟩ => exact l1 _ _
    | ⟨2, _⟩ => exact (l2 _ _).trans hk)
  have er : D.rhsIdx (ix3 p n o) ((contrEquiv1 D K hr hs).symm k) = ix2 o k := funext fun a => Fin.ext (by
    match a with
    | ⟨0, _⟩ => exact r0 _ _
    | ⟨1, _⟩ => exact (r1 _ _).trans hk)
  rw [el, er]

/-- The host's maximum over the points, at `(p, k)`: the fold of `max` from the initial value over `n`. -/
theorem hostMidMax_apply {φ : FTy} {u : Shape} (x : FVec Ideal ⟨3, ![B, N, K]⟩ φ) (init : u.Idx → Ideal φ)
    (h' : (⟨3, ![B, N, K]⟩ : Shape).ReducesTo [1] ⟨2, ![B, K]⟩) (h : (⟨3, ![B, N, K]⟩ : Shape).Reduces [1] ⟨2, ![B, K]⟩)
    (hu : 0 < u.numel) (p : Fin B) (k : Fin K) :
    Host.reduce FloatOps.maximumf x init h' hu (ix2 p k)
      = (Finset.univ : Finset (Fin N)).fold max (init (Shape.Idx.first hu)) (fun n : Fin N => x (ix3 p n k)) := by
  refine (Host.reduce_eq_fold_single FloatOps.maximumf x init h' h hu (ix2 p k)).trans ?_
  have hf : (x ∘ h.lift (ix2 p k)) = fun n : Fin N => x (ix3 p n k) := funext fun n => congrArg x
    (funext fun c => Fin.ext (by match c with | ⟨0, _⟩ => rfl | ⟨1, _⟩ => rfl | ⟨2, _⟩ => rfl))
  exact congrArg (fun f => Finset.fold max (init (Shape.Idx.first hu)) f (Finset.univ : Finset (Fin N))) hf

variable {K1 K2 : ℕ}

/-- Two arrays joined along the channel axis: below the first array's extent, the first array. -/
theorem concatLast_left (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : q.val < K1) :
    concatenate (⟨3, ![B, N, K]⟩ : Shape) 2 [⟨_, x₁⟩, ⟨_, x₂⟩] h (ix3 p n q) = x₁ (ix3 p n ⟨q.val, hq⟩) :=
  concatenate_pair_apply_left 2 x₁ x₂ h (ix3 p n q) rfl (ix3 p n ⟨q.val, hq⟩) (fun c => by
    match c with
    | ⟨0, _⟩ => rfl
    | ⟨1, _⟩ => rfl
    | ⟨2, _⟩ => rfl)

/-- Two arrays joined along the channel axis: past the first array's extent, the second array. -/
theorem concatLast_right (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : K1 ≤ q.val) (hlt : q.val - K1 < K2) :
    concatenate (⟨3, ![B, N, K]⟩ : Shape) 2 [⟨_, x₁⟩, ⟨_, x₂⟩] h (ix3 p n q) = x₂ (ix3 p n ⟨q.val - K1, hlt⟩) :=
  concatenate_pair_apply_right 2 x₁ x₂ h (ix3 p n q) rfl rfl (ix3 p n ⟨q.val - K1, hlt⟩) (fun c hc => by
    match c with
    | ⟨0, _⟩ => rfl
    | ⟨1, _⟩ => rfl
    | ⟨2, _⟩ => exact absurd rfl hc) (by
    show (q.val - K1) + K1 = q.val
    omega)

/-- A `B × K` array given a middle unit axis reads, at `(p, z, k)`, the array at `(p, k)`. -/
theorem bcast_BK_B1K_apply (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  broadcastInDim_apply _ h v (ix3 p z k) (ix2 p k) (fun a => match a with
    | ⟨0, _⟩ => by
      show p.val = if B = 1 then 0 else p.val
      split
      · have := p.isLt; omega
      · rfl
    | ⟨1, _⟩ => by
      show k.val = if K = 1 then 0 else k.val
      split
      · have := k.isLt; omega
      · rfl)

/-- A `B × 1 × K` array spread over the points reads, at `(p, n, k)`, the array at `(p, 0, k)`. -/
theorem bcast_B1K_BNK_apply (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  broadcastInDim_apply _ h v (ix3 p n k) (ix3 p (0 : Fin 1) k) (fun a => match a with
    | ⟨0, _⟩ => by
      show p.val = if B = 1 then 0 else p.val
      split
      · have := p.isLt; omega
      · rfl
    | ⟨1, _⟩ => by
      show 0 = if (1 : ℕ) = 1 then 0 else n.val
      rw [if_pos rfl]
    | ⟨2, _⟩ => by
      show k.val = if K = 1 then 0 else k.val
      split
      · have := k.isLt; omega
      · rfl)

/-- A `B × 1 × N` array with its unit axis dropped reads, at `(p, n)`, the array at `(p, 0, n)`. -/
theorem shapeCast_B1N_BN_apply (x : (⟨3, ![B, 1, N]⟩ : Shape).Idx → α)
    (h : (⟨3, ![B, 1, N]⟩ : Shape).ShapeCasts ⟨2, ![B, N]⟩) (p : Fin B) (n : Fin N) :
    shapeCast ⟨2, ![B, N]⟩ x h (ix2 p n) = x (ix3 p (0 : Fin 1) n) :=
  shapeCast_apply x h _ _ (by
    rw [Shape.rowMajor_val_three, Shape.rowMajor_val_two]
    show (p.val * 1 + 0) * N + n.val = p.val * N + n.val
    rw [Nat.mul_one, Nat.add_zero])

/-- An `B × 1 × K` array with its unit axis dropped, the other way: a `B × K` array cast to `B × 1 × K`. -/
theorem shapeCast_BN_B1N_apply (x : (⟨2, ![B, N]⟩ : Shape).Idx → α)
    (h : (⟨2, ![B, N]⟩ : Shape).ShapeCasts ⟨3, ![B, 1, N]⟩) (p : Fin B) (z : Fin 1) (n : Fin N) :
    shapeCast ⟨3, ![B, 1, N]⟩ x h (ix3 p z n) = x (ix2 p n) :=
  shapeCast_apply x h _ _ (by
    have hz : z.val = 0 := by omega
    rw [Shape.rowMajor_val_three, Shape.rowMajor_val_two]
    show p.val * N + n.val = (p.val * 1 + z.val) * N + n.val
    rw [hz, Nat.mul_one, Nat.add_zero])

end Cert.LibPointOps

end
-- ==== Proof.FvMathOps.lean ====
/-
  Array operations read at an index, for the per-batch Fisher-vector block and its batched counterpart.

  Each lemma says what one layout operation, sum or product returns at an index written out by coordinates: the
  column sums of a matrix, the product of two matrices contracted over their common first axis, the host's sum of a
  three-axis array along its middle axis and of a matrix along its rows, the batched product contracted over the
  middle axis, the broadcasts that insert or spread a unit axis, and the flattening [a, b, c] -> [a, b*c].
  The last lemma splits a sum over 65536 = 1024 * 64 flattened positions into a double sum.
-/
import proofs.«124837_j25666724561114_2_alg».proof.Proof.Stages
import proofs.«124837_j25666724561114_2_alg».proof.Proof.KerFv
import proofs.«124837_j25666724561114_2_alg».proof.Proof.LibColumns
import proofs.«124837_j25666724561114_2_alg».proof.Proof.LibPointOps
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Algebra.BigOperators.Fin

noncomputable section

open scoped BigOperators

namespace Cert.FvMath

open Idealize.ShloMosaic Idealize.ShloMosaic.ValueIdx

variable {α : Type}

/-! ## Sums -/

/-- Over the extended reals the sum of an n × m matrix along its first axis reads, at k, the sum over i of src (i, k). -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ)
    (k : Fin m) :
    multiReduction .add [0] ⟨1, ![m]⟩ src acc h hφ hacc (ix1 k) = ∑ i : Fin n, src (ix2 i k) := by
  refine (Ideal.multiReduction_add_single src acc h hφ hacc (ix1 k)).trans ?_
  refine Finset.sum_congr rfl fun i _ => congrArg src ?_
  funext c
  apply Fin.ext
  match c with
  | ⟨0, _⟩ => rfl
  | ⟨1, _⟩ => rfl

/-- Over the extended reals the sum of a 1 × m row along its second axis reads, at its one index, the sum of the row. -/
theorem rowSum1_apply {m : ℕ} {φ : FTy} (src : FVec Ideal ⟨2, ![1, m]⟩ φ) (acc : BitVec φ.bits)
    (h : (⟨2, ![1, m]⟩ : Shape).Reduces [1] ⟨1, ![1]⟩) (hφ : FKind.Formats φ) (hacc : acc = FKind.add.neutral φ hφ)
    (u : Fin 1) :
    multiReduction .add [1] ⟨1, ![1]⟩ src acc h hφ hacc (ix1 u) = ∑ k : Fin m, src (ix2 (0 : Fin 1) k) := by
  obtain rfl : u = 0 := Fin.ext (by omega)
  exact Cert.LibColumns.rowSum_apply src acc h hφ hacc 0

/-- The host's sum of a B × N × K array along its middle axis reads, at (p, k), the initial value plus the sum over n
    of x (p, n, k). -/
theorem hostMidSum_apply {B N K : ℕ} {φ : FTy} {u : Shape} (x : FVec Ideal ⟨3, ![B, N, K]⟩ φ) (init : u.Idx → Ideal φ)
    (h' : (⟨3, ![B, N, K]⟩ : Shape).ReducesTo [1] ⟨2, ![B, K]⟩) (hu : 0 < u.numel) (p : Fin B) (k : Fin K) :
    Host.reduceAdd x init h' hu (ix2 p k) = init (Shape.Idx.first hu) + ∑ n : Fin N, x (ix3 p n k) := by
  have h : (⟨3, ![B, N, K]⟩ : Shape).Reduces [1] ⟨2, ![B, K]⟩ := ⟨h'.1, Nat.two_pos, h'.2⟩
  rw [hostReduceAdd_apply]
  refine (Ideal.hostReduceAdd_single h' h x _ (ix2 p k)).trans ?_
  refine congrArg (init (Shape.Idx.first hu) + ·) ?_
  refine Finset.sum_congr rfl fun n _ => congrArg x ?_
  funext c
  apply Fin.ext
  match c with
  | ⟨0, _⟩ => rfl
  | ⟨1, _⟩ => rfl
  | ⟨2, _⟩ => rfl

/-- The host's sum of a B × M matrix along its rows reads, at p, the initial value plus the sum over j of x (p, j). -/
theorem hostRowSum_apply {B M : ℕ} {φ : FTy} {u : Shape} (x : FVec Ideal ⟨2, ![B, M]⟩ φ) (init : u.Idx → Ideal φ)
    (h' : (⟨2, ![B, M]⟩ : Shape).ReducesTo [1] ⟨1, ![B]⟩) (hu : 0 < u.numel) (p : Fin B) :
    Host.reduceAdd x init h' hu (ix1 p) = init (Shape.Idx.first hu) + ∑ j : Fin M, x (ix2 p j) := by
  have h : (⟨2, ![B, M]⟩ : Shape).Reduces [1] ⟨1, ![B]⟩ := ⟨h'.1, Nat.one_pos, h'.2⟩
  rw [hostReduceAdd_apply]
  refine (Ideal.hostReduceAdd_single h' h x _ (ix1 p)).trans ?_
  refine congrArg (init (Shape.Idx.first hu) + ·) ?_
  refine Finset.sum_congr rfl fun j _ => congrArg x ?_
  funext c
  apply Fin.ext
  match c with
  | ⟨0, _⟩ => rfl
  | ⟨1, _⟩ => rfl

/-- A sum over the 65536 = 1024 · 64 flattened positions, taken column by column: position 64 d + k is entry (d, k). -/
theorem sum_flat {β : Type*} [AddCommMonoid β] (f : Fin 65536 → β) :
    ∑ j : Fin 65536, f j = ∑ k : Fin 64, ∑ d : Fin 1024, f ⟨d.val * 64 + k.val, by have := d.isLt; have := k.isLt; omega⟩ := by
  rw [Finset.sum_comm]
  have e : ∑ j : Fin 65536, f j = ∑ p : Fin 1024 × Fin 64, f (finProdFinEquiv p) :=
    (Fintype.sum_equiv (finProdFinEquiv (m := 1024) (n := 64)) (fun p => f (finProdFinEquiv p)) f (fun _ => rfl)).symm
  rw [e, Fintype.sum_prod_type]
  refine Finset.sum_congr rfl fun d _ => Finset.sum_congr rfl fun k _ => congrArg f (Fin.ext ?_)
  show k.val + 64 * d.val = d.val * 64 + k.val
  omega

/-! ## Layout operations -/

/-- A 1 × D × K array spread over B batch elements reads, at (p, d, k), the array at (0, d, k). -/
theorem bcast_1DK_BDK_apply {B D K : ℕ} (v : (⟨3, ![1, D, K]⟩ : Shape).Idx → α)
    (h : (⟨3, ![1, D, K]⟩ : Shape).BroadcastsInDim ⟨3, ![B, D, K]⟩ ![0, 1, 2]) (p : Fin B) (d : Fin D) (k : Fin K) :
    broadcastInDim ⟨3, ![B, D, K]⟩ ![0, 1, 2] h v (ix3 p d k) = v (ix3 (0 : Fin 1) d k) :=
  broadcastInDim_apply _ h v (ix3 p d k) (ix3 (0 : Fin 1) d k) (fun a => match a with
    | ⟨0, _⟩ => by
      show 0 = if (1 : ℕ) = 1 then 0 else p.val
      rw [if_pos rfl]
    | ⟨1, _⟩ => by
      show d.val = if D = 1 then 0 else d.val
      split
      · have := d.isLt; omega
      · rfl
    | ⟨2, _⟩ => by
      show k.val = if K = 1 then 0 else k.val
      split
      · have := k.isLt; omega
      · rfl)

/-- A D × K matrix given a leading unit axis reads, at (z, d, k), the matrix at (d, k). -/
theorem bcast_DK_1DK_apply {D K : ℕ} (v : (⟨2, ![D, K]⟩ : Shape).Idx → α)
    (h : (⟨2, ![D, K]⟩ : Shape).BroadcastsInDim ⟨3, ![1, D, K]⟩ ![1, 2]) (z : Fin 1) (d : Fin D) (k : Fin K) :
    broadcastInDim ⟨3, ![1, D, K]⟩ ![1, 2] h v (ix3 z d k) = v (ix2 d k) :=
  broadcastInDim_apply _ h v (ix3 z d k) (ix2 d k) (fun a => match a with
    | ⟨0, _⟩ => by
      show d.val = if D = 1 then 0 else d.val
      split
      · have := d.isLt; omega
      · rfl
    | ⟨1, _⟩ => by
      show k.val = if K = 1 then 0 else k.val
      split
      · have := k.isLt; omega
      · rfl)

/-- A vector of B entries made a B × 1 column reads, at (p, z), the vector's entry p. -/
theorem bcast_B_B1_apply {B : ℕ} (v : (⟨1, ![B]⟩ : Shape).Idx → α)
    (h : (⟨1, ![B]⟩ : Shape).BroadcastsInDim ⟨2, ![B, 1]⟩ ![0]) (p : Fin B) (z : Fin 1) :
    broadcastInDim ⟨2, ![B, 1]⟩ ![0] h v (ix2 p z) = v (ix1 p) :=
  broadcastInDim_apply _ h v (ix2 p z) (ix1 p) (fun a => match a with
    | ⟨0, _⟩ => by
      show p.val = if B = 1 then 0 else p.val
      split
      · have := p.isLt; omega
      · rfl)

/-- A B × 1 column spread over M columns reads, at (p, j), the column's entry p. -/
theorem bcast_B1_BM_apply {B M : ℕ} (v : (⟨2, ![B, 1]⟩ : Shape).Idx → α)
    (h : (⟨2, ![B, 1]⟩ : Shape).BroadcastsInDim ⟨2, ![B, M]⟩ ![0, 1]) (p : Fin B) (j : Fin M) :
    broadcastInDim ⟨2, ![B, M]⟩ ![0, 1] h v (ix2 p j) = v (ix2 p (0 : Fin 1)) :=
  broadcastInDim_apply _ h v (ix2 p j) (ix2 p (0 : Fin 1)) (fun a => match a with
    | ⟨0, _⟩ => by
      show p.val = if B = 1 then 0 else p.val
      split
      · have := p.isLt; omega
      · rfl
    | ⟨1, _⟩ => by
      show 0 = if (1 : ℕ) = 1 then 0 else j.val
      rw [if_pos rfl])

/-- A B × K array given a middle unit axis reads, at (p, z, k), the array at (p, k). -/
theorem bcast_BK_B1K_apply {B K : ℕ} (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  Cert.LibPointOps.bcast_BK_B1K_apply v h p z k

/-- A B × 1 × K array spread over N rows reads, at (p, n, k), the array at (p, 0, k). -/
theorem bcast_B1K_BNK_apply {B N K : ℕ} (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  Cert.LibPointOps.bcast_B1K_BNK_apply v h p n k

/-- A 1 × 1 array spread over an a × b matrix reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

/-- A one-entry vector made a 1 × 1 array reads that entry. -/
theorem shapeCast_1_11_apply (x : (⟨1, ![1]⟩ : Shape).Idx → α)
    (h : (⟨1, ![1]⟩ : Shape).ShapeCasts ⟨2, ![1, 1]⟩) (u z : Fin 1) :
    shapeCast ⟨2, ![1, 1]⟩ x h (ix2 u z) = x (ix1 (0 : Fin 1)) := by
  obtain rfl : u = 0 := Fin.ext (by omega)
  exact Cert.LibColumns.shapeCast_a_a1_apply x h 0 z

/-- An a × b × c array with its last two axes flattened reads, at (p, q) with q = c·s + l, its entry (p, s, l). -/
theorem shapeCast_flatten_apply {a b c n : ℕ} (hn : n = b * c) (x : (⟨3, ![a, b, c]⟩ : Shape).Idx → α)
    (h : (⟨3, ![a, b, c]⟩ : Shape).ShapeCasts ⟨2, ![a, n]⟩) (p : Fin a) (s : Fin b) (l : Fin c) (q : Fin n)
    (hq : q.val = s.val * c + l.val) :
    shapeCast ⟨2, ![a, n]⟩ x h (ix2 p q) = x (ix3 p s l) := by
  refine shapeCast_apply x h (ix2 p q) (ix3 p s l) ?_
  rw [Shape.rowMajor_val_two, Shape.rowMajor_val_three]
  show (p.val * b + s.val) * c + l.val = p.val * n + q.val
  rw [hq, hn]
  ring

end Cert.FvMath

end
-- ==== Proof.FvMathDots.lean ====
/-
  The two products of the Fisher-vector block read at an index.

  The per-batch block multiplies a [512, 1024] slab by a [512, 64] slab contracting their common FIRST axis (the
  samples), into a zero accumulator; the batched computation multiplies [32, 512, 1024] by [32, 512, 64] batch element
  by batch element, contracting the middle axis.  At the extended reals both are, entry by entry, the sum over the
  samples n of lhs (n, d) * rhs (n, k).
-/
import proofs.«124837_j25666724561114_2_alg».proof.Proof.Stages
import proofs.«124837_j25666724561114_2_alg».proof.Proof.KerFv
import Idealize.ShloMosaic.Lib.ValueIdx
import Idealize.ShloMosaic.PureOps.Ideal.Laws

noncomputable section

open scoped BigOperators

namespace Cert.FvMath

open Idealize.ShloMosaic Idealize.ShloMosaic.ValueIdx

/-- A product of an N × A by an N × C matrix contracting the first axes, into zero, at (d, k): the sum over n of
    lhs (n, d) * rhs (n, k).  The record's coordinate maps are hypotheses, each true by computation for a literal record. -/
theorem dotFirst_apply {N A C : ℕ} {φ₁ φ₂ : FTy}
    (D : DotDims (⟨2, ![N, A]⟩ : Shape) (⟨2, ![N, C]⟩ : Shape) (⟨2, ![A, C]⟩ : Shape))
    (hr : D.contr.rank = 1) (hs : D.contr.size ⟨0, by omega⟩ = N)
    (l0 : ∀ (i : (⟨2, ![A, C]⟩ : Shape).Idx) (q : D.contr.Idx), (D.lhsIdx i q 0).val = (q ⟨0, by omega⟩).val)
    (l1 : ∀ (i : (⟨2, ![A, C]⟩ : Shape).Idx) (q : D.contr.Idx), (D.lhsIdx i q 1).val = (i 0).val)
    (r0 : ∀ (i : (⟨2, ![A, C]⟩ : Shape).Idx) (q : D.contr.Idx), (D.rhsIdx i q 0).val = (q ⟨0, by omega⟩).val)
    (r1 : ∀ (i : (⟨2, ![A, C]⟩ : Shape).Idx) (q : D.contr.Idx), (D.rhsIdx i q 1).val = (i 1).val)
    (prec : Option ContractPrecision)
    (lhs : FVec Ideal (⟨2, ![N, A]⟩ : Shape) φ₁) (rhs : FVec Ideal (⟨2, ![N, C]⟩ : Shape) φ₂) (d : Fin A) (k : Fin C) :
    matmul D prec lhs rhs (constant (⟨2, ![A, C]⟩ : Shape) .f32 0x00000000#32) (ix2 d k)
      = ∑ n : Fin N, (lhs (ix2 n d) : EReal) * (rhs (ix2 n k) : EReal) := by
  show FloatOps.matmul D prec lhs rhs _ (ix2 d k) = _
  rw [Ideal.matmul_constant_zero_apply, ← Equiv.sum_comp (contrEquiv1 D N hr hs).symm]
  refine Finset.sum_congr rfl fun n _ => ?_
  have hn := contrEquiv1_symm_val D N hr hs n
  have el : D.lhsIdx (ix2 d k) ((contrEquiv1 D N hr hs).symm n) = ix2 n d := funext fun a => Fin.ext (by
    match a with
    | ⟨0, _⟩ => exact (l0 _ _).trans hn
    | ⟨1, _⟩ => exact l1 _ _)
  have er : D.rhsIdx (ix2 d k) ((contrEquiv1 D N hr hs).symm n) = ix2 n k := funext fun a => Fin.ext (by
    match a with
    | ⟨0, _⟩ => exact (r0 _ _).trans hn
    | ⟨1, _⟩ => exact r1 _ _)
  rw [el, er]

/-- The host's batched product of B × N × A by B × N × C contracting the middle axes, at (p, d, k): the sum over n of
    lhs (p, n, d) * rhs (p, n, k). -/
theorem dotBatch_apply {B N A C : ℕ} {φ₁ φ₂ : FTy}
    (D : DotDims (⟨3, ![B, N, A]⟩ : Shape) (⟨3, ![B, N, C]⟩ : Shape) (⟨3, ![B, A, C]⟩ : Shape))
    (hr : D.contr.rank = 1) (hs : D.contr.size ⟨0, by omega⟩ = N)
    (l0 : ∀ (i : (⟨3, ![B, A, C]⟩ : Shape).Idx) (q : D.contr.Idx), (D.lhsIdx i q 0).val = (i 0).val)
    (l1 : ∀ (i : (⟨3, ![B, A, C]⟩ : Shape).Idx) (q : D.contr.Idx), (D.lhsIdx i q 1).val = (q ⟨0, by omega⟩).val)
    (l2 : ∀ (i : (⟨3, ![B, A, C]⟩ : Shape).Idx) (q : D.contr.Idx), (D.lhsIdx i q 2).val = (i 1).val)
    (r0 : ∀ (i : (⟨3, ![B, A, C]⟩ : Shape).Idx) (q : D.contr.Idx), (D.rhsIdx i q 0).val = (i 0).val)
    (r1 : ∀ (i : (⟨3, ![B, A, C]⟩ : Shape).Idx) (q : D.contr.Idx), (D.rhsIdx i q 1).val = (q ⟨0, by omega⟩).val)
    (r2 : ∀ (i : (⟨3, ![B, A, C]⟩ : Shape).Idx) (q : D.contr.Idx), (D.rhsIdx i q 2).val = (i 2).val)
    (prec : Option ContractPrecision)
    (lhs : FVec Ideal (⟨3, ![B, N, A]⟩ : Shape) φ₁) (rhs : FVec Ideal (⟨3, ![B, N, C]⟩ : Shape) φ₂)
    (p : Fin B) (d : Fin A) (k : Fin C) :
    Host.dotGeneral D prec lhs rhs (ix3 p d k) = ∑ n : Fin N, (lhs (ix3 p n d) : EReal) * (rhs (ix3 p n k) : EReal) := by
  simp only [Host.dotGeneral]
  rw [Ideal.dotGeneral_apply, ← Equiv.sum_comp (contrEquiv1 D N hr hs).symm]
  refine Finset.sum_congr rfl fun n _ => ?_
  have hn := contrEquiv1_symm_val D N hr hs n
  have el : D.lhsIdx (ix3 p d k) ((contrEquiv1 D N hr hs).symm n) = ix3 p n d := funext fun a => Fin.ext (by
    match a with
    | ⟨0, _⟩ => exact l0 _ _
    | ⟨1, _⟩ => exact (l1 _ _).trans hn
    | ⟨2, _⟩ => exact l2 _ _)
  have er : D.rhsIdx (ix3 p d k) ((contrEquiv1 D N hr hs).symm n) = ix3 p n k := funext fun a => Fin.ext (by
    match a with
    | ⟨0, _⟩ => exact r0 _ _
    | ⟨1, _⟩ => exact (r1 _ _).trans hn
    | ⟨2, _⟩ => exact r2 _ _)
  rw [el, er]

/-- The per-batch block's product (its printed dimension record), at (d, k). -/
theorem kerDot_apply {φ₁ φ₂ : FTy} (lhs : FVec Ideal (⟨2, ![512, 1024]⟩ : Shape) φ₁) (rhs : FVec Ideal (⟨2, ![512, 64]⟩ : Shape) φ₂)
    (d : Fin 1024) (k : Fin 64) :
    matmul Cert.KernelIdeal.dot_S512x1024_S512x64_S1024x64_0_0_1_1_n_n none lhs rhs
        (constant (⟨2, ![1024, 64]⟩ : Shape) .f32 0x00000000#32) (ix2 d k)
      = ∑ n : Fin 512, (lhs (ix2 n d) : EReal) * (rhs (ix2 n k) : EReal) :=
  dotFirst_apply Cert.KernelIdeal.dot_S512x1024_S512x64_S1024x64_0_0_1_1_n_n rfl rfl
    (fun i q => Cert.KernelIdeal.dot_S512x1024_S512x64_S1024x64_0_0_1_1_n_n.lhsIdx_val_of_single rfl i q) (fun _ _ => rfl)
    (fun i q => Cert.KernelIdeal.dot_S512x1024_S512x64_S1024x64_0_0_1_1_n_n.rhsIdx_val_of_single rfl i q) (fun _ _ => rfl)
    none lhs rhs d k

/-- The batched product (the reference's printed dimension record), at (p, d, k). -/
theorem refDot_apply {φ₁ φ₂ : FTy} (lhs : FVec Ideal (⟨3, ![32, 512, 1024]⟩ : Shape) φ₁) (rhs : FVec Ideal (⟨3, ![32, 512, 64]⟩ : Shape) φ₂)
    (p : Fin 32) (d : Fin 1024) (k : Fin 64) :
    Host.dotGeneral Cert.ReferenceIdeal.dot_S32x512x1024_S32x512x64_S32x1024x64_1_1_2_2_0_0 none lhs rhs (ix3 p d k)
      = ∑ n : Fin 512, (lhs (ix3 p n d) : EReal) * (rhs (ix3 p n k) : EReal) :=
  dotBatch_apply Cert.ReferenceIdeal.dot_S32x512x1024_S32x512x64_S32x1024x64_1_1_2_2_0_0 rfl rfl
    (fun _ _ => rfl) (fun i q => Cert.ReferenceIdeal.dot_S32x512x1024_S32x512x64_S32x1024x64_1_1_2_2_0_0.lhsIdx_val_of_single rfl i q) (fun _ _ => rfl)
    (fun _ _ => rfl) (fun i q => Cert.ReferenceIdeal.dot_S32x512x1024_S32x512x64_S32x1024x64_1_1_2_2_0_0.rhsIdx_val_of_single rfl i q) (fun _ _ => rfl)
    none lhs rhs p d k

end Cert.FvMath

end
-- ==== Proof.FvMathKer.lean ====
/-
  The per-batch block's stored values are the formulas of the specification.
-/
import proofs.«124837_j25666724561114_2_alg».proof.Proof.FvMathSpec
import proofs.«124837_j25666724561114_2_alg».proof.Proof.FvMathOps
import proofs.«124837_j25666724561114_2_alg».proof.Proof.FvMathDots

noncomputable section

open scoped BigOperators

namespace Cert.FvMath

open Idealize.ShloMosaic Idealize.ShloMosaic.ValueIdx
open Cert.KernelIdeal Cert.KernelIdeal.Gen

/-- The samples slab with its unit axis dropped. -/
theorem pay3_apply (v0 : Vec Ideal S1x512x1024 .f32) (n : Fin 512) (d : Fin 1024) :
    k1_pay3 v0 (ix2 n d) = v0 (ix3 (0 : Fin 1) n d) := by
  unfold k1_pay3
  exact shapeCast_1ab_ab_apply v0 _ n d

/-- The assignments slab with its unit axis dropped. -/
theorem pay4_apply (v2 : Vec Ideal S1x512x64 .f32) (n : Fin 512) (k : Fin 64) :
    k1_pay4 v2 (ix2 n k) = v2 (ix3 (0 : Fin 1) n k) := by
  unfold k1_pay4
  exact shapeCast_1ab_ab_apply v2 _ n k

/-- The total soft assignment of each cluster, as a row. -/
theorem pay9_apply (v2 : Vec Ideal S1x512x64 .f32) (u : Fin 1) (k : Fin 64) :
    k1_pay9 v2 (ix2 u k) = aSum (fun n k => v2 (ix3 (0 : Fin 1) n k)) k := by
  unfold k1_pay9
  refine (shapeCast_a_1a_apply _ _ u k).trans ?_
  refine (colSum_apply _ _ _ _ _ k).trans ?_
  exact Finset.sum_congr rfl fun n _ => pay4_apply v2 n k

/-- The assignment-weighted sum of the samples. -/
theorem pay8_apply (v0 : Vec Ideal S1x512x1024 .f32) (v2 : Vec Ideal S1x512x64 .f32) (d : Fin 1024) (k : Fin 64) :
    k1_pay8 v0 v2 (ix2 d k) = m1 (fun n d => v0 (ix3 (0 : Fin 1) n d)) (fun n k => v2 (ix3 (0 : Fin 1) n k)) d k := by
  unfold k1_pay8 k1_pay7
  refine (kerDot_apply _ _ d k).trans ?_
  refine Finset.sum_congr rfl fun n _ => ?_
  show k1_pay3 v0 (ix2 n d) * k1_pay4 v2 (ix2 n k) = _
  rw [pay3_apply, pay4_apply]

/-- The covariance weights as loaded. -/
theorem pay5_apply (v4 : Vec Ideal S1024x64 .f32) (d : Fin 1024) (k : Fin 64) : k1_pay5 v4 (ix2 d k) = v4 (ix2 d k) := by
  unfold k1_pay5
  exact congrFun (shapeCast_self v4 _) (ix2 d k)

/-- The cluster centres as loaded. -/
theorem pay6_apply (v6 : Vec Ideal S1024x64 .f32) (d : Fin 1024) (k : Fin 64) : k1_pay6 v6 (ix2 d k) = v6 (ix2 d k) := by
  unfold k1_pay6
  exact congrFun (shapeCast_self v6 _) (ix2 d k)

/-- The assignments slab in the narrower format: the same numbers. -/
theorem pay7_apply (v2 : Vec Ideal S1x512x64 .f32) (n : Fin 512) (k : Fin 64) :
    k1_pay7 v2 (ix2 n k) = v2 (ix3 (0 : Fin 1) n k) := by
  unfold k1_pay7
  exact pay4_apply v2 n k

/-- The sum of squares of each column of a block. -/
def kColSq (g : FVec Ideal S1024x64 .f32) : FVec Ideal S64 .f32 :=
  multiReduction .add [0] S64 (mulf g g) 0x00000000#32 Cert.KernelIdeal.Facts₀.reduces_S1024x64_S64 (.inl rfl) rfl

theorem kColSq_apply (g : FVec Ideal S1024x64 .f32) (k : Fin 64) :
    kColSq g (ix1 k) = ∑ d : Fin 1024, g (ix2 d k) * g (ix2 d k) := by
  unfold kColSq
  exact colSum_apply _ _ _ _ _ k

/-- A block divided by the floored root of the total of a row of column totals. -/
def kFlat (g : FVec Ideal S1024x64 .f32) (t : FVec Ideal S64 .f32) : FVec Ideal S1024x64 .f32 :=
  divf g (broadcastTo S1024x64
    (maximumf
      (sqrt (shapeCast S1x1
        (multiReduction .add [1] S1 (shapeCast S1x64 t Cert.KernelIdeal.Facts₀.shapeCasts_S64_S1x64) 0x00000000#32
          Cert.KernelIdeal.Facts₀.reduces_S1x64_S1 (.inl rfl) rfl)
        Cert.KernelIdeal.Facts₀.shapeCasts_S1_S1x1))
      (broadcast S1x1 (Scalar.ofBits .f32 0x2B8CBCCC#32)))
    Cert.KernelIdeal.Facts₀.broadcasts_S1x1_S1024x64)

theorem kFlat_apply (g : FVec Ideal S1024x64 .f32) (t : FVec Ideal S64 .f32) (d : Fin 1024) (k : Fin 64) :
    kFlat g t (ix2 d k) = Ideal.div (g (ix2 d k)) (max (Ideal.sqrt (∑ k' : Fin 64, t (ix1 k'))) tiny) := by
  unfold kFlat
  show Ideal.div (g (ix2 d k)) (broadcastTo S1024x64 _ _ (ix2 d k)) = _
  refine congrArg (Ideal.div (g (ix2 d k))) ?_
  refine (broadcastTo_11_ab_apply _ _ d k).trans ?_
  show max (Ideal.sqrt (shapeCast S1x1 _ _ (ix2 (0 : Fin 1) (0 : Fin 1)))) tiny = _
  refine congrArg (fun s => max (Ideal.sqrt s) tiny) ?_
  refine (shapeCast_1_11_apply _ _ 0 0).trans ?_
  refine (rowSum1_apply _ _ _ _ _ 0).trans ?_
  exact Finset.sum_congr rfl fun k' _ => shapeCast_a_1a_apply t _ 0 k'

/-- The second-order block before normalisation. -/
theorem pay10_apply (v0 : Vec Ideal S1x512x1024 .f32) (v2 : Vec Ideal S1x512x64 .f32) (v4 v6 : Vec Ideal S1024x64 .f32)
    (d : Fin 1024) (k : Fin 64) :
    k1_pay10 v0 v2 v4 v6 (ix2 d k)
      = second (fun n d => v0 (ix3 (0 : Fin 1) n d)) (fun n k => v2 (ix3 (0 : Fin 1) n k)) (fun d k => v4 (ix2 d k))
          (fun d k => v6 (ix2 d k)) d k := by
  simp only [k1_pay10, subf_apply, divf_apply, addf_apply, mulf_apply, broadcast_apply, broadcastTo_1b_ab_apply, pay9_apply,
    kerDot_apply, pay8_apply, pay5_apply, pay6_apply, truncf_apply, pay3_apply, pay7_apply]
  rfl

/-- A block with each column divided by the floored root of its sum of squares. -/
def kCol (g : FVec Ideal S1024x64 .f32) : FVec Ideal S1024x64 .f32 :=
  divf g (broadcastTo S1024x64
    (maximumf (sqrt (shapeCast S1x64 (kColSq g) Cert.KernelIdeal.Facts₀.shapeCasts_S64_S1x64))
      (broadcast S1x64 (Scalar.ofBits .f32 0x2B8CBCCC#32)))
    Cert.KernelIdeal.Facts₀.broadcasts_S1x64_S1024x64)

theorem kCol_apply (g : FVec Ideal S1024x64 .f32) (d : Fin 1024) (k : Fin 64) :
    kCol g (ix2 d k) = colNorm (fun d k => g (ix2 d k)) d k := by
  unfold kCol
  show Ideal.div (g (ix2 d k)) (broadcastTo S1024x64 _ _ (ix2 d k)) = _
  refine congrArg (Ideal.div (g (ix2 d k))) ?_
  refine (broadcastTo_1b_ab_apply _ _ d k).trans ?_
  show max (Ideal.sqrt (shapeCast S1x64 _ _ (ix2 (0 : Fin 1) k))) tiny = _
  refine congrArg (fun s => max (Ideal.sqrt s) tiny) ?_
  refine (shapeCast_a_1a_apply _ _ 0 k).trans ?_
  exact kColSq_apply g k

/-- The first-order block before normalisation, as the block computes it. -/
def kFirst (v0 : Vec Ideal S1x512x1024 .f32) (v2 : Vec Ideal S1x512x64 .f32) (v4 v6 : Vec Ideal S1024x64 .f32) :
    FVec Ideal S1024x64 .f32 :=
  divf (subf (k1_pay8 v0 v2)
    (mulf (broadcastTo S1024x64 (k1_pay9 v2) Cert.KernelIdeal.Facts₀.broadcasts_S1x64_S1024x64) (k1_pay6 v6))) (k1_pay5 v4)

theorem kFirst_apply (v0 : Vec Ideal S1x512x1024 .f32) (v2 : Vec Ideal S1x512x64 .f32) (v4 v6 : Vec Ideal S1024x64 .f32)
    (d : Fin 1024) (k : Fin 64) :
    kFirst v0 v2 v4 v6 (ix2 d k)
      = first (fun n d => v0 (ix3 (0 : Fin 1) n d)) (fun n k => v2 (ix3 (0 : Fin 1) n k)) (fun d k => v4 (ix2 d k))
          (fun d k => v6 (ix2 d k)) d k := by
  simp only [kFirst, subf_apply, divf_apply, mulf_apply, broadcastTo_1b_ab_apply, pay9_apply, pay8_apply, pay5_apply,
    pay6_apply]
  rfl

/-- The stored values are compositions of the pieces above. -/
theorem pay11_eq (v0 : Vec Ideal S1x512x1024 .f32) (v2 : Vec Ideal S1x512x64 .f32) (v4 v6 : Vec Ideal S1024x64 .f32) :
    k1_pay11 v0 v2 v4 v6 = kCol (kFirst v0 v2 v4 v6) := rfl

theorem pay12_eq (v0 : Vec Ideal S1x512x1024 .f32) (v2 : Vec Ideal S1x512x64 .f32) (v4 v6 : Vec Ideal S1024x64 .f32) :
    k1_pay12 v0 v2 v4 v6 = kColSq (k1_pay11 v0 v2 v4 v6) := rfl

theorem pay1_eq (v39 : FVec Ideal S1024x64 .f32) (v41 : FVec Ideal S64 .f32) :
    k1_pay1 v39 v41 = shapeCast S1x1024x64 (kFlat v39 v41) Cert.KernelIdeal.Facts₀.shapeCasts_S1024x64_S1x1024x64 := rfl

theorem pay2_eq (v29 : FVec Ideal S1024x64 .f32) :
    k1_pay2 v29 = shapeCast S1x1024x64 (kFlat (kFlat v29 (kColSq v29)) (kColSq (kFlat v29 (kColSq v29))))
      Cert.KernelIdeal.Facts₀.shapeCasts_S1024x64_S1x1024x64 := rfl

/-- The first-order block of batch element b, entry (d, k). -/
theorem kerFv1_apply (x : Vec Ideal S32x512x1024 .f32) (act : Vec Ideal S32x512x64 .f32) (cw c2 : Vec Ideal S1024x64 .f32)
    (b : Fin 32) (d : Fin 1024) (k : Fin 64) :
    Cert.Stages.kerFv1 (F := Ideal) x act cw c2 (ix3 b d k)
      = out1 (fun n d => x (ix3 b n d)) (fun n k => act (ix3 b n k)) (fun d k => cw (ix2 d k)) (fun d k => c2 (ix2 d k)) d k := by
  show k1_pay1 (k1_pay11 (Cert.Stages.slabX x b) (Cert.Stages.slabAct act b) cw c2)
      (k1_pay12 (Cert.Stages.slabX x b) (Cert.Stages.slabAct act b) cw c2) (ix3 (0 : Fin 1) d k) = _
  rw [pay1_eq, shapeCast_ab_1ab_apply, kFlat_apply, pay12_eq, pay11_eq]
  simp only [kColSq_apply, kCol_apply, kFirst_apply]
  rfl

/-- The second-order block of batch element b, entry (d, k). -/
theorem kerFv2_apply (x : Vec Ideal S32x512x1024 .f32) (act : Vec Ideal S32x512x64 .f32) (cw c2 : Vec Ideal S1024x64 .f32)
    (b : Fin 32) (d : Fin 1024) (k : Fin 64) :
    Cert.Stages.kerFv2 (F := Ideal) x act cw c2 (ix3 b d k)
      = out2 (fun n d => x (ix3 b n d)) (fun n k => act (ix3 b n k)) (fun d k => cw (ix2 d k)) (fun d k => c2 (ix2 d k)) d k := by
  show k1_pay2 (k1_pay10 (Cert.Stages.slabX x b) (Cert.Stages.slabAct act b) cw c2) (ix3 (0 : Fin 1) d k) = _
  rw [pay2_eq, shapeCast_ab_1ab_apply]
  simp only [kFlat_apply, kColSq_apply, pay10_apply]
  rfl

end Cert.FvMath

end
-- ==== Proof.FvMathRef.lean ====
/-
  The batched Fisher-vector computation read at an index: its two results are the formulas of the specification.

  The batched operations are cut into four pieces, each a function of whole arrays: the second-order and first-order
  blocks before normalisation, the normalisation of every column, and the normalisation of every flattened row.  The
  computation is their composition; each piece is read at an index through the broadcasts, sums and products it is
  made of.  The sum over a flattened row is taken column by column.
-/
import proofs.«124837_j25666724561114_2_alg».proof.Proof.FvMathSpec
import proofs.«124837_j25666724561114_2_alg».proof.Proof.FvMathOps
import proofs.«124837_j25666724561114_2_alg».proof.Proof.FvMathDots

noncomputable section

open scoped BigOperators

namespace Cert.FvMath

open Cert.ReferenceIdeal Cert.ReferenceIdeal.Gen Idealize.ShloMosaic Idealize.ShloMosaic.ValueIdx

section Pieces
variable {F : FTy → Type} [FloatOps F]

/-- The second-order block of every batch element before normalisation: the batched operations in program order. -/
def rSecond (x : (⟨S32x512x1024, .f32⟩ : BufTy).Contents (Elt F)) (act : (⟨S32x512x64, .f32⟩ : BufTy).Contents (Elt F)) (cw : (⟨S1024x64, .f32⟩ : BufTy).Contents (Elt F)) (a3 : (⟨S1x1024x64, .f32⟩ : BufTy).Contents (Elt F)) : (⟨S32x1024x64, .f32⟩ : BufTy).Contents (Elt F) :=
  have main_cst_6 : (⟨S_, .f32⟩ : BufTy).Contents (Elt F) := (constant S_ .f32 0x00000000#32)
  have main_v36 : (⟨S32x64, .f32⟩ : BufTy).Contents (Elt F) := (((fun x v => Host.reduceAdd x v reducesTo_S32x512x64_S32x64_d1 h_S_) : (⟨S32x512x64, .f32⟩ : BufTy).Contents (Elt F) → (⟨S_, .f32⟩ : BufTy).Contents (Elt F) → (⟨S32x64, .f32⟩ : BufTy).Contents (Elt F))) act main_cst_6
  have main_v37 : (⟨S32x1x64, .f32⟩ : BufTy).Contents (Elt F) := ((broadcastInDim S32x1x64 ![0, 2] bcast_S32x64_S32x1x64_0_2 : (⟨S32x64, .f32⟩ : BufTy).Contents (Elt F) → (⟨S32x1x64, .f32⟩ : BufTy).Contents (Elt F))) main_v36
  have main_v38 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v39 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) a3
  have main_v40 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v38 main_v39
  have main_v41 : (⟨S32x1024x64, .f32⟩ : BufTy).Contents (Elt F) := (((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F))) x act
  have main_v42 : (⟨S1x1024x64, .f32⟩ : BufTy).Contents (Elt F) := ((mulf : (⟨S1x1024x64, .f32⟩ : BufTy).Contents (Elt F) → (⟨S1x1024x64, .f32⟩ : BufTy).Contents (Elt F) → (⟨S1x1024x64, .f32⟩ : BufTy).Contents (Elt F))) a3 a3
  have main_v43 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v44 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v42
  have main_v45 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v43 main_v44
  have main_v46 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) a3
  have main_v47 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v41 main_v46
  have main_v48 : (⟨S32x512x1024, .f32⟩ : BufTy).Contents (Elt F) := ((mulf : (⟨S32x512x1024, .f32⟩ : BufTy).Contents (Elt F) → (⟨S32x512x1024, .f32⟩ : BufTy).Contents (Elt F) → (⟨S32x512x1024, .f32⟩ : BufTy).Contents (Elt F))) x x
  have main_v49 : (⟨S32x1024x64, .f32⟩ : BufTy).Contents (Elt F) := (((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F))) main_v48 act
  have main_v50 : (⟨S32x1024x64, .f32⟩ : BufTy).Contents (Elt F) := ((addf : (⟨S32x1024x64, .f32⟩ : BufTy).Contents (Elt F) → (⟨S32x1024x64, .f32⟩ : BufTy).Contents (Elt F) → (⟨S32x1024x64, .f32⟩ : BufTy).Contents (Elt F))) main_v45 main_v49
  have main_cst_7 : (⟨S_, .f32⟩ : BufTy).Contents (Elt F) := (constant S_ .f32 0x40000000#32)
  have main_v51 : (⟨S32x1024x64, .f32⟩ : BufTy).Contents (Elt F) := ((broadcastInDim S32x1024x64 ![] bcast_S_S32x1024x64 : (⟨S_, .f32⟩ : BufTy).Contents (Elt F) → (⟨S32x1024x64, .f32⟩ : BufTy).Contents (Elt F))) main_cst_7
  have main_v52 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v51 main_v47
  have main_v53 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v50 main_v52
  have main_v54 : (⟨S1024x64, .f32⟩ : BufTy).Contents (Elt F) := ((mulf : (⟨S1024x64, .f32⟩ : BufTy).Contents (Elt F) → (⟨S1024x64, .f32⟩ : BufTy).Contents (Elt F) → (⟨S1024x64, .f32⟩ : BufTy).Contents (Elt F))) cw cw
  have main_v55 : (⟨S1x1024x64, .f32⟩ : BufTy).Contents (Elt F) := ((broadcastInDim S1x1024x64 ![1, 2] bcast_S1024x64_S1x1024x64_1_2 : (⟨S1024x64, .f32⟩ : BufTy).Contents (Elt F) → (⟨S1x1024x64, .f32⟩ : BufTy).Contents (Elt F))) main_v54
  have main_v56 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v55
  have main_v57 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v53 main_v56
  have main_v58 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v59 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v57 main_v58
  main_v59

/-- The first-order block of every batch element before normalisation: the batched operations in program order. -/
def rFirst (x : (⟨S32x512x1024, .f32⟩ : BufTy).Contents (Elt F)) (act : (⟨S32x512x64, .f32⟩ : BufTy).Contents (Elt F)) (cw : (⟨S1024x64, .f32⟩ : BufTy).Contents (Elt F)) (a3 : (⟨S1x1024x64, .f32⟩ : BufTy).Contents (Elt F)) : (⟨S32x1024x64, .f32⟩ : BufTy).Contents (Elt F) :=
  have main_cst_6 : (⟨S_, .f32⟩ : BufTy).Contents (Elt F) := (constant S_ .f32 0x00000000#32)
  have main_v36 : (⟨S32x64, .f32⟩ : BufTy).Contents (Elt F) := (((fun x v => Host.reduceAdd x v reducesTo_S32x512x64_S32x64_d1 h_S_) : (⟨S32x512x64, .f32⟩ : BufTy).Contents (Elt F) → (⟨S_, .f32⟩ : BufTy).Contents (Elt F) → (⟨S32x64, .f32⟩ : BufTy).Contents (Elt F))) act main_cst_6
  have main_v37 : (⟨S32x1x64, .f32⟩ : BufTy).Contents (Elt F) := ((broadcastInDim S32x1x64 ![0, 2] bcast_S32x64_S32x1x64_0_2 : (⟨S32x64, .f32⟩ : BufTy).Contents (Elt F) → (⟨S32x1x64, .f32⟩ : BufTy).Contents (Elt F))) main_v36
  have main_v38 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v37
  have main_v39 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) a3
  have main_v40 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v38 main_v39
  have main_v41 : (⟨S32x1024x64, .f32⟩ : BufTy).Contents (Elt F) := (((fun l r => Host.dotGeneral dot_S32x512x1024_S32x512x64_S32x1024x64_1_1_2_2_0_0 none l r) : (⟨S32x512x1024, .f32⟩ : BufTy).Contents (Elt F) → (⟨S32x512x64, .f32⟩ : BufTy).Contents (Elt F) → (⟨S32x1024x64, .f32⟩ : BufTy).Contents (Elt F))) x act
  have main_v77 : (⟨S32x1024x64, .f32⟩ : BufTy).Contents (Elt F) := ((subf : (⟨S32x1024x64, .f32⟩ : BufTy).Contents (Elt F) → (⟨S32x1024x64, .f32⟩ : BufTy).Contents (Elt F) → (⟨S32x1024x64, .f32⟩ : BufTy).Contents (Elt F))) main_v41 main_v40
  have main_v78 : (⟨S1x1024x64, .f32⟩ : BufTy).Contents (Elt F) := ((broadcastInDim S1x1024x64 ![1, 2] bcast_S1024x64_S1x1024x64_1_2 : (⟨S1024x64, .f32⟩ : BufTy).Contents (Elt F) → (⟨S1x1024x64, .f32⟩ : BufTy).Contents (Elt F))) cw
  have main_v79 : (⟨S32x1024x64, .f32⟩ : BufTy).Contents (Elt F) := ((broadcastInDim S32x1024x64 ![0, 1, 2] bcast_S1x1024x64_S32x1024x64_0_1_2 : (⟨S1x1024x64, .f32⟩ : BufTy).Contents (Elt F) → (⟨S32x1024x64, .f32⟩ : BufTy).Contents (Elt F))) main_v78
  have main_v80 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v77 main_v79
  main_v80

/-- Every column of every batch element divided by the floored root of its sum of squares. -/
def rCol (main_v80 : (⟨S32x1024x64, .f32⟩ : BufTy).Contents (Elt F)) : (⟨S32x1024x64, .f32⟩ : BufTy).Contents (Elt F) :=
  have main_v81 : (⟨S32x1024x64, .f32⟩ : BufTy).Contents (Elt F) := ((mulf : (⟨S32x1024x64, .f32⟩ : BufTy).Contents (Elt F) → (⟨S32x1024x64, .f32⟩ : BufTy).Contents (Elt F) → (⟨S32x1024x64, .f32⟩ : BufTy).Contents (Elt F))) main_v80 main_v80
  have main_cst_12 : (⟨S_, .f32⟩ : BufTy).Contents (Elt F) := (constant S_ .f32 0x00000000#32)
  have main_v82 : (⟨S32x64, .f32⟩ : BufTy).Contents (Elt F) := (((fun x v => Host.reduceAdd x v reducesTo_S32x1024x64_S32x64_d1 h_S_) : (⟨S32x1024x64, .f32⟩ : BufTy).Contents (Elt F) → (⟨S_, .f32⟩ : BufTy).Contents (Elt F) → (⟨S32x64, .f32⟩ : BufTy).Contents (Elt F))) main_v81 main_cst_12
  have main_v83 : (⟨S32x1x64, .f32⟩ : BufTy).Contents (Elt F) := ((broadcastInDim S32x1x64 ![0, 2] bcast_S32x64_S32x1x64_0_2 : (⟨S32x64, .f32⟩ : BufTy).Contents (Elt F) → (⟨S32x1x64, .f32⟩ : BufTy).Contents (Elt F))) main_v82
  have main_v84 : (⟨S32x1x64, .f32⟩ : BufTy).Contents (Elt F) := ((Host.sqrt : (⟨S32x1x64, .f32⟩ : BufTy).Contents (Elt F) → (⟨S32x1x64, .f32⟩ : BufTy).Contents (Elt F))) main_v83
  have main_cst_13 : (⟨S_, .f32⟩ : BufTy).Contents (Elt F) := (constant S_ .f32 0x2B8CBCCC#32)
  have main_v85 : (⟨S32x1x64, .f32⟩ : BufTy).Contents (Elt F) := ((broadcastInDim S32x1x64 ![] bcast_S_S32x1x64 : (⟨S_, .f32⟩ : BufTy).Contents (Elt F) → (⟨S32x1x64, .f32⟩ : BufTy).Contents (Elt F))) main_cst_13
  have main_v86 : (⟨S32x1x64, .f32⟩ : BufTy).Contents (Elt F) := ((maximumf : (⟨S32x1x64, .f32⟩ : BufTy).Contents (Elt F) → (⟨S32x1x64, .f32⟩ : BufTy).Contents (Elt F) → (⟨S32x1x64, .f32⟩ : BufTy).Contents (Elt F))) main_v84 main_v85
  have main_v87 : (⟨S32x1024x64, .f32⟩ : BufTy).Contents (Elt F) := ((broadcastInDim S32x1024x64 ![0, 1, 2] bcast_S32x1x64_S32x1024x64_0_1_2 : (⟨S32x1x64, .f32⟩ : BufTy).Contents (Elt F) → (⟨S32x1024x64, .f32⟩ : BufTy).Contents (Elt F))) main_v86
  have main_v88 : (⟨S32x1024x64, .f32⟩ : BufTy).Contents (Elt F) := ((Host.divf : (⟨S32x1024x64, .f32⟩ : BufTy).Contents (Elt F) → (⟨S32x1024x64, .f32⟩ : BufTy).Contents (Elt F) → (⟨S32x1024x64, .f32⟩ : BufTy).Contents (Elt F))) main_v80 main_v87
  main_v88

/-- Every flattened row divided by the floored root of its sum of squares. -/
def rFlat (main_v60 : (⟨S32x65536, .f32⟩ : BufTy).Contents (Elt F)) : (⟨S32x65536, .f32⟩ : BufTy).Contents (Elt F) :=
  have main_v61 : (⟨S32x65536, .f32⟩ : BufTy).Contents (Elt F) := ((mulf : (⟨S32x65536, .f32⟩ : BufTy).Contents (Elt F) → (⟨S32x65536, .f32⟩ : BufTy).Contents (Elt F) → (⟨S32x65536, .f32⟩ : BufTy).Contents (Elt F))) main_v60 main_v60
  have main_cst_8 : (⟨S_, .f32⟩ : BufTy).Contents (Elt F) := (constant S_ .f32 0x00000000#32)
  have main_v62 : (⟨S32, .f32⟩ : BufTy).Contents (Elt F) := (((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F))) main_v61 main_cst_8
  have main_v63 : (⟨S32x1, .f32⟩ : BufTy).Contents (Elt F) := ((broadcastInDim S32x1 ![0] bcast_S32_S32x1_0 : (⟨S32, .f32⟩ : BufTy).Contents (Elt F) → (⟨S32x1, .f32⟩ : BufTy).Contents (Elt F))) main_v62
  have main_v64 : (⟨S32x1, .f32⟩ : BufTy).Contents (Elt F) := ((Host.sqrt : (⟨S32x1, .f32⟩ : BufTy).Contents (Elt F) → (⟨S32x1, .f32⟩ : BufTy).Contents (Elt F))) main_v63
  have main_cst_9 : (⟨S_, .f32⟩ : BufTy).Contents (Elt F) := (constant S_ .f32 0x2B8CBCCC#32)
  have main_v65 : (⟨S32x1, .f32⟩ : BufTy).Contents (Elt F) := ((broadcastInDim S32x1 ![] bcast_S_S32x1 : (⟨S_, .f32⟩ : BufTy).Contents (Elt F) → (⟨S32x1, .f32⟩ : BufTy).Contents (Elt F))) main_cst_9
  have main_v66 : (⟨S32x1, .f32⟩ : BufTy).Contents (Elt F) := ((maximumf : (⟨S32x1, .f32⟩ : BufTy).Contents (Elt F) → (⟨S32x1, .f32⟩ : BufTy).Contents (Elt F) → (⟨S32x1, .f32⟩ : BufTy).Contents (Elt F))) main_v64 main_v65
  have main_v67 : (⟨S32x65536, .f32⟩ : BufTy).Contents (Elt F) := ((broadcastInDim S32x65536 ![0, 1] bcast_S32x1_S32x65536_0_1 : (⟨S32x1, .f32⟩ : BufTy).Contents (Elt F) → (⟨S32x65536, .f32⟩ : BufTy).Contents (Elt F))) main_v66
  have main_v68 : (⟨S32x65536, .f32⟩ : BufTy).Contents (Elt F) := ((Host.divf : (⟨S32x65536, .f32⟩ : BufTy).Contents (Elt F) → (⟨S32x65536, .f32⟩ : BufTy).Contents (Elt F) → (⟨S32x65536, .f32⟩ : BufTy).Contents (Elt F))) main_v60 main_v67
  main_v68

/-- The batched computation is the composition of the four pieces. -/
theorem refFv_eq (x : (⟨S32x512x1024, .f32⟩ : BufTy).Contents (Elt F)) (act : (⟨S32x512x64, .f32⟩ : BufTy).Contents (Elt F)) (cw : (⟨S1024x64, .f32⟩ : BufTy).Contents (Elt F)) (a3 : (⟨S1x1024x64, .f32⟩ : BufTy).Contents (Elt F)) :
    Cert.Stages.refFv x act cw a3
      = (rFlat (shapeCast S32x65536 (rCol (rFirst x act cw a3)) shapeCasts_S32x1024x64_S32x65536),
         rFlat (rFlat (shapeCast S32x65536 (rSecond x act cw a3) shapeCasts_S32x1024x64_S32x65536))) := rfl

end Pieces

variable {α : Type}

/-- The host's square root, entry by entry. -/
theorem hostSqrt_apply {s : Shape} {φ : FTy} (v : FVec Ideal s φ) (i : s.Idx) : Host.sqrt v i = Ideal.sqrt (v i) := rfl

/-- The flattening of a 32 × 1024 × 64 array read at position 64 d + k of row p: the entry (p, d, k). -/
theorem shapeCast_flat_apply (x : (⟨3, ![32, 1024, 64]⟩ : Shape).Idx → α)
    (h : (⟨3, ![32, 1024, 64]⟩ : Shape).ShapeCasts ⟨2, ![32, 65536]⟩) (p : Fin 32) (d : Fin 1024) (k : Fin 64)
    (hlt : d.val * 64 + k.val < 65536) :
    shapeCast ⟨2, ![32, 65536]⟩ x h (ix2 p ⟨d.val * 64 + k.val, hlt⟩) = x (ix3 p d k) :=
  shapeCast_flatten_apply (by norm_num) x h p d k _ rfl

/-- The normalisation of a flattened row, with the row's squares summed column by column. -/
theorem rFlat_apply (g : Vec Ideal S32x65536 .f32) (b : Fin 32) (j : Fin 65536) :
    rFlat (F := Ideal) g (ix2 b j)
      = Ideal.div (g (ix2 b j)) (max (Ideal.sqrt (∑ k' : Fin 64, ∑ d' : Fin 1024,
          g (ix2 b ⟨d'.val * 64 + k'.val, by have := d'.isLt; have := k'.isLt; omega⟩)
            * g (ix2 b ⟨d'.val * 64 + k'.val, by have := d'.isLt; have := k'.isLt; omega⟩))) tiny) := by
  simp only [rFlat, hostDivf_apply]
  rw [bcast_B1_BM_apply]
  simp only [maximumf_apply, hostSqrt_apply]
  rw [bcast_B_B1_apply, hostRowSum_apply, broadcastInDim_scalar_apply, sum_flat]
  simp only [constant_apply, mulf_apply, Ideal.ofBits_zero_f32, zero_add]
  rfl

/-- The normalisation of every column. -/
theorem rCol_apply (g : Vec Ideal S32x1024x64 .f32) (b : Fin 32) (d : Fin 1024) (k : Fin 64) :
    rCol (F := Ideal) g (ix3 b d k) = colNorm (fun d k => g (ix3 b d k)) d k := by
  simp only [rCol, hostDivf_apply]
  rw [bcast_B1K_BNK_apply]
  simp only [maximumf_apply, hostSqrt_apply]
  rw [bcast_BK_B1K_apply, hostMidSum_apply, broadcastInDim_scalar_apply]
  simp only [constant_apply, mulf_apply, Ideal.ofBits_zero_f32, zero_add]
  rfl

/-- The first-order block of batch element b before normalisation. -/
theorem rFirst_apply (x : Vec Ideal S32x512x1024 .f32) (act : Vec Ideal S32x512x64 .f32) (cw : Vec Ideal S1024x64 .f32)
    (a3 : Vec Ideal S1x1024x64 .f32) (b : Fin 32) (d : Fin 1024) (k : Fin 64) :
    rFirst (F := Ideal) x act cw a3 (ix3 b d k)
      = first (fun n d => x (ix3 b n d)) (fun n k => act (ix3 b n k)) (fun d k => cw (ix2 d k))
          (fun d k => a3 (ix3 (0 : Fin 1) d k)) d k := by
  simp only [rFirst, hostDivf_apply, subf_apply, mulf_apply, refDot_apply]
  rw [bcast_B1K_BNK_apply, bcast_BK_B1K_apply, hostMidSum_apply, bcast_1DK_BDK_apply, bcast_1DK_BDK_apply, bcast_DK_1DK_apply]
  simp only [constant_apply, Ideal.ofBits_zero_f32, zero_add]
  rfl

/-- The second-order block of batch element b before normalisation. -/
theorem rSecond_apply (x : Vec Ideal S32x512x1024 .f32) (act : Vec Ideal S32x512x64 .f32) (cw : Vec Ideal S1024x64 .f32)
    (a3 : Vec Ideal S1x1024x64 .f32) (b : Fin 32) (d : Fin 1024) (k : Fin 64) :
    rSecond (F := Ideal) x act cw a3 (ix3 b d k)
      = second (fun n d => x (ix3 b n d)) (fun n k => act (ix3 b n k)) (fun d k => cw (ix2 d k))
          (fun d k => a3 (ix3 (0 : Fin 1) d k)) d k := by
  simp only [rSecond, hostDivf_apply, subf_apply, addf_apply, mulf_apply, refDot_apply]
  rw [bcast_B1K_BNK_apply, bcast_BK_B1K_apply, hostMidSum_apply, bcast_1DK_BDK_apply, bcast_1DK_BDK_apply, bcast_1DK_BDK_apply,
    bcast_DK_1DK_apply, broadcastInDim_scalar_apply]
  simp only [mulf_apply, constant_apply, Ideal.ofBits_zero_f32, zero_add]
  rfl

/-- The first result at position 64 d + k of row b. -/
theorem refFv1_apply (x : Vec Ideal S32x512x1024 .f32) (act : Vec Ideal S32x512x64 .f32) (cw : Vec Ideal S1024x64 .f32)
    (a3 : Vec Ideal S1x1024x64 .f32) (b : Fin 32) (d : Fin 1024) (k : Fin 64) (hlt : d.val * 64 + k.val < 65536) :
    (Cert.Stages.refFv (F := Ideal) x act cw a3).1 (ix2 b ⟨d.val * 64 + k.val, hlt⟩)
      = out1 (fun n d => x (ix3 b n d)) (fun n k => act (ix3 b n k)) (fun d k => cw (ix2 d k))
          (fun d k => a3 (ix3 (0 : Fin 1) d k)) d k := by
  rw [refFv_eq]
  show rFlat (F := Ideal) _ (ix2 b ⟨d.val * 64 + k.val, hlt⟩) = _
  simp only [rFlat_apply, shapeCast_flat_apply, rCol_apply, rFirst_apply]
  rfl

/-- The second result at position 64 d + k of row b. -/
theorem refFv2_apply (x : Vec Ideal S32x512x1024 .f32) (act : Vec Ideal S32x512x64 .f32) (cw : Vec Ideal S1024x64 .f32)
    (a3 : Vec Ideal S1x1024x64 .f32) (b : Fin 32) (d : Fin 1024) (k : Fin 64) (hlt : d.val * 64 + k.val < 65536) :
    (Cert.Stages.refFv (F := Ideal) x act cw a3).2 (ix2 b ⟨d.val * 64 + k.val, hlt⟩)
      = out2 (fun n d => x (ix3 b n d)) (fun n k => act (ix3 b n k)) (fun d k => cw (ix2 d k))
          (fun d k => a3 (ix3 (0 : Fin 1) d k)) d k := by
  rw [refFv_eq]
  show rFlat (F := Ideal) _ (ix2 b ⟨d.val * 64 + k.val, hlt⟩) = _
  simp only [rFlat_apply, shapeCast_flat_apply, rSecond_apply]
  rfl

end Cert.FvMath

end
-- ==== Proof.FvMath.lean ====
/-
  The per-batch Fisher-vector blocks, flattened, are the batched computation's two results.

  Entry 64 d + k of row b of either result depends only on the slabs of batch element b.  Both computations evaluate
  the same formula there (FvMathSpec): the kernel block by block on one batch element's slabs, the batched computation
  on whole arrays.  The only difference of substance is the order of the sum of squares under the whole-block norm:
  column by column on one side, along the flattened row on the other; addition on the extended reals is commutative
  and associative, so the two sums agree, with no finiteness assumption.
-/
import proofs.«124837_j25666724561114_2_alg».proof.Proof.FvMathKer
import proofs.«124837_j25666724561114_2_alg».proof.Proof.FvMathRef

noncomputable section

open scoped BigOperators

namespace Cert.Stages

open Idealize.ShloMosaic Idealize.ShloMosaic.ValueIdx
open Cert.ReferenceIdeal Cert.ReferenceIdeal.Gen
open Cert.FvMath

/-- Every position of a flattened row is 64 d + k for a feature d and a cluster k. -/
theorem flat_split (j : Fin 65536) :
    ∃ (d : Fin 1024) (k : Fin 64) (hlt : d.val * 64 + k.val < 65536), j = ⟨d.val * 64 + k.val, hlt⟩ :=
  ⟨⟨j.val / 64, by have := j.isLt; omega⟩, ⟨j.val % 64, Nat.mod_lt _ (by norm_num)⟩,
    (by have := j.isLt; show j.val / 64 * 64 + j.val % 64 < 65536; omega),
    Fin.ext (by show j.val = j.val / 64 * 64 + j.val % 64; omega)⟩

/-- The first-order blocks, flattened, are the batched computation's first result. -/
theorem fv1_eq (x : Vec Ideal S32x512x1024 .f32) (act : Vec Ideal S32x512x64 .f32) (cw : Vec Ideal S1024x64 .f32)
    (a3 : Vec Ideal S1x1024x64 .f32) :
    shapeCast S32x65536 (kerFv1 (F := Ideal) x act cw (shapeCast S1024x64 a3 Cert.KernelIdeal.Facts₀.shapeCasts_S1x1024x64_S1024x64))
        Cert.ReferenceIdeal.Facts₀.shapeCasts_S32x1024x64_S32x65536
      = (refFv (F := Ideal) x act cw a3).1 := by
  funext i
  obtain ⟨b, j, rfl⟩ : ∃ (b : Fin 32) (j : Fin 65536), i = ix2 b j := ⟨i 0, i 1, eq_ix2 i⟩
  obtain ⟨d, k, hlt, rfl⟩ := flat_split j
  rw [refFv1_apply]
  refine (shapeCast_flat_apply _ _ b d k hlt).trans ?_
  rw [kerFv1_apply]
  refine congrArg (fun C => out1 _ _ _ C d k) ?_
  funext d' k'
  exact shapeCast_1ab_ab_apply a3 _ d' k'

/-- The second-order blocks, flattened, are the batched computation's second result. -/
theorem fv2_eq (x : Vec Ideal S32x512x1024 .f32) (act : Vec Ideal S32x512x64 .f32) (cw : Vec Ideal S1024x64 .f32)
    (a3 : Vec Ideal S1x1024x64 .f32) :
    shapeCast S32x65536 (kerFv2 (F := Ideal) x act cw (shapeCast S1024x64 a3 Cert.KernelIdeal.Facts₀.shapeCasts_S1x1024x64_S1024x64))
        Cert.ReferenceIdeal.Facts₀.shapeCasts_S32x1024x64_S32x65536
      = (refFv (F := Ideal) x act cw a3).2 := by
  funext i
  obtain ⟨b, j, rfl⟩ : ∃ (b : Fin 32) (j : Fin 65536), i = ix2 b j := ⟨i 0, i 1, eq_ix2 i⟩
  obtain ⟨d, k, hlt, rfl⟩ := flat_split j
  rw [refFv2_apply]
  refine (shapeCast_flat_apply _ _ b d k hlt).trans ?_
  rw [kerFv2_apply]
  refine congrArg (fun C => out2 _ _ _ C d k) ?_
  funext d' k'
  exact shapeCast_1ab_ab_apply a3 _ d' k'

end Cert.Stages

end
-- ==== Proof.Algebraic.lean ====
/-
  The value claim: on the extended reals the kernel program and the reference end with the same result.

  The kernel program's result is followed stage by stage from the launch contents: the first kernel leaves the
  flattened input times the cluster matrix; the host normalises it over the batch and takes the softmax; the second
  kernel leaves, per batch element, the two Fisher-vector blocks, which after flattening are the reference's two blocks;
  the host sets them side by side; the third kernel leaves their product with the hidden weights; the gating tail is
  the reference's.  The reference's result is the same stages in a row.
-/
import proofs.«124837_j25666724561114_2_alg».proof.Defs
import proofs.«124837_j25666724561114_2_alg».proof.Proof.Gen.Pre_finite_inputs
import proofs.«124837_j25666724561114_2_alg».proof.Proof.KI_Value
import proofs.«124837_j25666724561114_2_alg».proof.Proof.KI_ValA
import proofs.«124837_j25666724561114_2_alg».proof.Proof.KI_ValB
import proofs.«124837_j25666724561114_2_alg».proof.Proof.KI_ValC
import proofs.«124837_j25666724561114_2_alg».proof.Proof.KI_Host
import proofs.«124837_j25666724561114_2_alg».proof.Proof.RefValue
import proofs.«124837_j25666724561114_2_alg».proof.Proof.FvMath

set_option maxRecDepth 16384

noncomputable section

namespace Cert.KernelIdeal.Run

open Cert.KernelIdeal Cert.KernelIdeal.Gen Cert.KernelIdeal.Host Cert.Stages
open Idealize.ShloMosaic Idealize.ShloMosaic.TcCoe Idealize.ShloMosaic.StableHlo
open Idealize.SL Idealize.SL.Sem

variable (m : (ℓ : Loc nD τ sig) → Buf (Elt Ideal) ℓ) (c : Dev nD)

/-! ## The arguments are never written -/

theorem VA_arg (r : Ref sig .tc) (h0 : r ∉ hostOps0_W) : VA m c (Proc.devRef .tc r) = (m ((c : Thread nD τ).loc r)) := Gen.V1_of m c r h0
theorem VA'_arg (r : Ref sig .tc) (h0 : r ∉ hostOps0_W) (h1 : r ≠ main_v1) : VA' m c (Proc.devRef .tc r) = (m ((c : Thread nD τ).loc r)) :=
  (upd_ne (VA m c) r main_v1 h1 (xA m c)).trans (VA_arg m c r h0)
theorem VB_arg (r : Ref sig .tc) (h0 : r ∉ hostOps0_W) (h1 : r ≠ main_v1) (h2 : r ∉ hostOps1_W) (h3 : r ∉ hostOps1_1_W) (h4 : r ∉ hostOps1_2_W) :
    VB m c (Proc.devRef .tc r) = (m ((c : Thread nD τ).loc r)) :=
  (soft_kept (VA' m c) r h2 h3 h4).trans (VA'_arg m c r h0 h1)
theorem VB'_arg (r : Ref sig .tc) (h0 : r ∉ hostOps0_W) (h1 : r ≠ main_v1) (h2 : r ∉ hostOps1_W) (h3 : r ∉ hostOps1_1_W) (h4 : r ∉ hostOps1_2_W)
    (h5 : r ≠ main_v37_0) (h6 : r ≠ main_v37_1) : VB' m c (Proc.devRef .tc r) = (m ((c : Thread nD τ).loc r)) :=
  (upd_ne (Function.update (VB m c) (Proc.devRef .tc main_v37_0) (xB0 m c)) r main_v37_1 h6 (xB1 m c)).trans
    ((upd_ne (VB m c) r main_v37_0 h5 (xB0 m c)).trans (VB_arg m c r h0 h1 h2 h3 h4))
theorem VC_arg (r : Ref sig .tc) (h0 : r ∉ hostOps0_W) (h1 : r ≠ main_v1) (h2 : r ∉ hostOps1_W) (h3 : r ∉ hostOps1_1_W) (h4 : r ∉ hostOps1_2_W)
    (h5 : r ≠ main_v37_0) (h6 : r ≠ main_v37_1) (h7 : r ∉ hostOps2_W) : VC m c (Proc.devRef .tc r) = (m ((c : Thread nD τ).loc r)) :=
  (cat_kept (VB' m c) r h7).trans (VB'_arg m c r h0 h1 h2 h3 h4 h5 h6)
theorem VC'_arg (r : Ref sig .tc) (h0 : r ∉ hostOps0_W) (h1 : r ≠ main_v1) (h2 : r ∉ hostOps1_W) (h3 : r ∉ hostOps1_1_W) (h4 : r ∉ hostOps1_2_W)
    (h5 : r ≠ main_v37_0) (h6 : r ≠ main_v37_1) (h7 : r ∉ hostOps2_W) (h8 : r ≠ main_v41) : VC' m c (Proc.devRef .tc r) = (m ((c : Thread nD τ).loc r)) :=
  (upd_ne (VC m c) r main_v41 h8 (xC m c)).trans (VC_arg m c r h0 h1 h2 h3 h4 h5 h6 h7)

/-! ## The stages -/

/-- The first kernel's output: the flattened input times the cluster matrix. -/
theorem xA_val : xA m c = preact (m ((c : Thread nD τ).loc main_arg0)) (m ((c : Thread nD τ).loc main_arg1)) := by
  unfold xA
  rw [valueA]
  show wholeProd (VA m c (Proc.devRef .tc main_v0)) (VA m c (Proc.devRef .tc main_arg1)) = _
  rw [show VA m c (Proc.devRef .tc main_v0) = _ from first_v0 (Gen.V0 m c), VA_arg m c main_arg1 (by decide)]
  rfl

/-- The soft assignments the second kernel reads. -/
theorem act_val : VB m c (Proc.devRef .tc main_v32) = soft (preact (m ((c : Thread nD τ).loc main_arg0)) (m ((c : Thread nD τ).loc main_arg1))) (m ((c : Thread nD τ).loc main_arg5)) (m ((c : Thread nD τ).loc main_arg6)) := by
  show after hostOps1_2 (after hostOps1_1 (after hostOps1 (VA' m c))) (Proc.devRef .tc main_v32) = _
  rw [soft_v32, show VA' m c (Proc.devRef .tc main_v1) = xA m c from upd_eq (VA m c) main_v1 (xA m c), xA_val,
    VA'_arg m c main_arg5 (by decide) (by decide), VA'_arg m c main_arg6 (by decide) (by decide)]
/-- The covariance weights the second kernel reads. -/
theorem cw_val : VB m c (Proc.devRef .tc main_v35) = cwOf (m ((c : Thread nD τ).loc main_arg2)) := by
  show after hostOps1_2 (after hostOps1_1 (after hostOps1 (VA' m c))) (Proc.devRef .tc main_v35) = _
  rw [soft_v35, VA'_arg m c main_arg2 (by decide) (by decide)]
/-- The second cluster matrix the second kernel reads. -/
theorem c2_val : VB m c (Proc.devRef .tc main_v36) = shapeCast S1024x64 (m ((c : Thread nD τ).loc main_arg3)) shapeCasts_S1x1024x64_S1024x64 := by
  show after hostOps1_2 (after hostOps1_1 (after hostOps1 (VA' m c))) (Proc.devRef .tc main_v36) = _
  rw [soft_v36, VA'_arg m c main_arg3 (by decide) (by decide)]

/-- The second kernel's two outputs. -/
theorem xB0_val : xB0 m c = kerFv1 (m ((c : Thread nD τ).loc main_arg0)) (soft (preact (m ((c : Thread nD τ).loc main_arg0)) (m ((c : Thread nD τ).loc main_arg1))) (m ((c : Thread nD τ).loc main_arg5)) (m ((c : Thread nD τ).loc main_arg6))) (cwOf (m ((c : Thread nD τ).loc main_arg2)))
    (shapeCast S1024x64 (m ((c : Thread nD τ).loc main_arg3)) shapeCasts_S1x1024x64_S1024x64) := by
  unfold xB0
  rw [valueB4]
  show kerFv1 (VB m c (Proc.devRef .tc main_arg0)) (VB m c (Proc.devRef .tc main_v32)) (VB m c (Proc.devRef .tc main_v35)) (VB m c (Proc.devRef .tc main_v36)) = _
  rw [VB_arg m c main_arg0 (by decide) (by decide) (by decide) (by decide) (by decide), act_val, cw_val, c2_val]
theorem xB1_val : xB1 m c = kerFv2 (m ((c : Thread nD τ).loc main_arg0)) (soft (preact (m ((c : Thread nD τ).loc main_arg0)) (m ((c : Thread nD τ).loc main_arg1))) (m ((c : Thread nD τ).loc main_arg5)) (m ((c : Thread nD τ).loc main_arg6))) (cwOf (m ((c : Thread nD τ).loc main_arg2)))
    (shapeCast S1024x64 (m ((c : Thread nD τ).loc main_arg3)) shapeCasts_S1x1024x64_S1024x64) := by
  unfold xB1
  rw [valueB5]
  show kerFv2 (VB m c (Proc.devRef .tc main_arg0)) (VB m c (Proc.devRef .tc main_v32)) (VB m c (Proc.devRef .tc main_v35)) (VB m c (Proc.devRef .tc main_v36)) = _
  rw [VB_arg m c main_arg0 (by decide) (by decide) (by decide) (by decide) (by decide), act_val, cw_val, c2_val]

/-- The left operand of the third kernel: the two flattened blocks side by side. -/
theorem fv_val : VC m c (Proc.devRef .tc main_v40) = cat (shapeCast S32x65536 (xB0 m c) shapeCasts_S32x1024x64_S32x65536) (shapeCast S32x65536 (xB1 m c) shapeCasts_S32x1024x64_S32x65536) := by
  show after hostOps2 (VB' m c) (Proc.devRef .tc main_v40) = _
  rw [cat_v40,
    show VB' m c (Proc.devRef .tc main_v37_0) = xB0 m c from (upd_ne (Function.update (VB m c) (Proc.devRef .tc main_v37_0) (xB0 m c)) main_v37_0 main_v37_1 (by decide) (xB1 m c)).trans (upd_eq (VB m c) main_v37_0 (xB0 m c)),
    show VB' m c (Proc.devRef .tc main_v37_1) = xB1 m c from upd_eq (Function.update (VB m c) (Proc.devRef .tc main_v37_0) (xB0 m c)) main_v37_1 (xB1 m c)]

/-- The third kernel's output: the product with the hidden weights. -/
theorem xC_val : xC m c = hiddenProd (VC m c (Proc.devRef .tc main_v40)) (m ((c : Thread nD τ).loc main_arg4)) := by
  unfold xC
  rw [valueC]
  show hiddenProd (VC m c (Proc.devRef .tc main_v40)) (VC m c (Proc.devRef .tc main_arg4)) = _
  rw [VC_arg m c main_arg4 (by decide) (by decide) (by decide) (by decide) (by decide) (by decide) (by decide) (by decide)]

/-- The program's result, from the launch contents: the reference's stages in a row. -/
theorem kernel_value : VEnd m c (Proc.devRef .tc main_v68)
    = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show after hostOps3_2 (after hostOps3_1 (after hostOps3 (VC' m c))) (Proc.devRef .tc main_v68) = _
  rw [tail_v68, show VC' m c (Proc.devRef .tc main_v41) = xC m c from upd_eq (VC m c) main_v41 (xC m c), xC_val, fv_val, xB0_val, xB1_val,
    VC'_arg m c main_arg7 (by decide) (by decide) (by decide) (by decide) (by decide) (by decide) (by decide) (by decide) (by decide),
    VC'_arg m c main_arg8 (by decide) (by decide) (by decide) (by decide) (by decide) (by decide) (by decide) (by decide) (by decide),
    VC'_arg m c main_arg9 (by decide) (by decide) (by decide) (by decide) (by decide) (by decide) (by decide) (by decide) (by decide)]
  unfold refOut
  refine congrArg (fun z => tail z (m ((c : Thread nD τ).loc main_arg7)) (m ((c : Thread nD τ).loc main_arg8)) (m ((c : Thread nD τ).loc main_arg9))) ?_
  show hid (cat _ _) _ = hid (cat _ _) _
  exact congrArg (fun z => hid z (m ((c : Thread nD τ).loc main_arg4))) (congrArg₂ cat (Cert.Stages.fv1_eq _ _ _ _) (Cert.Stages.fv2_eq _ _ _ _))

end Cert.KernelIdeal.Run

/-! ## The claim -/

namespace Cert.Proof

open Idealize.ShloMosaic Idealize.ShloMosaic.TcCoe Idealize.SL.Sem

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Stages.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono (fun r h c => ⟨(h c).1.trans (Cert.KernelIdeal.Run.kernel_value m c), (h c).2⟩)
      (Cert.KernelIdeal.Run.run_value (F := Ideal) m ρ)
  · refine (θ_run (Cert.ReferenceIdeal.defs (F := Ideal)) _ _).mono (fun r h c => ⟨?_, (h c Cert.ReferenceIdeal.main_arg0).trans (Cert.ReferenceIdeal.Line.kept _ Cert.ReferenceIdeal.main_arg0 (by decide) (by decide) (by decide)),
      (h c Cert.ReferenceIdeal.main_arg1).trans (Cert.ReferenceIdeal.Line.kept _ Cert.ReferenceIdeal.main_arg1 (by decide) (by decide) (by decide)),
      (h c Cert.ReferenceIdeal.main_arg2).trans (Cert.ReferenceIdeal.Line.kept _ Cert.ReferenceIdeal.main_arg2 (by decide) (by decide) (by decide)),
      (h c Cert.ReferenceIdeal.main_arg3).trans (Cert.ReferenceIdeal.Line.kept _ Cert.ReferenceIdeal.main_arg3 (by decide) (by decide) (by decide)),
      (h c Cert.ReferenceIdeal.main_arg4).trans (Cert.ReferenceIdeal.Line.kept _ Cert.ReferenceIdeal.main_arg4 (by decide) (by decide) (by decide)),
      (h c Cert.ReferenceIdeal.main_arg5).trans (Cert.ReferenceIdeal.Line.kept _ Cert.ReferenceIdeal.main_arg5 (by decide) (by decide) (by decide)),
      (h c Cert.ReferenceIdeal.main_arg6).trans (Cert.ReferenceIdeal.Line.kept _ Cert.ReferenceIdeal.main_arg6 (by decide) (by decide) (by decide)),
      (h c Cert.ReferenceIdeal.main_arg7).trans (Cert.ReferenceIdeal.Line.kept _ Cert.ReferenceIdeal.main_arg7 (by decide) (by decide) (by decide)),
      (h c Cert.ReferenceIdeal.main_arg8).trans (Cert.ReferenceIdeal.Line.kept _ Cert.ReferenceIdeal.main_arg8 (by decide) (by decide) (by decide)),
      (h c Cert.ReferenceIdeal.main_arg9).trans (Cert.ReferenceIdeal.Line.kept _ Cert.ReferenceIdeal.main_arg9 (by decide) (by decide) (by decide))⟩)
      (Cert.ReferenceIdeal.Line.run_line (F := Ideal) m' ρ')
    refine (h c Cert.ReferenceIdeal.main_v126).trans ((Cert.ReferenceIdeal.Line.out_eq _).trans ?_)
    obtain ⟨e0, e1, e2, e3, e4, e5, e6, e7, e8, e9⟩ := hagree c
    show Cert.Stages.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]

end Cert.Proof

end
-- ==== Proof.lean ====
/-
  The five claims about the Fisher-vector pooling kernel and its reference.

  The program runs three kernels on the TensorCore between stretches of host operations: a product of the flattened
  input with the cluster matrix, a per-batch kernel that forms both Fisher-vector blocks and normalises them, and a
  product with the hidden weights accumulated block by block.  The frame of the program — it ends, nothing faults,
  the arguments are untouched — is proved once for any float interpretation and read at the word level and at the
  extended reals; the reference is a straight line of host operations.  The idealization rewrote nothing, so there is
  nothing to preserve.  On the extended reals the two programs compute the same stages in a row: the kernels' change
  of float format is the identity there, a blocked or batched product is the whole product (sums only regrouped and
  reordered), and the normalisations are the same operations on slabs; no finiteness of the inputs is needed.
-/
import proofs.«124837_j25666724561114_2_alg».proof.Defs
import proofs.«124837_j25666724561114_2_alg».proof.Proof.Gen.Kernel
import proofs.«124837_j25666724561114_2_alg».proof.Proof.Gen.KernelIdeal
import proofs.«124837_j25666724561114_2_alg».proof.Proof.Gen.ReferenceIdeal
import proofs.«124837_j25666724561114_2_alg».proof.Proof.Gen.Pre_finite_inputs
import proofs.«124837_j25666724561114_2_alg».proof.Proof.K_Run
import proofs.«124837_j25666724561114_2_alg».proof.Proof.KI_Run
import proofs.«124837_j25666724561114_2_alg».proof.Proof.RefRun
import proofs.«124837_j25666724561114_2_alg».proof.Proof.Algebraic
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Run.frame (F := Bits) m ρ
theorem frame_kernelIdeal : @Cert.frame_KernelIdeal Cert.KernelIdeal.Gen.facts Cert.Pre_finite_inputs.Gen.facts :=
  fun m ρ _ => Cert.KernelIdeal.Run.frame (F := Ideal) m ρ
theorem frame_reference : @Cert.frame_ReferenceIdeal Cert.ReferenceIdeal.Gen.facts Cert.Pre_finite_inputs.Gen.facts :=
  fun m ρ _ => Cert.ReferenceIdeal.Line.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
